-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S45x128 : Shape := ⟨2, ![45, 128]⟩
abbrev S_ : Shape := ⟨0, ![]⟩

class Facts : Prop where
  bcast_S_S45x128 : S_.BroadcastsInDim S45x128 (![] : Fin 0 → Fin S45x128.rank)
  reducesTo_S45x128_S_d0_1 : S45x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S45x128 .f32) : IVec S_ 1 :=
  let main_v0 : FVec F S45x128 .f32 := Host.absf main_arg1
  let main_cst : FVec F S_ .f32 := constant S_ .f32 0x7F800000#32
  let main_v1 : FVec F S45x128 .f32 := broadcastInDim S45x128 ![] bcast_S_S45x128 main_cst
  let main_v2 : IVec S45x128 1 := cmpf .olt main_v0 main_v1
  let main_c : IVec S_ 1 := constantI S_ 1 1#1
  let main_v3 : IVec S_ 1 := (fun x v => Host.reduce IntOp.andi x v reducesTo_S45x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 44#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S45x128 : Shape := ⟨2, ![45, 128]⟩
abbrev S32x200x128 : Shape := ⟨3, ![32, 200, 128]⟩
abbrev S819200x128 : Shape := ⟨2, ![819200, 128]⟩
abbrev S200x128 : Shape := ⟨2, ![200, 128]⟩
abbrev S128x128 : Shape := ⟨2, ![128, 128]⟩
abbrev S_ : Shape := ⟨0, ![]⟩
abbrev S1x200x128 : Shape := ⟨3, ![1, 200, 128]⟩
abbrev S1x128 : Shape := ⟨2, ![1, 128]⟩
abbrev S128 : Shape := ⟨1, ![128]⟩
abbrev S4096x200x128 : Shape := ⟨3, ![4096, 200, 128]⟩

abbrev nBuf : Table → Nat
  | .hbm => 5
  | .shared => 1
  | .local .scVector .vmem => 6
  | _ => 0

abbrev bufTy : (tb : Table) → Fin (nBuf tb) → BufTy
  | .hbm, ⟨0, _⟩ => ⟨S4096x200, .i32⟩
  | .hbm, ⟨1, _⟩ => ⟨S45x128, .f32⟩
  | .hbm, ⟨2, _⟩ => ⟨S32x200x128, .i32⟩
  | .hbm, ⟨3, _⟩ => ⟨S819200x128, .f32⟩
  | .hbm, ⟨4, _⟩ => ⟨S4096x200x128, .f32⟩
  | .shared, ⟨0, _⟩ => ⟨S45x128, .f32⟩
  | .local .scVector .vmem, ⟨0, _⟩ => ⟨S200x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev cc0_scratch3 : Ref sig .scVector := ⟨.vmem, 2, rfl⟩
abbrev cc0_scratch4 : Ref sig .scVector := ⟨.vmem, 3, rfl⟩
abbrev cc0_scratch5 : Ref sig .scVector := ⟨.vmem, 4, rfl⟩
abbrev cc0_scratch6 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r1 : BitVec 32 := 0#32
  let c0_i32_27_r1 : BitVec 32 := 0#32
  ![v1.toNat, 0, 0]
@[reducible] def k0_t1_loop : Scf.Loop 32 :=
  let c0_i32_13 : BitVec 32 := 0#32
  let c40_i32 : BitVec 32 := 40#32
  let v15 : BitVec 32 := Scalar.addi c0_i32_13 c40_i32
  let c1_i32_14 : BitVec 32 := 1#32
  ⟨c0_i32_13, v15, c1_i32_14⟩
def k0_off2 (k0_t1 : Fin k0_t1_loop.trips) (c0_i32_26 : BitVec 32) : Fin 2 → Nat :=
  let c5_i32 : BitVec 32 := 5#32
  let c0_i32_13 : BitVec 32 := 0#32
  let c1_i32_14 : BitVec 32 := 1#32
  let arg22 : BitVec 32 := Scf.iv c0_i32_13 c1_i32_14 k0_t1
  let v31 : BitVec 32 := Scalar.muli c5_i32 arg22
  let v32 : BitVec 32 := Scalar.addi v31 c0_i32_26
  let c0_i32_27 : BitVec 32 := 0#32
  ![v32.toNat, 0]
def k0_off3 (i : grid0.Coords) (k0_t1 : Fin k0_t1_loop.trips) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c5_i32 : BitVec 32 := 5#32
  let c0_i32_13 : BitVec 32 := 0#32
  let c1_i32_14 : BitVec 32 := 1#32
  let arg22 : BitVec 32 := Scf.iv c0_i32_13 c1_i32_14 k0_t1
  let v31 : BitVec 32 := Scalar.muli c5_i32 arg22
  let v32 : BitVec 32 := Scalar.addi v31 c0_i32_26
  let c128_i32 : BitVec 32 := 128#32
  let v36 : BitVec 32 := Scalar.muli v32 c128_i32
  let v37 : BitVec 32 := Scalar.addi v2 v36
  let c0_i32_30 : BitVec 32 := 0#32
  ![v37.toNat, 0]
def k0_cond2 (k0_t1 : Fin k0_t1_loop.trips) : BitVec 1 :=
  let c0_i32_13 : BitVec 32 := 0#32
  let c1_i32_14 : BitVec 32 := 1#32
  let arg22 : BitVec 32 := Scf.iv c0_i32_13 c1_i32_14 k0_t1
  let c0_i32_32 : BitVec 32 := 0#32
  let v40 : BitVec 1 := Scalar.cmpi .sgt arg22 c0_i32_32
  let v41 : BitVec 32 := Scalar.extui v40
  let c0_i32_33 : BitVec 32 := 0#32
  let v42 : BitVec 1 := Scalar.cmpi .ne v41 c0_i32_33
  v42

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c5_i32 : BitVec 32 := 5#32
  let c0_i32_13 : BitVec 32 := 0#32
  let c1_i32_14 : BitVec 32 := 1#32
  let arg22 : BitVec 32 := Scf.iv c0_i32_13 c1_i32_14 k0_t1
  let v31 : BitVec 32 := Scalar.muli c5_i32 arg22
  let c0_i32_26 : BitVec 32 := 0#32
  let v32 : BitVec 32 := Scalar.addi v31 c0_i32_26
  let c3_i32_79 : BitVec 32 := 3#32
  let v99 : BitVec 32 := Scalar.addi v32 c3_i32_79
  let c5_i32_80 : BitVec 32 := 5#32
  let v100 : BitVec 32 := Scalar.subi v99 c5_i32_80
  let c128_i32_81 : BitVec 32 := 128#32
  let v101 : BitVec 32 := Scalar.muli v100 c128_i32_81
  let v102 : BitVec 32 := Scalar.addi v2 v101
  let c0_i32_82 : BitVec 32 := 0#32
  ![v102.toNat, 0]
def k0_off5 (k0_t1 : Fin k0_t1_loop.trips) (c0_i32_26 : BitVec 32) : Fin 2 → Nat :=
  let c5_i32 : BitVec 32 := 5#32
  let c0_i32_13 : BitVec 32 := 0#32
  let c1_i32_14 : BitVec 32 := 1#32
  let arg22 : BitVec 32 := Scf.iv c0_i32_13 c1_i32_14 k0_t1
  let v31 : BitVec 32 := Scalar.muli c5_i32 arg22
  let v32 : BitVec 32 := Scalar.addi v31 c0_i32_26
  let c3_i32 : BitVec 32 := 3#32
  let v43 : BitVec 32 := Scalar.addi v32 c3_i32
  let c0_i32_34 : BitVec 32 := 0#32
  ![v43.toNat, 0]
def k0_cond3 (k0_t1 : Fin k0_t1_loop.trips) : BitVec 1 :=
  let c0_i32_13 : BitVec 32 := 0#32
  let c1_i32_14 : BitVec 32 := 1#32
  let arg22 : BitVec 32 := Scf.iv c0_i32_13 c1_i32_14 k0_t1
  let c0_i32_45 : BitVec 32 := 0#32
  let v56 : BitVec 1 := Scalar.cmpi .sgt arg22 c0_i32_45
  let v57 : BitVec 32 := Scalar.extui v56
  let c0_i32_46 : BitVec 32 := 0#32
  let v58 : BitVec 1 := Scalar.cmpi .ne v57 c0_i32_46
  v58

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c5_i32_37 : BitVec 32 := 5#32
  let c0_i32_13 : BitVec 32 := 0#32
  let c1_i32_14 : BitVec 32 := 1#32
  let arg22 : BitVec 32 := Scf.iv c0_i32_13 c1_i32_14 k0_t1
  let v47 : BitVec 32 := Scalar.muli c5_i32_37 arg22
  let c1_i32_38 : BitVec 32 := 1#32
  let v48 : BitVec 32 := Scalar.addi v47 c1_i32_38
  let c3_i32_79 : BitVec 32 := 3#32
  let v99 : BitVec 32 := Scalar.addi v48 c3_i32_79
  let c5_i32_80 : BitVec 32 := 5#32
  let v100 : BitVec 32 := Scalar.subi v99 c5_i32_80
  let c128_i32_81 : BitVec 32 := 128#32
  let v101 : BitVec 32 := Scalar.muli v100 c128_i32_81
  let v102 : BitVec 32 := Scalar.addi v2 v101
  let c0_i32_82 : BitVec 32 := 0#32
  ![v102.toNat, 0]
def k0_cond4 (k0_t1 : Fin k0_t1_loop.trips) : BitVec 1 :=
  let c0_i32_13 : BitVec 32 := 0#32
  let c1_i32_14 : BitVec 32 := 1#32
  let arg22 : BitVec 32 := Scf.iv c0_i32_13 c1_i32_14 k0_t1
  let c39_i32 : BitVec 32 := 39#32
  let v72 : BitVec 1 := Scalar.cmpi .slt arg22 c39_i32
  let v73 : BitVec 32 := Scalar.extui v72
  let c0_i32_59 : BitVec 32 := 0#32
  let v74 : BitVec 1 := Scalar.cmpi .ne v73 c0_i32_59
  v74

def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c5_i32_51 : BitVec 32 := 5#32
  let c0_i32_13 : BitVec 32 := 0#32
  let c1_i32_14 : BitVec 32 := 1#32
  let arg22 : BitVec 32 := Scf.iv c0_i32_13 c1_i32_14 k0_t1
  let v63 : BitVec 32 := Scalar.muli c5_i32_51 arg22
  let c2_i32_52 : BitVec 32 := 2#32
  let v64 : BitVec 32 := Scalar.addi v63 c2_i32_52
  let c3_i32_79 : BitVec 32 := 3#32
  let v99 : BitVec 32 := Scalar.addi v64 c3_i32_79
  let c5_i32_80 : BitVec 32 := 5#32
  let v100 : BitVec 32 := Scalar.subi v99 c5_i32_80
  let c128_i32_81 : BitVec 32 := 128#32
  let v101 : BitVec 32 := Scalar.muli v100 c128_i32_81
  let v102 : BitVec 32 := Scalar.addi v2 v101
  let c0_i32_82 : BitVec 32 := 0#32
  ![v102.toNat, 0]
def k0_off8 (k0_t1 : Fin k0_t1_loop.trips) : Fin 2 → Nat :=
  let c5_i32_51 : BitVec 32 := 5#32
  let c0_i32_13 : BitVec 32 := 0#32
  let c1_i32_14 : BitVec 32 := 1#32
  let arg22 : BitVec 32 := Scf.iv c0_i32_13 c1_i32_14 k0_t1
  let v63 : BitVec 32 := Scalar.muli c5_i32_51 arg22
  let c2_i32_52 : BitVec 32 := 2#32
  let v64 : BitVec 32 := Scalar.addi v63 c2_i32_52
  let c3_i32_84 : BitVec 32 := 3#32
  let v105 : BitVec 32 := Scalar.addi v64 c3_i32_84
  let c0_i32_85 : BitVec 32 := 0#32
  ![v105.toNat, 0]
def k0_cond5 (k0_t1 : Fin k0_t1_loop.trips) : BitVec 1 :=
  let c0_i32_13 : BitVec 32 := 0#32
  let c1_i32_14 : BitVec 32 := 1#32
  let arg22 : BitVec 32 := Scf.iv c0_i32_13 c1_i32_14 k0_t1
  let c39_i32_68 : BitVec 32 := 39#32
  let v84 : BitVec 1 := Scalar.cmpi .slt arg22 c39_i32_68
  let v85 : BitVec 32 := Scalar.extui v84
  let c0_i32_69 : BitVec 32 := 0#32
  let v86 : BitVec 1 := Scalar.cmpi .ne v85 c0_i32_69
  v86

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c5_i32_60 : BitVec 32 := 5#32
  let c0_i32_13 : BitVec 32 := 0#32
  let c1_i32_14 : BitVec 32 := 1#32
  let arg22 : BitVec 32 := Scf.iv c0_i32_13 c1_i32_14 k0_t1
  let v75 : BitVec 32 := Scalar.muli c5_i32_60 arg22
  let c3_i32_61 : BitVec 32 := 3#32
  let v76 : BitVec 32 := Scalar.addi v75 c3_i32_61
  let c3_i32_79 : BitVec 32 := 3#32
  let v99 : BitVec 32 := Scalar.addi v76 c3_i32_79
  let c5_i32_80 : BitVec 32 := 5#32
  let v100 : BitVec 32 := Scalar.subi v99 c5_i32_80
  let c128_i32_81 : BitVec 32 := 128#32
  let v101 : BitVec 32 := Scalar.muli v100 c128_i32_81
  let v102 : BitVec 32 := Scalar.addi v2 v101
  let c0_i32_82 : BitVec 32 := 0#32
  ![v102.toNat, 0]
def k0_off10 (k0_t1 : Fin k0_t1_loop.trips) : Fin 2 → Nat :=
  let c5_i32_60 : BitVec 32 := 5#32
  let c0_i32_13 : BitVec 32 := 0#32
  let c1_i32_14 : BitVec 32 := 1#32
  let arg22 : BitVec 32 := Scf.iv c0_i32_13 c1_i32_14 k0_t1
  let v75 : BitVec 32 := Scalar.muli c5_i32_60 arg22
  let c3_i32_61 : BitVec 32 := 3#32
  let v76 : BitVec 32 := Scalar.addi v75 c3_i32_61
  let c3_i32_84 : BitVec 32 := 3#32
  let v105 : BitVec 32 := Scalar.addi v76 c3_i32_84
  let c0_i32_85 : BitVec 32 := 0#32
  ![v105.toNat, 0]
def k0_cond6 (k0_t1 : Fin k0_t1_loop.trips) : BitVec 1 :=
  let c0_i32_13 : BitVec 32 := 0#32
  let c1_i32_14 : BitVec 32 := 1#32
  let arg22 : BitVec 32 := Scf.iv c0_i32_13 c1_i32_14 k0_t1
  let c39_i32_77 : BitVec 32 := 39#32
  let v96 : BitVec 1 := Scalar.cmpi .slt arg22 c39_i32_77
  let v97 : BitVec 32 := Scalar.extui v96
  let c0_i32_78 : BitVec 32 := 0#32
  let v98 : BitVec 1 := Scalar.cmpi .ne v97 c0_i32_78
  v98

def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c5_i32_70 : BitVec 32 := 5#32
  let c0_i32_13 : BitVec 32 := 0#32
  let c1_i32_14 : BitVec 32 := 1#32
  let arg22 : BitVec 32 := Scf.iv c0_i32_13 c1_i32_14 k0_t1
  let v87 : BitVec 32 := Scalar.muli c5_i32_70 arg22
  let c4_i32 : BitVec 32 := 4#32
  let v88 : BitVec 32 := Scalar.addi v87 c4_i32
  let c3_i32_79 : BitVec 32 := 3#32
  let v99 : BitVec 32 := Scalar.addi v88 c3_i32_79
  let c5_i32_80 : BitVec 32 := 5#32
  let v100 : BitVec 32 := Scalar.subi v99 c5_i32_80
  let c128_i32_81 : BitVec 32 := 128#32
  let v101 : BitVec 32 := Scalar.muli v100 c128_i32_81
  let v102 : BitVec 32 := Scalar.addi v2 v101
  let c0_i32_82 : BitVec 32 := 0#32
  ![v102.toNat, 0]
def k0_off12 (k0_t1 : Fin k0_t1_loop.trips) : Fin 2 → Nat :=
  let c5_i32_70 : BitVec 32 := 5#32
  let c0_i32_13 : BitVec 32 := 0#32
  let c1_i32_14 : BitVec 32 := 1#32
  let arg22 : BitVec 32 := Scf.iv c0_i32_13 c1_i32_14 k0_t1
  let v87 : BitVec 32 := Scalar.muli c5_i32_70 arg22
  let c4_i32 : BitVec 32 := 4#32
  let v88 : BitVec 32 := Scalar.addi v87 c4_i32
  let c3_i32_84 : BitVec 32 := 3#32
  let v105 : BitVec 32 := Scalar.addi v88 c3_i32_84
  let c0_i32_85 : BitVec 32 := 0#32
  ![v105.toNat, 0]
def k0_off13 (i : grid0.Coords) (c24960_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v16 : BitVec 32 := Scalar.addi v2 c24960_i32
  let c0_i32_16 : BitVec 32 := 0#32
  ![v16.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S32x200x128 : S4096x200.ShapeCasts S32x200x128
  squeezes_S1x200x128_S200x128 : S1x200x128.Squeezes S200x128
  inb_S200x128_S1x128_0_0 : ∀ a, (![0, 0] : Fin 2 → Nat) a + S1x128.size a ≤ S200x128.size a
  squeezes_S1x128_S128 : S1x128.Squeezes S128
  inb_S45x128_S45x128_0_0 : ∀ a, (![0, 0] : Fin 2 → Nat) a + S45x128.size a ≤ S45x128.size a
  gathers_S45x128_S128x128 : S45x128.Gathers 0 S128x128
  inb_S200x128_S1x128_1_0 : ∀ a, (![1, 0] : Fin 2 → Nat) a + S1x128.size a ≤ S200x128.size a
  inb_S200x128_S1x128_2_0 : ∀ a, (![2, 0] : Fin 2 → Nat) a + S1x128.size a ≤ S200x128.size a
  shapeCasts_S819200x128_S4096x200x128 : S819200x128.ShapeCasts S4096x200x128
  hcc0_scratch7 : 0 + S_.numel ≤ 12
  hcc0_scratch8 : 1 + S_.numel ≤ 12
  hcc0_scratch9 : 2 + S_.numel ≤ 12
  hcc0_scratch10 : 3 + S_.numel ≤ 12
  hcc0_scratch11 : 4 + S_.numel ≤ 12
  hcc0_scratch12 : 5 + S_.numel ≤ 12
  hcc0_scratch13 : 6 + S_.numel ≤ 12
  hcc0_scratch14 : 7 + S_.numel ≤ 12
  hcc0_scratch15 : 8 + S_.numel ≤ 12
  hcc0_scratch16 : 9 + S_.numel ≤ 12
  hcc0_scoped0 : 10 + S_.numel ≤ 12
  hcc0_scoped1 : 11 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x200x128.size a ≤ S32x200x128.size a
  k0_t1_ok : k0_t1_loop.OK
  k0_off2_inb : ∀ k0_t1 : Fin k0_t1_loop.trips, ∀ (r : Fin 5), ∀ a, (k0_off2 k0_t1 (BitVec.ofNat 32 r.val)) a + S1x128.size a ≤ S200x128.size a
  k0_off3_inb : ∀ (i : grid0.Coords) (k0_t1 : Fin k0_t1_loop.trips), ∀ (r : Fin 5), ∀ a, (k0_off3 i k0_t1 (BitVec.ofNat 32 r.val)) a + S128x128.size a ≤ S819200x128.size a
  k0_off4_inb : ∀ (i : grid0.Coords) (k0_t1 : Fin k0_t1_loop.trips), ∀ (k0_h2 : k0_cond2 k0_t1 = 1#1), ∀ a, (k0_off4 i k0_t1) a + S128x128.size a ≤ S819200x128.size a
  k0_off5_inb : ∀ k0_t1 : Fin k0_t1_loop.trips, ∀ (r : Fin 2), ∀ a, (k0_off5 k0_t1 (BitVec.ofNat 32 r.val)) a + S1x128.size a ≤ S200x128.size a
  k0_off6_inb : ∀ (i : grid0.Coords) (k0_t1 : Fin k0_t1_loop.trips), ∀ (k0_h3 : k0_cond3 k0_t1 = 1#1), ∀ a, (k0_off6 i k0_t1) a + S128x128.size a ≤ S819200x128.size a
  k0_off7_inb : ∀ (i : grid0.Coords) (k0_t1 : Fin k0_t1_loop.trips), ∀ (k0_h4 : k0_cond4 k0_t1 = 1#1), ∀ a, (k0_off7 i k0_t1) a + S128x128.size a ≤ S819200x128.size a
  k0_off8_inb : ∀ k0_t1 : Fin k0_t1_loop.trips, ∀ (k0_h4 : k0_cond4 k0_t1 = 1#1), ∀ a, (k0_off8 k0_t1) a + S1x128.size a ≤ S200x128.size a
  k0_off9_inb : ∀ (i : grid0.Coords) (k0_t1 : Fin k0_t1_loop.trips), ∀ (k0_h5 : k0_cond5 k0_t1 = 1#1), ∀ a, (k0_off9 i k0_t1) a + S128x128.size a ≤ S819200x128.size a
  k0_off10_inb : ∀ k0_t1 : Fin k0_t1_loop.trips, ∀ (k0_h5 : k0_cond5 k0_t1 = 1#1), ∀ a, (k0_off10 k0_t1) a + S1x128.size a ≤ S200x128.size a
  k0_off11_inb : ∀ (i : grid0.Coords) (k0_t1 : Fin k0_t1_loop.trips), ∀ (k0_h6 : k0_cond6 k0_t1 = 1#1), ∀ a, (k0_off11 i k0_t1) a + S128x128.size a ≤ S819200x128.size a
  k0_off12_inb : ∀ k0_t1 : Fin k0_t1_loop.trips, ∀ (k0_h6 : k0_cond6 k0_t1 = 1#1), ∀ a, (k0_off12 k0_t1) a + S1x128.size a ≤ S200x128.size a
  k0_off13_inb : ∀ i : grid0.Coords, ∀ (r : Fin 5), ∀ a, (k0_off13 i (BitVec.ofNat 32 (24960 + 128 * r.val))) a + S128x128.size a ≤ S819200x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scoped0 : DmaSems sig S_ := SemArray.consecutive 10 S_ hcc0_scoped0
abbrev cc0_scoped1 : DmaSems sig S_ := SemArray.consecutive 11 S_ hcc0_scoped1

class Facts : Prop extends Facts₀ where

variable [Facts]
-- ==== ReferenceIdeal.lean ====
abbrev S4096x200 : Shape := ⟨2, ![4096, 200]⟩
abbrev S45x128 : Shape := ⟨2, ![45, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S45x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S45x128_S4096x200x1_S4096x200x128_2_0_n_n_0_2_1128_wf : GatherDims.WF S45x128 S4096x200x1 S4096x200x128 [2] [0] [] [0] [] 2 ![1, 128]

variable [Facts₀]

def gather_S45x128_S4096x200x1_S4096x200x128_2_0_n_n_0_2_1128 : GatherDims S45x128 S4096x200x1 S4096x200x128 where
  offsetDims := [2]
  collapsedSliceDims := [0]
  operandBatchingDims := []
  startIndicesBatchingDims := []
  startIndexMap := [0]
  indexVectorDim := 2
  sliceSizes := ![1, 128]
  wf := gather_S45x128_S4096x200x1_S4096x200x128_2_0_n_n_0_2_1128_wf

class Facts : Prop extends Facts₀ where

variable [Facts]
-- ==== Proof.Spec.lean ====
/-
  The lookup this certificate is about, as pure functions of the two argument arrays.

  The arguments are an index array a : [4096, 200] of 32-bit words and a table t : [45, 128]. The result
  R : [4096, 200, 128] holds, at (p, c, q), column q of the table row that the word a[p, c] names. The
  kernel works on the same data laid out flat: the indices as [32, 200, 128] (32 workers, 200 chunks of
  128 words each) and the result as 819200 rows of 128; both are row-major rearrangements, so position
  b = 25600 w + 128 i + r of the flat order is word (w, i, r) of the one and row b of the other.
-/
import Idealize.ShloMosaic.PureOps
import Idealize.ShloMosaic.Lib.ValueIdx

namespace Cert.Proof.EmbSpec

open Idealize.ShloMosaic Idealize.ShloMosaic.ValueIdx

abbrev SA : Shape := ⟨2, ![4096, 200]⟩
abbrev ST : Shape := ⟨2, ![45, 128]⟩
abbrev SI : Shape := ⟨3, ![32, 200, 128]⟩
abbrev SO : Shape := ⟨2, ![819200, 128]⟩
abbrev SR : Shape := ⟨3, ![4096, 200, 128]⟩

/-- The table row a 32-bit index word names (a word below 45 names the row of that number). -/
def rowIx (w : BitVec 32) : Fin 45 := ⟨w.toNat % 45, Nat.mod_lt _ (by decide)⟩

theorem rowIx_of_lt {w : BitVec 32} (h : w.toNat < 45) : rowIx w = ⟨w.toNat, h⟩ := Fin.ext (Nat.mod_eq_of_lt h)

/-- The lookup: entry (p, c, q) of the result is column q of the table row that index (p, c) names. -/
def lookup {α : Type} (a : SA.Idx → BitVec 32) (t : ST.Idx → α) : SR.Idx → α :=
  fun j => t (ix2 (rowIx (a (ix2 (j 0) (j 1)))) (j 2))

/-- Position b of the flat order as an index of the [32, 200, 128] arrangement: worker, chunk, word. -/
def i3of (b : Fin 819200) : SI.Idx :=
  ix3 ⟨b.val / 25600, by omega⟩ ⟨b.val % 25600 / 128, by omega⟩ ⟨b.val % 128, by omega⟩

/-- The kernel's output rows: row b is the table row that the b-th index word names. -/
def rows {α : Type} (i3 : SI.Idx → BitVec 32) (t : ST.Idx → α) : SO.Idx → α :=
  fun y => t (ix2 (rowIx (i3 (i3of (y 0)))) (y 1))

end Cert.Proof.EmbSpec
-- ==== Proof.ICommon.lean ====
/-
  What the parts of the kernel's frame share: the program as the launch theorem sees it, the resource algebra
  (the handshakes' rounds, the barrier cells' rounds, the transfers' counters), the arrays and their pieces,
  the barrier cells' schedule, and what each handshake carries.

  The data. Worker w = 2 s + c (tile s of SparseCore c) owns slab w of the index array [32, 200, 128] and
  rows 25600 w … 25600 w + 25599 of the output [819200, 128], held as its 200 chunks of 128 rows (the units the
  kernel stores). Tile 0 of each SparseCore copies the table into
  that SparseCore's shared memory; all sixteen tiles then meet at the barrier and every tile gathers table rows
  out of the shared copy. So the barrier carries a READ SHARE of the shared copy, at the table's contents, from
  tile 0 to each tile: tile 0 cuts the full share into sixteen tokens and a remainder, hands token j over in
  tile j's round, and keeps the remainder. Each tile returns its token (tile 0 the remainder too) when its task
  ends, and the sequencer gets the shared memory back whole.
-/
import proofs.«203315_g78847009620241_cont_9to1c4b_359_24_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203315_g78847009620241_cont_9to1c4b_359_24_alg».proof.Proof.Gen.KernelIdeal
import proofs.«203315_g78847009620241_cont_9to1c4b_359_24_alg».proof.Proof.Gen.KernelIdeal.Skeleton
import proofs.«203315_g78847009620241_cont_9to1c4b_359_24_alg».proof.Proof.Spec

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Cert.Proof.EmbSpec (rowIx rows lookup i3of)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their pieces -/

variable (m : (ℓ : Loc nD τ sig) → Buf (Elt F) ℓ) (ρ : Dev nD → PrngReg)

/-- The index argument [4096, 200], the table [45, 128], the indices as @main reshapes them [32, 200, 128],
    the kernel's output [819200, 128], and @main's result [4096, 200, 128]. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The worker number of tile `s` of SparseCore `c`. -/
def wid (c : Fin 2) (s : Fin 16) : Fin 32 := ⟨2 * s.val + c.val, by omega⟩

theorem idiv : 32 ∣ S32x200x128.size 0 := ⟨1, rfl⟩
theorem odiv : 6400 ∣ S819200x128.size 0 := ⟨128, rfl⟩
/-- Worker `w`'s slab of the index array. -/
abbrev islab (w : Fin 32) : Rect S32x200x128 := Rect.part (s := S32x200x128) (a₀ := 0) idiv w
abbrev iSet (w : Fin 32) : Finset S32x200x128.Idx :=
  ((Memref.whole main_v0_scv : Memref sig Kind.scVector Space.hbm S32x200x128 EltTy.i32).view.slice (islab w)).set
/-- The output's 6400 chunks of 128 rows: chunk `k` is rows 128 k … 128 k + 127; worker `w`'s chunk `i` is number 200 w + i. -/
abbrev ochunk (k : Fin 6400) : Rect S819200x128 := Rect.part (s := S819200x128) (a₀ := 0) odiv k
abbrev oCh (k : Fin 6400) : Finset S819200x128.Idx :=
  ((Memref.whole main_v1_scv : Memref sig Kind.scVector Space.hbm S819200x128 EltTy.f32).view.slice (ochunk k)).set
def chunkNo (w : Fin 32) (i : Fin 200) : Fin 6400 := ⟨200 * w.val + i.val, by omega⟩

/-- The index words as @main's reshape leaves them: the argument's words in the [32, 200, 128] arrangement. -/
def I3 (d : Dev nD) : Buf (Elt F) (iLoc d) :=
  shapeCast S32x200x128 (m (aLoc d) : S4096x200.Idx → BitVec 32) (show S4096x200.ShapeCasts S32x200x128 by decide)

/-- The table's contents, as contents of a SparseCore's shared copy. -/
def tabS (d : Dev nD) (c : Fin τ.nSC) : Buf (Elt F) (shLoc d c) := (m (tLoc d) : S45x128.Idx → Elt F .f32)

/-- What the kernel leaves in its output: row b the table row that the b-th index word names. -/
def Ok (d : Dev nD) : Buf (Elt F) (oLoc d) :=
  rows (I3 m d : S32x200x128.Idx → BitVec 32) (m (tLoc d) : S45x128.Idx → Elt F .f32)

/-- What @main's last reshape makes of the kernel's output: the looked-up rows in the [4096, 200, 128] arrangement. -/
def Rres (d : Dev nD) : Buf (Elt F) (rLoc d) :=
  shapeCast S4096x200x128 (Ok m d : S819200x128.Idx → Elt F .f32) (show S819200x128.ShapeCasts S4096x200x128 by decide)

/-- The run's post: the result at the looked-up rows, the two arguments unchanged. -/
def QC : PUnit × MemSt nD τ sig (Elt F) → Prop := fun r => ∀ c : Dev nD,
  r.2.mem (rLoc c) = Rres m c ∧ r.2.mem (aLoc c) = m (aLoc c) ∧ r.2.mem (tLoc c) = m (tLoc c)

/-- What the proof asks of the launch memory: every index word names a table row. The certificate's
    precondition says so. -/
def PreOK : Prop := ∀ (d : Dev nD) (j : S4096x200.Idx), (m (aLoc d) j : BitVec 32).toNat < 45

theorem I3_lt (hpre : PreOK m) (d : Dev nD) (j : S32x200x128.Idx) : (I3 m d j : BitVec 32).toNat < 45 := hpre d _

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read token of SparseCore `c`'s shared copy, at the table's contents. -/
abbrev shTokPts (d : Dev nD) (c : Fin τ.nSC) (j : Fin 16) : sProp 𝕄 := shLoc d c ↦{shareTok fullShare 16 j} tabS m d c
/-- What is left of the full share after the sixteen tokens: tile 0 keeps it. -/
abbrev shRestPts (d : Dev nD) (c : Fin τ.nSC) : sProp 𝕄 := shLoc d c ↦{shareDrop fullShare 16} tabS m d c

/-- What a duty in tile `j`'s round hands over: tile 0's, tile `j`'s read token of the shared copy; the others', nothing. -/
def bPay (g : GSem nD τ sig) (n : ℕ) : sProp 𝕄 :=
  match g with
  | ((d, .scVector c j), _) => if n = 0 then shTokPts m d c (Fin.cast nSub_eq j) else iprop(emp)
  | _ => iprop(emp)

/-- The barrier cells' schedule: one round on each, of one unit duty per tile of the SparseCore (named by its number),
    tile 0's handing over the round's owner's read token. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile `(c, i)` owe for the barrier: a unit on every tile's cell of its SparseCore, at the call's
    index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- SparseCore `c`'s half of the table's full share: its tile 0 reads the table once. -/
def tq (c : Fin 2) : PosShare TreeShare := if c.val = 0 then fullShare.left else fullShare.right

abbrev tabPts (d : Dev nD) (c : Fin 2) : sProp 𝕄 := tLoc d ↦{tq c} m (tLoc d)
abbrev iSlabPts (d : Dev nD) (w : Fin 32) : sProp 𝕄 := iLoc d ↦[iSet w]{fullShare} I3 m d
/-- Worker `w`'s 200 chunks of the output, each held by itself, all at the contents `f`. -/
abbrev oSlabPts (d : Dev nD) (w : Fin 32) (f : Buf (Elt F) (oLoc d)) : sProp 𝕄 :=
  bigSep Finset.univ fun i : Fin 200 => oLoc d ↦[oCh (chunkNo w i)]{fullShare} f

/-- What tile `s` of SparseCore `c` is handed at `go`: its slab of the indices and its rows of the output (at the
    launch's contents); tile 0 also its SparseCore's half share of the table and the shared memory whole. -/
def goRes (d : Dev nD) (c : Fin 2) (s : Fin 16) : sProp 𝕄 :=
  iprop(iSlabPts m d (wid c s) ∗ oSlabPts d (wid c s) (m (oLoc d))
    ∗ (if s.val = 0 then iprop(tabPts m d c ∗ ∃ f, shLoc d (Fin.cast nSC_eq.symm c) ↦{fullShare} f) else iprop(emp)))
/-- What it hands back at `taskDone`: the slab, its rows of the output at the looked-up rows, its read token of the
    shared copy; tile 0 also the half share of the table and the rest of the shared copy's share. -/
def tdRes (d : Dev nD) (c : Fin 2) (s : Fin 16) : sProp 𝕄 :=
  iprop(iSlabPts m d (wid c s) ∗ oSlabPts d (wid c s) (Ok m d) ∗ shTokPts m d (Fin.cast nSC_eq.symm c) s
    ∗ (if s.val = 0 then iprop(tabPts m d c ∗ shRestPts m d (Fin.cast nSC_eq.symm c)) else iprop(emp)))

/-- The one call takes, per SparseCore, its half share of the table and its sixteen workers' slabs and rows; each task
    is handed its own and brings them back, the rows looked up; each task's proof consumes its barrier kit; each tile
    owes its arrivals. -/
def P : (K (F := F)).Pay (nD := nD) (Val := Elt F) (Name := ℕ) (U := UU) where
  st := fun q d c => match q with
    | 0 => iprop(tabPts m d (Fin.cast nCore_zero c)
        ∗ bigSep Finset.univ fun s : Fin 16 => iprop(iSlabPts m d (wid (Fin.cast nCore_zero c) s) ∗ oSlabPts d (wid (Fin.cast nCore_zero c) s) (m (oLoc d))))
  dn := fun q d c => match q with
    | 0 => iprop(tabPts m d (Fin.cast nCore_zero c)
        ∗ bigSep Finset.univ fun s : Fin 16 => iprop(iSlabPts m d (wid (Fin.cast nCore_zero c) s) ∗ oSlabPts d (wid (Fin.cast nCore_zero c) s) (Ok m d)))
  go := fun q d c i => match q with | 0 => goRes m d (Fin.cast nCore_zero c) (Fin.cast nSub_zero i)
  td := fun q d c i => match q with | 0 => tdRes m d (Fin.cast nCore_zero c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P goRes; dsimp only; split <;> infer_instance
  td q d c i := match q with
    | 0 => by unfold P tdRes; dsimp only; split <;> infer_instance

end Cert.Proof.EmbI

end
-- ==== Proof.SpecBridge.lean ====
/-
  The two layouts agree. The kernel writes row b of the flat output from the b-th index word of the
  [32, 200, 128] arrangement; the result is that output read as [4096, 200, 128]. Both rearrangements
  are row-major, so entry (p, c, q) of the result is entry q of flat row b = 200 p + c, whose index word
  sits at (b / 25600, b % 25600 / 128, b % 128), which is position b again, that is word (p, c) of the
  index argument. Hence the reshaped rows are the lookup.
-/
import proofs.«203315_g78847009620241_cont_9to1c4b_359_24_alg».proof.Proof.Spec
import Idealize.ShloMosaic.Lib.Pipeline.Value

namespace Cert.Proof.EmbSpec

open Idealize.ShloMosaic Idealize.ShloMosaic.ValueIdx Idealize.ShloMosaic.Pipeline

/-- The row-major position of `i3of b` is `b`. -/
theorem rowMajor_i3of (b : Fin 819200) : (SI.rowMajor (i3of b)).val = b.val := by
  rw [Shape.rowMajor_val_three]
  show ((b.val / 25600) * 200 + b.val % 25600 / 128) * 128 + b.val % 128 = b.val
  omega

/-- The index words in the [32, 200, 128] arrangement, read at flat position 200 p + c, are word (p, c). -/
theorem i3_at (a : SA.Idx → BitVec 32) (h1 : SA.ShapeCasts SI) (p : Fin 4096) (c : Fin 200) (hb : p.val * 200 + c.val < 819200) :
    shapeCast SI a h1 (i3of ⟨p.val * 200 + c.val, hb⟩) = a (ix2 p c) := by
  refine shapeCast_apply a h1 _ (ix2 p c) ?_
  rw [rowMajor_i3of, Shape.rowMajor_val_two]
  rfl

/-- The kernel's rows, read as [4096, 200, 128], are the lookup. -/
theorem rows_reshaped {α : Type} (a : SA.Idx → BitVec 32) (t : ST.Idx → α) (h1 : SA.ShapeCasts SI) (h2 : SO.ShapeCasts SR) :
    shapeCast SR (rows (shapeCast SI a h1) t) h2 = lookup a t := by
  funext j
  obtain ⟨p, c, q, rfl⟩ : ∃ (p : Fin 4096) (c : Fin 200) (q : Fin 128), j = ix3 p c q := ⟨j 0, j 1, j 2, eq_ix3 j⟩
  have hb : p.val * 200 + c.val < 819200 := by have := p.isLt; have := c.isLt; omega
  rw [shapeCast_apply (rows (shapeCast SI a h1) t) h2 (ix3 p c q) (ix2 (⟨p.val * 200 + c.val, hb⟩ : Fin 819200) q)
    (by rw [Shape.rowMajor_val_two, Shape.rowMajor_val_three]; rfl)]
  show t (ix2 (rowIx (shapeCast SI a h1 (i3of ⟨p.val * 200 + c.val, hb⟩))) q) = t (ix2 (rowIx (a (ix2 p c))) q)
  rw [i3_at a h1 p c hb]

end Cert.Proof.EmbSpec
-- ==== Proof.Pre.lean ====
/-
  The integer half of the precondition, read back.

  The precondition is printed as one boolean: the conjunction of "every table entry is finite" and
  "every index word w satisfies 0 <= w and w <= 44 as a signed 32-bit number", each a reduction by
  "and" over a whole array. When that boolean is 1, both reductions are 1, so each compared element
  is 1; a signed word between 0 and 44 has its top bit clear, so its unsigned reading is the same
  number and lies below 45. The float half plays no part, so the statement holds at every float
  instance.
-/
import proofs.«203315_g78847009620241_cont_9to1c4b_359_24_alg».proof.Pre_input_domain
import proofs.«203315_g78847009620241_cont_9to1c4b_359_24_alg».proof.Proof.Gen.Pre_input_domain
import Idealize.ShloMosaic.Lib.ReduceAll
import Idealize.ShloMosaic.Lib.ValueIdx

namespace Cert.Proof.EmbPre

open Idealize.ShloMosaic

/-- The rank-0 shape has exactly one index. -/
instance subsingleton_scalar_idx : Subsingleton Cert.Pre_input_domain.S_.Idx :=
  ⟨fun a b => funext fun d => d.elim0⟩

/-- A 32-bit word that reads, signed, between 0 and 44 reads the same unsigned: it is below 45. -/
theorem toNat_lt_of_signed_range {w : BitVec 32} (h0 : (0#32 : BitVec 32).toInt ≤ w.toInt)
    (h1 : w.toInt ≤ (44#32 : BitVec 32).toInt) : w.toNat < 45 := by
  have e0 : (0#32 : BitVec 32).toInt = 0 := by decide
  have e1 : (44#32 : BitVec 32).toInt = 44 := by decide
  rw [e0] at h0
  rw [e1] at h1
  have hw := w.isLt
  rw [BitVec.toInt_eq_toNat_cond] at h0 h1
  split at h0 <;> omega

/-- Under the precondition every index word names a table row: it is below 45. -/
theorem idx_lt {F : FTy → Type} [FloatOps F] [Cert.Pre_input_domain.Facts]
    (a : IVec Cert.Pre_input_domain.S4096x200 32) (t : FVec F Cert.Pre_input_domain.S45x128 .f32)
    (h : Cert.Pre_input_domain.fn (F := F) a t = fun _ => 1#1) : ∀ j, (a j).toNat < 45 := by
  intro j
  have h0 := congrFun h ValueIdx.ix0
  dsimp only [Cert.Pre_input_domain.fn] at h0
  obtain ⟨-, h9⟩ := IntOp.andi_eq_one.1 h0
  have h8 := Host.reduce_andi_all _ _ _ _ _ h9 j
  obtain ⟨h5, h7⟩ := IntOp.andi_eq_one.1 h8
  exact toNat_lt_of_signed_range (IntOp.cmpi_sge.1 h5) (IntOp.cmpi_sle.1 h7)

end Cert.Proof.EmbPre
-- ==== Proof.IValue.lean ====
/-
  The kernel's result is the lookup, and the certificate's precondition gives what the body asks of the
  index words. The first is the layout bridge (the flat rows read as [4096, 200, 128]); the second reads
  "0 ≤ a ≤ 44 as signed words" as "the word, unsigned, is below 45".
-/
import proofs.«203315_g78847009620241_cont_9to1c4b_359_24_alg».proof.Proof.ICommon
import proofs.«203315_g78847009620241_cont_9to1c4b_359_24_alg».proof.Proof.SpecBridge
import proofs.«203315_g78847009620241_cont_9to1c4b_359_24_alg».proof.Proof.Pre

noncomputable section

namespace Cert.Proof.EmbI

open Cert.KernelIdeal Cert.KernelIdeal.Gen
open Idealize.ShloMosaic Idealize.SL.Sem
open Cert.Proof.EmbSpec (lookup rows_reshaped)

variable {F : FTy → Type}
variable (m : (ℓ : Loc nD τ sig) → Buf (Elt F) ℓ)

/-- What @main's last reshape leaves is the lookup of the two arguments. -/
theorem Rres_eq (d : Dev nD) :
    (Rres m d : S4096x200x128.Idx → Elt F .f32) = lookup (m (aLoc d) : S4096x200.Idx → BitVec 32) (m (tLoc d) : S45x128.Idx → Elt F .f32) := by
  unfold Rres Ok I3
  exact rows_reshaped _ _ _ _

/-- The certificate's precondition, on every device, says every index word names a table row. -/
theorem preOK_of_pre [FloatOps F] [Cert.Pre_input_domain.Facts]
    (h : ∀ c : Dev nD, Cert.Pre_input_domain.fn (F := F) (m (aLoc c)) (m (tLoc c)) = fun _ => 1#1) : PreOK m :=
  fun d j => Cert.Proof.EmbPre.idx_lt _ _ (h d) j

end Cert.Proof.EmbI

end
-- ==== Proof.KCommon.lean ====
/-
  What the parts of the kernel's frame share: the program as the launch theorem sees it, the resource algebra
  (the handshakes' rounds, the barrier cells' rounds, the transfers' counters), the arrays and their pieces,
  the barrier cells' schedule, and what each handshake carries.

  The data. Worker w = 2 s + c (tile s of SparseCore c) owns slab w of the index array [32, 200, 128] and
  rows 25600 w … 25600 w + 25599 of the output [819200, 128], held as its 200 chunks of 128 rows (the units the
  kernel stores). Tile 0 of each SparseCore copies the table into
  that SparseCore's shared memory; all sixteen tiles then meet at the barrier and every tile gathers table rows
  out of the shared copy. So the barrier carries a READ SHARE of the shared copy, at the table's contents, from
  tile 0 to each tile: tile 0 cuts the full share into sixteen tokens and a remainder, hands token j over in
  tile j's round, and keeps the remainder. Each tile returns its token (tile 0 the remainder too) when its task
  ends, and the sequencer gets the shared memory back whole.
-/
import proofs.«203315_g78847009620241_cont_9to1c4b_359_24_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«203315_g78847009620241_cont_9to1c4b_359_24_alg».proof.Proof.Gen.Kernel
import proofs.«203315_g78847009620241_cont_9to1c4b_359_24_alg».proof.Proof.Gen.Kernel.Skeleton
import proofs.«203315_g78847009620241_cont_9to1c4b_359_24_alg».proof.Proof.Spec

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Cert.Proof.EmbSpec (rowIx rows lookup i3of)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and their pieces -/

variable (m : (ℓ : Loc nD τ sig) → Buf (Elt F) ℓ) (ρ : Dev nD → PrngReg)

/-- The index argument [4096, 200], the table [45, 128], the indices as @main reshapes them [32, 200, 128],
    the kernel's output [819200, 128], and @main's result [4096, 200, 128]. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- SparseCore `c`'s shared copy of the table, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The worker number of tile `s` of SparseCore `c`. -/
def wid (c : Fin 2) (s : Fin 16) : Fin 32 := ⟨2 * s.val + c.val, by omega⟩

theorem idiv : 32 ∣ S32x200x128.size 0 := ⟨1, rfl⟩
theorem odiv : 6400 ∣ S819200x128.size 0 := ⟨128, rfl⟩
/-- Worker `w`'s slab of the index array. -/
abbrev islab (w : Fin 32) : Rect S32x200x128 := Rect.part (s := S32x200x128) (a₀ := 0) idiv w
abbrev iSet (w : Fin 32) : Finset S32x200x128.Idx :=
  ((Memref.whole main_v0_scv : Memref sig Kind.scVector Space.hbm S32x200x128 EltTy.i32).view.slice (islab w)).set
/-- The output's 6400 chunks of 128 rows: chunk `k` is rows 128 k … 128 k + 127; worker `w`'s chunk `i` is number 200 w + i. -/
abbrev ochunk (k : Fin 6400) : Rect S819200x128 := Rect.part (s := S819200x128) (a₀ := 0) odiv k
abbrev oCh (k : Fin 6400) : Finset S819200x128.Idx :=
  ((Memref.whole main_v1_scv : Memref sig Kind.scVector Space.hbm S819200x128 EltTy.f32).view.slice (ochunk k)).set
def chunkNo (w : Fin 32) (i : Fin 200) : Fin 6400 := ⟨200 * w.val + i.val, by omega⟩

/-- The index words as @main's reshape leaves them: the argument's words in the [32, 200, 128] arrangement. -/
def I3 (d : Dev nD) : Buf (Elt F) (iLoc d) :=
  shapeCast S32x200x128 (m (aLoc d) : S4096x200.Idx → BitVec 32) (show S4096x200.ShapeCasts S32x200x128 by decide)

/-- The table's contents, as contents of a SparseCore's shared copy. -/
def tabS (d : Dev nD) (c : Fin τ.nSC) : Buf (Elt F) (shLoc d c) := (m (tLoc d) : S45x128.Idx → Elt F .f32)

/-- What the kernel leaves in its output: row b the table row that the b-th index word names. -/
def Ok (d : Dev nD) : Buf (Elt F) (oLoc d) :=
  rows (I3 m d : S32x200x128.Idx → BitVec 32) (m (tLoc d) : S45x128.Idx → Elt F .f32)

/-- What @main's last reshape makes of the kernel's output: the looked-up rows in the [4096, 200, 128] arrangement. -/
def Rres (d : Dev nD) : Buf (Elt F) (rLoc d) :=
  shapeCast S4096x200x128 (Ok m d : S819200x128.Idx → Elt F .f32) (show S819200x128.ShapeCasts S4096x200x128 by decide)

/-- The run's post: the result at the looked-up rows, the two arguments unchanged. -/
def QC : PUnit × MemSt nD τ sig (Elt F) → Prop := fun r => ∀ c : Dev nD,
  r.2.mem (rLoc c) = Rres m c ∧ r.2.mem (aLoc c) = m (aLoc c) ∧ r.2.mem (tLoc c) = m (tLoc c)

/-- What the proof asks of the launch memory: every index word names a table row. The certificate's
    precondition says so. -/
def PreOK : Prop := ∀ (d : Dev nD) (j : S4096x200.Idx), (m (aLoc d) j : BitVec 32).toNat < 45

theorem I3_lt (hpre : PreOK m) (d : Dev nD) (j : S32x200x128.Idx) : (I3 m d j : BitVec 32).toNat < 45 := hpre d _

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Tile `j`'s read token of SparseCore `c`'s shared copy, at the table's contents. -/
abbrev shTokPts (d : Dev nD) (c : Fin τ.nSC) (j : Fin 16) : sProp 𝕄 := shLoc d c ↦{shareTok fullShare 16 j} tabS m d c
/-- What is left of the full share after the sixteen tokens: tile 0 keeps it. -/
abbrev shRestPts (d : Dev nD) (c : Fin τ.nSC) : sProp 𝕄 := shLoc d c ↦{shareDrop fullShare 16} tabS m d c

/-- What a duty in tile `j`'s round hands over: tile 0's, tile `j`'s read token of the shared copy; the others', nothing. -/
def bPay (g : GSem nD τ sig) (n : ℕ) : sProp 𝕄 :=
  match g with
  | ((d, .scVector c j), _) => if n = 0 then shTokPts m d c (Fin.cast nSub_eq j) else iprop(emp)
  | _ => iprop(emp)

/-- The barrier cells' schedule: one round on each, of one unit duty per tile of the SparseCore (named by its number),
    tile 0's handing over the round's owner's read token. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile `(c, i)` owe for the barrier: a unit on every tile's cell of its SparseCore, at the call's
    index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore (under names of the launch's choosing) and
    that each has reached round 0, its own position at the origin of round 0, its duty token in every tile's round 0,
    and the credit for the sixteen units of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- SparseCore `c`'s half of the table's full share: its tile 0 reads the table once. -/
def tq (c : Fin 2) : PosShare TreeShare := if c.val = 0 then fullShare.left else fullShare.right

abbrev tabPts (d : Dev nD) (c : Fin 2) : sProp 𝕄 := tLoc d ↦{tq c} m (tLoc d)
abbrev iSlabPts (d : Dev nD) (w : Fin 32) : sProp 𝕄 := iLoc d ↦[iSet w]{fullShare} I3 m d
/-- Worker `w`'s 200 chunks of the output, each held by itself, all at the contents `f`. -/
abbrev oSlabPts (d : Dev nD) (w : Fin 32) (f : Buf (Elt F) (oLoc d)) : sProp 𝕄 :=
  bigSep Finset.univ fun i : Fin 200 => oLoc d ↦[oCh (chunkNo w i)]{fullShare} f

/-- What tile `s` of SparseCore `c` is handed at `go`: its slab of the indices and its rows of the output (at the
    launch's contents); tile 0 also its SparseCore's half share of the table and the shared memory whole. -/
def goRes (d : Dev nD) (c : Fin 2) (s : Fin 16) : sProp 𝕄 :=
  iprop(iSlabPts m d (wid c s) ∗ oSlabPts d (wid c s) (m (oLoc d))
    ∗ (if s.val = 0 then iprop(tabPts m d c ∗ ∃ f, shLoc d (Fin.cast nSC_eq.symm c) ↦{fullShare} f) else iprop(emp)))
/-- What it hands back at `taskDone`: the slab, its rows of the output at the looked-up rows, its read token of the
    shared copy; tile 0 also the half share of the table and the rest of the shared copy's share. -/
def tdRes (d : Dev nD) (c : Fin 2) (s : Fin 16) : sProp 𝕄 :=
  iprop(iSlabPts m d (wid c s) ∗ oSlabPts d (wid c s) (Ok m d) ∗ shTokPts m d (Fin.cast nSC_eq.symm c) s
    ∗ (if s.val = 0 then iprop(tabPts m d c ∗ shRestPts m d (Fin.cast nSC_eq.symm c)) else iprop(emp)))

/-- The one call takes, per SparseCore, its half share of the table and its sixteen workers' slabs and rows; each task
    is handed its own and brings them back, the rows looked up; each task's proof consumes its barrier kit; each tile
    owes its arrivals. -/
def P : (K (F := F)).Pay (nD := nD) (Val := Elt F) (Name := ℕ) (U := UU) where
  st := fun q d c => match q with
    | 0 => iprop(tabPts m d (Fin.cast nCore_zero c)
        ∗ bigSep Finset.univ fun s : Fin 16 => iprop(iSlabPts m d (wid (Fin.cast nCore_zero c) s) ∗ oSlabPts d (wid (Fin.cast nCore_zero c) s) (m (oLoc d))))
  dn := fun q d c => match q with
    | 0 => iprop(tabPts m d (Fin.cast nCore_zero c)
        ∗ bigSep Finset.univ fun s : Fin 16 => iprop(iSlabPts m d (wid (Fin.cast nCore_zero c) s) ∗ oSlabPts d (wid (Fin.cast nCore_zero c) s) (Ok m d)))
  go := fun q d c i => match q with | 0 => goRes m d (Fin.cast nCore_zero c) (Fin.cast nSub_zero i)
  td := fun q d c i => match q with | 0 => tdRes m d (Fin.cast nCore_zero c) (Fin.cast nSub_zero i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => by unfold P; dsimp only; infer_instance
  dn q d c := match q with
    | 0 => by unfold P; dsimp only; infer_instance
  go q d c i := match q with
    | 0 => by unfold P goRes; dsimp only; split <;> infer_instance
  td q d c i := match q with
    | 0 => by unfold P tdRes; dsimp only; split <;> infer_instance

end Cert.Proof.EmbK

end
-- ==== Proof.KValue.lean ====
/-
  The kernel's result is the lookup, and the certificate's precondition gives what the body asks of the
  index words. The first is the layout bridge (the flat rows read as [4096, 200, 128]); the second reads
  "0 ≤ a ≤ 44 as signed words" as "the word, unsigned, is below 45".
-/
import proofs.«203315_g78847009620241_cont_9to1c4b_359_24_alg».proof.Proof.KCommon
import proofs.«203315_g78847009620241_cont_9to1c4b_359_24_alg».proof.Proof.SpecBridge
import proofs.«203315_g78847009620241_cont_9to1c4b_359_24_alg».proof.Proof.Pre

noncomputable section

namespace Cert.Proof.EmbK

open Cert.Kernel Cert.Kernel.Gen
open Idealize.ShloMosaic Idealize.SL.Sem
open Cert.Proof.EmbSpec (lookup rows_reshaped)

variable {F : FTy → Type}
variable (m : (ℓ : Loc nD τ sig) → Buf (Elt F) ℓ)

/-- What @main's last reshape leaves is the lookup of the two arguments. -/
theorem Rres_eq (d : Dev nD) :
    (Rres m d : S4096x200x128.Idx → Elt F .f32) = lookup (m (aLoc d) : S4096x200.Idx → BitVec 32) (m (tLoc d) : S45x128.Idx → Elt F .f32) := by
  unfold Rres Ok I3
  exact rows_reshaped _ _ _ _

/-- The certificate's precondition, on every device, says every index word names a table row. -/
theorem preOK_of_pre [FloatOps F] [Cert.Pre_input_domain.Facts]
    (h : ∀ c : Dev nD, Cert.Pre_input_domain.fn (F := F) (m (aLoc c)) (m (tLoc c)) = fun _ => 1#1) : PreOK m :=
  fun d j => Cert.Proof.EmbPre.idx_lt _ _ (h d) j

end Cert.Proof.EmbK

end
-- ==== Proof.Assemble.lean ====
/-
  The five claims from the three runs. Each kernel program's run ends with the result at the lookup of
  the arguments and the arguments unchanged; the reference's run ends the same way. A frame is a run with
  the value dropped; the two idealized programs, run from memories that agree on the arguments, end at the
  same lookup. The idealization rewrote nothing, so there is nothing to preserve.
-/
import proofs.«203315_g78847009620241_cont_9to1c4b_359_24_alg».proof.Defs
import proofs.«203315_g78847009620241_cont_9to1c4b_359_24_alg».proof.Proof.Gen.Kernel
import proofs.«203315_g78847009620241_cont_9to1c4b_359_24_alg».proof.Proof.Gen.KernelIdeal
import proofs.«203315_g78847009620241_cont_9to1c4b_359_24_alg».proof.Proof.Gen.ReferenceIdeal
import proofs.«203315_g78847009620241_cont_9to1c4b_359_24_alg».proof.Proof.Gen.Pre_input_domain
import proofs.«203315_g78847009620241_cont_9to1c4b_359_24_alg».proof.Proof.IValue
import proofs.«203315_g78847009620241_cont_9to1c4b_359_24_alg».proof.Proof.KValue

noncomputable section

namespace Cert.Proof

open Idealize.ShloMosaic Idealize.SL.Sem
open Cert.Proof.EmbSpec (lookup)

/-- The post every run is proved with, for the reference. -/
abbrev RefPost (m : (ℓ : Loc Cert.ReferenceIdeal.nD Cert.ReferenceIdeal.τ Cert.ReferenceIdeal.sig) → Buf (Elt Ideal) ℓ) :
    PUnit × MemSt Cert.ReferenceIdeal.nD Cert.ReferenceIdeal.τ Cert.ReferenceIdeal.sig (Elt Ideal) → Prop :=
  fun r => ∀ c : Dev Cert.ReferenceIdeal.nD,
    r.2.mem ((c.tc : Thread Cert.ReferenceIdeal.nD Cert.ReferenceIdeal.τ).loc Cert.ReferenceIdeal.main_v0)
        = lookup (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)

theorem claim_of
    (runK : ∀ (m : (ℓ : Loc Cert.Kernel.nD Cert.Kernel.τ Cert.Kernel.sig) → Buf (Elt Bits) ℓ) (ρ : Dev Cert.Kernel.nD → PrngReg),
      EmbK.PreOK m → θ_run (Cert.Kernel.defs (F := Bits)) (Cert.Kernel.threads (F := Bits)) ⟨m, fun _ => 0, ρ⟩ (EmbK.QC m))
    (runI : ∀ (m : (ℓ : Loc Cert.KernelIdeal.nD Cert.KernelIdeal.τ Cert.KernelIdeal.sig) → Buf (Elt Ideal) ℓ) (ρ : Dev Cert.KernelIdeal.nD → PrngReg),
      EmbI.PreOK m → θ_run (Cert.KernelIdeal.defs (F := Ideal)) (Cert.KernelIdeal.threads (F := Ideal)) ⟨m, fun _ => 0, ρ⟩ (EmbI.QC m))
    (runR : ∀ (m : (ℓ : Loc Cert.ReferenceIdeal.nD Cert.ReferenceIdeal.τ Cert.ReferenceIdeal.sig) → Buf (Elt Ideal) ℓ) (ρ : Dev Cert.ReferenceIdeal.nD → PrngReg),
      Cert.Pre_ReferenceIdeal (hPre_input_domain := Cert.Pre_input_domain.Gen.facts) m →
        θ_run (Cert.ReferenceIdeal.defs (F := Ideal)) (onTc (τ := Cert.ReferenceIdeal.τ) (Cert.ReferenceIdeal.main (F := Ideal))) ⟨m, fun _ => 0, ρ⟩ (RefPost m)) :
    Cert.Claim := by
  refine ⟨Cert.Kernel.Gen.facts, Cert.KernelIdeal.Gen.facts, Cert.ReferenceIdeal.Gen.facts, Cert.Pre_input_domain.Gen.facts, ?_, ?_, ?_, trivial, ?_⟩
  · -- the word-level kernel's frame
    intro m ρ hpre
    exact (θ_run Cert.Kernel.defs _ _).mono (fun _ h c => ⟨(h c).2.1, (h c).2.2⟩) (runK m ρ (EmbK.preOK_of_pre m hpre))
  · -- the idealized kernel's frame
    intro m ρ hpre
    exact (θ_run Cert.KernelIdeal.defs _ _).mono (fun _ h c => ⟨(h c).2.1, (h c).2.2⟩) (runI m ρ (EmbI.preOK_of_pre m hpre))
  · -- the reference's frame
    intro m ρ hpre
    exact (θ_run Cert.ReferenceIdeal.defs _ _).mono (fun _ h c => ⟨(h c).2.1, (h c).2.2⟩) (runR m ρ hpre)
  · -- the two idealized programs end at the same lookup
    intro m ρ m' ρ' hpre hagree
    refine ⟨fun c => lookup (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
    · exact (θ_run Cert.KernelIdeal.defs _ _).mono (fun _ h c => ⟨(h c).1.trans (EmbI.Rres_eq m c), (h c).2.1, (h c).2.2⟩)
        (runI m ρ (EmbI.preOK_of_pre m hpre))
    · have hpre' : Cert.Pre_ReferenceIdeal (hPre_input_domain := Cert.Pre_input_domain.Gen.facts) m' := fun c => by
        rw [(hagree c).1, (hagree c).2]; exact hpre c
      exact (θ_run Cert.ReferenceIdeal.defs _ _).mono
        (fun _ h c => ⟨by rw [(h c).1, (hagree c).1, (hagree c).2], (h c).2.1, (h c).2.2⟩) (runR m' ρ' hpre')

end Cert.Proof

end
-- ==== Proof.RefValue.lean ====
/-
  The reference's value, as a pure term of the two argument arrays, read at an index.

  The reference first replaces a negative index word w by w + 45, then builds a mask "0 <= w and
  w <= 44" (a reduction by "and" over a trailing axis of size one), gathers table rows at the index
  words (each start index clamped into [0, 44], the slice one whole row of 128), and keeps the gathered
  entry where the mask is 1, a fixed constant elsewhere.

  When every index word is below 45 (read unsigned), none is negative, so the first step changes nothing;
  every mask bit is 1; the clamp changes nothing; and entry (p, c, q) of the result is column q of the
  table row that word (p, c) names: the lookup.
-/
import proofs.«203315_g78847009620241_cont_9to1c4b_359_24_alg».proof.ReferenceIdeal
import proofs.«203315_g78847009620241_cont_9to1c4b_359_24_alg».proof.Proof.Spec
import Idealize.ShloMosaic.Lib.ValueIdx
import Idealize.ShloMosaic.Lib.Affine
import Idealize.ShloMosaic.PureOps.Reduce

noncomputable section

namespace Cert.Proof.EmbRef

open Idealize.ShloMosaic Idealize.ShloMosaic.ValueIdx Cert.ReferenceIdeal Cert.Proof.EmbSpec

variable {F : FTy → Type} [FloatOps F] [Cert.ReferenceIdeal.Facts]
open Cert.ReferenceIdeal.Facts₀

/-! ## Words below 45 under the signed comparisons -/

theorem slt_zero_of_lt {w : BitVec 32} (h : w.toNat < 45) : IntOp.cmpi .slt w 0#32 = 0#1 := by
  refine eq_zero_of_ne_one fun h1 => ?_
  have h2 := IntOp.cmpi_slt.1 h1
  rw [show (0#32 : BitVec 32).toInt = 0 from by decide, BitVec.toInt_eq_toNat_of_lt (x := w) (by omega)] at h2
  omega

theorem sge_zero_of_lt {w : BitVec 32} (h : w.toNat < 45) : IntOp.cmpi .sge w 0#32 = 1#1 := by
  rw [IntOp.cmpi_sge, show (0#32 : BitVec 32).toInt = 0 from by decide, BitVec.toInt_eq_toNat_of_lt (x := w) (by omega)]
  omega

theorem sle_44_of_lt {w : BitVec 32} (h : w.toNat < 45) : IntOp.cmpi .sle w 44#32 = 1#1 := by
  rw [IntOp.cmpi_sle, show (44#32 : BitVec 32).toInt = 44 from by decide, BitVec.toInt_eq_toNat_of_lt (x := w) (by omega)]
  omega

/-! ## The stages -/

/-- The index words with a negative one moved up by 45. -/
def wrapped (a : IVec S4096x200 32) : IVec S4096x200 32 :=
  select (cmpi .slt a (broadcastInDim S4096x200 ![] bcast_S_S4096x200 (constantI S_ 32 0#32)))
    (addi a (broadcastInDim S4096x200 ![] bcast_S_S4096x200 (constantI S_ 32 45#32))) a

/-- Words below 45 are not negative: nothing moves. -/
theorem wrapped_eq (a : IVec S4096x200 32) (ha : ∀ i, (a i).toNat < 45) : wrapped a = a := by
  funext i
  show Scalar.select (IntOp.cmpi .slt (a i) 0#32) (IntOp.addi (a i) 45#32) (a i) = a i
  rw [slt_zero_of_lt (ha i), select_zero]

/-- The same words as start indices: one more trailing axis, of size one. -/
def idx3 (a : IVec S4096x200 32) : IVec S4096x200x1 32 :=
  broadcastInDim S4096x200x1 ![0, 1] bcast_S4096x200_S4096x200x1_0_1 (wrapped a)

theorem idx3_apply (a : IVec S4096x200 32) (p : Fin 4096) (c : Fin 200) (z : Fin 1) :
    idx3 a (ix3 p c z) = wrapped a (ix2 p c) := by
  unfold idx3 broadcastInDim
  congr 1
  funext b
  match b with
  | ⟨0, _⟩ => rfl
  | ⟨1, _⟩ => rfl

/-- Per start index of an array of them: is it between 0 and 44? -/
def inRangeOf (k : IVec S4096x200x1 32) : IVec S4096x200x1 1 :=
  andi (cmpi .sge k (broadcastInDim S4096x200x1 ![] bcast_S_S4096x200x1 (constantI S_ 32 0#32)))
    (cmpi .sle k (broadcastInDim S4096x200x1 ![0, 1, 2] bcast_S1x1x1_S4096x200x1_0_1_2
      (broadcastInDim S1x1x1 ![2] bcast_S1_S1x1x1_2 (constantI S1 32 44#32))))

/-- The same for the start indices made from the index words. -/
def inRange (a : IVec S4096x200 32) : IVec S4096x200x1 1 := inRangeOf (idx3 a)

theorem inRange_apply (a : IVec S4096x200 32) (ha : ∀ i, (a i).toNat < 45) (k : S4096x200x1.Idx) : inRange a k = 1#1 := by
  obtain ⟨p, c, z, rfl⟩ : ∃ (p : Fin 4096) (c : Fin 200) (z : Fin 1), k = ix3 p c z := ⟨k 0, k 1, k 2, eq_ix3 k⟩
  show IntOp.andi (IntOp.cmpi .sge (idx3 a (ix3 p c z)) 0#32) (IntOp.cmpi .sle (idx3 a (ix3 p c z)) 44#32) = 1#1
  rw [idx3_apply, wrapped_eq a ha, sge_zero_of_lt (ha _), sle_44_of_lt (ha _)]
  decide

/-- The mask of an array of start indices: the reduction by "and" of those bits over the trailing axis. -/
def maskOf (k : IVec S4096x200x1 32) : IVec S4096x200 1 :=
  Host.reduce IntOp.andi (inRangeOf k) (constantI S_ 1 1#1) reducesTo_S4096x200x1_S4096x200_d2 h_S_

/-- The mask for the start indices made from the index words. -/
def mask (a : IVec S4096x200 32) : IVec S4096x200 1 := maskOf (idx3 a)

/-- A left fold by "and" from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | n :: l => by
    rw [List.foldl_cons, hf n, show IntOp.andi 1#1 1#1 = 1#1 from by decide]
    exact foldl_andi_one f hf l

theorem mask_apply (a : IVec S4096x200 32) (ha : ∀ i, (a i).toNat < 45) (i : S4096x200.Idx) : mask a i = 1#1 := by
  unfold mask maskOf
  rw [Host.reduce_eq_foldl]
  exact foldl_andi_one _ (inRange_apply a ha) _

/-! ## The gather of table rows, read at an index -/

/-- Entry (p, c, q) of the gather is column q of the table row at start index (p, c), that index read signed
    and clamped into [0, 44]. On the table's row axis (collapsed, named by the start index map) the operand
    coordinate is the clamped start index; on its column axis (the one offset axis) it is the result's last
    coordinate. -/
theorem gather_rows_apply {α : Type} {w : Nat} (t : S45x128.Idx → α) (idx : IVec S4096x200x1 w)
    (p : Fin 4096) (c : Fin 200) (q : Fin 128) :
    Host.gather gather_S45x128_S4096x200x1_S4096x200x128_2_0_n_n_0_2_1128 t idx (ix3 p c q)
      = t (ix2 (⟨min (idx (ix3 p c (0 : Fin 1))).toInt.toNat 44, by omega⟩ : Fin 45) q) := by
  unfold Host.gather
  congr 1
  funext b
  refine Fin.ext ?_
  match b with
  | ⟨0, _⟩ =>
    show gather_S45x128_S4096x200x1_S4096x200x128_2_0_n_n_0_2_1128.start (ix3 p c q) idx 0
        + gather_S45x128_S4096x200x1_S4096x200x128_2_0_n_n_0_2_1128.batchCoord (ix3 p c q) 0
        + gather_S45x128_S4096x200x1_S4096x200x128_2_0_n_n_0_2_1128.offCoord (ix3 p c q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S45x128_S4096x200x1_S4096x200x128_2_0_n_n_0_2_1128.startIndexMap from List.mem_singleton.mpr rfl)]
    have hsi : gather_S45x128_S4096x200x1_S4096x200x128_2_0_n_n_0_2_1128.siIdx (ix3 p c q)
        ⟨List.idxOf (0 : Fin 2) gather_S45x128_S4096x200x1_S4096x200x128_2_0_n_n_0_2_1128.startIndexMap,
          List.idxOf_lt_length_iff.2 (List.mem_singleton.mpr rfl)⟩ = ix3 p c (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S45x128_S4096x200x1_S4096x200x128_2_0_n_n_0_2_1128.start (ix3 p c q) idx 1
        + gather_S45x128_S4096x200x1_S4096x200x128_2_0_n_n_0_2_1128.batchCoord (ix3 p c q) 1
        + gather_S45x128_S4096x200x1_S4096x200x128_2_0_n_n_0_2_1128.offCoord (ix3 p c q) 1 = q.val
    have h1 : (1 : Fin 2) ∉ gather_S45x128_S4096x200x1_S4096x200x128_2_0_n_n_0_2_1128.startIndexMap :=
      show (1 : Fin 2) ∉ ([0] : List (Fin 2)) from by decide
    have h2 : (1 : Fin 2) ∈ gather_S45x128_S4096x200x1_S4096x200x128_2_0_n_n_0_2_1128.sKept :=
      (GatherDims.mem_sKept _ _).mpr ⟨show (1 : Fin 2) ∉ ([0] : List (Fin 2)) from by decide, List.not_mem_nil⟩
    have hs : gather_S45x128_S4096x200x1_S4096x200x128_2_0_n_n_0_2_1128.start (ix3 p c q) idx 1 = 0 := by
      unfold GatherDims.start
      rw [dif_neg h1]
    rw [GatherDims.batchCoord_eq_zero _ _ _ List.not_mem_nil, hs]
    unfold GatherDims.offCoord
    rw [dif_pos h2]
    simp only [Nat.add_zero, Nat.zero_add]
    rfl

/-! ## The whole term -/

/-- The reference's result as a term of its two arguments. -/
def refTerm (a : IVec S4096x200 32) (t : FVec F S45x128 .f32) : FVec F S4096x200x128 .f32 :=
  select (broadcastInDim S4096x200x128 ![0, 1] bcast_S4096x200_S4096x200x128_0_1 (mask a))
    (Host.gather gather_S45x128_S4096x200x1_S4096x200x128_2_0_n_n_0_2_1128 t (idx3 a))
    (broadcastInDim S4096x200x128 ![] bcast_S_S4096x200x128 (constant S_ .f32 0x7FC00000#32))

theorem mask_bcast_apply (a : IVec S4096x200 32) (p : Fin 4096) (c : Fin 200) (q : Fin 128) :
    broadcastInDim S4096x200x128 ![0, 1] bcast_S4096x200_S4096x200x128_0_1 (mask a) (ix3 p c q) = mask a (ix2 p c) := by
  unfold broadcastInDim
  congr 1
  funext b
  match b with
  | ⟨0, _⟩ => rfl
  | ⟨1, _⟩ => rfl

/-- Under the index bound the reference's term is the lookup. -/
theorem refTerm_eq_lookup (a : IVec S4096x200 32) (t : FVec F S45x128 .f32) (ha : ∀ i, (a i).toNat < 45) :
    refTerm a t = lookup a t := by
  funext j
  obtain ⟨p, c, q, rfl⟩ : ∃ (p : Fin 4096) (c : Fin 200) (q : Fin 128), j = ix3 p c q := ⟨j 0, j 1, j 2, eq_ix3 j⟩
  unfold refTerm
  rw [select_apply, mask_bcast_apply, mask_apply a ha, select_one, gather_rows_apply]
  show t (ix2 (⟨min (idx3 a (ix3 p c (0 : Fin 1))).toInt.toNat 44, _⟩ : Fin 45) q) = t (ix2 (rowIx (a (ix2 p c))) q)
  refine congrArg (fun r : Fin 45 => t (ix2 r q)) (Fin.ext ?_)
  show min (idx3 a (ix3 p c (0 : Fin 1))).toInt.toNat 44 = (a (ix2 p c)).toNat % 45
  have hj := ha (ix2 p c)
  rw [idx3_apply, wrapped_eq a ha, BitVec.toInt_eq_toNat_of_lt (x := a (ix2 p c)) (by omega)]
  omega

end Cert.Proof.EmbRef
-- ==== Proof.RefRun.lean ====
/-
  The reference's run, and its frame.

  The reference's @main is one call of the function that takes rows of the table, which itself calls the
  three-way select once. With the two definitions unfolded at their call sites, @main is a straight line of
  twenty-three operations, each writing a buffer of its own. Run from any memory, every buffer ends at the fold
  of the operations over the launch contents: the two argument buffers are written by no operation and keep
  their contents, and the result buffer holds the composed term of the two arguments. Under the precondition
  every index word is below 45, and that term is the lookup.
-/
import proofs.«203315_g78847009620241_cont_9to1c4b_359_24_alg».proof.Defs
import proofs.«203315_g78847009620241_cont_9to1c4b_359_24_alg».proof.Proof.Gen.ReferenceIdeal
import proofs.«203315_g78847009620241_cont_9to1c4b_359_24_alg».proof.Proof.Gen.Pre_input_domain
import proofs.«203315_g78847009620241_cont_9to1c4b_359_24_alg».proof.Proof.Pre
import proofs.«203315_g78847009620241_cont_9to1c4b_359_24_alg».proof.Proof.Spec
import proofs.«203315_g78847009620241_cont_9to1c4b_359_24_alg».proof.Proof.RefValue
import Idealize.ShloMosaic.Lib.StableHlo.Run

noncomputable section

namespace Cert.Proof.EmbRef

open Idealize.ShloMosaic Idealize.ShloMosaic.TcCoe Idealize.ShloMosaic.StableHlo Idealize.SL.Sem
open Cert.ReferenceIdeal

variable {F : FTy → Type} [FloatOps F] [Cert.ReferenceIdeal.Facts]
open Cert.ReferenceIdeal.Facts₀

/-- @main's operations in order, the two calls unfolded: the take's six operations before its call of the
    select, the select, and the take's sixteen after it. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 45#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 44#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S45x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

set_option maxRecDepth 1024 in
/-- @main is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## The fold, in three stretches

The line is cut in three: the start indices made from the index words (eight operations), the mask made from
the start indices (ten), and the gather with the final select (five). Each stretch is read over an arbitrary
valuation it starts from, so the three compose: the fold of the whole line is the third stretch's fold over the
second's over the first's. -/

/-- The index words wrapped and given their trailing axis. -/
abbrev opsA : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 45#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1) ]

/-- The mask of the start indices. -/
abbrev opsB : List (HloOp τ sig (Elt F)) :=
  [ TRef.nullary main_call0.c_1 (constantI S1 32 44#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_) ]

/-- The gather, and the select by the mask. -/
abbrev opsC : List (HloOp τ sig (Elt F)) :=
  [ TRef.binary (.of main_arg1) main_call0.v5 main_call0.v13 (fun x i => Host.gather gather_S45x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

theorem ops_split : (ops : List (HloOp τ sig (Elt F))) = opsA ++ (opsB ++ opsC) := rfl

/-- Two stretches run one after the other fold as their concatenation. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- After the first stretch the start-index buffer holds the start indices made from the index words … -/
theorem outA_v5 (W : Valuation τ sig (Elt F)) :
    after opsA W (main_call0_v5 : DevRef τ sig) = idx3 (W (main_arg0 : DevRef τ sig)) := by
  after_results
  rfl

/-- … and the table is as it was. -/
theorem outA_arg1 (W : Valuation τ sig (Elt F)) :
    after opsA W (main_arg1 : DevRef τ sig) = W (main_arg1 : DevRef τ sig) := by
  after_results

attribute [local irreducible] Host.reduce in
/-- After the second stretch the mask buffer holds the mask of the start indices it found … -/
theorem outB_v12 (W : Valuation τ sig (Elt F)) :
    after opsB W (main_call0_v12 : DevRef τ sig) = maskOf (W (main_call0_v5 : DevRef τ sig)) := by
  after_results
  rfl

/-- … the start indices are as they were … -/
theorem outB_v5 (W : Valuation τ sig (Elt F)) :
    after opsB W (main_call0_v5 : DevRef τ sig) = W (main_call0_v5 : DevRef τ sig) := by
  after_results

/-- … and so is the table. -/
theorem outB_arg1 (W : Valuation τ sig (Elt F)) :
    after opsB W (main_arg1 : DevRef τ sig) = W (main_arg1 : DevRef τ sig) := by
  after_results

attribute [local irreducible] Host.gather in
/-- After the third stretch the result buffer holds the gathered rows where the mask is 1, the constant elsewhere. -/
theorem outC (W : Valuation τ sig (Elt F)) :
    after opsC W (main_v0 : DevRef τ sig)
      = select (broadcastInDim S4096x200x128 ![0, 1] bcast_S4096x200_S4096x200x128_0_1 (W (main_call0_v12 : DevRef τ sig)))
          (Host.gather gather_S45x128_S4096x200x1_S4096x200x128_2_0_n_n_0_2_1128 (W (main_arg1 : DevRef τ sig)) (W (main_call0_v5 : DevRef τ sig)))
          (broadcastInDim S4096x200x128 ![] bcast_S_S4096x200x128 (constant S_ .f32 0x7FC00000#32)) := by
  after_results
  rfl

attribute [local irreducible] Host.reduce Host.gather in
/-- The fold at the result buffer is the composed term of the two arguments: the three stretches, one after the other. -/
theorem out_eq (V : Valuation τ sig (Elt F)) :
    after ops V (main_v0 : DevRef τ sig) = refTerm (V (main_arg0 : DevRef τ sig)) (V (main_arg1 : DevRef τ sig)) := by
  rw [ops_split, after_concat, after_concat, outC, outB_v12, outB_v5, outB_arg1, outA_v5, outA_arg1]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

/-- From any memory with zero counters every weakly fair execution of @main terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run: from any memory that satisfies the precondition, with zero counters, every weakly fair
    execution of @main terminates; the result buffer ends holding the lookup of the two arguments, and the two
    argument buffers end as they started. -/
theorem ref_run [Cert.Pre_input_domain.Facts]
    (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
          = Cert.Proof.EmbSpec.lookup (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun _ h c => ⟨(h c main_v0).trans ((out_eq _).trans
        (refTerm_eq_lookup _ _ (Cert.Proof.EmbPre.idx_lt _ _ (hpre c)))),
      (h c main_arg0).trans (arg0_eq _), (h c main_arg1).trans (arg1_eq _)⟩)
    (run_main m ρ)

/-- The reference's frame: that run with the value dropped. -/
theorem frame_ref [Cert.Pre_input_domain.Facts] : Cert.frame_ReferenceIdeal :=
  fun m g hpre => (θ_run Cert.ReferenceIdeal.defs _ _).mono (fun _ h c => (h c).2) (ref_run m g hpre)

end Cert.Proof.EmbRef
-- ==== Proof.IGeom.lean ====
/-
  The static geometry of one tile's task: which pieces of the arrays its memory operations name.

  Tile (c, s) is worker w = 2 s + c. Its index slab is slab w of the [32, 200, 128] array. In trip t of the
  loop the five stores write chunks 5 t + r (r = 0 … 4) of the worker's 200, that is chunks 200 w + 5 t + r of
  the output's 6400; the store waits inside the trip name chunks 5 t − 2, 5 t − 1 (trips after the first) and
  5 t, 5 t + 1, 5 t + 2 (trips before the last); the five waits after the loop name chunks 195 … 199.
-/
import proofs.«203315_g78847009620241_cont_9to1c4b_359_24_alg».proof.Proof.ICommon

noncomputable section

namespace Cert.Proof.EmbI

open Cert.KernelIdeal Cert.KernelIdeal.Gen
open Idealize.ShloMosaic
open Idealize.ShloMosaic.SparseCore (S V T)

variable {F : FTy → Type}

/-! ## The tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The tile's worker number. -/
abbrev wL (L : grid0.Coords) : Fin 32 := wid (cL L) (jL L)

theorem wL_val (L : grid0.Coords) : (wL L).val = 2 * (L 1).val + (L 0).val := rfl

theorem trips_le : k0_t1_loop.trips ≤ 40 := k0_t1_abs.2.1

/-- Chunk 5 t + r of the worker's 200, for a trip t and a slot r. -/
def chunkOf (t : Fin k0_t1_loop.trips) (r : Fin 5) : Fin 200 := ⟨5 * t.val + r.val, by have := t.isLt; have := trips_le; omega⟩

/-! ## The index slab -/

theorem islabK_eq (L : grid0.Coords) :
    Rect.unit (s := S32x200x128) (k0_off1 L) S1x200x128.size (k0_off1_inb L) = islab (wL L) := by
  unfold islab Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

/-! ## The output chunks -/

/-- A 128-row rectangle of the output at row offset 128 k is chunk k. -/
theorem ochunk_of_off (off : Fin 2 → Nat) (h : ∀ a, off a + S128x128.size a ≤ S819200x128.size a) (k : Fin 6400)
    (h0 : off 0 = 128 * k.val) (h1 : off 1 = 0) :
    Rect.unit (s := S819200x128) off S128x128.size h = ochunk k := by
  unfold ochunk Rect.part Rect.block
  congr 1 <;> funext a
  · match a with
    | 0 => simp [Shape.partIx, Shape.partSize, h0, Nat.mul_comm]
    | 1 => simp [Shape.partIx, Shape.partSize, h1]
  · match a with
    | 0 => simp [Shape.partSize]
    | 1 => simp [Shape.partSize]

/-! ## The loop's conditions, in closed form -/

theorem cond2_iff : ∀ t : Fin k0_t1_loop.trips, k0_cond2 t = 1#1 ↔ 0 < t.val := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val < 39 := by decide +kernel
theorem cond5_iff : ∀ t : Fin k0_t1_loop.trips, k0_cond5 t = 1#1 ↔ t.val < 39 := by decide +kernel
theorem cond6_iff : ∀ t : Fin k0_t1_loop.trips, k0_cond6 t = 1#1 ↔ t.val < 39 := by decide +kernel

/-! ## The two offset functions under a condition, in closed form (the trip after the first: two chunks back) -/

theorem k0_off4_eq : ∀ (i : grid0.Coords) (t : Fin k0_t1_loop.trips), k0_cond2 t = 1#1 →
    k0_off4 i t = ![51200 * (i 1).val + 25600 * (i 0).val + 640 * t.val - 256, 0] := by decide +kernel
theorem k0_off6_eq : ∀ (i : grid0.Coords) (t : Fin k0_t1_loop.trips), k0_cond3 t = 1#1 →
    k0_off6 i t = ![51200 * (i 1).val + 25600 * (i 0).val + 640 * t.val - 128, 0] := by decide +kernel

/-! ## Which chunk each store and each store wait names -/

/-- The store of slot r in trip t writes chunk 5 t + r of the worker's. -/
theorem chunk_off3 (L : grid0.Coords) (t : Fin k0_t1_loop.trips) (r : Fin 5) :
    Rect.unit (s := S819200x128) (k0_off3 L t (BitVec.ofNat 32 r.val)) S128x128.size (k0_off3_inb L t r) = ochunk (chunkNo (wL L) (chunkOf t r)) :=
  ochunk_of_off _ _ _ (by rw [k0_off3_eq]; show _ = 128 * (200 * (2 * (L 1).val + (L 0).val) + (5 * t.val + r.val)); simp; omega)
    (by rw [k0_off3_eq]; rfl)

/-- The wait before slot 3 is gathered into again (trips after the first): chunk 5 t − 2. -/
theorem chunk_off4 (L : grid0.Coords) (t : Fin k0_t1_loop.trips) (h : k0_cond2 t = 1#1) :
    Rect.unit (s := S819200x128) (k0_off4 L t) S128x128.size (k0_off4_inb L t h)
      = ochunk (chunkNo (wL L) ⟨5 * t.val - 2, by have := t.isLt; have := trips_le; omega⟩) :=
  ochunk_of_off _ _ _ (by
      have ht := (cond2_iff t).mp h
      rw [k0_off4_eq L t h]; show _ = 128 * (200 * (2 * (L 1).val + (L 0).val) + (5 * t.val - 2)); simp; omega)
    (by rw [k0_off4_eq L t h]; rfl)

/-- The wait before slot 4 is gathered into again (trips after the first): chunk 5 t − 1. -/
theorem chunk_off6 (L : grid0.Coords) (t : Fin k0_t1_loop.trips) (h : k0_cond3 t = 1#1) :
    Rect.unit (s := S819200x128) (k0_off6 L t) S128x128.size (k0_off6_inb L t h)
      = ochunk (chunkNo (wL L) ⟨5 * t.val - 1, by have := t.isLt; have := trips_le; omega⟩) :=
  ochunk_of_off _ _ _ (by
      have ht := (cond3_iff t).mp h
      rw [k0_off6_eq L t h]; show _ = 128 * (200 * (2 * (L 1).val + (L 0).val) + (5 * t.val - 1)); simp; omega)
    (by rw [k0_off6_eq L t h]; rfl)

/-- The waits before slots 0, 1, 2 are gathered into again (trips before the last): chunks 5 t, 5 t + 1, 5 t + 2. -/
theorem chunk_off7 (L : grid0.Coords) (t : Fin k0_t1_loop.trips) (h : k0_cond4 t = 1#1) :
    Rect.unit (s := S819200x128) (k0_off7 L t) S128x128.size (k0_off7_inb L t h) = ochunk (chunkNo (wL L) (chunkOf t 0)) :=
  ochunk_of_off _ _ _ (by rw [k0_off7_eq]; show _ = 128 * (200 * (2 * (L 1).val + (L 0).val) + (5 * t.val + 0)); simp; omega)
    (by rw [k0_off7_eq]; rfl)
theorem chunk_off9 (L : grid0.Coords) (t : Fin k0_t1_loop.trips) (h : k0_cond5 t = 1#1) :
    Rect.unit (s := S819200x128) (k0_off9 L t) S128x128.size (k0_off9_inb L t h) = ochunk (chunkNo (wL L) (chunkOf t 1)) :=
  ochunk_of_off _ _ _ (by rw [k0_off9_eq]; show _ = 128 * (200 * (2 * (L 1).val + (L 0).val) + (5 * t.val + 1)); simp; omega)
    (by rw [k0_off9_eq]; rfl)
theorem chunk_off11 (L : grid0.Coords) (t : Fin k0_t1_loop.trips) (h : k0_cond6 t = 1#1) :
    Rect.unit (s := S819200x128) (k0_off11 L t) S128x128.size (k0_off11_inb L t h) = ochunk (chunkNo (wL L) (chunkOf t 2)) :=
  ochunk_of_off _ _ _ (by rw [k0_off11_eq]; show _ = 128 * (200 * (2 * (L 1).val + (L 0).val) + (5 * t.val + 2)); simp; omega)
    (by rw [k0_off11_eq]; rfl)

/-- The five waits after the loop: chunks 195 + r. -/
theorem chunk_off13 (L : grid0.Coords) (r : Fin 5) :
    Rect.unit (s := S819200x128) (k0_off13 L (BitVec.ofNat 32 (24960 + 128 * r.val))) S128x128.size (k0_off13_inb L r)
      = ochunk (chunkNo (wL L) ⟨195 + r.val, by omega⟩) :=
  ochunk_of_off _ _ _ (by rw [k0_off13_eq]; show _ = 128 * (200 * (2 * (L 1).val + (L 0).val) + (195 + r.val)); simp; omega)
    (by rw [k0_off13_eq]; rfl)

end Cert.Proof.EmbI

end
-- ==== Proof.IBarrierPay.lean ====
/-
  What the barrier hands over, duty by duty.

  Tile 0 of a SparseCore holds that SparseCore's shared copy of the table whole, at the table's contents. It
  cuts the full share into sixteen read tokens and a remainder. Each tile's barrier cell has one round, with
  one duty per tile of the SparseCore, named by the tile's number; the duty named 0 (tile 0's) carries the
  round's owner's token, and the duties with other names carry nothing. So tile 0 pays token j into tile j's
  round and keeps the remainder; any other tile pays nothing into any round; and a tile that has passed the
  barrier finds, among what its own round collected, exactly its own token.
-/
import proofs.«203315_g78847009620241_cont_9to1c4b_359_24_alg».proof.Proof.ICommon

noncomputable section

namespace Cert.Proof.EmbI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

variable (m : (ℓ : Loc nD τ sig) → Buf (Elt F) ℓ) (d : Dev nD) (c : Fin τ.nSC)

/-- The duty named 0 in tile j's round carries tile j's read token of the shared copy. -/
theorem payload_zero (j : Fin τ.nSub) :
    (bRd (F := F) m).payload (bcell d c j) 0 0 = shTokPts m d c (Fin.cast nSub_eq j) := by
  show bPay m (bcell d c j) 0 = _
  unfold bPay; dsimp only
  rw [if_pos rfl]

/-- A duty with another name carries nothing. -/
theorem payload_other (j : Fin τ.nSub) (n : ℕ) (hn : n ≠ 0) :
    (bRd (F := F) m).payload (bcell d c j) 0 n = (iprop(emp) : sProp 𝕄) := by
  show bPay m (bcell d c j) n = _
  unfold bPay; dsimp only
  rw [if_neg hn]

/-- Tile 0 pays: the shared copy held whole is the sixteen tokens, one into each tile's round, and the remainder. -/
theorem pays_intro_zero :
    (shLoc d c ↦{fullShare} tabS m d c : sProp 𝕄)
      ⊢ iprop((bigSep Finset.univ fun j : Fin (grid0.bound 1) => (bRd (F := F) m).payload (bcell d c (j.castLE hsub0)) 0 0)
          ∗ shRestPts m d c) := by
  rw [show (bigSep Finset.univ fun j : Fin (grid0.bound 1) => (bRd (F := F) m).payload (bcell d c (j.castLE hsub0)) 0 0)
      = bigSep Finset.univ fun j : Fin 16 => (shLoc d c ↦{shareTok fullShare 16 j} tabS m d c : sProp 𝕄) from
    bigSep_congr fun j _ => payload_zero m d c (j.castLE hsub0)]
  refine (Transfers.pointsTo_toks_split fullShare 16).trans ?_
  iintro ⟨Hr, Ht⟩
  isplitl [Ht]
  · iexact Ht
  · iexact Hr

/-- Any other tile pays nothing into any round. -/
theorem pays_intro_other (n : ℕ) (hn : n ≠ 0) :
    (iprop(emp) : sProp 𝕄)
      ⊢ bigSep Finset.univ fun j : Fin (grid0.bound 1) => (bRd (F := F) m).payload (bcell d c (j.castLE hsub0)) 0 n := by
  rw [show (bigSep Finset.univ fun j : Fin (grid0.bound 1) => (bRd (F := F) m).payload (bcell d c (j.castLE hsub0)) 0 n)
      = bigSep Finset.univ fun _ : Fin (grid0.bound 1) => (iprop(emp) : sProp 𝕄) from
    bigSep_congr fun j _ => payload_other m d c (j.castLE hsub0) n hn, bigSep_emp']

/-- After the barrier a tile's own round holds its token: the duty named 0 carried it. -/
theorem pays_elim (i : Fin τ.nSub) :
    (bigSep ((bRd (F := F) m).duties (bcell d c i) 0 \ ∅) fun n => (bRd (F := F) m).payload (bcell d c i) 0 n)
      ⊢ shTokPts m d c (Fin.cast nSub_eq i) := by
  have h0 : (0 : ℕ) ∈ (bRd (F := F) m).duties (bcell d c i) 0 := bRd_mem₀ m d c i ⟨0, by decide⟩
  rw [Finset.sdiff_empty]
  refine (bigSep_elim (i := 0) h0).trans ?_
  rw [payload_zero]
  exact BI.Entails.refl _

end Cert.Proof.EmbI
-- ==== Proof.IBodyInv.lean ====
/-
  One tile's task: what it holds, and the invariant of its loop.

  The task of tile (c, s), worker w = 2 s + c: copy the table into the SparseCore's shared memory (tile 0 only),
  copy slab w of the index array into the index scratch, meet the other tiles at the barrier, then move its 200
  chunks of 128 rows through a ring of five slots: chunk i is gathered into slot i mod 5 (128 table rows, the rows
  that the 128 index words of row i of the index scratch name) and stored from there to rows 25600 w + 128 i …
  of the output. Gathers run three chunks ahead of the stores; a slot's store is waited for two steps later, just
  before the slot is gathered into again. Each slot has its own gather semaphore and its own store semaphore, so
  at most one transfer is ever outstanding on a semaphore.

  What is held, and how it is cut. The index scratch, once the copy has landed, is held ROW BY ROW (200 pieces):
  the gather of chunk i reads exactly row i and every row is read once. The tile's read token of the shared copy
  is cut once more into five finer tokens, one per gather semaphore, so that the three gathers in flight each hold
  a share of the table. The output is the 200 chunk pieces the launch hands the tile; a chunk is either untouched
  (at the launch's contents), inside a store in flight, or finished (at the looked-up rows).

  The invariant before trip j (j < 40): chunks 5 j, 5 j + 1, 5 j + 2 are being gathered into slots 0, 1, 2; slots
  3, 4 are idle (j = 0) or store chunks 5 j − 2, 5 j − 1; rows of the index scratch below 5 j are back, rows from
  5 j + 3 on are unread; output chunks below 5 j − 2 are finished, chunks from 5 j on untouched. After trip 39 the
  five stores of chunks 195 … 199 are in flight and nothing else.
-/
import proofs.«203315_g78847009620241_cont_9to1c4b_359_24_alg».proof.Proof.IGeom
import proofs.«203315_g78847009620241_cont_9to1c4b_359_24_alg».proof.Proof.IBarrierPay

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

abbrev VT (d : Dev nD) (L : grid0.Coords) : Thread nD τ := V d (cV L) (jV L)

/-- The tile's slab of the index array, squeezed to [200, 128], as the body slices it. -/
abbrev islabK (L : grid0.Coords) : Rect S32x200x128 := Rect.unit (s := S32x200x128) (k0_off1 L) S1x200x128.size (k0_off1_inb L)
abbrev iSlabK (L : grid0.Coords) : Memref sig .scVector .hbm S200x128 .i32 :=
  ((iV).slice (islabK L) (fun _ => rfl)).squeeze S200x128 squeezes_S1x200x128_S200x128

omit [FloatOps F] in
theorem islabK_eq' : islabK L = islab (wL L) := islabK_eq L

omit [FloatOps F] in
theorem set_iSlabK : (iSlabK L).view.set = iSet (wL L) := by
  show (((iV).view.slice (islabK L)).reshape S200x128 squeezes_S1x200x128_S200x128.numel_eq).set = ((iV).view.slice (islab (wL L))).set
  rw [View.set_reshape]
  exact islabK_eq' L ▸ rfl

omit [FloatOps F] in
theorem pts_iSlabK (f : Buf (Elt F) (iLoc d)) :
    ((iSlabK L).view.loc (VT d L) ↦[(iSlabK L).view.set]{fullShare} f : sProp 𝕄) = iLoc d ↦[iSet (wL L)]{fullShare} f := by
  rw [set_iSlabK]
/-- The twelve DMA cells the task names: the gathers' five, the stores' five, the two scoped copy cells. -/
abbrev csem (k : Nat) (hk : k < 12 := by decide) : DmaSem sig := ⟨k, hk⟩
abbrev dcell (d : Dev nD) (c : Fin τ.nSC) (i : Fin τ.nSub) (k : Fin 12) : GSem nD τ sig := (V d c i, .dma (csem k.val k.isLt))
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0)

omit [FloatOps F] in
theorem dcell_mem (c : Fin τ.nSC) (i : Fin τ.nSub) (k : Fin 12) : dcell d c i k ∈ ownCells (V d c i) :=
  mem_ownCells.mpr ⟨rfl, (show ∀ s : DmaSem sig, (SemLoc.dma s : SemLoc sig).isScoped .scVector = true by decide) _⟩

omit [FloatOps F] in
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 12)) = {0, 1, 2, 3, 4, 5, 6, 7, 8, 9, 10, 11} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  try rfl

/-- The tile's six scratch buffers, by number: the index scratch and the five slots. -/
abbrev vref (k : Fin 6) : Ref sig .scVector := ⟨.vmem, ⟨k.val, k.isLt⟩, rfl⟩
abbrev vdev (c : Fin τ.nSC) (i : Fin τ.nSub) (k : Fin 6) : DevRef τ sig := (Proc.scVector c i).devRef (vref k)

omit [FloatOps F] in
theorem vdev_mem (c : Fin τ.nSC) (i : Fin τ.nSub) (k : Fin 6) : vdev c i k ∈ ownRefs (τ := τ) (sig := sig) (.scVector c i) :=
  SparseCore.Cfg.mem_ownRefs_of_owner (p := Proc.scVector c i) (b := vdev c i k) rfl

omit [FloatOps F] in
theorem ownBufs_V :
    (ownBufs (VT d L) : sProp 𝕄)
      = iprop(((∃ f, (VT d L).loc cc0_scratch1 ↦{fullShare} f) ∗ (∃ f, (VT d L).loc cc0_scratch2 ↦{fullShare} f)
            ∗ (∃ f, (VT d L).loc cc0_scratch3 ↦{fullShare} f) ∗ (∃ f, (VT d L).loc cc0_scratch4 ↦{fullShare} f)
            ∗ (∃ f, (VT d L).loc cc0_scratch5 ↦{fullShare} f) ∗ (∃ f, (VT d L).loc cc0_scratch6 ↦{fullShare} f))
          ∗ bigSep ((ownRefs (τ := τ) (.scVector (cV L) (jV L))) \ Finset.univ.image (vdev (cV L) (jV L)))
              fun b => iprop(∃ f, ((d, b) : Loc nD τ sig) ↦{fullShare} f)) := by
  unfold SparseCore.Cfg.ownBufs
  rw [SparseCore.bigSep_sdiff_split' (t := Finset.univ.image (vdev (cV L) (jV L)))
      (Finset.image_subset_iff.mpr fun k _ => vdev_mem (cV L) (jV L) k),
    SparseCore.bigSep_image_of_injOn (fun a _ b _ h => by
      have := Proc.devRef_injective _ h
      exact Fin.ext (congrArg (fun r : Ref sig .scVector => r.idx.val) this))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  try rfl

omit [FloatOps F] in
/-- The tile's read token of the shared copy as what stays with it and five finer read tokens, one per gather cell, in the body's spelling. -/
theorem shToks : (shTokPts m d (cV L) (jL L) : sProp 𝕄)
    ⊣⊢ iprop(((shV).view.loc (VT d L) ↦{shareDrop (shareTok fullShare 16 (jL L)) 5} tabS m d (cV L))
        ∗ ((shV).view.loc (VT d L) ↦{shareTokN (shareTok fullShare 16 (jL L)) 0} tabS m d (cV L))
        ∗ ((shV).view.loc (VT d L) ↦{shareTokN (shareTok fullShare 16 (jL L)) 1} tabS m d (cV L))
        ∗ ((shV).view.loc (VT d L) ↦{shareTokN (shareTok fullShare 16 (jL L)) 2} tabS m d (cV L))
        ∗ ((shV).view.loc (VT d L) ↦{shareTokN (shareTok fullShare 16 (jL L)) 3} tabS m d (cV L))
        ∗ ((shV).view.loc (VT d L) ↦{shareTokN (shareTok fullShare 16 (jL L)) 4} tabS m d (cV L))) := by
  have h : (shLoc d (cV L) ↦{shareTok fullShare 16 (jL L)} tabS m d (cV L) : sProp 𝕄)
      ⊣⊢ iprop((shLoc d (cV L) ↦{shareDrop (shareTok fullShare 16 (jL L)) 5} tabS m d (cV L))
          ∗ bigSep (Finset.range 5) fun i => shLoc d (cV L) ↦{shareTokN (shareTok fullShare 16 (jL L)) i} tabS m d (cV L)) :=
    Transfers.pointsTo_toks_range (ℓ := shLoc d (cV L)) (S := Finset.univ) (f := tabS m d (cV L)) _ 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

/-- What the index copy lands in the index scratch: the tile's slab of the index words, as the copy reads it. -/
def XI : Buf (Elt F) ((xV).view.loc (VT d L)) := ReadAs.same.apply ((iSlabK L).view.read (Elt F) (I3 m d))

omit [FloatOps F] in
theorem XI_apply (x : S200x128.Idx) : (XI m d L : S200x128.Idx → Elt F .i32) x = I3 m d ((iSlabK L).view.emb x) :=
  (View.read_apply _ _).trans (cast_eq _ _)

/-- Row i of the index scratch. -/
abbrev xRowSet (i : Fin 200) : Finset S200x128.Idx := ((xV).view.slice (S200x128.rowRect 0 i)).set
abbrev xRowPts (i : Fin 200) : sProp 𝕄 := (xV).view.loc (VT d L) ↦[xRowSet i]{fullShare} XI m d L

omit [FloatOps F] in
/-- The index scratch whole is its 200 rows. -/
theorem xPts_rows (f : Buf (Elt F) ((xV).view.loc (VT d L))) :
    ((xV).view.loc (VT d L) ↦{fullShare} f : sProp 𝕄) = bigSep Finset.univ fun i : Fin 200 => (xV).view.loc (VT d L) ↦[xRowSet i]{fullShare} f := by
  have h : ((xV).view.loc (VT d L) ↦[(xV).view.set]{fullShare} f : sProp 𝕄)
      = bigSep Finset.univ fun k : Fin (S200x128.size 0) => (xV).view.loc (VT d L) ↦[((xV).view.slice (S200x128.rowRect 0 k)).set]{fullShare} f :=
    pointsTo_rows (VT d L) (xV).view (0 : Fin 2) fullShare f
  rw [View.set_whole] at h
  exact h

/-- A row of the index scratch as a gather's offset list spells it: sliced at a row offset, squeezed. -/
abbrev xRowAt (row : Fin 2 → Nat) (hk : ∀ a, row a + S1x128.size a ≤ S200x128.size a) : Memref sig .scVector .vmem S128 .i32 :=
  ((xV).slice (Rect.unit (s := S200x128) row S1x128.size hk) (fun _ => rfl)).squeeze S128 squeezes_S1x128_S128

omit [FloatOps F] in
theorem rect_row (row : Fin 2 → Nat) (hk : ∀ a, row a + S1x128.size a ≤ S200x128.size a) (i : Fin 200) (h0 : row 0 = i.val) (h1 : row 1 = 0) :
    Rect.unit (s := S200x128) row S1x128.size hk = S200x128.rowRect 0 i := by
  unfold Shape.rowRect
  congr 1 <;> funext a
  · match a with
    | 0 => simp [h0]
    | 1 => simp [h1]
  · match a with
    | 0 => rfl
    | 1 => rfl

omit [FloatOps F] in
theorem set_xRowAt (row : Fin 2 → Nat) (hk) (i : Fin 200) (h0 : row 0 = i.val) (h1 : row 1 = 0) : (xRowAt row hk).view.set = xRowSet i := by
  show (((xV).view.slice (Rect.unit (s := S200x128) row S1x128.size hk)).reshape S128 squeezes_S1x128_S128.numel_eq).set = ((xV).view.slice (S200x128.rowRect 0 i)).set
  rw [View.set_reshape, View.set_slice, View.set_slice]
  exact congrArg (fun r : Rect S200x128 => r.set.map (xV).view.emb) (rect_row row hk i h0 h1)

omit [FloatOps F] in
theorem pts_xRowAt (row : Fin 2 → Nat) (hk) (i : Fin 200) (h0 : row 0 = i.val) (h1 : row 1 = 0) (f : Buf (Elt F) ((xV).view.loc (VT d L))) :
    ((xRowAt row hk).view.loc (VT d L) ↦[(xRowAt row hk).view.set]{fullShare} f : sProp 𝕄) = (xV).view.loc (VT d L) ↦[xRowSet i]{fullShare} f := by
  rw [set_xRowAt row hk i h0 h1]

/-- Every word of a row of the index scratch, at what the index copy landed, names a table row. -/
theorem inb_XI (hpre : PreOK m) (row : Fin 2 → Nat) (hk : ∀ a, row a + S1x128.size a ≤ S200x128.size a) :
    ∀ x, (View.read (Elt F) (xRowAt row hk).view (XI m d L) x).toNat < 45 := by
  intro x
  have e : View.read (Elt F) (xRowAt row hk).view (XI m d L) x
      = (XI m d L : S200x128.Idx → Elt F .i32) ((Rect.unit (s := S200x128) row S1x128.size hk).emb ((Shape.reshapeEquiv squeezes_S1x128_S128.numel_eq) x)) := by
    rw [View.read_apply]; rfl
  rw [e, XI_apply]
  exact I3_lt m hpre d _

omit [FloatOps F] in
theorem xRows3 : ((xV).view.loc (VT d L) ↦{fullShare} XI m d L : sProp 𝕄)
    = iprop(xRowPts m d L 0 ∗ xRowPts m d L 1 ∗ xRowPts m d L 2 ∗ bigSep (((Finset.univ.erase (0 : Fin 200)).erase 1).erase 2) (xRowPts m d L)) := by
  rw [xPts_rows, SparseCore.bigSep_erase' (Finset.mem_univ (0 : Fin 200)),
    SparseCore.bigSep_erase' (i := (1 : Fin 200)) (Finset.mem_erase.mpr ⟨by decide, Finset.mem_univ _⟩),
    SparseCore.bigSep_erase' (i := (2 : Fin 200)) (Finset.mem_erase.mpr ⟨by decide, Finset.mem_erase.mpr ⟨by decide, Finset.mem_univ _⟩⟩)]

omit [FloatOps F] in
theorem pts_xV (f : Buf (Elt F) ((VT d L).loc cc0_scratch1)) :
    ((xV).view.loc (VT d L) ↦{fullShare} f : sProp 𝕄) = (VT d L).loc cc0_scratch1 ↦{fullShare} f := rfl
omit [FloatOps F] in
theorem pts_b0V (f : Buf (Elt F) ((VT d L).loc cc0_scratch2)) :
    ((b0V).view.loc (VT d L) ↦{fullShare} f : sProp 𝕄) = (VT d L).loc cc0_scratch2 ↦{fullShare} f := rfl
omit [FloatOps F] in
theorem pts_b1V (f : Buf (Elt F) ((VT d L).loc cc0_scratch3)) :
    ((b1V).view.loc (VT d L) ↦{fullShare} f : sProp 𝕄) = (VT d L).loc cc0_scratch3 ↦{fullShare} f := rfl
omit [FloatOps F] in
theorem pts_b2V (f : Buf (Elt F) ((VT d L).loc cc0_scratch4)) :
    ((b2V).view.loc (VT d L) ↦{fullShare} f : sProp 𝕄) = (VT d L).loc cc0_scratch4 ↦{fullShare} f := rfl
omit [FloatOps F] in
theorem pts_b3V (f : Buf (Elt F) ((VT d L).loc cc0_scratch5)) :
    ((b3V).view.loc (VT d L) ↦{fullShare} f : sProp 𝕄) = (VT d L).loc cc0_scratch5 ↦{fullShare} f := rfl
omit [FloatOps F] in
theorem pts_b4V (f : Buf (Elt F) ((VT d L).loc cc0_scratch6)) :
    ((b4V).view.loc (VT d L) ↦{fullShare} f : sProp 𝕄) = (VT d L).loc cc0_scratch6 ↦{fullShare} f := rfl

/-! ## Pieces numbered by chunk: from a number on, below a number -/

omit [FloatOps F] in
theorem bigSep_from_take (Φ : Fin 200 → sProp 𝕄) (n : ℕ) (h : n < 200) :
    bigSep (Finset.univ.filter fun i : Fin 200 => n ≤ i.val) Φ
      = iprop(Φ ⟨n, h⟩ ∗ bigSep (Finset.univ.filter fun i : Fin 200 => n + 1 ≤ i.val) Φ) := by
  rw [← SparseCore.bigSep_insert' (s := Finset.univ.filter fun i : Fin 200 => n + 1 ≤ i.val) (i := (⟨n, h⟩ : Fin 200)) (by simp)]
  congr 1
  ext i
  simp only [Finset.mem_filter, Finset.mem_univ, true_and, Finset.mem_insert, Fin.ext_iff]
  omega

omit [FloatOps F] in
theorem bigSep_below_put (Φ : Fin 200 → sProp 𝕄) (n : ℕ) (h : n < 200) :
    bigSep (Finset.univ.filter fun i : Fin 200 => i.val < n + 1) Φ
      = iprop(Φ ⟨n, h⟩ ∗ bigSep (Finset.univ.filter fun i : Fin 200 => i.val < n) Φ) := by
  rw [← SparseCore.bigSep_insert' (s := Finset.univ.filter fun i : Fin 200 => i.val < n) (i := (⟨n, h⟩ : Fin 200)) (by simp)]
  congr 1
  ext i
  simp only [Finset.mem_filter, Finset.mem_univ, true_and, Finset.mem_insert, Fin.ext_iff]
  omega

omit [FloatOps F] in
theorem bigSep_from_zero (Φ : Fin 200 → sProp 𝕄) : bigSep (Finset.univ.filter fun i : Fin 200 => 0 ≤ i.val) Φ = bigSep Finset.univ Φ := by
  rw [show (Finset.univ.filter fun i : Fin 200 => 0 ≤ i.val) = Finset.univ from Finset.filter_true_of_mem fun i _ => Nat.zero_le _]
omit [FloatOps F] in
theorem bigSep_below_all (Φ : Fin 200 → sProp 𝕄) : bigSep (Finset.univ.filter fun i : Fin 200 => i.val < 200) Φ = bigSep Finset.univ Φ := by
  rw [show (Finset.univ.filter fun i : Fin 200 => i.val < 200) = Finset.univ from Finset.filter_true_of_mem fun i _ => i.isLt]
omit [FloatOps F] in
theorem bigSep_from_end (Φ : Fin 200 → sProp 𝕄) : bigSep (Finset.univ.filter fun i : Fin 200 => 200 ≤ i.val) Φ = (iprop(emp) : sProp 𝕄) := by
  rw [show (Finset.univ.filter fun i : Fin 200 => 200 ≤ i.val) = ∅ from Finset.filter_eq_empty_iff.mpr fun i _ => by omega, bigSep_empty]; rfl
omit [FloatOps F] in
theorem bigSep_below_zero (Φ : Fin 200 → sProp 𝕄) : bigSep (Finset.univ.filter fun i : Fin 200 => i.val < 0) Φ = (iprop(emp) : sProp 𝕄) := by
  rw [show (Finset.univ.filter fun i : Fin 200 => i.val < 0) = ∅ from Finset.filter_eq_empty_iff.mpr fun i _ => by omega, bigSep_empty]; rfl

/-! ## The contents -/

/-- What the gather of chunk i leaves in its slot: at row r, column q, column q of the table row that word (w, i, r) of the index
    array names. -/
def GC (i : Fin 200) : S128x128.Idx → Elt F .f32 :=
  fun y => (m (tLoc d) : S45x128.Idx → Elt F .f32) (ValueIdx.ix2 (rowIx (I3 m d (ValueIdx.ix3 (wL L) i (y 0)) : BitVec 32)) (y 1))

/-- The gathers' source as the body slices it: the shared copy, whole. -/
abbrev shS : Memref sig .scVector .shared S45x128 .f32 :=
  (shV).slice (Rect.unit (s := S45x128) ![0, 0] S45x128.size inb_S45x128_S45x128_0_0) (fun _ => rfl)

/-- The tile's read token of the shared copy, and the finer token gather cell k lends from. -/
abbrev qT (L : grid0.Coords) : PosShare TreeShare := shareTok fullShare 16 (jL L)
abbrev tokPts (k : ℕ) : sProp 𝕄 := (shV).view.loc (VT d L) ↦{shareTokN (qT L) k} tabS m d (cV L)
/-- What stays with the tile of cell k's token while a gather on the cell holds the rest. -/
abbrev tokRest (k : ℕ) : sProp 𝕄 := (shV).view.loc (VT d L) ↦[Finset.univ \ (shS).view.set]{shareTokN (qT L) k} tabS m d (cV L)

/-- Chunk i of the tile's rows of the output, at contents f. -/
abbrev oChPts (f : Buf (Elt F) (oLoc d)) (i : Fin 200) : sProp 𝕄 := oLoc d ↦[oCh (chunkNo (wL L) i)]{fullShare} f

/-- The amount of one gather and of one store: 128 rows of 128 words of 32 bits. -/
abbrev NX : ℕ := 524288

/-! ## The flights: a gather of chunk i into a slot, a store of chunk i out of it -/

/-- Chunk i is being gathered into slot 0: the slot at the gathered rows, row i of the index scratch and the cell's part of the
    read token come back at the wait. -/
def gFl0 (i : Fin 200) : sProp 𝕄 :=
  Transfers.Flight countersEmb (VT d L) (SemLoc.dma (csem 0)) (default : HIx 1) NX
    iprop((((b0V).view.loc (VT d L) ↦{fullShare} (GC m d L i : Buf (Elt F) ((b0V).view.loc (VT d L)))) ∗ xRowPts m d L i)
      ∗ ((shV).view.loc (VT d L) ↦[(shS).view.set]{shareTokN (qT L) 0} tabS m d (cV L)))
/-- Chunk i is being stored out of slot 0: its rows of the output at the looked-up rows and the slot come back at the wait. -/
def sFl0 (i : Fin 200) : sProp 𝕄 :=
  Transfers.Flight countersEmb (VT d L) (SemLoc.dma (csem 5)) (default : HIx 1) NX
    iprop(((oV).view.loc (VT d L) ↦[oCh (chunkNo (wL L) i)]{fullShare} Ok m d)
      ∗ ((b0V).view.loc (VT d L) ↦[(b0V).view.set]{fullShare} (GC m d L i : Buf (Elt F) ((b0V).view.loc (VT d L)))))

/-- Chunk i is being gathered into slot 1: the slot at the gathered rows, row i of the index scratch and the cell's part of the
    read token come back at the wait. -/
def gFl1 (i : Fin 200) : sProp 𝕄 :=
  Transfers.Flight countersEmb (VT d L) (SemLoc.dma (csem 1)) (default : HIx 1) NX
    iprop((((b1V).view.loc (VT d L) ↦{fullShare} (GC m d L i : Buf (Elt F) ((b1V).view.loc (VT d L)))) ∗ xRowPts m d L i)
      ∗ ((shV).view.loc (VT d L) ↦[(shS).view.set]{shareTokN (qT L) 1} tabS m d (cV L)))
/-- Chunk i is being stored out of slot 1: its rows of the output at the looked-up rows and the slot come back at the wait. -/
def sFl1 (i : Fin 200) : sProp 𝕄 :=
  Transfers.Flight countersEmb (VT d L) (SemLoc.dma (csem 6)) (default : HIx 1) NX
    iprop(((oV).view.loc (VT d L) ↦[oCh (chunkNo (wL L) i)]{fullShare} Ok m d)
      ∗ ((b1V).view.loc (VT d L) ↦[(b1V).view.set]{fullShare} (GC m d L i : Buf (Elt F) ((b1V).view.loc (VT d L)))))

/-- Chunk i is being gathered into slot 2: the slot at the gathered rows, row i of the index scratch and the cell's part of the
    read token come back at the wait. -/
def gFl2 (i : Fin 200) : sProp 𝕄 :=
  Transfers.Flight countersEmb (VT d L) (SemLoc.dma (csem 2)) (default : HIx 1) NX
    iprop((((b2V).view.loc (VT d L) ↦{fullShare} (GC m d L i : Buf (Elt F) ((b2V).view.loc (VT d L)))) ∗ xRowPts m d L i)
      ∗ ((shV).view.loc (VT d L) ↦[(shS).view.set]{shareTokN (qT L) 2} tabS m d (cV L)))
/-- Chunk i is being stored out of slot 2: its rows of the output at the looked-up rows and the slot come back at the wait. -/
def sFl2 (i : Fin 200) : sProp 𝕄 :=
  Transfers.Flight countersEmb (VT d L) (SemLoc.dma (csem 7)) (default : HIx 1) NX
    iprop(((oV).view.loc (VT d L) ↦[oCh (chunkNo (wL L) i)]{fullShare} Ok m d)
      ∗ ((b2V).view.loc (VT d L) ↦[(b2V).view.set]{fullShare} (GC m d L i : Buf (Elt F) ((b2V).view.loc (VT d L)))))

/-- Chunk i is being gathered into slot 3: the slot at the gathered rows, row i of the index scratch and the cell's part of the
    read token come back at the wait. -/
def gFl3 (i : Fin 200) : sProp 𝕄 :=
  Transfers.Flight countersEmb (VT d L) (SemLoc.dma (csem 3)) (default : HIx 1) NX
    iprop((((b3V).view.loc (VT d L) ↦{fullShare} (GC m d L i : Buf (Elt F) ((b3V).view.loc (VT d L)))) ∗ xRowPts m d L i)
      ∗ ((shV).view.loc (VT d L) ↦[(shS).view.set]{shareTokN (qT L) 3} tabS m d (cV L)))
/-- Chunk i is being stored out of slot 3: its rows of the output at the looked-up rows and the slot come back at the wait. -/
def sFl3 (i : Fin 200) : sProp 𝕄 :=
  Transfers.Flight countersEmb (VT d L) (SemLoc.dma (csem 8)) (default : HIx 1) NX
    iprop(((oV).view.loc (VT d L) ↦[oCh (chunkNo (wL L) i)]{fullShare} Ok m d)
      ∗ ((b3V).view.loc (VT d L) ↦[(b3V).view.set]{fullShare} (GC m d L i : Buf (Elt F) ((b3V).view.loc (VT d L)))))

/-- Chunk i is being gathered into slot 4: the slot at the gathered rows, row i of the index scratch and the cell's part of the
    read token come back at the wait. -/
def gFl4 (i : Fin 200) : sProp 𝕄 :=
  Transfers.Flight countersEmb (VT d L) (SemLoc.dma (csem 4)) (default : HIx 1) NX
    iprop((((b4V).view.loc (VT d L) ↦{fullShare} (GC m d L i : Buf (Elt F) ((b4V).view.loc (VT d L)))) ∗ xRowPts m d L i)
      ∗ ((shV).view.loc (VT d L) ↦[(shS).view.set]{shareTokN (qT L) 4} tabS m d (cV L)))
/-- Chunk i is being stored out of slot 4: its rows of the output at the looked-up rows and the slot come back at the wait. -/
def sFl4 (i : Fin 200) : sProp 𝕄 :=
  Transfers.Flight countersEmb (VT d L) (SemLoc.dma (csem 9)) (default : HIx 1) NX
    iprop(((oV).view.loc (VT d L) ↦[oCh (chunkNo (wL L) i)]{fullShare} Ok m d)
      ∗ ((b4V).view.loc (VT d L) ↦[(b4V).view.set]{fullShare} (GC m d L i : Buf (Elt F) ((b4V).view.loc (VT d L)))))

/-! ## The loop's invariant -/

/-- Chunk number 5 j + r of the tile's 200, for j < 40 and r < 5. -/
def ch (j r : ℕ) (hj : j < 40) (hr : r < 5) : Fin 200 := ⟨5 * j + r, by omega⟩

/-- What tile 0 alone carries through the task: its SparseCore's half share of the table and the rest of the shared copy's share. -/
abbrev tile0Pts : sProp 𝕄 :=
  if (jL L).val = 0 then iprop(tabPts m d (cL L) ∗ shRestPts m d (Fin.cast nSC_eq.symm (cL L))) else iprop(emp)

/-- What every trip carries unchanged in form: the waits' evidence, the index slab, what the tile keeps of its read token, the
    rows of the index scratch not yet gathered from (from 5 j + 3 on) and those given back (below 5 j), the chunks of the output
    finished (below c) and untouched (from e on), the two scoped copy cells, the other scoped buffers and cells, tile 0's extras, what the tile owes. -/
def Common (O : CellTallies nD τ sig (HIx 1)) (W : Waits sig (HIx 1)) (a b c e : ℕ) : sProp 𝕄 :=
  iprop(Transfers.MayWaits (VT d L) (default : HIx 1) O
    ∗ ((iSlabK L).view.loc (VT d L) ↦[(iSlabK L).view.set]{fullShare} I3 m d)
    ∗ ((shV).view.loc (VT d L) ↦{shareDrop (qT L) 5} tabS m d (cV L))
    ∗ bigSep (Finset.univ.filter fun i : Fin 200 => a ≤ i.val) (xRowPts m d L)
    ∗ bigSep (Finset.univ.filter fun i : Fin 200 => i.val < b) (xRowPts m d L)
    ∗ bigSep (Finset.univ.filter fun i : Fin 200 => i.val < c) (oChPts d L (Ok m d))
    ∗ bigSep (Finset.univ.filter fun i : Fin 200 => e ≤ i.val) (oChPts d L (m (oLoc d)))
    ∗ semVal (VT d L, SemLoc.dma (csem 10)) 0 ∗ semVal (VT d L, SemLoc.dma (csem 11)) 0
    ∗ (bigSep ((ownRefs (τ := τ) (.scVector (cV L) (jV L))) \ Finset.univ.image (vdev (cV L) (jV L))) fun b => iprop(∃ f, ((d, b) : Loc nD τ sig) ↦{fullShare} f))
    ∗ (bigSep ((ownCells (VT d L)) \ Finset.univ.image (dcell d (cV L) (jV L))) fun g => semVal g 0)
    ∗ tile0Pts m d L
    ∗ ∃ W', ⌜∀ p ∈ W', p ∈ W ∨ p.2 = none ∨ p.2 = some (0 : Fin 1)⌝ ∗ owes (VT d L) O W')

/-- At the head of trip j < 40: chunks 5 j, 5 j + 1, 5 j + 2 are being gathered into slots 0, 1, 2 (each flight beside what the
    tile keeps of its cell's token); slots 3, 4 are idle before the first trip and store chunks 5 j − 2, 5 j − 1 afterwards; the
    other cells are at zero and cells 3, 4 have their tokens whole. -/
def Head (O : CellTallies nD τ sig (HIx 1)) (W : Waits sig (HIx 1)) (j : ℕ) (hj : j < 40) : sProp 𝕄 :=
  iprop(Common m d L O W (5 * j + 3) (5 * j) (5 * j - 2) (5 * j)
    ∗ (gFl0 m d L (ch j 0 hj (by decide)) ∗ tokRest m d L 0) ∗ (gFl1 m d L (ch j 1 hj (by decide)) ∗ tokRest m d L 1)
    ∗ (gFl2 m d L (ch j 2 hj (by decide)) ∗ tokRest m d L 2)
    ∗ tokPts m d L 3 ∗ tokPts m d L 4
    ∗ semVal (VT d L, SemLoc.dma (csem 3)) 0 ∗ semVal (VT d L, SemLoc.dma (csem 4)) 0
    ∗ semVal (VT d L, SemLoc.dma (csem 5)) 0 ∗ semVal (VT d L, SemLoc.dma (csem 6)) 0 ∗ semVal (VT d L, SemLoc.dma (csem 7)) 0
    ∗ (if h0 : j = 0 then
        iprop((∃ f, (b3V).view.loc (VT d L) ↦{fullShare} f) ∗ (∃ f, (b4V).view.loc (VT d L) ↦{fullShare} f)
          ∗ semVal (VT d L, SemLoc.dma (csem 8)) 0 ∗ semVal (VT d L, SemLoc.dma (csem 9)) 0)
      else iprop(sFl3 m d L ⟨5 * j - 2, by omega⟩ ∗ sFl4 m d L ⟨5 * j - 1, by omega⟩)))

/-- After the last trip: chunks 195 … 199 are being stored out of slots 0 … 4, no gather is out, every gather cell is at zero
    with its token whole, every row of the index scratch is back, chunks below 195 are finished. -/
def Exit (O : CellTallies nD τ sig (HIx 1)) (W : Waits sig (HIx 1)) : sProp 𝕄 :=
  iprop(Common m d L O W 200 200 195 200
    ∗ sFl0 m d L ⟨195, by decide⟩ ∗ sFl1 m d L ⟨196, by decide⟩ ∗ sFl2 m d L ⟨197, by decide⟩
    ∗ sFl3 m d L ⟨198, by decide⟩ ∗ sFl4 m d L ⟨199, by decide⟩
    ∗ tokPts m d L 0 ∗ tokPts m d L 1 ∗ tokPts m d L 2 ∗ tokPts m d L 3 ∗ tokPts m d L 4
    ∗ semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

/-- The loop's invariant: before trip j. -/
def Inv (O : CellTallies nD τ sig (HIx 1)) (W : Waits sig (HIx 1)) (j : ℕ) (_ : Unit) : sProp 𝕄 :=
  if hj : j < 40 then Head m d L O W j hj else Exit m d L O W

/-- After the five last waits: every chunk finished, every slot idle, every cell at zero, every token whole. -/
def Done (O : CellTallies nD τ sig (HIx 1)) (W : Waits sig (HIx 1)) : sProp 𝕄 :=
  iprop(Common m d L O W 200 200 200 200
    ∗ (∃ f, (b0V).view.loc (VT d L) ↦{fullShare} f) ∗ (∃ f, (b1V).view.loc (VT d L) ↦{fullShare} f) ∗ (∃ f, (b2V).view.loc (VT d L) ↦{fullShare} f)
    ∗ (∃ f, (b3V).view.loc (VT d L) ↦{fullShare} f) ∗ (∃ f, (b4V).view.loc (VT d L) ↦{fullShare} f)
    ∗ tokPts m d L 0 ∗ tokPts m d L 1 ∗ tokPts m d L 2 ∗ tokPts m d L 3 ∗ tokPts m d L 4
    ∗ semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0)

/-! ## The loop's region -/

/-- The trip's region as the loop rule names it: the loop's body at trip k. -/
abbrev tripProg (k : Fin k0_t1_loop.trips) : Prog (TpuEff nD τ sig (Elt F) Λ₀ (.scVector ((L 0).castLE hcore0) ((L 1).castLE hsub0))) Unit :=
  k0_t1_body L tV (Memref.isWhole_whole _) iV (Memref.isWhole_whole _) oV (Memref.isWhole_whole _)
    shV (Memref.isWhole_whole _) xV (Memref.isWhole_whole _) b0V (Memref.isWhole_whole _) b1V (Memref.isWhole_whole _)
    b2V (Memref.isWhole_whole _) b3V (Memref.isWhole_whole _) b4V (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 (Scalar.muli (Scalar.addi (Scalar.muli (BitVec.ofNat 32 (L 1).val) 2#32) (BitVec.ofNat 32 (L 0).val)) 25600#32) 0#32 k ()

end Tile
end Cert.Proof.EmbI
end
-- ==== Proof.IBodyEnd.lean ====
/-
  The end of one tile's task: once the five last stores have been waited for, everything the task was handed is
  back in the form it was handed in. The index slab is the slab; the 200 chunks of the output, each at the
  looked-up rows, are the worker's rows of the output; what the tile kept of its read token of the shared copy
  and the five finer tokens of the gather cells are that read token again; the 200 rows of the index scratch are
  the scratch whole; the five slots, the twelve transfer cells at zero and the other scoped storage are the
  tile's scoped buffers and cells.
-/
import proofs.«203315_g78847009620241_cont_9to1c4b_359_24_alg».proof.Proof.IBodyInv

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

/-- After the five last waits the task's resources are what it hands back, its scoped storage as it found it, and what it owes. -/
theorem regroup (hF : (K (F := F)).Facts) (O : CellTallies nD τ sig (HIx 1)) (W : Waits sig (HIx 1)) :
    Done m d L O W ⊢ iprop(tdRes m d (cL L) (jL L) ∗ scopedBufs (VT d L) ∗ scopedSems0 (VT d L)
      ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold Done Common tdRes
  rw [bigSep_from_end, bigSep_from_end, bigSep_below_all, bigSep_below_all]
  iintro ⟨⟨-, Hi, Hrest, -, Hx, Ho, -, Hs10, Hs11, Hbufs, Hcells, Htile0, HW⟩, Hb0, Hb1, Hb2, Hb3, Hb4, Ht0, Ht1, Ht2, Ht3, Ht4,
    Hs0, Hs1, Hs2, Hs3, Hs4, Hs5, Hs6, Hs7, Hs8, Hs9⟩
  -- what the task hands back
  isplitl [Hi Ho Hrest Ht0 Ht1 Ht2 Ht3 Ht4 Htile0]
  · isplitl [Hi]
    · iapply (Entails.of_eq (pts_iSlabK (F := F) d L (I3 m d))); iexact Hi
    isplitl [Ho]; · iexact Ho
    isplitl [Hrest Ht0 Ht1 Ht2 Ht3 Ht4]
    · iapply (shToks m d L).2
      isplitl [Hrest]; · iexact Hrest
      isplitl [Ht0]; · iexact Ht0
      isplitl [Ht1]; · iexact Ht1
      isplitl [Ht2]; · iexact Ht2
      isplitl [Ht3]; · iexact Ht3
      iexact Ht4
    iexact Htile0
  -- the scoped buffers: the index scratch from its rows, the five slots, the others
  isplitl [Hx Hb0 Hb1 Hb2 Hb3 Hb4 Hbufs]
  · isplitl [Hx Hb0 Hb1 Hb2 Hb3 Hb4]
    · isplitl [Hx]
      · ihave Hx' := (Entails.of_eq (xPts_rows (F := F) d L (XI m d L)).symm) $$ Hx
        iexists (XI m d L); iexact Hx'
      isplitl [Hb0]; · icases Hb0 with ⟨%f, Hb0⟩; iexists f; iexact Hb0
      isplitl [Hb1]; · icases Hb1 with ⟨%f, Hb1⟩; iexists f; iexact Hb1
      isplitl [Hb2]; · icases Hb2 with ⟨%f, Hb2⟩; iexists f; iexact Hb2
      isplitl [Hb3]; · icases Hb3 with ⟨%f, Hb3⟩; iexists f; iexact Hb3
      icases Hb4 with ⟨%f, Hb4⟩; iexists f; iexact Hb4
    iexact Hbufs
  -- the scoped cells, all at zero
  isplitl [Hs0 Hs1 Hs2 Hs3 Hs4 Hs5 Hs6 Hs7 Hs8 Hs9 Hs10 Hs11 Hcells]
  · isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact Hcells
  iexact HW

end Tile
end Cert.Proof.EmbI
end
-- ==== Proof.IData.lean ====
/-
  The pure data facts the tile's task rests on: which array element each of its views names, and that the
  contents its transfers leave are the looked-up rows.

  Tile (c, s) has the number w = 2 s + c. Its index scratch holds slab w of the index words: word (i, k) of the
  scratch is word (w, i, k) of the [32, 200, 128] arrangement. Row i of the scratch, read as a gather's offset
  list, is the 128 words (w, i, 0 … 127). The gather of chunk i therefore leaves, at row r and column q of
  its slot, column q of the table row that word (w, i, r) names: the block called GC i. And row
  128 (200 w + i) + r of the output is flat position 25600 w + 128 i + r, which is word (w, i, r) again
  (128 i + r is below 25600), so a 128-row piece of the output at row offset 128 (200 w + i) that holds GC i
  holds the looked-up rows there.
-/
import proofs.«203315_g78847009620241_cont_9to1c4b_359_24_alg».proof.Proof.IBodyInv

noncomputable section

namespace Cert.Proof.EmbI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.ValueIdx (ix1 ix2 ix3 eq_ix1 eq_ix2 eq_ix3)
open Cert.Proof.EmbSpec (rowIx rowIx_of_lt rows lookup i3of)

variable {F : FTy → Type}

local notation "𝕄" => MT nD τ sig (HIx 1) (Elt F) ℕ UU ℕ

local notation "oV" => (Memref.whole Cert.KernelIdeal.main_v1_scv : Memref Cert.KernelIdeal.sig Kind.scVector Space.hbm Cert.KernelIdeal.S819200x128 EltTy.f32)

variable (m : (ℓ : Loc nD τ sig) → Buf (Elt F) ℓ)

section Tile

variable (d : Dev nD) (L : grid0.Coords)

/-! ## Which element each view names -/

/-- Word (i, k) of the tile's slab is word (w, i, k) of the index array. -/
theorem emb_iSlabK (i : Fin 200) (k : Fin 128) :
    (iSlabK L).view.emb (ix2 i k : S200x128.Idx) = (ix3 (wL L) i k : S32x200x128.Idx) := by
  have hz : Shape.reshapeEquiv squeezes_S1x200x128_S200x128.numel_eq (ix2 i k : S200x128.Idx)
      = (Fin.cons ⟨0, Nat.one_pos⟩ (ix2 i k : S200x128.Idx) : S1x200x128.Idx) :=
    Shape.reshapeEquiv_cons_one (n := 2) (d := ![200, 128]) _ _
  funext b
  refine Fin.ext ?_
  show (k0_off1 L) b + 1 * ((Shape.reshapeEquiv squeezes_S1x200x128_S200x128.numel_eq (ix2 i k : S200x128.Idx)) b).val = _
  rw [hz, k0_off1_eq]
  match b with
  | ⟨0, _⟩ => show 2 * (L 1).val + (L 0).val + 1 * 0 = 2 * (L 1).val + (L 0).val; omega
  | ⟨1, _⟩ => show 0 + 1 * i.val = i.val; omega
  | ⟨2, _⟩ => show 0 + 1 * k.val = k.val; omega

/-- Entry k of row i of the index scratch, read as an offset list, is word (i, k) of the scratch. -/
theorem emb_xRowAt (row : Fin 2 → Nat) (hk : ∀ a, row a + S1x128.size a ≤ S200x128.size a) (i : Fin 200)
    (h0 : row 0 = i.val) (h1 : row 1 = 0) (k : Fin 128) :
    (xRowAt row hk).view.emb (ix1 k : S128.Idx) = (ix2 i k : S200x128.Idx) := by
  have hz : Shape.reshapeEquiv squeezes_S1x128_S128.numel_eq (ix1 k : S128.Idx)
      = (Fin.cons ⟨0, Nat.one_pos⟩ (ix1 k : S128.Idx) : S1x128.Idx) :=
    Shape.reshapeEquiv_cons_one (n := 1) (d := ![128]) _ _
  funext b
  refine Fin.ext ?_
  show row b + 1 * ((Shape.reshapeEquiv squeezes_S1x128_S128.numel_eq (ix1 k : S128.Idx)) b).val = _
  rw [hz]
  match b with
  | ⟨0, _⟩ => show row 0 + 1 * 0 = i.val; omega
  | ⟨1, _⟩ => show row 1 + 1 * k.val = k.val; omega

/-- So the offset list of row i reads, at entry k, word (w, i, k) of the index array. -/
theorem read_xRowAt (row : Fin 2 → Nat) (hk : ∀ a, row a + S1x128.size a ≤ S200x128.size a) (i : Fin 200)
    (h0 : row 0 = i.val) (h1 : row 1 = 0) (k : Fin 128) :
    (xRowAt row hk).view.read (Elt F) (XI m d L) (ix1 k : S128.Idx) = (I3 m d (ix3 (wL L) i k : S32x200x128.Idx) : BitVec 32) := by
  have e : (xRowAt row hk).view.read (Elt F) (XI m d L) (ix1 k : S128.Idx)
      = (XI m d L : S200x128.Idx → Elt F .i32) ((xRowAt row hk).view.emb (ix1 k : S128.Idx)) := by
    rw [View.read_apply]; rfl
  rw [e, emb_xRowAt row hk i h0 h1 k, XI_apply, emb_iSlabK]

/-- The shared copy, sliced whole, reads as its contents. -/
theorem read_shS (c : Fin τ.nSC) (x : S45x128.Idx) :
    (shS).view.read (Elt F) (tabS m d c) x = (m (tLoc d) : S45x128.Idx → Elt F .f32) x := by
  have hx : (shS).view.emb x = x := by
    funext b
    refine Fin.ext ?_
    show (![0, 0] : Fin 2 → Nat) b + 1 * (x b).val = (x b).val
    match b with
    | ⟨0, _⟩ => show 0 + 1 * (x 0).val = (x 0).val; omega
    | ⟨1, _⟩ => show 0 + 1 * (x 1).val = (x 1).val; omega
  rw [View.read_apply, hx]
  rfl

/-! ## The output's rows -/

/-- Flat position 128 (200 w + i) + r is word (w, i, r). -/
theorem i3of_chunk (w : Fin 32) (i : Fin 200) (r : Fin 128) (b : Fin 819200) (hb : b.val = 128 * (200 * w.val + i.val) + r.val) :
    i3of b = ix3 w i r := by
  have hw := w.isLt; have hi := i.isLt; have hr := r.isLt
  funext a
  refine Fin.ext ?_
  match a with
  | ⟨0, _⟩ => show b.val / 25600 = w.val; omega
  | ⟨1, _⟩ => show b.val % 25600 / 128 = i.val; omega
  | ⟨2, _⟩ => show b.val % 128 = r.val; omega

/-- A 128-row piece of the output at row offset 128 (200 w + i): the looked-up rows there are the block GC i. -/
theorem Ok_at (i : Fin 200) (off : Fin 2 → Nat) (h : ∀ a, off a + S128x128.size a ≤ S819200x128.size a)
    (h0 : off 0 = 128 * (chunkNo (wL L) i).val) (h1 : off 1 = 0) (y : S128x128.Idx) :
    (Ok m d : S819200x128.Idx → Elt F .f32) ((Rect.unit (s := S819200x128) off S128x128.size h).emb y) = GC m d L i y := by
  obtain ⟨r, q, rfl⟩ : ∃ (r q : Fin 128), y = ix2 r q := ⟨y 0, y 1, eq_ix2 y⟩
  have hr := r.isLt; have hq := q.isLt; have hi := i.isLt; have hw := (wL L).isLt
  have hbv : 128 * (200 * (wL L).val + i.val) + r.val < 819200 := by omega
  have hE : (Rect.unit (s := S819200x128) off S128x128.size h).emb (ix2 r q)
      = (ix2 (⟨128 * (200 * (wL L).val + i.val) + r.val, hbv⟩ : Fin 819200) q : S819200x128.Idx) := by
    funext a
    refine Fin.ext ?_
    match a with
    | ⟨0, _⟩ => show off 0 + 1 * r.val = 128 * (200 * (wL L).val + i.val) + r.val; rw [h0]; show 128 * (200 * (wL L).val + i.val) + 1 * r.val = _; omega
    | ⟨1, _⟩ => show off 1 + 1 * q.val = q.val; rw [h1]; omega
  rw [hE]
  show (m (tLoc d) : S45x128.Idx → Elt F .f32) (ix2 (rowIx (I3 m d (i3of (⟨128 * (200 * (wL L).val + i.val) + r.val, hbv⟩ : Fin 819200)) : BitVec 32)) q)
    = (m (tLoc d) : S45x128.Idx → Elt F .f32) (ix2 (rowIx (I3 m d (ix3 (wL L) i r) : BitVec 32)) q)
  rw [i3of_chunk (wL L) i r _ rfl]

/-! ## A chunk of the output after its store -/

/-- A 128-row piece of the output as a store names it: sliced at a row offset. -/
abbrev oChAt (off : Fin 2 → Nat) (h : ∀ a, off a + S128x128.size a ≤ S819200x128.size a) : Memref sig .scVector .hbm S128x128 .f32 :=
  (oV).slice (Rect.unit (s := S819200x128) off S128x128.size h) (fun _ => rfl)

/-- The piece a store of chunk i wrote whole with the block GC i, held by its own elements, is chunk i of the
    tile's rows of the output at the looked-up rows: on the piece's elements the written contents and the
    looked-up rows agree. -/
theorem och_of_exec (i : Fin 200) (off : Fin 2 → Nat) (h : ∀ a, off a + S128x128.size a ≤ S819200x128.size a)
    (e : Rect.unit (s := S819200x128) off S128x128.size h = ochunk (chunkNo (wL L) i)) (f0 : Buf (Elt F) (oLoc d))
    (p : S128x128.Idx → Elt F .f32) (hp : p = ReadAs.same.apply (GC m d L i)) :
    ((oChAt off h).view.loc (VT d L) ↦[(oChAt off h).view.set]{fullShare}
        (oChAt off h).view.writes (Elt F) f0 [⟨Rect.whole S128x128, p⟩] : sProp 𝕄) = oChPts d L (Ok m d) i := by
  subst hp
  have h0 : off 0 = 128 * (chunkNo (wL L) i).val := by
    have e0 : off 0 = (chunkNo (wL L) i).val * 128 := congrArg (fun r : Rect S819200x128 => r.off 0) e
    omega
  have h1 : off 1 = 0 := by
    have e1 : off 1 = 0 * 128 := congrArg (fun r : Rect S819200x128 => r.off 1) e
    omega
  have hset : (oChAt off h).view.set = oCh (chunkNo (wL L) i) := by
    show ((oV).view.slice (Rect.unit (s := S819200x128) off S128x128.size h)).set = ((oV).view.slice (ochunk (chunkNo (wL L) i))).set
    rw [View.set_slice, View.set_slice]
    exact congrArg (fun r : Rect S819200x128 => r.set.map (oV).view.emb) e
  have hcongr : ((oChAt off h).view.loc (VT d L) ↦[(oChAt off h).view.set]{fullShare}
        (oChAt off h).view.writes (Elt F) f0 [⟨Rect.whole S128x128, ReadAs.same.apply (GC m d L i)⟩] : sProp 𝕄)
      = ((oChAt off h).view.loc (VT d L) ↦[(oChAt off h).view.set]{fullShare} (Ok m d : Buf (Elt F) ((oChAt off h).view.loc (VT d L)))) := by
    refine pointsTo_congr fun x hx => ?_
    obtain ⟨y, -, rfl⟩ := Finset.mem_map.mp hx
    have hr := congrFun (View.read_writes_whole (oChAt off h).view f0 (ReadAs.same.apply (GC m d L i))) y
    rw [View.read_apply] at hr
    exact ((cast_eq _ _).symm.trans hr).trans (Ok_at m d L i off h h0 h1 y).symm
  rw [hcongr, hset]

/-! ## The gather's payload -/

/-- The gather's payload over row i's words, at the table's contents, is the block GC i. -/
theorem gather_GC (i : Fin 200) (row : Fin 2 → Nat) (hk : ∀ a, row a + S1x128.size a ≤ S200x128.size a)
    (h0 : row 0 = i.val) (h1 : row 1 = 0) (hn : S128.numel = S128x128.size gathers_S45x128_S128x128.axis')
    (hin : ∀ x, ((xRowAt row hk).view.read (Elt F) (XI m d L) x).toNat < S45x128.size gathers_S45x128_S128x128.axis) :
    SparseCore.gatherPayload gathers_S45x128_S128x128 ((shS).view.read (Elt F) (tabS m d (cV L)))
      (SparseCore.rows ((xRowAt row hk).view.read (Elt F) (XI m d L)) hn hin) = GC m d L i := by
  funext y
  obtain ⟨r, q, rfl⟩ : ∃ (r q : Fin 128), y = ix2 r q := ⟨y 0, y 1, eq_ix2 y⟩
  -- the entry of the offset list that row r of the destination reads
  have hsym : S128.rowMajor.symm ((r : Fin (S128x128.size gathers_S45x128_S128x128.axis')).cast hn.symm) = (ix1 r : S128.Idx) := by
    rw [Equiv.symm_apply_eq]
    refine Fin.ext ?_
    rw [Shape.rowMajor_val_one]
    rfl
  have hword := read_xRowAt m d L row hk i h0 h1 r
  have hlt : (I3 m d (ix3 (wL L) i r : S32x200x128.Idx) : BitVec 32).toNat < 45 := by
    have := hin (ix1 r : S128.Idx)
    rw [hword] at this
    exact this
  unfold SparseCore.gatherPayload GC
  rw [read_shS]
  refine congrArg (m (tLoc d) : S45x128.Idx → Elt F .f32) ?_
  funext b
  refine Fin.ext ?_
  match b with
  | ⟨0, _⟩ =>
    show ((SparseCore.rows ((xRowAt row hk).view.read (Elt F) (XI m d L)) hn hin) r).val = (rowIx (I3 m d (ix3 (wL L) i r) : BitVec 32)).val
    rw [rowIx_of_lt hlt]
    show ((xRowAt row hk).view.read (Elt F) (XI m d L) (S128.rowMajor.symm ((r : Fin (S128x128.size gathers_S45x128_S128x128.axis')).cast hn.symm))).toNat = _
    rw [hsym, hword]
  | ⟨1, _⟩ => rfl

end Tile
end Cert.Proof.EmbI
end
-- ==== Proof.IBodyTrip.lean ====
/-
  One trip of the loop, between the first and the last: from the invariant before trip k to the invariant before
  trip k + 1 (0 < k < 39).

  In trip k, for r = 0 … 4 in turn: the gather of chunk 5 k + r into slot r is waited for and the slot is stored to
  the chunk's rows of the output; then slot r + 3 (mod 5) is made free — the store of the chunk it held five chunks
  earlier is waited for — and chunk 5 k + r + 3 is gathered into it. So the trip waits the gathers of chunks
  5 k … 5 k + 4, issues the stores of the same chunks, waits the stores of chunks 5 k − 2 … 5 k + 2 and issues
  the gathers of chunks 5 k + 3 … 5 k + 7.

  The data. A gather of row i of the index scratch leaves in its slot the block GC i (the table rows those words
  name); a store of a slot at GC i writes, on chunk i of the tile's rows, exactly the looked-up rows. Both are the
  data module's lemmas; here they turn each flight, as it is issued, into the invariant's flight of the same chunk.
  The rest is bookkeeping of the pieces numbered by chunk: five rows of the index scratch come back, five chunks of
  the output are finished.
-/
import proofs.«203315_g78847009620241_cont_9to1c4b_359_24_alg».proof.Proof.IData

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

/-! ## The pieces in the body's spelling -/

omit [FloatOps F] in
theorem set_oChAt (off : Fin 2 → Nat) (h) (i : Fin 200) (e : Rect.unit (s := S819200x128) off S128x128.size h = ochunk (chunkNo (wL L) i)) :
    (oChAt off h).view.set = oCh (chunkNo (wL L) i) := by
  show ((oV).view.slice (Rect.unit (s := S819200x128) off S128x128.size h)).set = ((oV).view.slice (ochunk (chunkNo (wL L) i))).set
  rw [View.set_slice, View.set_slice]
  exact congrArg (fun r : Rect S819200x128 => r.set.map (oV).view.emb) e

omit [FloatOps F] in
theorem pts_oChAt (off : Fin 2 → Nat) (h) (i : Fin 200) (e : Rect.unit (s := S819200x128) off S128x128.size h = ochunk (chunkNo (wL L) i)) (f : Buf (Elt F) (oLoc d)) :
    ((oChAt off h).view.loc (VT d L) ↦[(oChAt off h).view.set]{fullShare} f : sProp 𝕄) = oChPts d L f i := by
  rw [set_oChAt L off h i e]

omit [FloatOps F] in
/-- A whole buffer written whole holds what was written. -/
theorem writes_whole (r : Ref sig .scVector) (f x : r.ty.Contents (Elt F)) :
    (Memref.whole r : Memref sig .scVector r.space r.ty.shape r.ty.elt).view.writes (Elt F) f [⟨Rect.whole r.ty.shape, x⟩] = x :=
  View.read_writes_whole (View.whole r) f x

omit [FloatOps F] in
theorem from_take5 (Φ : Fin 200 → sProp 𝕄) (n : ℕ) (h : n + 4 < 200) :
    bigSep (Finset.univ.filter fun i : Fin 200 => n ≤ i.val) Φ
      = iprop(Φ ⟨n, by omega⟩ ∗ Φ ⟨n + 1, by omega⟩ ∗ Φ ⟨n + 2, by omega⟩ ∗ Φ ⟨n + 3, by omega⟩ ∗ Φ ⟨n + 4, h⟩
          ∗ bigSep (Finset.univ.filter fun i : Fin 200 => n + 5 ≤ i.val) Φ) := by
  rw [bigSep_from_take Φ n (by omega), bigSep_from_take Φ (n + 1) (by omega), bigSep_from_take Φ (n + 1 + 1) (by omega),
    bigSep_from_take Φ (n + 1 + 1 + 1) (by omega), bigSep_from_take Φ (n + 1 + 1 + 1 + 1) (by omega)]

omit [FloatOps F] in
theorem below_put5 (Φ : Fin 200 → sProp 𝕄) (n : ℕ) (h : n + 4 < 200) :
    bigSep (Finset.univ.filter fun i : Fin 200 => i.val < n + 5) Φ
      = iprop(Φ ⟨n + 4, h⟩ ∗ Φ ⟨n + 3, by omega⟩ ∗ Φ ⟨n + 2, by omega⟩ ∗ Φ ⟨n + 1, by omega⟩ ∗ Φ ⟨n, by omega⟩
          ∗ bigSep (Finset.univ.filter fun i : Fin 200 => i.val < n) Φ) := by
  rw [show n + 5 = n + 1 + 1 + 1 + 1 + 1 from rfl, bigSep_below_put Φ (n + 1 + 1 + 1 + 1) (by omega), bigSep_below_put Φ (n + 1 + 1 + 1) (by omega),
    bigSep_below_put Φ (n + 1 + 1) (by omega), bigSep_below_put Φ (n + 1) (by omega), bigSep_below_put Φ n (by omega)]

omit [FloatOps F] in
theorem from_congr (Φ : Fin 200 → sProp 𝕄) {a b : ℕ} (h : a = b) :
    bigSep (Finset.univ.filter fun i : Fin 200 => a ≤ i.val) Φ = bigSep (Finset.univ.filter fun i : Fin 200 => b ≤ i.val) Φ := by rw [h]
omit [FloatOps F] in
theorem below_congr (Φ : Fin 200 → sProp 𝕄) {a b : ℕ} (h : a = b) :
    bigSep (Finset.univ.filter fun i : Fin 200 => i.val < a) Φ = bigSep (Finset.univ.filter fun i : Fin 200 => i.val < b) Φ := by rw [h]

/-! ## The flights as issued are the invariant's -/

theorem gfl0_of_exec (i : Fin 200) (row : Fin 2 → Nat) (hk) (h0 : row 0 = i.val) (h1 : row 1 = 0)
    (f0 : Buf (Elt F) ((b0V).view.loc (VT d L))) (p : S128x128.Idx → Elt F .f32) (hp : p = GC m d L i) :
    Transfers.Flight countersEmb (VT d L) (SemLoc.dma (csem 0)) (default : HIx 1) NX
      iprop((((b0V).view.loc (VT d L) ↦{fullShare} (b0V).view.writes (Elt F) f0 [⟨Rect.whole cc0_scratch2.ty.shape, p⟩])
          ∗ ((xRowAt row hk).view.loc (VT d L) ↦[(xRowAt row hk).view.set]{fullShare} XI m d L))
        ∗ ((shV).view.loc (VT d L) ↦[(shS).view.set]{shareTokN (qT L) 0} tabS m d (cV L)))
    ⊢ gFl0 m d L i := by
  subst hp
  unfold gFl0
  refine Transfers.Flight_mono countersEmb (VT d L) ?_
  rw [writes_whole, pts_xRowAt d L row hk i h0 h1]

theorem sfl0_of_exec (i : Fin 200) (off : Fin 2 → Nat) (h) (e : Rect.unit (s := S819200x128) off S128x128.size h = ochunk (chunkNo (wL L) i))
    (f0 : Buf (Elt F) (oLoc d)) (g : Buf (Elt F) ((b0V).view.loc (VT d L))) (hg : g = GC m d L i)
    (p : S128x128.Idx → Elt F .f32) (hp : p = ReadAs.same.apply (View.read (Elt F) (b0V).view g)) :
    Transfers.Flight countersEmb (VT d L) (SemLoc.dma (csem 5)) (default : HIx 1) NX
      iprop(((oChAt off h).view.loc (VT d L) ↦[(oChAt off h).view.set]{fullShare} (oChAt off h).view.writes (Elt F) f0 [⟨Rect.whole S128x128, p⟩])
        ∗ ((b0V).view.loc (VT d L) ↦[(b0V).view.set]{fullShare} g))
    ⊢ sFl0 m d L i := by
  subst hg; subst hp
  unfold sFl0
  refine Transfers.Flight_mono countersEmb (VT d L) ?_
  rw [och_of_exec m d L i off h e f0 (ReadAs.same.apply (View.read (Elt F) (b0V).view (GC m d L i))) rfl]

theorem gfl1_of_exec (i : Fin 200) (row : Fin 2 → Nat) (hk) (h0 : row 0 = i.val) (h1 : row 1 = 0)
    (f0 : Buf (Elt F) ((b1V).view.loc (VT d L))) (p : S128x128.Idx → Elt F .f32) (hp : p = GC m d L i) :
    Transfers.Flight countersEmb (VT d L) (SemLoc.dma (csem 1)) (default : HIx 1) NX
      iprop((((b1V).view.loc (VT d L) ↦{fullShare} (b1V).view.writes (Elt F) f0 [⟨Rect.whole cc0_scratch3.ty.shape, p⟩])
          ∗ ((xRowAt row hk).view.loc (VT d L) ↦[(xRowAt row hk).view.set]{fullShare} XI m d L))
        ∗ ((shV).view.loc (VT d L) ↦[(shS).view.set]{shareTokN (qT L) 1} tabS m d (cV L)))
    ⊢ gFl1 m d L i := by
  subst hp
  unfold gFl1
  refine Transfers.Flight_mono countersEmb (VT d L) ?_
  rw [writes_whole, pts_xRowAt d L row hk i h0 h1]

theorem sfl1_of_exec (i : Fin 200) (off : Fin 2 → Nat) (h) (e : Rect.unit (s := S819200x128) off S128x128.size h = ochunk (chunkNo (wL L) i))
    (f0 : Buf (Elt F) (oLoc d)) (g : Buf (Elt F) ((b1V).view.loc (VT d L))) (hg : g = GC m d L i)
    (p : S128x128.Idx → Elt F .f32) (hp : p = ReadAs.same.apply (View.read (Elt F) (b1V).view g)) :
    Transfers.Flight countersEmb (VT d L) (SemLoc.dma (csem 6)) (default : HIx 1) NX
      iprop(((oChAt off h).view.loc (VT d L) ↦[(oChAt off h).view.set]{fullShare} (oChAt off h).view.writes (Elt F) f0 [⟨Rect.whole S128x128, p⟩])
        ∗ ((b1V).view.loc (VT d L) ↦[(b1V).view.set]{fullShare} g))
    ⊢ sFl1 m d L i := by
  subst hg; subst hp
  unfold sFl1
  refine Transfers.Flight_mono countersEmb (VT d L) ?_
  rw [och_of_exec m d L i off h e f0 (ReadAs.same.apply (View.read (Elt F) (b1V).view (GC m d L i))) rfl]

theorem gfl2_of_exec (i : Fin 200) (row : Fin 2 → Nat) (hk) (h0 : row 0 = i.val) (h1 : row 1 = 0)
    (f0 : Buf (Elt F) ((b2V).view.loc (VT d L))) (p : S128x128.Idx → Elt F .f32) (hp : p = GC m d L i) :
    Transfers.Flight countersEmb (VT d L) (SemLoc.dma (csem 2)) (default : HIx 1) NX
      iprop((((b2V).view.loc (VT d L) ↦{fullShare} (b2V).view.writes (Elt F) f0 [⟨Rect.whole cc0_scratch4.ty.shape, p⟩])
          ∗ ((xRowAt row hk).view.loc (VT d L) ↦[(xRowAt row hk).view.set]{fullShare} XI m d L))
        ∗ ((shV).view.loc (VT d L) ↦[(shS).view.set]{shareTokN (qT L) 2} tabS m d (cV L)))
    ⊢ gFl2 m d L i := by
  subst hp
  unfold gFl2
  refine Transfers.Flight_mono countersEmb (VT d L) ?_
  rw [writes_whole, pts_xRowAt d L row hk i h0 h1]

theorem sfl2_of_exec (i : Fin 200) (off : Fin 2 → Nat) (h) (e : Rect.unit (s := S819200x128) off S128x128.size h = ochunk (chunkNo (wL L) i))
    (f0 : Buf (Elt F) (oLoc d)) (g : Buf (Elt F) ((b2V).view.loc (VT d L))) (hg : g = GC m d L i)
    (p : S128x128.Idx → Elt F .f32) (hp : p = ReadAs.same.apply (View.read (Elt F) (b2V).view g)) :
    Transfers.Flight countersEmb (VT d L) (SemLoc.dma (csem 7)) (default : HIx 1) NX
      iprop(((oChAt off h).view.loc (VT d L) ↦[(oChAt off h).view.set]{fullShare} (oChAt off h).view.writes (Elt F) f0 [⟨Rect.whole S128x128, p⟩])
        ∗ ((b2V).view.loc (VT d L) ↦[(b2V).view.set]{fullShare} g))
    ⊢ sFl2 m d L i := by
  subst hg; subst hp
  unfold sFl2
  refine Transfers.Flight_mono countersEmb (VT d L) ?_
  rw [och_of_exec m d L i off h e f0 (ReadAs.same.apply (View.read (Elt F) (b2V).view (GC m d L i))) rfl]

theorem gfl3_of_exec (i : Fin 200) (row : Fin 2 → Nat) (hk) (h0 : row 0 = i.val) (h1 : row 1 = 0)
    (f0 : Buf (Elt F) ((b3V).view.loc (VT d L))) (p : S128x128.Idx → Elt F .f32) (hp : p = GC m d L i) :
    Transfers.Flight countersEmb (VT d L) (SemLoc.dma (csem 3)) (default : HIx 1) NX
      iprop((((b3V).view.loc (VT d L) ↦{fullShare} (b3V).view.writes (Elt F) f0 [⟨Rect.whole cc0_scratch5.ty.shape, p⟩])
          ∗ ((xRowAt row hk).view.loc (VT d L) ↦[(xRowAt row hk).view.set]{fullShare} XI m d L))
        ∗ ((shV).view.loc (VT d L) ↦[(shS).view.set]{shareTokN (qT L) 3} tabS m d (cV L)))
    ⊢ gFl3 m d L i := by
  subst hp
  unfold gFl3
  refine Transfers.Flight_mono countersEmb (VT d L) ?_
  rw [writes_whole, pts_xRowAt d L row hk i h0 h1]

theorem sfl3_of_exec (i : Fin 200) (off : Fin 2 → Nat) (h) (e : Rect.unit (s := S819200x128) off S128x128.size h = ochunk (chunkNo (wL L) i))
    (f0 : Buf (Elt F) (oLoc d)) (g : Buf (Elt F) ((b3V).view.loc (VT d L))) (hg : g = GC m d L i)
    (p : S128x128.Idx → Elt F .f32) (hp : p = ReadAs.same.apply (View.read (Elt F) (b3V).view g)) :
    Transfers.Flight countersEmb (VT d L) (SemLoc.dma (csem 8)) (default : HIx 1) NX
      iprop(((oChAt off h).view.loc (VT d L) ↦[(oChAt off h).view.set]{fullShare} (oChAt off h).view.writes (Elt F) f0 [⟨Rect.whole S128x128, p⟩])
        ∗ ((b3V).view.loc (VT d L) ↦[(b3V).view.set]{fullShare} g))
    ⊢ sFl3 m d L i := by
  subst hg; subst hp
  unfold sFl3
  refine Transfers.Flight_mono countersEmb (VT d L) ?_
  rw [och_of_exec m d L i off h e f0 (ReadAs.same.apply (View.read (Elt F) (b3V).view (GC m d L i))) rfl]

theorem gfl4_of_exec (i : Fin 200) (row : Fin 2 → Nat) (hk) (h0 : row 0 = i.val) (h1 : row 1 = 0)
    (f0 : Buf (Elt F) ((b4V).view.loc (VT d L))) (p : S128x128.Idx → Elt F .f32) (hp : p = GC m d L i) :
    Transfers.Flight countersEmb (VT d L) (SemLoc.dma (csem 4)) (default : HIx 1) NX
      iprop((((b4V).view.loc (VT d L) ↦{fullShare} (b4V).view.writes (Elt F) f0 [⟨Rect.whole cc0_scratch6.ty.shape, p⟩])
          ∗ ((xRowAt row hk).view.loc (VT d L) ↦[(xRowAt row hk).view.set]{fullShare} XI m d L))
        ∗ ((shV).view.loc (VT d L) ↦[(shS).view.set]{shareTokN (qT L) 4} tabS m d (cV L)))
    ⊢ gFl4 m d L i := by
  subst hp
  unfold gFl4
  refine Transfers.Flight_mono countersEmb (VT d L) ?_
  rw [writes_whole, pts_xRowAt d L row hk i h0 h1]

theorem sfl4_of_exec (i : Fin 200) (off : Fin 2 → Nat) (h) (e : Rect.unit (s := S819200x128) off S128x128.size h = ochunk (chunkNo (wL L) i))
    (f0 : Buf (Elt F) (oLoc d)) (g : Buf (Elt F) ((b4V).view.loc (VT d L))) (hg : g = GC m d L i)
    (p : S128x128.Idx → Elt F .f32) (hp : p = ReadAs.same.apply (View.read (Elt F) (b4V).view g)) :
    Transfers.Flight countersEmb (VT d L) (SemLoc.dma (csem 9)) (default : HIx 1) NX
      iprop(((oChAt off h).view.loc (VT d L) ↦[(oChAt off h).view.set]{fullShare} (oChAt off h).view.writes (Elt F) f0 [⟨Rect.whole S128x128, p⟩])
        ∗ ((b4V).view.loc (VT d L) ↦[(b4V).view.set]{fullShare} g))
    ⊢ sFl4 m d L i := by
  subst hg; subst hp
  unfold sFl4
  refine Transfers.Flight_mono countersEmb (VT d L) ?_
  rw [och_of_exec m d L i off h e f0 (ReadAs.same.apply (View.read (Elt F) (b4V).view (GC m d L i))) rfl]

omit [FloatOps F] in
/-- The waits a trip adds are all at no index. -/
theorem ins_ok {W W' : Waits sig (HIx 1)} (s : SemLoc sig) (hW' : ∀ p ∈ W', p ∈ W ∨ p.2 = none ∨ p.2 = some (0 : Fin 1)) :
    ∀ p ∈ insert (s, (default : HIx 1)) W', p ∈ W ∨ p.2 = none ∨ p.2 = some (0 : Fin 1) := by
  intro p hp
  rcases Finset.mem_insert.mp hp with hp | hp
  · exact .inr (.inl (hp ▸ rfl))
  · exact hW' p hp

omit [FloatOps F] in
theorem chunkOf_val (t : Fin k0_t1_loop.trips) (r : Fin 5) : (chunkOf t r).val = 5 * t.val + r.val := rfl

macro_rules | `(tactic| sl_pure) => `(tactic| first | assumption | (refine ins_ok _ ?_; sl_pure))

set_option maxHeartbeats 4000000 in
/-- A trip after the first and before the last: from the head of trip k to the head of trip k + 1. -/
theorem trip_mid (hpre : PreOK m) (O : CellTallies nD τ sig (HIx 1)) (W : Waits sig (HIx 1)) (k : Fin k0_t1_loop.trips) (hk0 : 0 < k.val) (hk39 : k.val < 39) :
    Head m d L O W k.val (by omega) ⊢ wp frame (wpE (defs₀ (F := F)) 𝒱₀ (VT d L) none) Set.univ (tripProg L k)
      (fun _ => Head m d L O W (k.val + 1) (by omega)) := by
  have k0_h2 : k0_cond2 k = 1#1 := (cond2_iff k).mpr hk0
  have k0_h3 : k0_cond3 k = 1#1 := (cond3_iff k).mpr hk0
  have k0_h4 : k0_cond4 k = 1#1 := (cond4_iff k).mpr hk39
  have k0_h5 : k0_cond5 k = 1#1 := (cond5_iff k).mpr hk39
  have k0_h6 : k0_cond6 k = 1#1 := (cond6_iff k).mpr hk39
  unfold tripProg k0_t1_body
  unfold Head Common
  rw [dif_neg (Nat.pos_iff_ne_zero.mp hk0), dif_neg (Nat.succ_ne_zero k.val)]
  unfold gFl0 gFl1 gFl2 sFl3 sFl4
  rw [from_take5 (xRowPts m d L) (5 * k.val + 3) (by omega), from_take5 (oChPts d L (m (oLoc d))) (5 * k.val) (by omega)]
  iintro ⟨⟨#Hmw, Hi, HTr, ⟨Hr3, Hr4, Hr5, Hr6, Hr7, Hrows⟩, Hback, Hdone, ⟨Ho0, Ho1, Ho2, Ho3, Ho4, Htodo⟩, Hc10, Hc11, Hbufs, Hsems, Ht0, %W', %hW', HO⟩,
    ⟨Hg0, HT0⟩, ⟨Hg1, HT1⟩, ⟨Hg2, HT2⟩, HT3, HT4, Hc3, Hc4, Hc5, Hc6, Hc7, Hs3, Hs4⟩
  -- the rows the trip's gathers read and the chunks its stores write, in the body's spelling
  have hb0 : 5 * k.val < 200 := by omega
  have hb1 : 5 * k.val + 1 < 200 := by omega
  have hb2 : 5 * k.val + 2 < 200 := by omega
  have hb3 : 5 * k.val + 3 < 200 := by omega
  have hb4 : 5 * k.val + 3 + 1 < 200 := by omega
  have hb5 : 5 * k.val + 3 + 2 < 200 := by omega
  have hb6 : 5 * k.val + 3 + 3 < 200 := by omega
  have hb7 : 5 * k.val + 3 + 4 < 200 := by omega
  have hb4' : 5 * k.val + 4 < 200 := by omega
  have e50 : (k0_off5 k 0#32) 0 = 5 * k.val + 3 ∧ (k0_off5 k 0#32) 1 = 0 := by
    rw [show k0_off5 k 0#32 = _ from k0_off5_eq k 0]; exact ⟨by show 5 * k.val + 0 + 3 = _; omega, rfl⟩
  have e51 : (k0_off5 k 1#32) 0 = 5 * k.val + 3 + 1 ∧ (k0_off5 k 1#32) 1 = 0 := by
    rw [show k0_off5 k 1#32 = _ from k0_off5_eq k 1]; exact ⟨by show 5 * k.val + 1 + 3 = _; omega, rfl⟩
  have e8 : (k0_off8 k) 0 = 5 * k.val + 3 + 2 ∧ (k0_off8 k) 1 = 0 := by rw [k0_off8_eq]; exact ⟨rfl, rfl⟩
  have e10 : (k0_off10 k) 0 = 5 * k.val + 3 + 3 ∧ (k0_off10 k) 1 = 0 := by rw [k0_off10_eq]; exact ⟨rfl, rfl⟩
  have e12 : (k0_off12 k) 0 = 5 * k.val + 3 + 4 ∧ (k0_off12 k) 1 = 0 := by rw [k0_off12_eq]; exact ⟨rfl, rfl⟩
  ihave Hr3' := (Entails.of_eq (pts_xRowAt (F := F) d L (k0_off5 k 0#32) (k0_off5_inb k 0) ⟨5 * k.val + 3, hb3⟩ e50.1 e50.2 _).symm) $$ Hr3
  ihave Hr4' := (Entails.of_eq (pts_xRowAt (F := F) d L (k0_off5 k 1#32) (k0_off5_inb k 1) ⟨5 * k.val + 3 + 1, hb4⟩ e51.1 e51.2 _).symm) $$ Hr4
  ihave Hr5' := (Entails.of_eq (pts_xRowAt (F := F) d L (k0_off8 k) (k0_off8_inb k k0_h4) ⟨5 * k.val + 3 + 2, hb5⟩ e8.1 e8.2 _).symm) $$ Hr5
  ihave Hr6' := (Entails.of_eq (pts_xRowAt (F := F) d L (k0_off10 k) (k0_off10_inb k k0_h5) ⟨5 * k.val + 3 + 3, hb6⟩ e10.1 e10.2 _).symm) $$ Hr6
  ihave Hr7' := (Entails.of_eq (pts_xRowAt (F := F) d L (k0_off12 k) (k0_off12_inb k k0_h6) ⟨5 * k.val + 3 + 4, hb7⟩ e12.1 e12.2 _).symm) $$ Hr7
  ihave Ho0' := (Entails.of_eq (pts_oChAt (F := F) d L (k0_off3 L k 0#32) (k0_off3_inb L k 0) ⟨5 * k.val, hb0⟩ (chunk_off3 L k 0) _).symm) $$ Ho0
  ihave Ho1' := (Entails.of_eq (pts_oChAt (F := F) d L (k0_off3 L k 1#32) (k0_off3_inb L k 1) ⟨5 * k.val + 1, hb1⟩ (chunk_off3 L k 1) _).symm) $$ Ho1
  ihave Ho2' := (Entails.of_eq (pts_oChAt (F := F) d L (k0_off3 L k 2#32) (k0_off3_inb L k 2) ⟨5 * k.val + 2, hb2⟩ (chunk_off3 L k 2) _).symm) $$ Ho2
  ihave Ho3' := (Entails.of_eq (pts_oChAt (F := F) d L (k0_off3 L k 3#32) (k0_off3_inb L k 3) ⟨5 * k.val + 3, hb3⟩ (chunk_off3 L k 3) _).symm) $$ Ho3
  ihave Ho4' := (Entails.of_eq (pts_oChAt (F := F) d L (k0_off3 L k 4#32) (k0_off3_inb L k 4) ⟨5 * k.val + 4, hb4'⟩ (chunk_off3 L k 4) _).symm) $$ Ho4
  have hin3 := inb_XI m d L hpre (k0_off5 k 0#32) (k0_off5_inb k 0)
  have hin4 := inb_XI m d L hpre (k0_off5 k 1#32) (k0_off5_inb k 1)
  have hin5 := inb_XI m d L hpre (k0_off8 k) (k0_off8_inb k k0_h4)
  have hin6 := inb_XI m d L hpre (k0_off10 k) (k0_off10_inb k k0_h5)
  have hin7 := inb_XI m d L hpre (k0_off12 k) (k0_off12_inb k k0_h6)
  sl_exec
  -- the three gathers issued, the two stores issued, at the invariant's contents
  have hp0 : trip_mid.sl.gather5 m d L k k0_h4 hin5 = GC m d L ⟨5 * k.val + 3 + 2, hb5⟩ := gather_GC m d L _ _ _ e8.1 e8.2 _ _
  have hp1 : trip_mid.sl.gather7 m d L k k0_h5 hin6 = GC m d L ⟨5 * k.val + 3 + 3, hb6⟩ := gather_GC m d L _ _ _ e10.1 e10.2 _ _
  have hp2 : trip_mid.sl.gather9 m d L k k0_h6 hin7 = GC m d L ⟨5 * k.val + 3 + 4, hb7⟩ := gather_GC m d L _ _ _ e12.1 e12.2 _ _
  have hg3 : ∀ f, (b3V).view.writes (Elt F) f [⟨Rect.whole cc0_scratch5.ty.shape, trip_mid.sl.gather1 m d L k hin3⟩] = GC m d L ⟨5 * k.val + 3, hb3⟩ :=
    fun f => (writes_whole _ f _).trans (gather_GC m d L _ _ _ e50.1 e50.2 _ _)
  have hg4 : ∀ f, (b4V).view.writes (Elt F) f [⟨Rect.whole cc0_scratch6.ty.shape, trip_mid.sl.gather3 m d L k hin4⟩] = GC m d L ⟨5 * k.val + 3 + 1, hb4⟩ :=
    fun f => (writes_whole _ f _).trans (gather_GC m d L _ _ _ e51.1 e51.2 _ _)
  have hd3 : trip_mid.sl.dma0_3 m d L k hk0 hk39 hin3 = ReadAs.same.apply (View.read (Elt F) (b3V).view
      ((b3V).view.writes (Elt F) (GC m d L ⟨5 * k.val - 2, by omega⟩) [⟨Rect.whole cc0_scratch5.ty.shape, trip_mid.sl.gather1 m d L k hin3⟩])) := rfl
  have hd4 : trip_mid.sl.dma0_4 m d L k hk0 hk39 hin4 = ReadAs.same.apply (View.read (Elt F) (b4V).view
      ((b4V).view.writes (Elt F) (GC m d L ⟨5 * k.val - 1, by omega⟩) [⟨Rect.whole cc0_scratch6.ty.shape, trip_mid.sl.gather3 m d L k hin4⟩])) := rfl
  have hq0 : trip_mid.sl.dma0 m d L k hk0 hk39 = ReadAs.same.apply (GC m d L ⟨5 * k.val, hb0⟩) := rfl
  have hq1 : trip_mid.sl.dma0_1 m d L k hk0 hk39 = ReadAs.same.apply (GC m d L ⟨5 * k.val + 1, hb1⟩) := rfl
  have hq2 : trip_mid.sl.dma0_2 m d L k hk0 hk39 = ReadAs.same.apply (GC m d L ⟨5 * k.val + 2, hb2⟩) := rfl
  ihave Hg0c := (gfl0_of_exec m d L ⟨5 * k.val + 3 + 2, hb5⟩ (k0_off8 k) (k0_off8_inb k k0_h4) e8.1 e8.2 _ _ hp0) $$ Hg0
  ihave Hg1c := (gfl1_of_exec m d L ⟨5 * k.val + 3 + 3, hb6⟩ (k0_off10 k) (k0_off10_inb k k0_h5) e10.1 e10.2 _ _ hp1) $$ Hg1
  ihave Hg2c := (gfl2_of_exec m d L ⟨5 * k.val + 3 + 4, hb7⟩ (k0_off12 k) (k0_off12_inb k k0_h6) e12.1 e12.2 _ _ hp2) $$ Hg2
  ihave Hs3c := (sfl3_of_exec m d L ⟨5 * k.val + 3, hb3⟩ (k0_off3 L k 3#32) (k0_off3_inb L k 3) (chunk_off3 L k 3) _ _ (hg3 _) _ hd3) $$ Hs3
  ihave Hs4c := (sfl4_of_exec m d L ⟨5 * k.val + 3 + 1, hb4⟩ (k0_off3 L k 4#32) (k0_off3_inb L k 4) (chunk_off3 L k 4) _ _ (hg4 _) _ hd4) $$ Hs4
  -- the rows given back, the chunks finished
  ihave Hr3c := (Entails.of_eq (pts_xRowAt (F := F) d L (k0_off5 k 0#32) (k0_off5_inb k 0) ⟨5 * k.val + 3, hb3⟩ e50.1 e50.2 _)) $$ Hr3'
  ihave Hr4c := (Entails.of_eq (pts_xRowAt (F := F) d L (k0_off5 k 1#32) (k0_off5_inb k 1) ⟨5 * k.val + 3 + 1, hb4⟩ e51.1 e51.2 _)) $$ Hr4'
  ihave Ho0c := (Entails.of_eq (och_of_exec m d L ⟨5 * k.val, hb0⟩ (k0_off3 L k 0#32) (k0_off3_inb L k 0) (chunk_off3 L k 0) _ _ hq0)) $$ Ho0'
  ihave Ho1c := (Entails.of_eq (och_of_exec m d L ⟨5 * k.val + 1, hb1⟩ (k0_off3 L k 1#32) (k0_off3_inb L k 1) (chunk_off3 L k 1) _ _ hq1)) $$ Ho1'
  ihave Ho2c := (Entails.of_eq (och_of_exec m d L ⟨5 * k.val + 2, hb2⟩ (k0_off3 L k 2#32) (k0_off3_inb L k 2) (chunk_off3 L k 2) _ _ hq2)) $$ Ho2'
  have hbk : 5 * k.val + 4 < 200 := by omega
  have hdn : 5 * k.val - 2 + 4 < 200 := by omega
  have eq1 : 5 * k.val + 5 = 5 * (k.val + 1) := by omega
  have eq2 : 5 * k.val - 2 + 5 = 5 * (k.val + 1) - 2 := by omega
  have eq3 : 5 * k.val + 3 + 5 = 5 * (k.val + 1) + 3 := by omega
  ihave Hback' := (Entails.of_eq ((below_put5 (xRowPts m d L) (5 * k.val) hbk).symm.trans (below_congr _ eq1))) $$ [Hr4c Hr3c Hg2_dst_and Hg1_dst_and Hg0_dst_and Hback]
  · isplitl [Hr4c]; · iexact Hr4c
    isplitl [Hr3c]; · iexact Hr3c
    isplitl [Hg2_dst_and]; · iexact Hg2_dst_and
    isplitl [Hg1_dst_and]; · iexact Hg1_dst_and
    isplitl [Hg0_dst_and]; · iexact Hg0_dst_and
    iexact Hback
  have ed0 : (⟨5 * k.val, hb0⟩ : Fin 200) = ⟨5 * k.val - 2 + 2, by omega⟩ := Fin.ext (show 5 * k.val = 5 * k.val - 2 + 2 by omega)
  have ed1 : (⟨5 * k.val + 1, hb1⟩ : Fin 200) = ⟨5 * k.val - 2 + 3, by omega⟩ := Fin.ext (show 5 * k.val + 1 = 5 * k.val - 2 + 3 by omega)
  have ed2 : (⟨5 * k.val + 2, hb2⟩ : Fin 200) = ⟨5 * k.val - 2 + 4, hdn⟩ := Fin.ext (show 5 * k.val + 2 = 5 * k.val - 2 + 4 by omega)
  have ed4 : (⟨5 * k.val - 1, by omega⟩ : Fin 200) = ⟨5 * k.val - 2 + 1, by omega⟩ := Fin.ext (show 5 * k.val - 1 = 5 * k.val - 2 + 1 by omega)
  ihave Ho0e := (Entails.of_eq (congrArg (oChPts d L (Ok m d)) ed0)) $$ Ho0c
  ihave Ho1e := (Entails.of_eq (congrArg (oChPts d L (Ok m d)) ed1)) $$ Ho1c
  ihave Ho2e := (Entails.of_eq (congrArg (oChPts d L (Ok m d)) ed2)) $$ Ho2c
  ihave Hs4e := (Entails.of_eq (congrArg (oChPts d L (Ok m d)) ed4)) $$ Hs4_dst
  ihave Hdone' := (Entails.of_eq ((below_put5 (oChPts d L (Ok m d)) (5 * k.val - 2) hdn).symm.trans (below_congr _ eq2))) $$ [Ho2e Ho1e Ho0e Hs4e Hs3_dst Hdone]
  · isplitl [Ho2e]; · iexact Ho2e
    isplitl [Ho1e]; · iexact Ho1e
    isplitl [Ho0e]; · iexact Ho0e
    isplitl [Hs4e]; · iexact Hs4e
    isplitl [Hs3_dst]; · iexact Hs3_dst
    iexact Hdone
  ihave Hrows' := (Entails.of_eq (from_congr (xRowPts m d L) eq3)) $$ Hrows
  ihave Htodo' := (Entails.of_eq (from_congr (oChPts d L (m (oLoc d))) eq1)) $$ Htodo
  have ei0 : (⟨5 * k.val + 3 + 2, hb5⟩ : Fin 200) = ch (k.val + 1) 0 (by omega) (by decide) := Fin.ext (show 5 * k.val + 3 + 2 = 5 * (k.val + 1) + 0 by omega)
  have ei1 : (⟨5 * k.val + 3 + 3, hb6⟩ : Fin 200) = ch (k.val + 1) 1 (by omega) (by decide) := Fin.ext (show 5 * k.val + 3 + 3 = 5 * (k.val + 1) + 1 by omega)
  have ei2 : (⟨5 * k.val + 3 + 4, hb7⟩ : Fin 200) = ch (k.val + 1) 2 (by omega) (by decide) := Fin.ext (show 5 * k.val + 3 + 4 = 5 * (k.val + 1) + 2 by omega)
  have ei3 : (⟨5 * k.val + 3, hb3⟩ : Fin 200) = ⟨5 * (k.val + 1) - 2, by omega⟩ := Fin.ext (show 5 * k.val + 3 = 5 * (k.val + 1) - 2 by omega)
  have ei4 : (⟨5 * k.val + 3 + 1, hb4⟩ : Fin 200) = ⟨5 * (k.val + 1) - 1, by omega⟩ := Fin.ext (show 5 * k.val + 3 + 1 = 5 * (k.val + 1) - 1 by omega)
  ihave Hg0d := (Entails.of_eq (congrArg (gFl0 m d L) ei0)) $$ Hg0c
  ihave Hg1d := (Entails.of_eq (congrArg (gFl1 m d L) ei1)) $$ Hg1c
  ihave Hg2d := (Entails.of_eq (congrArg (gFl2 m d L) ei2)) $$ Hg2c
  ihave Hs3d := (Entails.of_eq (congrArg (sFl3 m d L) ei3)) $$ Hs3c
  ihave Hs4d := (Entails.of_eq (congrArg (sFl4 m d L) ei4)) $$ Hs4c
  sl_step
  unfold gFl0 gFl1 gFl2 sFl3 sFl4
  sl_close

end Tile
end Cert.Proof.EmbI
end
-- ==== Proof.IBodyTripFirst.lean ====
/-
  The first trip of the loop (k = 0): as a middle trip, except that slots 3 and 4 are idle when it starts — no
  store is waited for before chunks 3 and 4 are gathered into them — and that only chunks 0, 1, 2 are finished when
  it ends.
-/
import proofs.«203315_g78847009620241_cont_9to1c4b_359_24_alg».proof.Proof.IBodyTrip

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

omit [FloatOps F] in
theorem below_put3 (Φ : Fin 200 → sProp 𝕄) (n : ℕ) (h : n + 2 < 200) :
    bigSep (Finset.univ.filter fun i : Fin 200 => i.val < n + 3) Φ
      = iprop(Φ ⟨n + 2, h⟩ ∗ Φ ⟨n + 1, by omega⟩ ∗ Φ ⟨n, by omega⟩ ∗ bigSep (Finset.univ.filter fun i : Fin 200 => i.val < n) Φ) := by
  rw [show n + 3 = n + 1 + 1 + 1 from rfl, bigSep_below_put Φ (n + 1 + 1) (by omega), bigSep_below_put Φ (n + 1) (by omega), bigSep_below_put Φ n (by omega)]

set_option maxHeartbeats 4000000 in
/-- The first trip: from the head of trip 0 to the head of trip 1. -/
theorem trip_first (hpre : PreOK m) (O : CellTallies nD τ sig (HIx 1)) (W : Waits sig (HIx 1)) (k : Fin k0_t1_loop.trips) (hk : k.val = 0) :
    Head m d L O W k.val (by omega) ⊢ wp frame (wpE (defs₀ (F := F)) 𝒱₀ (VT d L) none) Set.univ (tripProg L k)
      (fun _ => Head m d L O W (k.val + 1) (by omega)) := by
  have k0_h2 : ¬ k0_cond2 k = 1#1 := fun h => absurd ((cond2_iff k).mp h) (by omega)
  have k0_h3 : ¬ k0_cond3 k = 1#1 := fun h => absurd ((cond3_iff k).mp h) (by omega)
  have k0_h4 : k0_cond4 k = 1#1 := (cond4_iff k).mpr (by omega)
  have k0_h5 : k0_cond5 k = 1#1 := (cond5_iff k).mpr (by omega)
  have k0_h6 : k0_cond6 k = 1#1 := (cond6_iff k).mpr (by omega)
  unfold tripProg k0_t1_body
  unfold Head Common
  rw [dif_pos hk, dif_neg (Nat.succ_ne_zero k.val)]
  unfold gFl0 gFl1 gFl2 sFl3 sFl4
  rw [from_take5 (xRowPts m d L) (5 * k.val + 3) (by omega), from_take5 (oChPts d L (m (oLoc d))) (5 * k.val) (by omega)]
  iintro ⟨⟨#Hmw, Hi, HTr, ⟨Hr3, Hr4, Hr5, Hr6, Hr7, Hrows⟩, Hback, Hdone, ⟨Ho0, Ho1, Ho2, Ho3, Ho4, Htodo⟩, Hc10, Hc11, Hbufs, Hsems, Ht0, %W', %hW', HO⟩,
    ⟨Hg0, HT0⟩, ⟨Hg1, HT1⟩, ⟨Hg2, HT2⟩, HT3, HT4, Hc3, Hc4, Hc5, Hc6, Hc7, ⟨%f3, H3⟩, ⟨%f4, H4⟩, Hc8, Hc9⟩
  -- the rows the trip's gathers read and the chunks its stores write, in the body's spelling
  have hb0 : 5 * k.val < 200 := by omega
  have hb1 : 5 * k.val + 1 < 200 := by omega
  have hb2 : 5 * k.val + 2 < 200 := by omega
  have hb3 : 5 * k.val + 3 < 200 := by omega
  have hb4 : 5 * k.val + 3 + 1 < 200 := by omega
  have hb5 : 5 * k.val + 3 + 2 < 200 := by omega
  have hb6 : 5 * k.val + 3 + 3 < 200 := by omega
  have hb7 : 5 * k.val + 3 + 4 < 200 := by omega
  have hb4' : 5 * k.val + 4 < 200 := by omega
  have e50 : (k0_off5 k 0#32) 0 = 5 * k.val + 3 ∧ (k0_off5 k 0#32) 1 = 0 := by
    rw [show k0_off5 k 0#32 = _ from k0_off5_eq k 0]; exact ⟨by show 5 * k.val + 0 + 3 = _; omega, rfl⟩
  have e51 : (k0_off5 k 1#32) 0 = 5 * k.val + 3 + 1 ∧ (k0_off5 k 1#32) 1 = 0 := by
    rw [show k0_off5 k 1#32 = _ from k0_off5_eq k 1]; exact ⟨by show 5 * k.val + 1 + 3 = _; omega, rfl⟩
  have e8 : (k0_off8 k) 0 = 5 * k.val + 3 + 2 ∧ (k0_off8 k) 1 = 0 := by rw [k0_off8_eq]; exact ⟨rfl, rfl⟩
  have e10 : (k0_off10 k) 0 = 5 * k.val + 3 + 3 ∧ (k0_off10 k) 1 = 0 := by rw [k0_off10_eq]; exact ⟨rfl, rfl⟩
  have e12 : (k0_off12 k) 0 = 5 * k.val + 3 + 4 ∧ (k0_off12 k) 1 = 0 := by rw [k0_off12_eq]; exact ⟨rfl, rfl⟩
  ihave Hr3' := (Entails.of_eq (pts_xRowAt (F := F) d L (k0_off5 k 0#32) (k0_off5_inb k 0) ⟨5 * k.val + 3, hb3⟩ e50.1 e50.2 _).symm) $$ Hr3
  ihave Hr4' := (Entails.of_eq (pts_xRowAt (F := F) d L (k0_off5 k 1#32) (k0_off5_inb k 1) ⟨5 * k.val + 3 + 1, hb4⟩ e51.1 e51.2 _).symm) $$ Hr4
  ihave Hr5' := (Entails.of_eq (pts_xRowAt (F := F) d L (k0_off8 k) (k0_off8_inb k k0_h4) ⟨5 * k.val + 3 + 2, hb5⟩ e8.1 e8.2 _).symm) $$ Hr5
  ihave Hr6' := (Entails.of_eq (pts_xRowAt (F := F) d L (k0_off10 k) (k0_off10_inb k k0_h5) ⟨5 * k.val + 3 + 3, hb6⟩ e10.1 e10.2 _).symm) $$ Hr6
  ihave Hr7' := (Entails.of_eq (pts_xRowAt (F := F) d L (k0_off12 k) (k0_off12_inb k k0_h6) ⟨5 * k.val + 3 + 4, hb7⟩ e12.1 e12.2 _).symm) $$ Hr7
  ihave Ho0' := (Entails.of_eq (pts_oChAt (F := F) d L (k0_off3 L k 0#32) (k0_off3_inb L k 0) ⟨5 * k.val, hb0⟩ (chunk_off3 L k 0) _).symm) $$ Ho0
  ihave Ho1' := (Entails.of_eq (pts_oChAt (F := F) d L (k0_off3 L k 1#32) (k0_off3_inb L k 1) ⟨5 * k.val + 1, hb1⟩ (chunk_off3 L k 1) _).symm) $$ Ho1
  ihave Ho2' := (Entails.of_eq (pts_oChAt (F := F) d L (k0_off3 L k 2#32) (k0_off3_inb L k 2) ⟨5 * k.val + 2, hb2⟩ (chunk_off3 L k 2) _).symm) $$ Ho2
  ihave Ho3' := (Entails.of_eq (pts_oChAt (F := F) d L (k0_off3 L k 3#32) (k0_off3_inb L k 3) ⟨5 * k.val + 3, hb3⟩ (chunk_off3 L k 3) _).symm) $$ Ho3
  ihave Ho4' := (Entails.of_eq (pts_oChAt (F := F) d L (k0_off3 L k 4#32) (k0_off3_inb L k 4) ⟨5 * k.val + 4, hb4'⟩ (chunk_off3 L k 4) _).symm) $$ Ho4
  have hin3 := inb_XI m d L hpre (k0_off5 k 0#32) (k0_off5_inb k 0)
  have hin4 := inb_XI m d L hpre (k0_off5 k 1#32) (k0_off5_inb k 1)
  have hin5 := inb_XI m d L hpre (k0_off8 k) (k0_off8_inb k k0_h4)
  have hin6 := inb_XI m d L hpre (k0_off10 k) (k0_off10_inb k k0_h5)
  have hin7 := inb_XI m d L hpre (k0_off12 k) (k0_off12_inb k k0_h6)
  sl_exec
  -- the three gathers issued, the two stores issued, at the invariant's contents
  have hp0 : trip_first.sl.gather5 m d L k k0_h4 hin5 = GC m d L ⟨5 * k.val + 3 + 2, hb5⟩ := gather_GC m d L _ _ _ e8.1 e8.2 _ _
  have hp1 : trip_first.sl.gather7 m d L k k0_h5 hin6 = GC m d L ⟨5 * k.val + 3 + 3, hb6⟩ := gather_GC m d L _ _ _ e10.1 e10.2 _ _
  have hp2 : trip_first.sl.gather9 m d L k k0_h6 hin7 = GC m d L ⟨5 * k.val + 3 + 4, hb7⟩ := gather_GC m d L _ _ _ e12.1 e12.2 _ _
  have hg3 : ∀ f, (b3V).view.writes (Elt F) f [⟨Rect.whole cc0_scratch5.ty.shape, trip_first.sl.gather1 m d L k hin3⟩] = GC m d L ⟨5 * k.val + 3, hb3⟩ :=
    fun f => (writes_whole _ f _).trans (gather_GC m d L _ _ _ e50.1 e50.2 _ _)
  have hg4 : ∀ f, (b4V).view.writes (Elt F) f [⟨Rect.whole cc0_scratch6.ty.shape, trip_first.sl.gather3 m d L k hin4⟩] = GC m d L ⟨5 * k.val + 3 + 1, hb4⟩ :=
    fun f => (writes_whole _ f _).trans (gather_GC m d L _ _ _ e51.1 e51.2 _ _)
  have hd3 : trip_first.sl.dma0_3 m d L k f3 hin3 = ReadAs.same.apply (View.read (Elt F) (b3V).view
      ((b3V).view.writes (Elt F) f3 [⟨Rect.whole cc0_scratch5.ty.shape, trip_first.sl.gather1 m d L k hin3⟩])) := rfl
  have hd4 : trip_first.sl.dma0_4 m d L k f4 hin4 = ReadAs.same.apply (View.read (Elt F) (b4V).view
      ((b4V).view.writes (Elt F) f4 [⟨Rect.whole cc0_scratch6.ty.shape, trip_first.sl.gather3 m d L k hin4⟩])) := rfl
  have hq0 : trip_first.sl.dma0 m d L k hk = ReadAs.same.apply (GC m d L ⟨5 * k.val, hb0⟩) := rfl
  have hq1 : trip_first.sl.dma0_1 m d L k hk = ReadAs.same.apply (GC m d L ⟨5 * k.val + 1, hb1⟩) := rfl
  have hq2 : trip_first.sl.dma0_2 m d L k hk = ReadAs.same.apply (GC m d L ⟨5 * k.val + 2, hb2⟩) := rfl
  ihave Hg0c := (gfl0_of_exec m d L ⟨5 * k.val + 3 + 2, hb5⟩ (k0_off8 k) (k0_off8_inb k k0_h4) e8.1 e8.2 _ _ hp0) $$ Hg0
  ihave Hg1c := (gfl1_of_exec m d L ⟨5 * k.val + 3 + 3, hb6⟩ (k0_off10 k) (k0_off10_inb k k0_h5) e10.1 e10.2 _ _ hp1) $$ Hg1
  ihave Hg2c := (gfl2_of_exec m d L ⟨5 * k.val + 3 + 4, hb7⟩ (k0_off12 k) (k0_off12_inb k k0_h6) e12.1 e12.2 _ _ hp2) $$ Hg2
  ihave Hs3c := (sfl3_of_exec m d L ⟨5 * k.val + 3, hb3⟩ (k0_off3 L k 3#32) (k0_off3_inb L k 3) (chunk_off3 L k 3) _ _ (hg3 _) _ hd3) $$ Hc8
  ihave Hs4c := (sfl4_of_exec m d L ⟨5 * k.val + 3 + 1, hb4⟩ (k0_off3 L k 4#32) (k0_off3_inb L k 4) (chunk_off3 L k 4) _ _ (hg4 _) _ hd4) $$ Hc9
  -- the rows given back, the chunks finished
  ihave Hr3c := (Entails.of_eq (pts_xRowAt (F := F) d L (k0_off5 k 0#32) (k0_off5_inb k 0) ⟨5 * k.val + 3, hb3⟩ e50.1 e50.2 _)) $$ Hr3'
  ihave Hr4c := (Entails.of_eq (pts_xRowAt (F := F) d L (k0_off5 k 1#32) (k0_off5_inb k 1) ⟨5 * k.val + 3 + 1, hb4⟩ e51.1 e51.2 _)) $$ Hr4'
  ihave Ho0c := (Entails.of_eq (och_of_exec m d L ⟨5 * k.val, hb0⟩ (k0_off3 L k 0#32) (k0_off3_inb L k 0) (chunk_off3 L k 0) _ _ hq0)) $$ Ho0'
  ihave Ho1c := (Entails.of_eq (och_of_exec m d L ⟨5 * k.val + 1, hb1⟩ (k0_off3 L k 1#32) (k0_off3_inb L k 1) (chunk_off3 L k 1) _ _ hq1)) $$ Ho1'
  ihave Ho2c := (Entails.of_eq (och_of_exec m d L ⟨5 * k.val + 2, hb2⟩ (k0_off3 L k 2#32) (k0_off3_inb L k 2) (chunk_off3 L k 2) _ _ hq2)) $$ Ho2'
  have hbk : 5 * k.val + 4 < 200 := by omega
  have eq1 : 5 * k.val + 5 = 5 * (k.val + 1) := by omega
  have eq3 : 5 * k.val + 3 + 5 = 5 * (k.val + 1) + 3 := by omega
  ihave Hback' := (Entails.of_eq ((below_put5 (xRowPts m d L) (5 * k.val) hbk).symm.trans (below_congr _ eq1))) $$ [Hr4c Hr3c Hg2_dst_and Hg1_dst_and Hg0_dst_and Hback]
  · isplitl [Hr4c]; · iexact Hr4c
    isplitl [Hr3c]; · iexact Hr3c
    isplitl [Hg2_dst_and]; · iexact Hg2_dst_and
    isplitl [Hg1_dst_and]; · iexact Hg1_dst_and
    isplitl [Hg0_dst_and]; · iexact Hg0_dst_and
    iexact Hback
  have hdn3 : 5 * k.val - 2 + 2 < 200 := by omega
  have ed0 : (⟨5 * k.val, hb0⟩ : Fin 200) = ⟨5 * k.val - 2, by omega⟩ := Fin.ext (show 5 * k.val = 5 * k.val - 2 by omega)
  have ed1 : (⟨5 * k.val + 1, hb1⟩ : Fin 200) = ⟨5 * k.val - 2 + 1, by omega⟩ := Fin.ext (show 5 * k.val + 1 = 5 * k.val - 2 + 1 by omega)
  have ed2 : (⟨5 * k.val + 2, hb2⟩ : Fin 200) = ⟨5 * k.val - 2 + 2, hdn3⟩ := Fin.ext (show 5 * k.val + 2 = 5 * k.val - 2 + 2 by omega)
  have eq2' : 5 * k.val - 2 + 3 = 5 * (k.val + 1) - 2 := by omega
  ihave Ho0e := (Entails.of_eq (congrArg (oChPts d L (Ok m d)) ed0)) $$ Ho0c
  ihave Ho1e := (Entails.of_eq (congrArg (oChPts d L (Ok m d)) ed1)) $$ Ho1c
  ihave Ho2e := (Entails.of_eq (congrArg (oChPts d L (Ok m d)) ed2)) $$ Ho2c
  ihave Hdone' := (Entails.of_eq ((below_put3 (oChPts d L (Ok m d)) (5 * k.val - 2) hdn3).symm.trans (below_congr _ eq2'))) $$ [Ho2e Ho1e Ho0e Hdone]
  · isplitl [Ho2e]; · iexact Ho2e
    isplitl [Ho1e]; · iexact Ho1e
    isplitl [Ho0e]; · iexact Ho0e
    iexact Hdone
  ihave Hrows' := (Entails.of_eq (from_congr (xRowPts m d L) eq3)) $$ Hrows
  ihave Htodo' := (Entails.of_eq (from_congr (oChPts d L (m (oLoc d))) eq1)) $$ Htodo
  have ei0 : (⟨5 * k.val + 3 + 2, hb5⟩ : Fin 200) = ch (k.val + 1) 0 (by omega) (by decide) := Fin.ext (show 5 * k.val + 3 + 2 = 5 * (k.val + 1) + 0 by omega)
  have ei1 : (⟨5 * k.val + 3 + 3, hb6⟩ : Fin 200) = ch (k.val + 1) 1 (by omega) (by decide) := Fin.ext (show 5 * k.val + 3 + 3 = 5 * (k.val + 1) + 1 by omega)
  have ei2 : (⟨5 * k.val + 3 + 4, hb7⟩ : Fin 200) = ch (k.val + 1) 2 (by omega) (by decide) := Fin.ext (show 5 * k.val + 3 + 4 = 5 * (k.val + 1) + 2 by omega)
  have ei3 : (⟨5 * k.val + 3, hb3⟩ : Fin 200) = ⟨5 * (k.val + 1) - 2, by omega⟩ := Fin.ext (show 5 * k.val + 3 = 5 * (k.val + 1) - 2 by omega)
  have ei4 : (⟨5 * k.val + 3 + 1, hb4⟩ : Fin 200) = ⟨5 * (k.val + 1) - 1, by omega⟩ := Fin.ext (show 5 * k.val + 3 + 1 = 5 * (k.val + 1) - 1 by omega)
  ihave Hg0d := (Entails.of_eq (congrArg (gFl0 m d L) ei0)) $$ Hg0c
  ihave Hg1d := (Entails.of_eq (congrArg (gFl1 m d L) ei1)) $$ Hg1c
  ihave Hg2d := (Entails.of_eq (congrArg (gFl2 m d L) ei2)) $$ Hg2c
  ihave Hs3d := (Entails.of_eq (congrArg (sFl3 m d L) ei3)) $$ Hs3c
  ihave Hs4d := (Entails.of_eq (congrArg (sFl4 m d L) ei4)) $$ Hs4c
  sl_step
  unfold gFl0 gFl1 gFl2 sFl3 sFl4
  sl_close

end Tile
end Cert.Proof.EmbI
end
-- ==== Proof.IBodyTripLast.lean ====
/-
  The last trip of the loop (k = 39): as a middle trip, except that nothing is gathered after chunk 199 — slots 0,
  1, 2 are not waited for and not gathered into again — so that it ends with the five stores of chunks 195 … 199
  in flight, every gather semaphore at zero with its token whole, and every row of the index scratch back.
-/
import proofs.«203315_g78847009620241_cont_9to1c4b_359_24_alg».proof.Proof.IBodyTrip

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

omit [FloatOps F] in
theorem from_take2 (Φ : Fin 200 → sProp 𝕄) (n : ℕ) (h : n + 1 < 200) :
    bigSep (Finset.univ.filter fun i : Fin 200 => n ≤ i.val) Φ
      = iprop(Φ ⟨n, by omega⟩ ∗ Φ ⟨n + 1, h⟩ ∗ bigSep (Finset.univ.filter fun i : Fin 200 => n + 2 ≤ i.val) Φ) := by
  rw [bigSep_from_take Φ n (by omega), bigSep_from_take Φ (n + 1) (by omega)]

omit [FloatOps F] in
theorem below_put2 (Φ : Fin 200 → sProp 𝕄) (n : ℕ) (h : n + 1 < 200) :
    bigSep (Finset.univ.filter fun i : Fin 200 => i.val < n + 2) Φ
      = iprop(Φ ⟨n + 1, h⟩ ∗ Φ ⟨n, by omega⟩ ∗ bigSep (Finset.univ.filter fun i : Fin 200 => i.val < n) Φ) := by
  rw [show n + 2 = n + 1 + 1 from rfl, bigSep_below_put Φ (n + 1) (by omega), bigSep_below_put Φ n (by omega)]

set_option maxHeartbeats 4000000 in
/-- The last trip: from the head of trip 39 to the state after the loop. -/
theorem trip_last (hpre : PreOK m) (O : CellTallies nD τ sig (HIx 1)) (W : Waits sig (HIx 1)) (k : Fin k0_t1_loop.trips) (hk : k.val = 39) :
    Head m d L O W k.val (by omega) ⊢ wp frame (wpE (defs₀ (F := F)) 𝒱₀ (VT d L) none) Set.univ (tripProg L k)
      (fun _ => Exit m d L O W) := by
  have k0_h2 : k0_cond2 k = 1#1 := (cond2_iff k).mpr (by omega)
  have k0_h3 : k0_cond3 k = 1#1 := (cond3_iff k).mpr (by omega)
  have k0_h4 : ¬ k0_cond4 k = 1#1 := fun h => absurd ((cond4_iff k).mp h) (by omega)
  have k0_h5 : ¬ k0_cond5 k = 1#1 := fun h => absurd ((cond5_iff k).mp h) (by omega)
  have k0_h6 : ¬ k0_cond6 k = 1#1 := fun h => absurd ((cond6_iff k).mp h) (by omega)
  unfold tripProg k0_t1_body
  unfold Head Exit Common
  rw [dif_neg (show k.val ≠ 0 by omega)]
  unfold gFl0 gFl1 gFl2 sFl0 sFl1 sFl2 sFl3 sFl4
  rw [from_take2 (xRowPts m d L) (5 * k.val + 3) (by omega), from_take5 (oChPts d L (m (oLoc d))) (5 * k.val) (by omega)]
  iintro ⟨⟨#Hmw, Hi, HTr, ⟨Hr3, Hr4, Hrows⟩, Hback, Hdone, ⟨Ho0, Ho1, Ho2, Ho3, Ho4, Htodo⟩, Hc10, Hc11, Hbufs, Hsems, Ht0, %W', %hW', HO⟩,
    ⟨Hg0, HT0⟩, ⟨Hg1, HT1⟩, ⟨Hg2, HT2⟩, HT3, HT4, Hc3, Hc4, Hc5, Hc6, Hc7, Hs3, Hs4⟩
  have hb0 : 5 * k.val < 200 := by omega
  have hb1 : 5 * k.val + 1 < 200 := by omega
  have hb2 : 5 * k.val + 2 < 200 := by omega
  have hb3 : 5 * k.val + 3 < 200 := by omega
  have hb4 : 5 * k.val + 3 + 1 < 200 := by omega
  have hb4' : 5 * k.val + 4 < 200 := by omega
  have e50 : (k0_off5 k 0#32) 0 = 5 * k.val + 3 ∧ (k0_off5 k 0#32) 1 = 0 := by
    rw [show k0_off5 k 0#32 = _ from k0_off5_eq k 0]; exact ⟨by show 5 * k.val + 0 + 3 = _; omega, rfl⟩
  have e51 : (k0_off5 k 1#32) 0 = 5 * k.val + 3 + 1 ∧ (k0_off5 k 1#32) 1 = 0 := by
    rw [show k0_off5 k 1#32 = _ from k0_off5_eq k 1]; exact ⟨by show 5 * k.val + 1 + 3 = _; omega, rfl⟩
  ihave Hr3' := (Entails.of_eq (pts_xRowAt (F := F) d L (k0_off5 k 0#32) (k0_off5_inb k 0) ⟨5 * k.val + 3, hb3⟩ e50.1 e50.2 _).symm) $$ Hr3
  ihave Hr4' := (Entails.of_eq (pts_xRowAt (F := F) d L (k0_off5 k 1#32) (k0_off5_inb k 1) ⟨5 * k.val + 3 + 1, hb4⟩ e51.1 e51.2 _).symm) $$ Hr4
  ihave Ho0' := (Entails.of_eq (pts_oChAt (F := F) d L (k0_off3 L k 0#32) (k0_off3_inb L k 0) ⟨5 * k.val, hb0⟩ (chunk_off3 L k 0) _).symm) $$ Ho0
  ihave Ho1' := (Entails.of_eq (pts_oChAt (F := F) d L (k0_off3 L k 1#32) (k0_off3_inb L k 1) ⟨5 * k.val + 1, hb1⟩ (chunk_off3 L k 1) _).symm) $$ Ho1
  ihave Ho2' := (Entails.of_eq (pts_oChAt (F := F) d L (k0_off3 L k 2#32) (k0_off3_inb L k 2) ⟨5 * k.val + 2, hb2⟩ (chunk_off3 L k 2) _).symm) $$ Ho2
  ihave Ho3' := (Entails.of_eq (pts_oChAt (F := F) d L (k0_off3 L k 3#32) (k0_off3_inb L k 3) ⟨5 * k.val + 3, hb3⟩ (chunk_off3 L k 3) _).symm) $$ Ho3
  ihave Ho4' := (Entails.of_eq (pts_oChAt (F := F) d L (k0_off3 L k 4#32) (k0_off3_inb L k 4) ⟨5 * k.val + 4, hb4'⟩ (chunk_off3 L k 4) _).symm) $$ Ho4
  have hin3 := inb_XI m d L hpre (k0_off5 k 0#32) (k0_off5_inb k 0)
  have hin4 := inb_XI m d L hpre (k0_off5 k 1#32) (k0_off5_inb k 1)
  sl_exec
  -- the five stores in flight, at the invariant's contents
  have hjk : k.val < 40 := by omega
  have h05 : 0 < 5 := by decide
  have h15 : 1 < 5 := by decide
  have h25 : 2 < 5 := by decide
  have hg3 : ∀ f, (b3V).view.writes (Elt F) f [⟨Rect.whole cc0_scratch5.ty.shape, trip_last.sl.gather1 m d L k hin3⟩] = GC m d L ⟨5 * k.val + 3, hb3⟩ :=
    fun f => (writes_whole _ f _).trans (gather_GC m d L _ _ _ e50.1 e50.2 _ _)
  have hg4 : ∀ f, (b4V).view.writes (Elt F) f [⟨Rect.whole cc0_scratch6.ty.shape, trip_last.sl.gather3 m d L k hin4⟩] = GC m d L ⟨5 * k.val + 3 + 1, hb4⟩ :=
    fun f => (writes_whole _ f _).trans (gather_GC m d L _ _ _ e51.1 e51.2 _ _)
  have hd3 : trip_last.sl.dma0_3 m d L k hk hin3 = ReadAs.same.apply (View.read (Elt F) (b3V).view
      ((b3V).view.writes (Elt F) (GC m d L ⟨5 * k.val - 2, by omega⟩) [⟨Rect.whole cc0_scratch5.ty.shape, trip_last.sl.gather1 m d L k hin3⟩])) := rfl
  have hd4 : trip_last.sl.dma0_4 m d L k hk hin4 = ReadAs.same.apply (View.read (Elt F) (b4V).view
      ((b4V).view.writes (Elt F) (GC m d L ⟨5 * k.val - 1, by omega⟩) [⟨Rect.whole cc0_scratch6.ty.shape, trip_last.sl.gather3 m d L k hin4⟩])) := rfl
  have hs0 : trip_last.sl.dma0 m d L k hk = ReadAs.same.apply (View.read (Elt F) (b0V).view (GC m d L (ch k.val 0 hjk h05))) := rfl
  have hs1 : trip_last.sl.dma0_1 m d L k hk = ReadAs.same.apply (View.read (Elt F) (b1V).view (GC m d L (ch k.val 1 hjk h15))) := rfl
  have hs2 : trip_last.sl.dma0_2 m d L k hk = ReadAs.same.apply (View.read (Elt F) (b2V).view (GC m d L (ch k.val 2 hjk h25))) := rfl
  ihave Hs0c := (sfl0_of_exec m d L (ch k.val 0 hjk h05) (k0_off3 L k 0#32) (k0_off3_inb L k 0) (chunk_off3 L k 0) _ _ rfl _ hs0) $$ Hc5
  ihave Hs1c := (sfl1_of_exec m d L (ch k.val 1 hjk h15) (k0_off3 L k 1#32) (k0_off3_inb L k 1) (chunk_off3 L k 1) _ _ rfl _ hs1) $$ Hc6
  ihave Hs2c := (sfl2_of_exec m d L (ch k.val 2 hjk h25) (k0_off3 L k 2#32) (k0_off3_inb L k 2) (chunk_off3 L k 2) _ _ rfl _ hs2) $$ Hc7
  ihave Hs3c := (sfl3_of_exec m d L ⟨5 * k.val + 3, hb3⟩ (k0_off3 L k 3#32) (k0_off3_inb L k 3) (chunk_off3 L k 3) _ _ (hg3 _) _ hd3) $$ Hs3
  ihave Hs4c := (sfl4_of_exec m d L ⟨5 * k.val + 3 + 1, hb4⟩ (k0_off3 L k 4#32) (k0_off3_inb L k 4) (chunk_off3 L k 4) _ _ (hg4 _) _ hd4) $$ Hs4
  have ej0 : ch k.val 0 hjk h05 = ⟨195, by decide⟩ := Fin.ext (show 5 * k.val + 0 = 195 by omega)
  have ej1 : ch k.val 1 hjk h15 = ⟨196, by decide⟩ := Fin.ext (show 5 * k.val + 1 = 196 by omega)
  have ej2 : ch k.val 2 hjk h25 = ⟨197, by decide⟩ := Fin.ext (show 5 * k.val + 2 = 197 by omega)
  have ej3 : (⟨5 * k.val + 3, hb3⟩ : Fin 200) = ⟨198, by decide⟩ := Fin.ext (show 5 * k.val + 3 = 198 by omega)
  have ej4 : (⟨5 * k.val + 3 + 1, hb4⟩ : Fin 200) = ⟨199, by decide⟩ := Fin.ext (show 5 * k.val + 3 + 1 = 199 by omega)
  ihave Hs0d := (Entails.of_eq (congrArg (sFl0 m d L) ej0)) $$ Hs0c
  ihave Hs1d := (Entails.of_eq (congrArg (sFl1 m d L) ej1)) $$ Hs1c
  ihave Hs2d := (Entails.of_eq (congrArg (sFl2 m d L) ej2)) $$ Hs2c
  ihave Hs3d := (Entails.of_eq (congrArg (sFl3 m d L) ej3)) $$ Hs3c
  ihave Hs4d := (Entails.of_eq (congrArg (sFl4 m d L) ej4)) $$ Hs4c
  -- the rows given back, the chunks finished
  ihave Hr3c := (Entails.of_eq (pts_xRowAt (F := F) d L (k0_off5 k 0#32) (k0_off5_inb k 0) ⟨5 * k.val + 3, hb3⟩ e50.1 e50.2 _)) $$ Hr3'
  ihave Hr4c := (Entails.of_eq (pts_xRowAt (F := F) d L (k0_off5 k 1#32) (k0_off5_inb k 1) ⟨5 * k.val + 3 + 1, hb4⟩ e51.1 e51.2 _)) $$ Hr4'
  have eq1 : 5 * k.val + 5 = 200 := by omega
  have eq2 : 5 * k.val - 2 + 2 = 195 := by omega
  have eq3 : 5 * k.val + 3 + 2 = 200 := by omega
  have hdn : 5 * k.val - 2 + 1 < 200 := by omega
  ihave Hback' := (Entails.of_eq ((below_put5 (xRowPts m d L) (5 * k.val) hb4').symm.trans (below_congr _ eq1))) $$ [Hr4c Hr3c Hg2_dst_and Hg1_dst_and Hg0_dst_and Hback]
  · isplitl [Hr4c]; · iexact Hr4c
    isplitl [Hr3c]; · iexact Hr3c
    isplitl [Hg2_dst_and]; · iexact Hg2_dst_and
    isplitl [Hg1_dst_and]; · iexact Hg1_dst_and
    isplitl [Hg0_dst_and]; · iexact Hg0_dst_and
    iexact Hback
  have ed4 : (⟨5 * k.val - 1, by omega⟩ : Fin 200) = ⟨5 * k.val - 2 + 1, hdn⟩ := Fin.ext (show 5 * k.val - 1 = 5 * k.val - 2 + 1 by omega)
  ihave Hs4e := (Entails.of_eq (congrArg (oChPts d L (Ok m d)) ed4)) $$ Hs4_dst
  ihave Hdone' := (Entails.of_eq ((below_put2 (oChPts d L (Ok m d)) (5 * k.val - 2) hdn).symm.trans (below_congr _ eq2))) $$ [Hs4e Hs3_dst Hdone]
  · isplitl [Hs4e]; · iexact Hs4e
    isplitl [Hs3_dst]; · iexact Hs3_dst
    iexact Hdone
  ihave Hrows' := (Entails.of_eq (from_congr (xRowPts m d L) eq3)) $$ Hrows
  ihave Htodo' := (Entails.of_eq (from_congr (oChPts d L (m (oLoc d))) eq1)) $$ Htodo
  sl_step
  unfold sFl0 sFl1 sFl2 sFl3 sFl4
  sl_close

end Tile
end Cert.Proof.EmbI
end
-- ==== Proof.IBodyTripAll.lean ====
/-
  One trip of the loop carries the invariant: the three cases (first trip, a middle trip, last trip) as one statement
  over the trip number.
-/
import proofs.«203315_g78847009620241_cont_9to1c4b_359_24_alg».proof.Proof.IBodyTripFirst
import proofs.«203315_g78847009620241_cont_9to1c4b_359_24_alg».proof.Proof.IBodyTripLast

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

/-- One trip of the loop carries the invariant from trip k to trip k + 1: the first trip, a middle one, the last. -/
theorem trip (hpre : PreOK m) (O : CellTallies nD τ sig (HIx 1)) (W : Waits sig (HIx 1)) (k : Fin k0_t1_loop.trips) :
    Inv m d L O W k.val () ⊢ wp frame (wpE (defs₀ (F := F)) 𝒱₀ (VT d L) none) Set.univ (tripProg L k) (Inv m d L O W (k.val + 1)) := by
  have hk := k.isLt
  have ht := trips_le
  unfold Inv
  rw [dif_pos (show k.val < 40 by omega)]
  rcases Nat.eq_zero_or_pos k.val with h0 | h0
  · simp only [dif_pos (show k.val + 1 < 40 by omega)]
    exact trip_first m d L hpre O W k h0
  · rcases Nat.lt_or_ge k.val 39 with h39 | h39
    · simp only [dif_pos (show k.val + 1 < 40 by omega)]
      exact trip_mid m d L hpre O W k h0 h39
    · simp only [dif_neg (show ¬ k.val + 1 < 40 by omega)]
      exact trip_last m d L hpre O W k (by omega)

end Tile
end Cert.Proof.EmbI
end
-- ==== Proof.IBody.lean ====
/-
  One tile's task, whole: the table copied into the shared memory by tile 0, the tile's slab of the indices
  copied into its index scratch, the barrier (tile 0 hands every tile a read token of the shared copy), the
  first three gathers, the forty trips of the loop, the five last waits, and the regrouping of what the task
  hands back.
-/
import proofs.«203315_g78847009620241_cont_9to1c4b_359_24_alg».proof.Proof.IBodyEnd
import proofs.«203315_g78847009620241_cont_9to1c4b_359_24_alg».proof.Proof.IBodyTripAll

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.KernelIdeal.main_arg1_scv : Memref Cert.KernelIdeal.sig Kind.scVector Space.hbm Cert.KernelIdeal.S45x128 EltTy.f32)
local notation "iV" => (Memref.whole Cert.KernelIdeal.main_v0_scv : Memref Cert.KernelIdeal.sig Kind.scVector Space.hbm Cert.KernelIdeal.S32x200x128 EltTy.i32)
local notation "oV" => (Memref.whole Cert.KernelIdeal.main_v1_scv : Memref Cert.KernelIdeal.sig Kind.scVector Space.hbm Cert.KernelIdeal.S819200x128 EltTy.f32)
local notation "shV" => (Memref.whole Cert.KernelIdeal.cc0_scratch0 : Memref Cert.KernelIdeal.sig Kind.scVector Space.shared Cert.KernelIdeal.S45x128 EltTy.f32)
local notation "xV" => (Memref.whole Cert.KernelIdeal.cc0_scratch1 : Memref Cert.KernelIdeal.sig Kind.scVector Space.vmem Cert.KernelIdeal.S200x128 EltTy.i32)
local notation "b0V" => (Memref.whole Cert.KernelIdeal.cc0_scratch2 : Memref Cert.KernelIdeal.sig Kind.scVector Space.vmem Cert.KernelIdeal.S128x128 EltTy.f32)
local notation "b1V" => (Memref.whole Cert.KernelIdeal.cc0_scratch3 : Memref Cert.KernelIdeal.sig Kind.scVector Space.vmem Cert.KernelIdeal.S128x128 EltTy.f32)
local notation "b2V" => (Memref.whole Cert.KernelIdeal.cc0_scratch4 : Memref Cert.KernelIdeal.sig Kind.scVector Space.vmem Cert.KernelIdeal.S128x128 EltTy.f32)
local notation "b3V" => (Memref.whole Cert.KernelIdeal.cc0_scratch5 : Memref Cert.KernelIdeal.sig Kind.scVector Space.vmem Cert.KernelIdeal.S128x128 EltTy.f32)
local notation "b4V" => (Memref.whole Cert.KernelIdeal.cc0_scratch6 : Memref Cert.KernelIdeal.sig Kind.scVector Space.vmem Cert.KernelIdeal.S128x128 EltTy.f32)

variable (m : (ℓ : Loc nD τ sig) → Buf (Elt F) ℓ)
variable [FloatOps F]

section Tile

variable (d : Dev nD) (L : grid0.Coords)

omit [FloatOps F] in
/-- The rows of the index scratch from row 3 on, out of all of them less rows 0, 1, 2. -/
theorem xRows3' : ((xV).view.loc (VT d L) ↦{fullShare} XI m d L : sProp 𝕄)
    = iprop(xRowPts m d L 0 ∗ xRowPts m d L 1 ∗ xRowPts m d L 2 ∗ bigSep (Finset.univ.filter fun i : Fin 200 => 3 ≤ i.val) (xRowPts m d L)) := by
  rw [xPts_rows, ← bigSep_from_zero, bigSep_from_take (xRowPts m d L) 0 (by decide), bigSep_from_take (xRowPts m d L) (0 + 1) (by decide),
    bigSep_from_take (xRowPts m d L) (0 + 1 + 1) (by decide)]
  rfl

/-- Before the first trip: the three first gathers are out, slots 3 and 4 idle, nothing stored yet. -/
theorem head0_intro (O : CellTallies nD τ sig (HIx 1)) (W W' : Waits sig (HIx 1)) (hW' : ∀ p ∈ W', p ∈ W ∨ p.2 = none ∨ p.2 = some (0 : Fin 1)) :
    iprop(Transfers.MayWaits (VT d L) (default : HIx 1) O
      ∗ ((iSlabK L).view.loc (VT d L) ↦[(iSlabK L).view.set]{fullShare} I3 m d)
      ∗ ((shV).view.loc (VT d L) ↦{shareDrop (qT L) 5} tabS m d (cV L))
      ∗ bigSep (Finset.univ.filter fun i : Fin 200 => 3 ≤ i.val) (xRowPts m d L)
      ∗ oSlabPts d (wL L) (m (oLoc d))
      ∗ semVal (VT d L, SemLoc.dma (csem 10)) 0 ∗ semVal (VT d L, SemLoc.dma (csem 11)) 0
      ∗ (bigSep ((ownRefs (τ := τ) (.scVector (cV L) (jV L))) \ Finset.univ.image (vdev (cV L) (jV L))) fun b => iprop(∃ f, ((d, b) : Loc nD τ sig) ↦{fullShare} f))
      ∗ (bigSep ((ownCells (VT d L)) \ Finset.univ.image (dcell d (cV L) (jV L))) fun g => semVal g 0)
      ∗ tile0Pts m d L
      ∗ owes (VT d L) O W'
      ∗ (gFl0 m d L (ch 0 0 (by decide) (by decide)) ∗ tokRest m d L 0) ∗ (gFl1 m d L (ch 0 1 (by decide) (by decide)) ∗ tokRest m d L 1)
      ∗ (gFl2 m d L (ch 0 2 (by decide) (by decide)) ∗ tokRest m d L 2)
      ∗ tokPts m d L 3 ∗ tokPts m d L 4
      ∗ semVal (VT d L, SemLoc.dma (csem 3)) 0 ∗ semVal (VT d L, SemLoc.dma (csem 4)) 0
      ∗ semVal (VT d L, SemLoc.dma (csem 5)) 0 ∗ semVal (VT d L, SemLoc.dma (csem 6)) 0 ∗ semVal (VT d L, SemLoc.dma (csem 7)) 0
      ∗ semVal (VT d L, SemLoc.dma (csem 8)) 0 ∗ semVal (VT d L, SemLoc.dma (csem 9)) 0
      ∗ (∃ f, (b3V).view.loc (VT d L) ↦{fullShare} f) ∗ (∃ f, (b4V).view.loc (VT d L) ↦{fullShare} f))
    ⊢ Inv m d L O W 0 () := by
  unfold Inv
  rw [dif_pos (show 0 < 40 by decide)]
  unfold Head
  rw [dif_pos rfl, show Common m d L O W (5 * 0 + 3) (5 * 0) (5 * 0 - 2) (5 * 0) = Common m d L O W 3 0 0 0 from rfl]
  unfold Common
  rw [bigSep_below_zero, bigSep_below_zero, bigSep_from_zero]
  iintro ⟨Hmw, Hi, HTr, Hrows, Ho, Hc10, Hc11, Hbufs, Hsems, Ht0, HO, Hg0, Hg1, Hg2, HT3, HT4, Hc3, Hc4, Hc5, Hc6, Hc7, Hc8, Hc9, H3, H4⟩
  isplitl [Hmw Hi HTr Hrows Ho Hc10 Hc11 Hbufs Hsems Ht0 HO]
  · isplitl [Hmw]; · iexact Hmw
    isplitl [Hi]; · iexact Hi
    isplitl [HTr]; · iexact HTr
    isplitl [Hrows]; · iexact Hrows
    isplitr; · iempintro
    isplitr; · iempintro
    isplitl [Ho]; · iexact Ho
    isplitl [Hc10]; · iexact Hc10
    isplitl [Hc11]; · iexact Hc11
    isplitl [Hbufs]; · iexact Hbufs
    isplitl [Hsems]; · iexact Hsems
    isplitl [Ht0]; · iexact Ht0
    iexists W'; isplitr
    · ipureintro; exact hW'
    · iexact HO
  isplitl [Hg0]; · iexact Hg0
  isplitl [Hg1]; · iexact Hg1
  isplitl [Hg2]; · iexact Hg2
  isplitl [HT3]; · iexact HT3
  isplitl [HT4]; · iexact HT4
  isplitl [Hc3]; · iexact Hc3
  isplitl [Hc4]; · iexact Hc4
  isplitl [Hc5]; · iexact Hc5
  isplitl [Hc6]; · iexact Hc6
  isplitl [Hc7]; · iexact Hc7
  isplitl [H3]; · iexact H3
  isplitl [H4]; · iexact H4
  isplitl [Hc8]; · iexact Hc8
  iexact Hc9

omit [FloatOps F] in
theorem tile0Pts_other (hj : ¬ (jL L).val = 0) : tile0Pts m d L = (iprop(emp) : sProp 𝕄) := if_neg hj
omit [FloatOps F] in
theorem tile0Pts_zero (hj : (jL L).val = 0) : tile0Pts m d L = (iprop(tabPts m d (cL L) ∗ shRestPts m d (Fin.cast nSC_eq.symm (cL L))) : sProp 𝕄) := if_pos hj
omit [FloatOps F] in
theorem trips_eq : Scf.trips k0_t1_loop.lb k0_t1_loop.ub k0_t1_loop.st = 40 := by decide +kernel

/-- After the last trip the invariant is its exit form. -/
theorem exit_elim (O : CellTallies nD τ sig (HIx 1)) (W : Waits sig (HIx 1)) (acc : Unit) :
    Inv m d L O W (Scf.trips k0_t1_loop.lb k0_t1_loop.ub k0_t1_loop.st) acc ⊢ Exit m d L O W := by
  rw [trips_eq]
  unfold Inv
  rw [dif_neg (show ¬ 40 < 40 by decide)]

omit [FloatOps F] in
/-- The pieces below 200 are the last five and those below 195. -/
theorem below_200 (Φ : Fin 200 → sProp 𝕄) :
    bigSep (Finset.univ.filter fun i : Fin 200 => i.val < 200) Φ
      = iprop(Φ ⟨199, by decide⟩ ∗ Φ ⟨198, by decide⟩ ∗ Φ ⟨197, by decide⟩ ∗ Φ ⟨196, by decide⟩ ∗ Φ ⟨195, by decide⟩
          ∗ bigSep (Finset.univ.filter fun i : Fin 200 => i.val < 195) Φ) := by
  have h199 : bigSep (Finset.univ.filter fun i : Fin 200 => i.val < 200) Φ
      = iprop(Φ ⟨199, by decide⟩ ∗ bigSep (Finset.univ.filter fun i : Fin 200 => i.val < 199) Φ) := bigSep_below_put Φ 199 (by decide)
  have h198 : bigSep (Finset.univ.filter fun i : Fin 200 => i.val < 199) Φ
      = iprop(Φ ⟨198, by decide⟩ ∗ bigSep (Finset.univ.filter fun i : Fin 200 => i.val < 198) Φ) := bigSep_below_put Φ 198 (by decide)
  have h197 : bigSep (Finset.univ.filter fun i : Fin 200 => i.val < 198) Φ
      = iprop(Φ ⟨197, by decide⟩ ∗ bigSep (Finset.univ.filter fun i : Fin 200 => i.val < 197) Φ) := bigSep_below_put Φ 197 (by decide)
  have h196 : bigSep (Finset.univ.filter fun i : Fin 200 => i.val < 197) Φ
      = iprop(Φ ⟨196, by decide⟩ ∗ bigSep (Finset.univ.filter fun i : Fin 200 => i.val < 196) Φ) := bigSep_below_put Φ 196 (by decide)
  have h195 : bigSep (Finset.univ.filter fun i : Fin 200 => i.val < 196) Φ
      = iprop(Φ ⟨195, by decide⟩ ∗ bigSep (Finset.univ.filter fun i : Fin 200 => i.val < 195) Φ) := bigSep_below_put Φ 195 (by decide)
  rw [h199, h198, h197, h196, h195]

/-- After the five last waits everything is in the finished form. -/
theorem done_intro (O : CellTallies nD τ sig (HIx 1)) (W : Waits sig (HIx 1)) (g0 g1 g2 g3 g4 : S128x128.Idx → Elt F .f32) :
    iprop(Transfers.MayWaits (VT d L) (default : HIx 1) O
      ∗ ((iSlabK L).view.loc (VT d L) ↦[(iSlabK L).view.set]{fullShare} I3 m d)
      ∗ ((shV).view.loc (VT d L) ↦{shareDrop (qT L) 5} tabS m d (cV L))
      ∗ bigSep (Finset.univ.filter fun i : Fin 200 => i.val < 200) (xRowPts m d L)
      ∗ bigSep (Finset.univ.filter fun i : Fin 200 => i.val < 195) (oChPts d L (Ok m d))
      ∗ oChPts d L (Ok m d) ⟨195, by decide⟩ ∗ oChPts d L (Ok m d) ⟨196, by decide⟩ ∗ oChPts d L (Ok m d) ⟨197, by decide⟩
      ∗ oChPts d L (Ok m d) ⟨198, by decide⟩ ∗ oChPts d L (Ok m d) ⟨199, by decide⟩
      ∗ semVal (VT d L, SemLoc.dma (csem 10)) 0 ∗ semVal (VT d L, SemLoc.dma (csem 11)) 0
      ∗ (bigSep ((ownRefs (τ := τ) (.scVector (cV L) (jV L))) \ Finset.univ.image (vdev (cV L) (jV L))) fun b => iprop(∃ f, ((d, b) : Loc nD τ sig) ↦{fullShare} f))
      ∗ (bigSep ((ownCells (VT d L)) \ Finset.univ.image (dcell d (cV L) (jV L))) fun g => semVal g 0)
      ∗ tile0Pts m d L
      ∗ (∃ W', ⌜∀ p ∈ W', p ∈ W ∨ p.2 = none ∨ p.2 = some (0 : Fin 1)⌝ ∗ owes (VT d L) O W')
      ∗ ((b0V).view.loc (VT d L) ↦[(b0V).view.set]{fullShare} (g0 : Buf (Elt F) ((b0V).view.loc (VT d L))))
      ∗ ((b1V).view.loc (VT d L) ↦[(b1V).view.set]{fullShare} (g1 : Buf (Elt F) ((b1V).view.loc (VT d L))))
      ∗ ((b2V).view.loc (VT d L) ↦[(b2V).view.set]{fullShare} (g2 : Buf (Elt F) ((b2V).view.loc (VT d L))))
      ∗ ((b3V).view.loc (VT d L) ↦[(b3V).view.set]{fullShare} (g3 : Buf (Elt F) ((b3V).view.loc (VT d L))))
      ∗ ((b4V).view.loc (VT d L) ↦[(b4V).view.set]{fullShare} (g4 : Buf (Elt F) ((b4V).view.loc (VT d L))))
      ∗ tokPts m d L 0 ∗ tokPts m d L 1 ∗ tokPts m d L 2 ∗ tokPts m d L 3 ∗ tokPts m d L 4
      ∗ semVal (VT d L, SemLoc.dma (csem 0)) 0 ∗ semVal (VT d L, SemLoc.dma (csem 1)) 0 ∗ semVal (VT d L, SemLoc.dma (csem 2)) 0
      ∗ semVal (VT d L, SemLoc.dma (csem 3)) 0 ∗ semVal (VT d L, SemLoc.dma (csem 4)) 0 ∗ semVal (VT d L, SemLoc.dma (csem 5)) 0
      ∗ semVal (VT d L, SemLoc.dma (csem 6)) 0 ∗ semVal (VT d L, SemLoc.dma (csem 7)) 0 ∗ semVal (VT d L, SemLoc.dma (csem 8)) 0
      ∗ semVal (VT d L, SemLoc.dma (csem 9)) 0)
    ⊢ Done m d L O W := by
  unfold Done Common
  rw [bigSep_from_end, bigSep_from_end, below_200 (oChPts d L (Ok m d))]
  rw [show ((b0V).view.set : Finset _) = Finset.univ from View.set_whole _, show ((b1V).view.set : Finset _) = Finset.univ from View.set_whole _,
    show ((b2V).view.set : Finset _) = Finset.univ from View.set_whole _, show ((b3V).view.set : Finset _) = Finset.univ from View.set_whole _,
    show ((b4V).view.set : Finset _) = Finset.univ from View.set_whole _]
  iintro ⟨Hmw, Hi, HTr, Hx, Hdone, Ho5, Ho6, Ho7, Ho8, Ho9, Hc10, Hc11, Hbufs, Hsems, Ht0, HO, H0, H1, H2, H3, H4, HT0, HT1, HT2, HT3, HT4,
    Hc0, Hc1, Hc2, Hc3, Hc4, Hc5, Hc6, Hc7, Hc8, Hc9⟩
  isplitl [Hmw Hi HTr Hx Hdone Ho5 Ho6 Ho7 Ho8 Ho9 Hc10 Hc11 Hbufs Hsems Ht0 HO]
  · isplitl [Hmw]; · iexact Hmw
    isplitl [Hi]; · iexact Hi
    isplitl [HTr]; · iexact HTr
    isplitr; · iempintro
    isplitl [Hx]; · iexact Hx
    isplitl [Hdone Ho5 Ho6 Ho7 Ho8 Ho9]
    · isplitl [Ho9]; · iexact Ho9
      isplitl [Ho8]; · iexact Ho8
      isplitl [Ho7]; · iexact Ho7
      isplitl [Ho6]; · iexact Ho6
      isplitl [Ho5]; · iexact Ho5
      iexact Hdone
    isplitr; · iempintro
    isplitl [Hc10]; · iexact Hc10
    isplitl [Hc11]; · iexact Hc11
    isplitl [Hbufs]; · iexact Hbufs
    isplitl [Hsems]; · iexact Hsems
    isplitl [Ht0]; · iexact Ht0
    iexact HO
  isplitl [H0]; · iexists _; iexact H0
  isplitl [H1]; · iexists _; iexact H1
  isplitl [H2]; · iexists _; iexact H2
  isplitl [H3]; · iexists _; iexact H3
  isplitl [H4]; · iexists _; iexact H4
  isplitl [HT0]; · iexact HT0
  isplitl [HT1]; · iexact HT1
  isplitl [HT2]; · iexact HT2
  isplitl [HT3]; · iexact HT3
  isplitl [HT4]; · iexact HT4
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexact Hc9

omit [FloatOps F] in
theorem pts_tV (q : PosShare TreeShare) (f : Buf (Elt F) (tLoc d)) :
    ((tV).view.loc (VT d L) ↦{q} f : sProp 𝕄) = tLoc d ↦{q} f := rfl
omit [FloatOps F] in
theorem pts_shV (q : PosShare TreeShare) (f : Buf (Elt F) (shLoc d (Fin.cast nSC_eq.symm (cL L)))) :
    ((shV).view.loc (VT d L) ↦{q} f : sProp 𝕄) = shLoc d (Fin.cast nSC_eq.symm (cL L)) ↦{q} f := rfl

/-- Tile 0 pays: the shared copy whole, at the table's contents, is every tile's read token — one into each tile's round —
    and the remainder. -/
theorem pays_zero_at (hj : (jL L).val = 0) :
    (shLoc d (cV L) ↦{fullShare} tabS m d (cV L) : sProp 𝕄)
      ⊢ iprop((bigSep Finset.univ fun j : Fin (grid0.bound 1) => (bRd (F := F) m).payload (bcell d (cV L) (j.castLE hsub0)) 0 (jV L).val)
          ∗ shRestPts m d (cV L)) := by
  rw [show (jV L).val = 0 from hj]
  exact pays_intro_zero m d (cV L)

set_option maxHeartbeats 4000000 in
theorem tile_body_other (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) (hj : ¬ (jL L).val = 0) :
    iprop(levAts (K (F := F)).L (K (F := F)).lev ∗ bkit m d (cV L) (jV L) ∗ goRes m d (cL L) (jL L)
        ∗ scopedBufs (VT d L) ∗ scopedSems0 (VT d L) ∗ owes (VT d L) (O + oxV d (cV L)) W)
      ⊢ wp frame (wpE (defs₀ (F := F)) 𝒱₀ (VT d L) none) Set.univ
          (cc0__embed_body L tV (Memref.isWhole_whole _) iV (Memref.isWhole_whole _) oV (Memref.isWhole_whole _)
            shV (Memref.isWhole_whole _) xV (Memref.isWhole_whole _) b0V (Memref.isWhole_whole _) b1V (Memref.isWhole_whole _)
            b2V (Memref.isWhole_whole _) b3V (Memref.isWhole_whole _) b4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1)
          fun _ => iprop(tdRes m d (cL L) (jL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold bkit goRes
  rw [if_neg hj]
  iintro ⟨#Hlv, ⟨⟨%κ, #Hinv⟩, Htoks, #Hrch, Hat, Hcred⟩, ⟨Hi, Ho, -⟩, ⟨⟨⟨%fx, Hx⟩, ⟨%f0, H0⟩, ⟨%f1, H1⟩, ⟨%f2, H2⟩, ⟨%f3, H3⟩, ⟨%f4, H4⟩⟩, Hbufs⟩, ⟨⟨Hc0, Hc1, Hc2, Hc3, Hc4, Hc5, Hc6, Hc7, Hc8, Hc9, Hc10, Hc11⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (VT d L) (default : HIx 1) (O + oxV d (cV L)) from
    (K (F := F)).mayWaits_none (thr := VT d L) hO') $$ Hlv
  ihave Hmw2 := (show levAts (K (F := F)).L (K (F := F)).lev ⊢ Transfers.MayWaits (VT d L) (default : HIx 1) O from
    (K (F := F)).mayWaits_none (thr := VT d L) hO) $$ Hlv
  ihave Hi' := (Entails.of_eq (pts_iSlabK (F := F) d L _).symm) $$ Hi
  ihave Hx' := (Entails.of_eq (pts_xV (F := F) d L _).symm) $$ Hx
  ihave H0' := (Entails.of_eq (pts_b0V (F := F) d L _).symm) $$ H0
  ihave H1' := (Entails.of_eq (pts_b1V (F := F) d L _).symm) $$ H1
  ihave H2' := (Entails.of_eq (pts_b2V (F := F) d L _).symm) $$ H2
  ihave H3' := (Entails.of_eq (pts_b3V (F := F) d L _).symm) $$ H3
  ihave H4' := (Entails.of_eq (pts_b4V (F := F) d L _).symm) $$ H4
  sl_unfold [cc0__embed_body]
  sl_exec
  have hv5 : ∀ L : grid0.Coords, ¬ (jL L).val = 0 → ¬ tile_body_other.sl.v5 L = 1#1 := by unfold tile_body_other.sl.v5; decide +kernel
  have k0_h1 := hv5 L hj
  sl_exec
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · rw [bigSep_sep', bigSep_sep']
      isplitl [Htoks]; · iexact Htoks
      isplitr; · iapply (pays_intro_other (F := F) m d (cV L) (jV L).val hj); iempintro
      iexact Hrch
    isplitl [Hcred]; · iexact Hcred
    isplitl [Hat]; · iexact Hat
    iapply ((K (F := F)).mayOwe_of_bound (thr := VT d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  have hpe : (bigSep ((bRd (F := F) m).duties (bcell d (cV L) (jV L)) 0 \ ∅) fun n => (bRd (F := F) m).payload (bcell d (cV L) (jV L)) 0 n)
      ⊢ (shTokPts m d (cV L) (jL L) : sProp 𝕄) := pays_elim (F := F) m d (cV L) (jV L)
  ihave Htok := hpe $$ Hgot
  ihave Htok' := (shToks (F := F) m d L).1 $$ Htok
  icases Htok' with ⟨HTr, HT0, HT1, HT2, HT3, HT4⟩
  -- the index scratch at what the copy landed, row by row
  have eX : View.write (Elt F) (xV).view fx (tile_body_other.sl.dma0 m d L) Finset.univ = XI m d L := by
    rw [View.write_whole_univ]; rfl
  ihave Hxr := (Entails.of_eq ((congrArg (fun f => ((xV).view.loc (VT d L) ↦{fullShare} f : sProp 𝕄)) eX).trans (xRows3' (F := F) m d L))) $$ Hx'
  icases Hxr with ⟨Hr0, Hr1, Hr2, Hrows⟩
  ihave Hr0' := (Entails.of_eq (pts_xRowAt (F := F) d L ![0, 0] inb_S200x128_S1x128_0_0 0 rfl rfl _).symm) $$ Hr0
  ihave Hr1' := (Entails.of_eq (pts_xRowAt (F := F) d L ![1, 0] inb_S200x128_S1x128_1_0 1 rfl rfl _).symm) $$ Hr1
  ihave Hr2' := (Entails.of_eq (pts_xRowAt (F := F) d L ![2, 0] inb_S200x128_S1x128_2_0 2 rfl rfl _).symm) $$ Hr2
  have hin0 := inb_XI m d L hpre ![0, 0] inb_S200x128_S1x128_0_0
  have hin1 := inb_XI m d L hpre ![1, 0] inb_S200x128_S1x128_1_0
  have hin2 := inb_XI m d L hpre ![2, 0] inb_S200x128_S1x128_2_0
  sl_exec
  -- the three gathers out, as the invariant spells them
  have h40 : (0 : ℕ) < 40 := by decide
  have h50 : (0 : ℕ) < 5 := by decide
  have h51 : (1 : ℕ) < 5 := by decide
  have h52 : (2 : ℕ) < 5 := by decide
  have hp0 : tile_body_other.sl.gather0 m d L hin0 = GC m d L (ch 0 0 h40 h50) := gather_GC m d L _ _ _ rfl rfl _ _
  have hp1 : tile_body_other.sl.gather1 m d L hin1 = GC m d L (ch 0 1 h40 h51) := gather_GC m d L _ _ _ rfl rfl _ _
  have hp2 : tile_body_other.sl.gather2 m d L hin2 = GC m d L (ch 0 2 h40 h52) := gather_GC m d L _ _ _ rfl rfl _ _
  ihave Hg0 := (gfl0_of_exec m d L (ch 0 0 h40 h50) ![0, 0] inb_S200x128_S1x128_0_0 rfl rfl _ _ hp0) $$ Hc0
  ihave Hg1 := (gfl1_of_exec m d L (ch 0 1 h40 h51) ![1, 0] inb_S200x128_S1x128_1_0 rfl rfl _ _ hp1) $$ Hc1
  ihave Hg2 := (gfl2_of_exec m d L (ch 0 2 h40 h52) ![2, 0] inb_S200x128_S1x128_2_0 rfl rfl _ _ hp2) $$ Hc2
  ihave HI0 := (head0_intro m d L O W (insert (SemLoc.reg sc_bar0, some 0) (insert (SemLoc.dma (csem 11), (default : HIx 1)) W)) (by
      intro p hp
      rcases Finset.mem_insert.mp hp with hp | hp; · exact .inr (.inr (hp ▸ rfl))
      rcases Finset.mem_insert.mp hp with hp | hp; · exact .inr (.inl (hp ▸ rfl))
      exact .inl hp)) $$ [Hmw2 Hi' HTr Hrows Ho Hc10 Hc11 Hbufs Hsems HO Hg0 HT0 Hg1 HT1 Hg2 HT2 HT3 HT4 Hc3 Hc4 Hc5 Hc6 Hc7 Hc8 Hc9 H3' H4']
  · isplitr; · iexact Hmw2
    isplitl [Hi']; · iexact Hi'
    isplitl [HTr]; · iexact HTr
    isplitl [Hrows]; · iexact Hrows
    isplitl [Ho]; · iexact Ho
    isplitl [Hc10]; · iexact Hc10
    isplitl [Hc11]; · iexact Hc11
    isplitl [Hbufs]; · iexact Hbufs
    isplitl [Hsems]; · iexact Hsems
    isplitr; · rw [tile0Pts_other m d L hj]; iempintro
    isplitl [HO]; · iexact HO
    isplitl [Hg0 HT0]; · isplitl [Hg0]; · iexact Hg0
                         iexact HT0
    isplitl [Hg1 HT1]; · isplitl [Hg1]; · iexact Hg1
                         iexact HT1
    isplitl [Hg2 HT2]; · isplitl [Hg2]; · iexact Hg2
                         iexact HT2
    isplitl [HT3]; · iexact HT3
    isplitl [HT4]; · iexact HT4
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [H3']; · iexists _; iexact H3'
    iexists _; iexact H4'
  sl_for (Inv m d L O W) $$ [HI0]
  case region =>
    intro k acc
    exact trip m d L hpre O W k
  · iexact HI0
  iintro %acc HI
  ihave HE := (exit_elim m d L O W acc) $$ HI
  unfold Exit Common sFl0 sFl1 sFl2 sFl3 sFl4
  icases HE with ⟨⟨#Hmw, Hi, HTr, -, Hx, Hdone, -, Hc10, Hc11, Hbufs, Hsems, Ht0, %W', %hW', HO⟩, Hs0, Hs1, Hs2, Hs3, Hs4, HT0, HT1, HT2, HT3, HT4, Hc0, Hc1, Hc2, Hc3, Hc4⟩
  sl_exec
  sl_step
  have hreg := regroup m d L hF O W
  rw [(K (F := F)).scopedBufs_V hF d (cV L) (jV L), SparseCore.Cfg.scopedSems0_V (Val := Elt F) d (cV L) (jV L), ownSems0_V, ownBufs_V] at hreg
  iapply hreg
  iapply (done_intro m d L O W _ _ _ _ _)
  isplitr; · iexact Hmw
  isplitl [Hi]; · iexact Hi
  isplitl [HTr]; · iexact HTr
  isplitl [Hx]; · iexact Hx
  isplitl [Hdone]; · iexact Hdone
  isplitl [Hs0_dst]; · iexact Hs0_dst
  isplitl [Hs1_dst]; · iexact Hs1_dst
  isplitl [Hs2_dst]; · iexact Hs2_dst
  isplitl [Hs3_dst]; · iexact Hs3_dst
  isplitl [Hs4_dst]; · iexact Hs4_dst
  isplitl [Hc10]; · iexact Hc10
  isplitl [Hc11]; · iexact Hc11
  isplitl [Hbufs]; · iexact Hbufs
  isplitl [Hsems]; · iexact Hsems
  isplitl [Ht0]; · iexact Ht0
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitl [Hs0_src]; · iexact Hs0_src
  isplitl [Hs1_src]; · iexact Hs1_src
  isplitl [Hs2_src]; · iexact Hs2_src
  isplitl [Hs3_src]; · iexact Hs3_src
  isplitl [Hs4_src]; · iexact Hs4_src
  isplitl [HT0]; · iexact HT0
  isplitl [HT1]; · iexact HT1
  isplitl [HT2]; · iexact HT2
  isplitl [HT3]; · iexact HT3
  isplitl [HT4]; · iexact HT4
  isplitl [Hc0]; · iexact Hc0
  isplitl [Hc1]; · iexact Hc1
  isplitl [Hc2]; · iexact Hc2
  isplitl [Hc3]; · iexact Hc3
  isplitl [Hc4]; · iexact Hc4
  isplitl [Hs0]; · iexact Hs0
  isplitl [Hs1]; · iexact Hs1
  isplitl [Hs2]; · iexact Hs2
  isplitl [Hs3]; · iexact Hs3
  iexact Hs4

set_option maxHeartbeats 4000000 in
theorem tile_body_zero (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) (hj : (jL L).val = 0) :
    iprop(levAts (K (F := F)).L (K (F := F)).lev ∗ bkit m d (cV L) (jV L) ∗ goRes m d (cL L) (jL L)
        ∗ scopedBufs (VT d L) ∗ scopedSems0 (VT d L) ∗ owes (VT d L) (O + oxV d (cV L)) W)
      ⊢ wp frame (wpE (defs₀ (F := F)) 𝒱₀ (VT d L) none) Set.univ
          (cc0__embed_body L tV (Memref.isWhole_whole _) iV (Memref.isWhole_whole _) oV (Memref.isWhole_whole _)
            shV (Memref.isWhole_whole _) xV (Memref.isWhole_whole _) b0V (Memref.isWhole_whole _) b1V (Memref.isWhole_whole _)
            b2V (Memref.isWhole_whole _) b3V (Memref.isWhole_whole _) b4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1)
          fun _ => iprop(tdRes m d (cL L) (jL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold bkit goRes
  rw [if_pos hj]
  iintro ⟨#Hlv, ⟨⟨%κ, #Hinv⟩, Htoks, #Hrch, Hat, Hcred⟩, ⟨Hi, Ho, Htab, %fsh, Hsh⟩, ⟨⟨⟨%fx, Hx⟩, ⟨%f0, H0⟩, ⟨%f1, H1⟩, ⟨%f2, H2⟩, ⟨%f3, H3⟩, ⟨%f4, H4⟩⟩, Hbufs⟩, ⟨⟨Hc0, Hc1, Hc2, Hc3, Hc4, Hc5, Hc6, Hc7, Hc8, Hc9, Hc10, Hc11⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (VT d L) (default : HIx 1) (O + oxV d (cV L)) from
    (K (F := F)).mayWaits_none (thr := VT d L) hO') $$ Hlv
  ihave Hmw2 := (show levAts (K (F := F)).L (K (F := F)).lev ⊢ Transfers.MayWaits (VT d L) (default : HIx 1) O from
    (K (F := F)).mayWaits_none (thr := VT d L) hO) $$ Hlv
  ihave Hi' := (Entails.of_eq (pts_iSlabK (F := F) d L _).symm) $$ Hi
  ihave Hx' := (Entails.of_eq (pts_xV (F := F) d L _).symm) $$ Hx
  ihave H0' := (Entails.of_eq (pts_b0V (F := F) d L _).symm) $$ H0
  ihave H1' := (Entails.of_eq (pts_b1V (F := F) d L _).symm) $$ H1
  ihave H2' := (Entails.of_eq (pts_b2V (F := F) d L _).symm) $$ H2
  ihave H3' := (Entails.of_eq (pts_b3V (F := F) d L _).symm) $$ H3
  ihave H4' := (Entails.of_eq (pts_b4V (F := F) d L _).symm) $$ H4
  ihave Htab' := (Entails.of_eq (pts_tV (F := F) d L _ _).symm) $$ Htab
  ihave Hsh' := (Entails.of_eq (pts_shV (F := F) d L _ _).symm) $$ Hsh
  sl_unfold [cc0__embed_body]
  sl_exec
  have hv5a : ∀ L : grid0.Coords, (jL L).val = 0 → tile_body_zero.sl.v5 L = 1#1 := by unfold tile_body_zero.sl.v5; decide +kernel
  have hv5 := hv5a L hj
  have hW0 : ∀ p ∈ tile_body_zero.sl.W0 L W, p ∈ W ∨ p.2 = none ∨ p.2 = some (0 : Fin 1) := by
    intro p hp
    unfold tile_body_zero.sl.W0 at hp
    rw [dif_pos hv5] at hp
    rcases Finset.mem_insert.mp hp with hp | hp
    · exact .inr (.inl (hp ▸ rfl))
    · exact .inl hp
  have hWb : ∀ p ∈ insert (SemLoc.reg sc_bar0, some (0 : Fin 1)) (insert (SemLoc.dma (csem 11), (default : HIx 1)) (tile_body_zero.sl.W0 L W)),
      p ∈ W ∨ p.2 = none ∨ p.2 = some (0 : Fin 1) := by
    intro p hp
    rcases Finset.mem_insert.mp hp with hp | hp; · exact .inr (.inr (hp ▸ rfl))
    rcases Finset.mem_insert.mp hp with hp | hp; · exact .inr (.inl (hp ▸ rfl))
    exact hW0 p hp
  -- the shared copy now holds the table: tile 0 cuts it into the sixteen read tokens and keeps the remainder
  have eS : ((shV).view.loc (VT d L) ↦{fullShare} (if hc : tile_body_zero.sl.v5 L = 1#1 then
        View.write (Elt F) (shV).view fsh (tile_body_zero.sl.dma0 m d) Finset.univ else fsh) : sProp 𝕄)
      = (shLoc d (cV L) ↦{fullShare} tabS m d (cV L)) := by
    rw [dif_pos hv5, View.write_whole_univ]; rfl
  ihave Hsh2 := (Entails.of_eq eS) $$ Hsh'
  ihave Hpay := (pays_zero_at m d L hj) $$ Hsh2
  icases Hpay with ⟨Hpays, Hrest0⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat Hpays]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := VT d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  have hpe : (bigSep ((bRd (F := F) m).duties (bcell d (cV L) (jV L)) 0 \ ∅) fun n => (bRd (F := F) m).payload (bcell d (cV L) (jV L)) 0 n)
      ⊢ (shTokPts m d (cV L) (jL L) : sProp 𝕄) := pays_elim (F := F) m d (cV L) (jV L)
  ihave Htok := hpe $$ Hgot
  ihave Htok' := (shToks (F := F) m d L).1 $$ Htok
  icases Htok' with ⟨HTr, HT0, HT1, HT2, HT3, HT4⟩
  -- the index scratch at what the copy landed, row by row
  have eX : View.write (Elt F) (xV).view fx (tile_body_zero.sl.dma0_1 m d L) Finset.univ = XI m d L := by
    rw [View.write_whole_univ]; rfl
  ihave Hxr := (Entails.of_eq ((congrArg (fun f => ((xV).view.loc (VT d L) ↦{fullShare} f : sProp 𝕄)) eX).trans (xRows3' (F := F) m d L))) $$ Hx'
  icases Hxr with ⟨Hr0, Hr1, Hr2, Hrows⟩
  ihave Hr0' := (Entails.of_eq (pts_xRowAt (F := F) d L ![0, 0] inb_S200x128_S1x128_0_0 0 rfl rfl _).symm) $$ Hr0
  ihave Hr1' := (Entails.of_eq (pts_xRowAt (F := F) d L ![1, 0] inb_S200x128_S1x128_1_0 1 rfl rfl _).symm) $$ Hr1
  ihave Hr2' := (Entails.of_eq (pts_xRowAt (F := F) d L ![2, 0] inb_S200x128_S1x128_2_0 2 rfl rfl _).symm) $$ Hr2
  have hin0 := inb_XI m d L hpre ![0, 0] inb_S200x128_S1x128_0_0
  have hin1 := inb_XI m d L hpre ![1, 0] inb_S200x128_S1x128_1_0
  have hin2 := inb_XI m d L hpre ![2, 0] inb_S200x128_S1x128_2_0
  sl_exec
  -- the three gathers out, as the invariant spells them
  have h40 : (0 : ℕ) < 40 := by decide
  have h50 : (0 : ℕ) < 5 := by decide
  have h51 : (1 : ℕ) < 5 := by decide
  have h52 : (2 : ℕ) < 5 := by decide
  have hp0 : tile_body_zero.sl.gather0 m d L hin0 = GC m d L (ch 0 0 h40 h50) := gather_GC m d L _ _ _ rfl rfl _ _
  have hp1 : tile_body_zero.sl.gather1 m d L hin1 = GC m d L (ch 0 1 h40 h51) := gather_GC m d L _ _ _ rfl rfl _ _
  have hp2 : tile_body_zero.sl.gather2 m d L hin2 = GC m d L (ch 0 2 h40 h52) := gather_GC m d L _ _ _ rfl rfl _ _
  ihave Hg0 := (gfl0_of_exec m d L (ch 0 0 h40 h50) ![0, 0] inb_S200x128_S1x128_0_0 rfl rfl _ _ hp0) $$ Hc0
  ihave Hg1 := (gfl1_of_exec m d L (ch 0 1 h40 h51) ![1, 0] inb_S200x128_S1x128_1_0 rfl rfl _ _ hp1) $$ Hc1
  ihave Hg2 := (gfl2_of_exec m d L (ch 0 2 h40 h52) ![2, 0] inb_S200x128_S1x128_2_0 rfl rfl _ _ hp2) $$ Hc2
  ihave HI0 := (head0_intro m d L O W (insert (SemLoc.reg sc_bar0, some 0) (insert (SemLoc.dma (csem 11), (default : HIx 1)) (tile_body_zero.sl.W0 L W))) hWb) $$ [Hmw2 Hi' HTr Hrows Ho Hc10 Hc11 Hbufs Hsems HO Hg0 HT0 Hg1 HT1 Hg2 HT2 HT3 HT4 Hc3 Hc4 Hc5 Hc6 Hc7 Hc8 Hc9 H3' H4' Htab' Hrest0]
  · isplitr; · iexact Hmw2
    isplitl [Hi']; · iexact Hi'
    isplitl [HTr]; · iexact HTr
    isplitl [Hrows]; · iexact Hrows
    isplitl [Ho]; · iexact Ho
    isplitl [Hc10]; · iexact Hc10
    isplitl [Hc11]; · iexact Hc11
    isplitl [Hbufs]; · iexact Hbufs
    isplitl [Hsems]; · iexact Hsems
    isplitl [Htab' Hrest0]
    · rw [tile0Pts_zero m d L hj]
      isplitl [Htab']; · iapply (Entails.of_eq (pts_tV (F := F) d L _ _)); iexact Htab'
      iexact Hrest0
    isplitl [HO]; · iexact HO
    isplitl [Hg0 HT0]; · isplitl [Hg0]; · iexact Hg0
                         iexact HT0
    isplitl [Hg1 HT1]; · isplitl [Hg1]; · iexact Hg1
                         iexact HT1
    isplitl [Hg2 HT2]; · isplitl [Hg2]; · iexact Hg2
                         iexact HT2
    isplitl [HT3]; · iexact HT3
    isplitl [HT4]; · iexact HT4
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [H3']; · iexists _; iexact H3'
    iexists _; iexact H4'
  sl_for (Inv m d L O W) $$ [HI0]
  case region =>
    intro k acc
    exact trip m d L hpre O W k
  · iexact HI0
  iintro %acc HI
  ihave HE := (exit_elim m d L O W acc) $$ HI
  unfold Exit Common sFl0 sFl1 sFl2 sFl3 sFl4
  icases HE with ⟨⟨#Hmw, Hi, HTr, -, Hx, Hdone, -, Hc10, Hc11, Hbufs, Hsems, Ht0, %W', %hW', HO⟩, Hs0, Hs1, Hs2, Hs3, Hs4, HT0, HT1, HT2, HT3, HT4, Hc0, Hc1, Hc2, Hc3, Hc4⟩
  sl_exec
  sl_step
  have hreg := regroup m d L hF O W
  rw [(K (F := F)).scopedBufs_V hF d (cV L) (jV L), SparseCore.Cfg.scopedSems0_V (Val := Elt F) d (cV L) (jV L), ownSems0_V, ownBufs_V] at hreg
  iapply hreg
  iapply (done_intro m d L O W _ _ _ _ _)
  isplitr; · iexact Hmw
  isplitl [Hi]; · iexact Hi
  isplitl [HTr]; · iexact HTr
  isplitl [Hx]; · iexact Hx
  isplitl [Hdone]; · iexact Hdone
  isplitl [Hs0_dst]; · iexact Hs0_dst
  isplitl [Hs1_dst]; · iexact Hs1_dst
  isplitl [Hs2_dst]; · iexact Hs2_dst
  isplitl [Hs3_dst]; · iexact Hs3_dst
  isplitl [Hs4_dst]; · iexact Hs4_dst
  isplitl [Hc10]; · iexact Hc10
  isplitl [Hc11]; · iexact Hc11
  isplitl [Hbufs]; · iexact Hbufs
  isplitl [Hsems]; · iexact Hsems
  isplitl [Ht0]; · iexact Ht0
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitl [Hs0_src]; · iexact Hs0_src
  isplitl [Hs1_src]; · iexact Hs1_src
  isplitl [Hs2_src]; · iexact Hs2_src
  isplitl [Hs3_src]; · iexact Hs3_src
  isplitl [Hs4_src]; · iexact Hs4_src
  isplitl [HT0]; · iexact HT0
  isplitl [HT1]; · iexact HT1
  isplitl [HT2]; · iexact HT2
  isplitl [HT3]; · iexact HT3
  isplitl [HT4]; · iexact HT4
  isplitl [Hc0]; · iexact Hc0
  isplitl [Hc1]; · iexact Hc1
  isplitl [Hc2]; · iexact Hc2
  isplitl [Hc3]; · iexact Hc3
  isplitl [Hc4]; · iexact Hc4
  isplitl [Hs0]; · iexact Hs0
  isplitl [Hs1]; · iexact Hs1
  isplitl [Hs2]; · iexact Hs2
  isplitl [Hs3]; · iexact Hs3
  iexact Hs4

/-- One tile's task, on whichever tile. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d (cL L) (jL L)
        ∗ scopedBufs (VT d L) ∗ scopedSems0 (VT d L) ∗ owes (VT d L) (O + oxV d (cV L)) W)
      ⊢ wp frame (wpE (defs₀ (F := F)) 𝒱₀ (VT d L) none) Set.univ
          (cc0__embed_body L tV (Memref.isWhole_whole _) iV (Memref.isWhole_whole _) oV (Memref.isWhole_whole _)
            shV (Memref.isWhole_whole _) xV (Memref.isWhole_whole _) b0V (Memref.isWhole_whole _) b1V (Memref.isWhole_whole _)
            b2V (Memref.isWhole_whole _) b3V (Memref.isWhole_whole _) b4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1)
          fun _ => iprop(tdRes m d (cL L) (jL L) ∗ scopedBufs (VT d L) ∗ scopedSems0 (VT d L)
            ∗ ∃ W', ⌜∀ p ∈ W', p ∈ W ∨ p.2 = none ∨ p.2 = some (0 : Fin 1)⌝ ∗ owes (VT d L) O W') := by
  rcases Classical.em ((jL L).val = 0) with hj | hj
  · exact tile_body_zero m d L hF hpre O W hO hOlev hj
  · exact tile_body_other m d L hF hpre O W hO hOlev hj

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_body (coordsV c s)
          tV (Memref.isWhole_whole _) iV (Memref.isWhole_whole _) oV (Memref.isWhole_whole _)
          shV (Memref.isWhole_whole _) xV (Memref.isWhole_whole _) b0V (Memref.isWhole_whole _) b1V (Memref.isWhole_whole _)
          b2V (Memref.isWhole_whole _) b3V (Memref.isWhole_whole _) b4V (Memref.isWhole_whole _)
          cc0_scratch7 cc0_scratch8 cc0_scratch9 cc0_scratch10 cc0_scratch11 cc0_scratch12 cc0_scratch13 cc0_scratch14 cc0_scratch15 cc0_scratch16
          cc0_scoped0 cc0_scoped1) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.EmbI
end
-- ==== Proof.ILaunch.lean ====
/-
  The launch of the lookup kernel: how one SparseCore's operands are dealt to its sixteen tiles and gathered
  back, the ghost state the barrier cells start from, @main on the TensorCore (a reshape of the indices, the
  call on both SparseCores, a reshape of the looked-up rows), and how the final memory reads the result.

  The index array [32, 200, 128] and the output [819200, 128] are cut along axis 0 into 32 equal slabs, one
  per worker; worker 2 s + c is tile s of SparseCore c, so SparseCore c's sixteen workers are the slabs of
  parity c. The table is read by tile 0 of each SparseCore only: each SparseCore gets half of its full share.
  The shared copy of the table goes whole to tile 0, which cuts it into sixteen read tokens and a remainder;
  the tokens and the remainder come back one per tile and join to the full share again.
-/
import proofs.«203315_g78847009620241_cont_9to1c4b_359_24_alg».proof.Proof.ICommon

noncomputable section

namespace Cert.Proof.EmbI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.StableHlo (held held_split held_sdiff_result wp_hlo_within)
open Cert.Proof.EmbSpec (rowIx rows lookup i3of)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## One SparseCore's operands, dealt to its tiles and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 carries is, over all sixteen tiles, that one thing. -/
theorem bigSep_at_zero (X : sProp 𝕄) : (bigSep Finset.univ fun s : Fin 16 => if s.val = 0 then X else iprop(emp)) = X := by
  show (bigSep Finset.univ fun s : Fin 16 => if s.val = 0 then X else (BI.emp : sProp 𝕄)) = X
  rw [← bigSep_filter Finset.univ (fun s : Fin 16 => s.val = 0) (fun _ => X),
    show (Finset.univ.filter fun s : Fin 16 => s.val = 0) = {0} by decide, bigSep_singleton]

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit_core (d : Dev nD) (c : Fin 2) :
    iprop(iprop(tabPts m d c ∗ bigSep Finset.univ fun s : Fin 16 => iprop(iSlabPts m d (wid c s) ∗ oSlabPts d (wid c s) (m (oLoc d))))
        ∗ ownBufs (S d (Fin.cast nSC_eq.symm c)))
      ⊢ |={Set.univ}=> iprop((bigSep Finset.univ fun s : Fin 16 => goRes m d c s)
        ∗ ((bigSep Finset.univ fun s : Fin 16 => tdRes m d c s)
          -∗ iprop(iprop(tabPts m d c ∗ bigSep Finset.univ fun s : Fin 16 => iprop(iSlabPts m d (wid c s) ∗ oSlabPts d (wid c s) (Ok m d)))
              ∗ ownBufs (S d (Fin.cast nSC_eq.symm c))))) := by
  unfold goRes tdRes
  rw [bigSep_sep', bigSep_sep', bigSep_sep', bigSep_sep', bigSep_sep', bigSep_sep', bigSep_sep', bigSep_at_zero, bigSep_at_zero, ownBufs_S]
  iintro ⟨⟨Ht, Hi, Ho⟩, Hsh, Hrest⟩; imodintro
  isplitl [Ht Hi Ho Hsh]
  · isplitl [Hi]; · iexact Hi
    isplitl [Ho]; · iexact Ho
    isplitl [Ht]; · iexact Ht
    iexact Hsh
  iintro ⟨Hi, Ho, Htok, Ht, Hr⟩
  isplitl [Ht Hi Ho]
  · isplitl [Ht]; · iexact Ht
    isplitl [Hi]; · iexact Hi
    iexact Ho
  isplitl [Htok Hr]
  · iexists (tabS m d (Fin.cast nSC_eq.symm c))
    iapply (Transfers.pointsTo_toks_join fullShare 16)
    isplitl [Hr]; · iexact Hr
    iexact Htok
  iexact Hrest

theorem vecSplit : (K (F := F)).VecSplit (P m) 0 := by
  intro d c
  show iprop(iprop(tabPts m d (Fin.cast nCore_zero c) ∗ bigSep Finset.univ fun s : Fin 16 => iprop(iSlabPts m d (wid (Fin.cast nCore_zero c) s) ∗ oSlabPts d (wid (Fin.cast nCore_zero c) s) (m (oLoc d))))
        ∗ ownBufs (S d (Fin.cast nSC_eq.symm (Fin.cast nCore_zero c))))
      ⊢ |={Set.univ}=> iprop((bigSep Finset.univ fun i : Fin ((K (F := F)).nSub 0) => goRes m d (Fin.cast nCore_zero c) (Fin.cast nSub_zero i))
        ∗ ((bigSep Finset.univ fun i : Fin ((K (F := F)).nSub 0) => tdRes m d (Fin.cast nCore_zero c) (Fin.cast nSub_zero i))
          -∗ iprop(iprop(tabPts m d (Fin.cast nCore_zero c) ∗ bigSep Finset.univ fun s : Fin 16 => iprop(iSlabPts m d (wid (Fin.cast nCore_zero c) s) ∗ oSlabPts d (wid (Fin.cast nCore_zero c) s) (Ok m d)))
              ∗ ownBufs (S d (Fin.cast nSC_eq.symm (Fin.cast nCore_zero c))))))
  rw [bigSep_tasks (F := F) (fun s => goRes m d (Fin.cast nCore_zero c) s), bigSep_tasks (F := F) (fun s => tdRes m d (Fin.cast nCore_zero c) s)]
  exact vecSplit_core m d (Fin.cast nCore_zero c)

/-! ## The launch element of the ghost state, and what the launch hands each tile -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## The arrays cut into the workers' pieces, and the pieces regrouped per SparseCore -/

omit [FloatOps F] in
theorem iSet_eq (w : Fin 32) : iSet w = (islab w).set := by
  show ((View.whole (main_v0_scv : Ref sig .scVector)).slice (islab w)).set = _
  rw [View.set_slice]; exact Finset.map_refl
omit [FloatOps F] in
theorem oCh_eq (k : Fin 6400) : oCh k = (ochunk k).set := by
  show ((View.whole (main_v1_scv : Ref sig .scVector)).slice (ochunk k)).set = _
  rw [View.set_slice]; exact Finset.map_refl

omit [FloatOps F] in
theorem islabs_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
omit [FloatOps F] in
theorem islabs_cover : (Finset.univ : Finset (Fin 32)).biUnion iSet = Finset.univ :=
  (Finset.biUnion_congr rfl fun i _ => iSet_eq i).trans (Rect.biUnion_part idiv)
omit [FloatOps F] in
theorem ochunks_disjoint : ∀ i ∈ (Finset.univ : Finset (Fin 6400)), ∀ j ∈ (Finset.univ : Finset (Fin 6400)), i ≠ j → Disjoint (oCh i) (oCh j) :=
  fun i _ j _ h => by rw [oCh_eq, oCh_eq]; exact Rect.part_disjoint odiv h
omit [FloatOps F] in
theorem ochunks_cover : (Finset.univ : Finset (Fin 6400)).biUnion oCh = Finset.univ :=
  (Finset.biUnion_congr rfl fun i _ => oCh_eq i).trans (Rect.biUnion_part odiv)

omit [FloatOps F] in
/-- The index array whole is its 32 slabs. -/
theorem iPts_slabs (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet islabs_disjoint, islabs_cover]; try rfl
omit [FloatOps F] in
/-- The output whole is its 6400 chunks. -/
theorem oPts_chunks (d : Dev nD) (f : Buf (Elt F) (oLoc d)) :
    (oLoc d ↦{fullShare} f : sProp 𝕄) = bigSep Finset.univ fun k : Fin 6400 => oLoc d ↦[oCh k]{fullShare} f := by
  rw [← pointsTo_biUnion Finset.univ (ℓ := oLoc d) oCh ochunks_disjoint, ochunks_cover]; try rfl

/-- Worker numbers are the pairs (SparseCore, tile): w = 2 s + c. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => Prod.ext (Fin.ext (show (2 * s.val + c.val) % 2 = c.val by have := c.isLt; omega))
    (Fin.ext (show (2 * s.val + c.val) / 2 = s.val by have := c.isLt; omega))
  right_inv := fun w => Fin.ext (show 2 * (w.val / 2) + w.val % 2 = w.val by omega)

/-- Chunk numbers are the pairs (worker, chunk of the worker): k = 200 w + i. -/
def chunkEquiv : Fin 32 × Fin 200 ≃ Fin 6400 where
  toFun p := chunkNo p.1 p.2
  invFun k := (⟨k.val / 200, by have := k.isLt; omega⟩, ⟨k.val % 200, Nat.mod_lt _ (by decide)⟩)
  left_inv := fun ⟨w, i⟩ => Prod.ext (Fin.ext (show (200 * w.val + i.val) / 200 = w.val by have := i.isLt; omega))
    (Fin.ext (show (200 * w.val + i.val) % 200 = i.val by have := i.isLt; omega))
  right_inv := fun k => Fin.ext (show 200 * (k.val / 200) + k.val % 200 = k.val by omega)

omit [FloatOps F] in
/-- A family over the 32 workers, grouped per SparseCore and tile. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

omit [FloatOps F] in
/-- The output whole is the 32 workers' runs of 200 chunks. -/
theorem oPts_slabs (d : Dev nD) (f : Buf (Elt F) (oLoc d)) :
    (oLoc d ↦{fullShare} f : sProp 𝕄) = bigSep Finset.univ fun w : Fin 32 => oSlabPts d w f := by
  rw [oPts_chunks, bigSep_univ_equiv chunkEquiv (fun k : Fin 6400 => (oLoc d ↦[oCh k]{fullShare} f : sProp 𝕄)), bigSep_univ_prod]; rfl

omit [FloatOps F] in
theorem tq_zero : tq 0 = fullShare.left := rfl
omit [FloatOps F] in
theorem tq_one : tq 1 = fullShare.right := rfl

omit [FloatOps F] in
/-- The table's full share is the two SparseCores' halves. -/
theorem tab_halves (d : Dev nD) : (tLoc d ↦{fullShare} m (tLoc d) : sProp 𝕄) = iprop(tabPts m d 0 ∗ tabPts m d 1) := by
  show _ = iprop((tLoc d ↦{tq 0} m (tLoc d)) ∗ tLoc d ↦{tq 1} m (tLoc d))
  rw [tq_zero, tq_one]
  have h : (tLoc d ↦{fullShare} m (tLoc d) : sProp 𝕄) ⊣⊢ iprop((tLoc d ↦{fullShare.left} m (tLoc d)) ∗ tLoc d ↦{fullShare.right} m (tLoc d)) :=
    pointsTo_share (PosShare.mem_left_op_right fullShare)
  exact BI.equiv_iff.mp ⟨h.1, h.2⟩

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- What the call takes for, and hands back from, the two SparseCores together: the table, the index array and the
    output, each whole. -/
theorem both_eq (d : Dev nD) (f : Buf (Elt F) (oLoc d)) :
    (bigSep Finset.univ fun c : Fin 2 => iprop(tabPts m d c ∗ bigSep Finset.univ fun s : Fin 16 => iprop(iSlabPts m d (wid c s) ∗ oSlabPts d (wid c s) f)))
      = iprop((tLoc d ↦{fullShare} m (tLoc d)) ∗ (iLoc d ↦{fullShare} I3 m d) ∗ oLoc d ↦{fullShare} f) := by
  rw [bigSep_sep', ← bigSep_workers (F := F) (fun w => iprop(iSlabPts m d w ∗ oSlabPts d w f)), bigSep_sep', ← iPts_slabs, ← oPts_slabs,
    bigSep_univ_two, ← tab_halves]

theorem st0_eq (d : Dev nD) : (bigSep Finset.univ fun c : Fin ((K (F := F)).nCore 0) => (P m).st 0 d c)
    = iprop((tLoc d ↦{fullShare} m (tLoc d)) ∗ (iLoc d ↦{fullShare} I3 m d) ∗ oLoc d ↦{fullShare} m (oLoc d)) := by
  show (bigSep Finset.univ fun c : Fin ((K (F := F)).nCore 0) => iprop(tabPts m d (Fin.cast nCore_zero c)
    ∗ bigSep Finset.univ fun s : Fin 16 => iprop(iSlabPts m d (wid (Fin.cast nCore_zero c) s) ∗ oSlabPts d (wid (Fin.cast nCore_zero c) s) (m (oLoc d))))) = _
  rw [bigSep_cores (F := F) (fun c => iprop(tabPts m d c ∗ bigSep Finset.univ fun s : Fin 16 => iprop(iSlabPts m d (wid c s) ∗ oSlabPts d (wid c s) (m (oLoc d))))), both_eq]
theorem dn0_eq (d : Dev nD) : (bigSep Finset.univ fun c : Fin ((K (F := F)).nCore 0) => (P m).dn 0 d c)
    = iprop((tLoc d ↦{fullShare} m (tLoc d)) ∗ (iLoc d ↦{fullShare} I3 m d) ∗ oLoc d ↦{fullShare} Ok m d) := by
  show (bigSep Finset.univ fun c : Fin ((K (F := F)).nCore 0) => iprop(tabPts m d (Fin.cast nCore_zero c)
    ∗ bigSep Finset.univ fun s : Fin 16 => iprop(iSlabPts m d (wid (Fin.cast nCore_zero c) s) ∗ oSlabPts d (wid (Fin.cast nCore_zero c) s) (Ok m d)))) = _
  rw [bigSep_cores (F := F) (fun c => iprop(tabPts m d c ∗ bigSep Finset.univ fun s : Fin 16 => iprop(iSlabPts m d (wid c s) ∗ oSlabPts d (wid c s) (Ok m d)))), both_eq]

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes: the indices into the workers' arrangement, the looked-up rows into the result's. -/
abbrev opI : HloOp τ sig (Elt F) := StableHlo.reshape main_arg0 main_v0 rfl shapeCasts_S4096x200_S32x200x128
abbrev opR : HloOp τ sig (Elt F) := StableHlo.reshape main_v1 main_v2 rfl shapeCasts_S819200x128_S4096x200x128

/-- The TensorCore's arrays, all unscoped: the two arguments, the reshaped indices, the kernel's output, the result. -/
abbrev S5 : Finset (DevRef τ sig) := {a', t', i', o', r'}

omit [FloatOps F] in
theorem held_S5 (d : Dev nD) (W : Valuation τ sig (Elt F)) :
    (held (T d) S5 W : sProp 𝕄)
      = iprop((aLoc d ↦{fullShare} W a') ∗ (tLoc d ↦{fullShare} W t') ∗ (iLoc d ↦{fullShare} W i') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call (the output at the looked-up rows); after the last reshape. -/
def V0 (d : Dev nD) : Valuation τ sig (Elt F) := fun b => m (d, b)
def V1 (d : Dev nD) : Valuation τ sig (Elt F) := (opI (F := F)).result (V0 m d)
def V2 (d : Dev nD) : Valuation τ sig (Elt F) := Function.update (V1 m d) o' (Ok m d)
def V3 (d : Dev nD) : Valuation τ sig (Elt F) := (opR (F := F)).result (V2 m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a (d : Dev nD) : V1 m d a' = m (aLoc d) :=
  (opI (F := F)).result_of_not_mem (V0 m d) (b := a') (show a' ∉ ({i'} : Finset (DevRef τ sig)) by decide)
omit [FloatOps F] in
theorem V1_t (d : Dev nD) : V1 m d t' = m (tLoc d) :=
  (opI (F := F)).result_of_not_mem (V0 m d) (b := t') (show t' ∉ ({i'} : Finset (DevRef τ sig)) by decide)
omit [FloatOps F] in
theorem V1_o (d : Dev nD) : V1 m d o' = m (oLoc d) :=
  (opI (F := F)).result_of_not_mem (V0 m d) (b := o') (show o' ∉ ({i'} : Finset (DevRef τ sig)) by decide)
omit [FloatOps F] in
theorem V1_r (d : Dev nD) : V1 m d r' = m (rLoc d) :=
  (opI (F := F)).result_of_not_mem (V0 m d) (b := r') (show r' ∉ ({i'} : Finset (DevRef τ sig)) by decide)
omit [FloatOps F] in
/-- The first reshape leaves the argument's words in the workers' arrangement. -/
theorem V1_i (d : Dev nD) : V1 m d i' = I3 m d :=
  (StableHlo.reshape_result (τ := τ) (Val := Elt F) main_arg0 main_v0 rfl shapeCasts_S4096x200_S32x200x128 ⟨by decide, rfl⟩ ⟨by decide, rfl⟩ (V0 m d)).trans rfl

omit [FloatOps F] in
theorem V2_a (d : Dev nD) : V2 m d a' = m (aLoc d) := (Function.update_of_ne (show a' ≠ o' by decide) _ _).trans (V1_a m d)
omit [FloatOps F] in
theorem V2_t (d : Dev nD) : V2 m d t' = m (tLoc d) := (Function.update_of_ne (show t' ≠ o' by decide) _ _).trans (V1_t m d)
omit [FloatOps F] in
theorem V2_i (d : Dev nD) : V2 m d i' = I3 m d := (Function.update_of_ne (show i' ≠ o' by decide) _ _).trans (V1_i m d)
omit [FloatOps F] in
theorem V2_o (d : Dev nD) : V2 m d o' = Ok m d := Function.update_self _ _ _
omit [FloatOps F] in
theorem V2_r (d : Dev nD) : V2 m d r' = m (rLoc d) := (Function.update_of_ne (show r' ≠ o' by decide) _ _).trans (V1_r m d)

omit [FloatOps F] in
theorem V3_a (d : Dev nD) : V3 m d a' = m (aLoc d) :=
  ((opR (F := F)).result_of_not_mem (V2 m d) (b := a') (show a' ∉ ({r'} : Finset (DevRef τ sig)) by decide)).trans (V2_a m d)
omit [FloatOps F] in
theorem V3_t (d : Dev nD) : V3 m d t' = m (tLoc d) :=
  ((opR (F := F)).result_of_not_mem (V2 m d) (b := t') (show t' ∉ ({r'} : Finset (DevRef τ sig)) by decide)).trans (V2_t m d)
omit [FloatOps F] in
theorem V3_i (d : Dev nD) : V3 m d i' = I3 m d :=
  ((opR (F := F)).result_of_not_mem (V2 m d) (b := i') (show i' ∉ ({r'} : Finset (DevRef τ sig)) by decide)).trans (V2_i m d)
omit [FloatOps F] in
theorem V3_o (d : Dev nD) : V3 m d o' = Ok m d :=
  ((opR (F := F)).result_of_not_mem (V2 m d) (b := o') (show o' ∉ ({r'} : Finset (DevRef τ sig)) by decide)).trans (V2_o m d)
omit [FloatOps F] in
/-- The last reshape leaves the looked-up rows in the result's arrangement. -/
theorem V3_r (d : Dev nD) : V3 m d r' = Rres m d := by
  refine (StableHlo.reshape_result (τ := τ) (Val := Elt F) main_v1 main_v2 rfl shapeCasts_S819200x128_S4096x200x128 ⟨by decide, rfl⟩ ⟨by decide, rfl⟩ (V2 m d)).trans ?_
  show (fun i => shapeCast S4096x200x128 (V2 m d o') _ i) = Rres m d
  rw [V2_o]; rfl

omit [FloatOps F] in
theorem held_V1 (d : Dev nD) :
    (held (T d) S5 ((opI (F := F)).result (V0 m d)) : sProp 𝕄)
      = iprop((aLoc d ↦{fullShare} m (aLoc d)) ∗ (tLoc d ↦{fullShare} m (tLoc d)) ∗ (iLoc d ↦{fullShare} I3 m d)
          ∗ (oLoc d ↦{fullShare} m (oLoc d)) ∗ rLoc d ↦{fullShare} m (rLoc d)) := by
  show held (SparseCore.T d) S5 (V1 m d) = _
  rw [held_S5, V1_a, V1_t, V1_i, V1_o, V1_r]
omit [FloatOps F] in
theorem held_V2 (d : Dev nD) :
    (held (T d) S5 (V2 m d) : sProp 𝕄)
      = iprop((aLoc d ↦{fullShare} m (aLoc d)) ∗ (tLoc d ↦{fullShare} m (tLoc d)) ∗ (iLoc d ↦{fullShare} I3 m d)
          ∗ (oLoc d ↦{fullShare} Ok m d) ∗ rLoc d ↦{fullShare} m (rLoc d)) := by
  rw [held_S5, V2_a, V2_t, V2_i, V2_o, V2_r]
omit [FloatOps F] in
theorem held_V3 (d : Dev nD) :
    (held (T d) S5 ((opR (F := F)).result (V2 m d)) : sProp 𝕄)
      = iprop((aLoc d ↦{fullShare} m (aLoc d)) ∗ (tLoc d ↦{fullShare} m (tLoc d)) ∗ (iLoc d ↦{fullShare} I3 m d)
          ∗ (oLoc d ↦{fullShare} Ok m d) ∗ rLoc d ↦{fullShare} Rres m d) := by
  show held (SparseCore.T d) S5 (V3 m d) = _
  rw [held_S5, V3_a, V3_t, V3_i, V3_o, V3_r]

omit [FloatOps F] in
theorem hI : (opI (F := F)).bufs ⊆ S5 := show ({a', i'} : Finset (DevRef τ sig)) ⊆ S5 by decide
omit [FloatOps F] in
theorem hR : (opR (F := F)).bufs ⊆ S5 := show ({o', r'} : Finset (DevRef τ sig)) ⊆ S5 by decide

/-- What @main leaves the claim: the two arguments at their launch contents, the result at the looked-up rows. -/
abbrev FIN (d : Dev nD) : sProp 𝕄 :=
  iprop((aLoc d ↦{fullShare} m (aLoc d)) ∗ (tLoc d ↦{fullShare} m (tLoc d)) ∗ rLoc d ↦{fullShare} Rres m d)

/-- @main on device `d`'s TensorCore: the reshape of the indices, the call (the table, the reshaped indices and the
    output cut per SparseCore and worker, and back, the output at the looked-up rows), the reshape of the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opI) (S := S5) hI (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hi, Ho, Hr⟩
  iapply ((K (F := F)).wp_run (D (F := F)) 𝒱 (EH := EH) (P := P m) κ d 0) $$ [Hst Ha Ht Hi Ho Hr Hb]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, Hi, Ho⟩
  iapply (wp_hlo_within 𝒱 (SparseCore.T d) none Set.univ (op := opR) (S := S5) hR (V := V2 m d)) $$ [Hb Ha Ht Hi Ho Hr]
  · isplitl [Hb]; · iexact Hb
    rw [held_V2]
    isplitl [Ha]; · iexact Ha
    isplitl [Ht]; · iexact Ht
    isplitl [Hi]; · iexact Hi
    isplitl [Ho]; · iexact Ho
    iexact Hr
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitl [Ha]; · iexact Ha
  isplitl [Ht]; · iexact Ht
  iexact Hr

/-! ## The final memory, the program's run -/

def fq (d : Dev nD) (s' : Phys nD τ sig (Elt F)) : Prop :=
  s'.mem.mem (rLoc d) = Rres m d ∧ s'.mem.mem (aLoc d) = m (aLoc d) ∧ s'.mem.mem (tLoc d) = m (tLoc d)

omit [FloatOps F] in
theorem hfin (d : Dev nD) (s' : Phys nD τ sig (Elt F)) : iprop(FIN m d ∗ SI s') ⊢ (⌜fq m d s'⌝ : sProp 𝕄) := by
  have hr : iprop(FIN m d ∗ SI s') ⊢ (⌜s'.mem.mem (rLoc d) = Rres m d⌝ : sProp 𝕄) := by
    iintro ⟨⟨-, -, Hx⟩, HSI⟩
    ihave H := (SI_pointsTo_agree (st := s') (ℓ := rLoc d) (I := Finset.univ) (q := fullShare) (f := Rres m d)) $$ [HSI Hx]
    · isplitl [HSI] <;> iassumption
    icases H with %hx
    ipureintro; exact funext fun i => hx i (Finset.mem_univ i)
  have ha : iprop(FIN m d ∗ SI s') ⊢ (⌜s'.mem.mem (aLoc d) = m (aLoc d)⌝ : sProp 𝕄) := by
    iintro ⟨⟨Hx, -, -⟩, HSI⟩
    ihave H := (SI_pointsTo_agree (st := s') (ℓ := aLoc d) (I := Finset.univ) (q := fullShare) (f := m (aLoc d))) $$ [HSI Hx]
    · isplitl [HSI] <;> iassumption
    icases H with %hx
    ipureintro; exact funext fun i => hx i (Finset.mem_univ i)
  have ht : iprop(FIN m d ∗ SI s') ⊢ (⌜s'.mem.mem (tLoc d) = m (tLoc d)⌝ : sProp 𝕄) := by
    iintro ⟨⟨-, Hx, -⟩, HSI⟩
    ihave H := (SI_pointsTo_agree (st := s') (ℓ := tLoc d) (I := Finset.univ) (q := fullShare) (f := m (tLoc d))) $$ [HSI Hx]
    · isplitl [HSI] <;> iassumption
    icases H with %hx
    ipureintro; exact funext fun i => hx i (Finset.mem_univ i)
  exact fun x hx => ⟨hr x hx, ha x hx, ht x hx⟩

theorem run_main [∀ e, Nonempty (Elt F e)] (hTile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => vecSplit m)
    m ρ main (fun _ => iprop(emp)) (FIN m) (u₀ (F := F)) (hu₀ m) (hmain m ρ) (fq m) (hfin m) (QC m) (fun _ h => h)

end Cert.Proof.EmbI

end
-- ==== Proof.KGeom.lean ====
/-
  The static geometry of one tile's task: which pieces of the arrays its memory operations name.

  Tile (c, s) is worker w = 2 s + c. Its index slab is slab w of the [32, 200, 128] array. In trip t of the
  loop the five stores write chunks 5 t + r (r = 0 … 4) of the worker's 200, that is chunks 200 w + 5 t + r of
  the output's 6400; the store waits inside the trip name chunks 5 t − 2, 5 t − 1 (trips after the first) and
  5 t, 5 t + 1, 5 t + 2 (trips before the last); the five waits after the loop name chunks 195 … 199.
-/
import proofs.«203315_g78847009620241_cont_9to1c4b_359_24_alg».proof.Proof.KCommon

noncomputable section

namespace Cert.Proof.EmbK

open Cert.Kernel Cert.Kernel.Gen
open Idealize.ShloMosaic
open Idealize.ShloMosaic.SparseCore (S V T)

variable {F : FTy → Type}

/-! ## The tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The tile's worker number. -/
abbrev wL (L : grid0.Coords) : Fin 32 := wid (cL L) (jL L)

theorem wL_val (L : grid0.Coords) : (wL L).val = 2 * (L 1).val + (L 0).val := rfl

theorem trips_le : k0_t1_loop.trips ≤ 40 := k0_t1_abs.2.1

/-- Chunk 5 t + r of the worker's 200, for a trip t and a slot r. -/
def chunkOf (t : Fin k0_t1_loop.trips) (r : Fin 5) : Fin 200 := ⟨5 * t.val + r.val, by have := t.isLt; have := trips_le; omega⟩

/-! ## The index slab -/

theorem islabK_eq (L : grid0.Coords) :
    Rect.unit (s := S32x200x128) (k0_off1 L) S1x200x128.size (k0_off1_inb L) = islab (wL L) := by
  unfold islab Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

/-! ## The output chunks -/

/-- A 128-row rectangle of the output at row offset 128 k is chunk k. -/
theorem ochunk_of_off (off : Fin 2 → Nat) (h : ∀ a, off a + S128x128.size a ≤ S819200x128.size a) (k : Fin 6400)
    (h0 : off 0 = 128 * k.val) (h1 : off 1 = 0) :
    Rect.unit (s := S819200x128) off S128x128.size h = ochunk k := by
  unfold ochunk Rect.part Rect.block
  congr 1 <;> funext a
  · match a with
    | 0 => simp [Shape.partIx, Shape.partSize, h0, Nat.mul_comm]
    | 1 => simp [Shape.partIx, Shape.partSize, h1]
  · match a with
    | 0 => simp [Shape.partSize]
    | 1 => simp [Shape.partSize]

/-! ## The loop's conditions, in closed form -/

theorem cond2_iff : ∀ t : Fin k0_t1_loop.trips, k0_cond2 t = 1#1 ↔ 0 < t.val := by decide +kernel
theorem cond3_iff : ∀ t : Fin k0_t1_loop.trips, k0_cond3 t = 1#1 ↔ 0 < t.val := by decide +kernel
theorem cond4_iff : ∀ t : Fin k0_t1_loop.trips, k0_cond4 t = 1#1 ↔ t.val < 39 := by decide +kernel
theorem cond5_iff : ∀ t : Fin k0_t1_loop.trips, k0_cond5 t = 1#1 ↔ t.val < 39 := by decide +kernel
theorem cond6_iff : ∀ t : Fin k0_t1_loop.trips, k0_cond6 t = 1#1 ↔ t.val < 39 := by decide +kernel

/-! ## The two offset functions under a condition, in closed form (the trip after the first: two chunks back) -/

theorem k0_off4_eq : ∀ (i : grid0.Coords) (t : Fin k0_t1_loop.trips), k0_cond2 t = 1#1 →
    k0_off4 i t = ![51200 * (i 1).val + 25600 * (i 0).val + 640 * t.val - 256, 0] := by decide +kernel
theorem k0_off6_eq : ∀ (i : grid0.Coords) (t : Fin k0_t1_loop.trips), k0_cond3 t = 1#1 →
    k0_off6 i t = ![51200 * (i 1).val + 25600 * (i 0).val + 640 * t.val - 128, 0] := by decide +kernel

/-! ## Which chunk each store and each store wait names -/

/-- The store of slot r in trip t writes chunk 5 t + r of the worker's. -/
theorem chunk_off3 (L : grid0.Coords) (t : Fin k0_t1_loop.trips) (r : Fin 5) :
    Rect.unit (s := S819200x128) (k0_off3 L t (BitVec.ofNat 32 r.val)) S128x128.size (k0_off3_inb L t r) = ochunk (chunkNo (wL L) (chunkOf t r)) :=
  ochunk_of_off _ _ _ (by rw [k0_off3_eq]; show _ = 128 * (200 * (2 * (L 1).val + (L 0).val) + (5 * t.val + r.val)); simp; omega)
    (by rw [k0_off3_eq]; rfl)

/-- The wait before slot 3 is gathered into again (trips after the first): chunk 5 t − 2. -/
theorem chunk_off4 (L : grid0.Coords) (t : Fin k0_t1_loop.trips) (h : k0_cond2 t = 1#1) :
    Rect.unit (s := S819200x128) (k0_off4 L t) S128x128.size (k0_off4_inb L t h)
      = ochunk (chunkNo (wL L) ⟨5 * t.val - 2, by have := t.isLt; have := trips_le; omega⟩) :=
  ochunk_of_off _ _ _ (by
      have ht := (cond2_iff t).mp h
      rw [k0_off4_eq L t h]; show _ = 128 * (200 * (2 * (L 1).val + (L 0).val) + (5 * t.val - 2)); simp; omega)
    (by rw [k0_off4_eq L t h]; rfl)

/-- The wait before slot 4 is gathered into again (trips after the first): chunk 5 t − 1. -/
theorem chunk_off6 (L : grid0.Coords) (t : Fin k0_t1_loop.trips) (h : k0_cond3 t = 1#1) :
    Rect.unit (s := S819200x128) (k0_off6 L t) S128x128.size (k0_off6_inb L t h)
      = ochunk (chunkNo (wL L) ⟨5 * t.val - 1, by have := t.isLt; have := trips_le; omega⟩) :=
  ochunk_of_off _ _ _ (by
      have ht := (cond3_iff t).mp h
      rw [k0_off6_eq L t h]; show _ = 128 * (200 * (2 * (L 1).val + (L 0).val) + (5 * t.val - 1)); simp; omega)
    (by rw [k0_off6_eq L t h]; rfl)

/-- The waits before slots 0, 1, 2 are gathered into again (trips before the last): chunks 5 t, 5 t + 1, 5 t + 2. -/
theorem chunk_off7 (L : grid0.Coords) (t : Fin k0_t1_loop.trips) (h : k0_cond4 t = 1#1) :
    Rect.unit (s := S819200x128) (k0_off7 L t) S128x128.size (k0_off7_inb L t h) = ochunk (chunkNo (wL L) (chunkOf t 0)) :=
  ochunk_of_off _ _ _ (by rw [k0_off7_eq]; show _ = 128 * (200 * (2 * (L 1).val + (L 0).val) + (5 * t.val + 0)); simp; omega)
    (by rw [k0_off7_eq]; rfl)
theorem chunk_off9 (L : grid0.Coords) (t : Fin k0_t1_loop.trips) (h : k0_cond5 t = 1#1) :
    Rect.unit (s := S819200x128) (k0_off9 L t) S128x128.size (k0_off9_inb L t h) = ochunk (chunkNo (wL L) (chunkOf t 1)) :=
  ochunk_of_off _ _ _ (by rw [k0_off9_eq]; show _ = 128 * (200 * (2 * (L 1).val + (L 0).val) + (5 * t.val + 1)); simp; omega)
    (by rw [k0_off9_eq]; rfl)
theorem chunk_off11 (L : grid0.Coords) (t : Fin k0_t1_loop.trips) (h : k0_cond6 t = 1#1) :
    Rect.unit (s := S819200x128) (k0_off11 L t) S128x128.size (k0_off11_inb L t h) = ochunk (chunkNo (wL L) (chunkOf t 2)) :=
  ochunk_of_off _ _ _ (by rw [k0_off11_eq]; show _ = 128 * (200 * (2 * (L 1).val + (L 0).val) + (5 * t.val + 2)); simp; omega)
    (by rw [k0_off11_eq]; rfl)

/-- The five waits after the loop: chunks 195 + r. -/
theorem chunk_off13 (L : grid0.Coords) (r : Fin 5) :
    Rect.unit (s := S819200x128) (k0_off13 L (BitVec.ofNat 32 (24960 + 128 * r.val))) S128x128.size (k0_off13_inb L r)
      = ochunk (chunkNo (wL L) ⟨195 + r.val, by omega⟩) :=
  ochunk_of_off _ _ _ (by rw [k0_off13_eq]; show _ = 128 * (200 * (2 * (L 1).val + (L 0).val) + (195 + r.val)); simp; omega)
    (by rw [k0_off13_eq]; rfl)

end Cert.Proof.EmbK

end
-- ==== Proof.KBarrierPay.lean ====
/-
  What the barrier hands over, duty by duty.

  Tile 0 of a SparseCore holds that SparseCore's shared copy of the table whole, at the table's contents. It
  cuts the full share into sixteen read tokens and a remainder. Each tile's barrier cell has one round, with
  one duty per tile of the SparseCore, named by the tile's number; the duty named 0 (tile 0's) carries the
  round's owner's token, and the duties with other names carry nothing. So tile 0 pays token j into tile j's
  round and keeps the remainder; any other tile pays nothing into any round; and a tile that has passed the
  barrier finds, among what its own round collected, exactly its own token.
-/
import proofs.«203315_g78847009620241_cont_9to1c4b_359_24_alg».proof.Proof.KCommon

noncomputable section

namespace Cert.Proof.EmbK

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

variable (m : (ℓ : Loc nD τ sig) → Buf (Elt F) ℓ) (d : Dev nD) (c : Fin τ.nSC)

/-- The duty named 0 in tile j's round carries tile j's read token of the shared copy. -/
theorem payload_zero (j : Fin τ.nSub) :
    (bRd (F := F) m).payload (bcell d c j) 0 0 = shTokPts m d c (Fin.cast nSub_eq j) := by
  show bPay m (bcell d c j) 0 = _
  unfold bPay; dsimp only
  rw [if_pos rfl]

/-- A duty with another name carries nothing. -/
theorem payload_other (j : Fin τ.nSub) (n : ℕ) (hn : n ≠ 0) :
    (bRd (F := F) m).payload (bcell d c j) 0 n = (iprop(emp) : sProp 𝕄) := by
  show bPay m (bcell d c j) n = _
  unfold bPay; dsimp only
  rw [if_neg hn]

/-- Tile 0 pays: the shared copy held whole is the sixteen tokens, one into each tile's round, and the remainder. -/
theorem pays_intro_zero :
    (shLoc d c ↦{fullShare} tabS m d c : sProp 𝕄)
      ⊢ iprop((bigSep Finset.univ fun j : Fin (grid0.bound 1) => (bRd (F := F) m).payload (bcell d c (j.castLE hsub0)) 0 0)
          ∗ shRestPts m d c) := by
  rw [show (bigSep Finset.univ fun j : Fin (grid0.bound 1) => (bRd (F := F) m).payload (bcell d c (j.castLE hsub0)) 0 0)
      = bigSep Finset.univ fun j : Fin 16 => (shLoc d c ↦{shareTok fullShare 16 j} tabS m d c : sProp 𝕄) from
    bigSep_congr fun j _ => payload_zero m d c (j.castLE hsub0)]
  refine (Transfers.pointsTo_toks_split fullShare 16).trans ?_
  iintro ⟨Hr, Ht⟩
  isplitl [Ht]
  · iexact Ht
  · iexact Hr

/-- Any other tile pays nothing into any round. -/
theorem pays_intro_other (n : ℕ) (hn : n ≠ 0) :
    (iprop(emp) : sProp 𝕄)
      ⊢ bigSep Finset.univ fun j : Fin (grid0.bound 1) => (bRd (F := F) m).payload (bcell d c (j.castLE hsub0)) 0 n := by
  rw [show (bigSep Finset.univ fun j : Fin (grid0.bound 1) => (bRd (F := F) m).payload (bcell d c (j.castLE hsub0)) 0 n)
      = bigSep Finset.univ fun _ : Fin (grid0.bound 1) => (iprop(emp) : sProp 𝕄) from
    bigSep_congr fun j _ => payload_other m d c (j.castLE hsub0) n hn, bigSep_emp']

/-- After the barrier a tile's own round holds its token: the duty named 0 carried it. -/
theorem pays_elim (i : Fin τ.nSub) :
    (bigSep ((bRd (F := F) m).duties (bcell d c i) 0 \ ∅) fun n => (bRd (F := F) m).payload (bcell d c i) 0 n)
      ⊢ shTokPts m d c (Fin.cast nSub_eq i) := by
  have h0 : (0 : ℕ) ∈ (bRd (F := F) m).duties (bcell d c i) 0 := bRd_mem₀ m d c i ⟨0, by decide⟩
  rw [Finset.sdiff_empty]
  refine (bigSep_elim (i := 0) h0).trans ?_
  rw [payload_zero]
  exact BI.Entails.refl _

end Cert.Proof.EmbK
-- ==== Proof.KBodyInv.lean ====
/-
  One tile's task: what it holds, and the invariant of its loop.

  The task of tile (c, s), worker w = 2 s + c: copy the table into the SparseCore's shared memory (tile 0 only),
  copy slab w of the index array into the index scratch, meet the other tiles at the barrier, then move its 200
  chunks of 128 rows through a ring of five slots: chunk i is gathered into slot i mod 5 (128 table rows, the rows
  that the 128 index words of row i of the index scratch name) and stored from there to rows 25600 w + 128 i …
  of the output. Gathers run three chunks ahead of the stores; a slot's store is waited for two steps later, just
  before the slot is gathered into again. Each slot has its own gather semaphore and its own store semaphore, so
  at most one transfer is ever outstanding on a semaphore.

  What is held, and how it is cut. The index scratch, once the copy has landed, is held ROW BY ROW (200 pieces):
  the gather of chunk i reads exactly row i and every row is read once. The tile's read token of the shared copy
  is cut once more into five finer tokens, one per gather semaphore, so that the three gathers in flight each hold
  a share of the table. The output is the 200 chunk pieces the launch hands the tile; a chunk is either untouched
  (at the launch's contents), inside a store in flight, or finished (at the looked-up rows).

  The invariant before trip j (j < 40): chunks 5 j, 5 j + 1, 5 j + 2 are being gathered into slots 0, 1, 2; slots
  3, 4 are idle (j = 0) or store chunks 5 j − 2, 5 j − 1; rows of the index scratch below 5 j are back, rows from
  5 j + 3 on are unread; output chunks below 5 j − 2 are finished, chunks from 5 j on untouched. After trip 39 the
  five stores of chunks 195 … 199 are in flight and nothing else.
-/
import proofs.«203315_g78847009620241_cont_9to1c4b_359_24_alg».proof.Proof.KGeom
import proofs.«203315_g78847009620241_cont_9to1c4b_359_24_alg».proof.Proof.KBarrierPay

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

abbrev VT (d : Dev nD) (L : grid0.Coords) : Thread nD τ := V d (cV L) (jV L)

/-- The tile's slab of the index array, squeezed to [200, 128], as the body slices it. -/
abbrev islabK (L : grid0.Coords) : Rect S32x200x128 := Rect.unit (s := S32x200x128) (k0_off1 L) S1x200x128.size (k0_off1_inb L)
abbrev iSlabK (L : grid0.Coords) : Memref sig .scVector .hbm S200x128 .i32 :=
  ((iV).slice (islabK L) (fun _ => rfl)).squeeze S200x128 squeezes_S1x200x128_S200x128

omit [FloatOps F] in
theorem islabK_eq' : islabK L = islab (wL L) := islabK_eq L

omit [FloatOps F] in
theorem set_iSlabK : (iSlabK L).view.set = iSet (wL L) := by
  show (((iV).view.slice (islabK L)).reshape S200x128 squeezes_S1x200x128_S200x128.numel_eq).set = ((iV).view.slice (islab (wL L))).set
  rw [View.set_reshape]
  exact islabK_eq' L ▸ rfl

omit [FloatOps F] in
theorem pts_iSlabK (f : Buf (Elt F) (iLoc d)) :
    ((iSlabK L).view.loc (VT d L) ↦[(iSlabK L).view.set]{fullShare} f : sProp 𝕄) = iLoc d ↦[iSet (wL L)]{fullShare} f := by
  rw [set_iSlabK]
/-- The twelve DMA cells the task names: the gathers' five, the stores' five, the two scoped copy cells. -/
abbrev csem (k : Nat) (hk : k < 12 := by decide) : DmaSem sig := ⟨k, hk⟩
abbrev dcell (d : Dev nD) (c : Fin τ.nSC) (i : Fin τ.nSub) (k : Fin 12) : GSem nD τ sig := (V d c i, .dma (csem k.val k.isLt))
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0)

omit [FloatOps F] in
theorem dcell_mem (c : Fin τ.nSC) (i : Fin τ.nSub) (k : Fin 12) : dcell d c i k ∈ ownCells (V d c i) :=
  mem_ownCells.mpr ⟨rfl, (show ∀ s : DmaSem sig, (SemLoc.dma s : SemLoc sig).isScoped .scVector = true by decide) _⟩

omit [FloatOps F] in
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 12)) = {0, 1, 2, 3, 4, 5, 6, 7, 8, 9, 10, 11} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  try rfl

/-- The tile's six scratch buffers, by number: the index scratch and the five slots. -/
abbrev vref (k : Fin 6) : Ref sig .scVector := ⟨.vmem, ⟨k.val, k.isLt⟩, rfl⟩
abbrev vdev (c : Fin τ.nSC) (i : Fin τ.nSub) (k : Fin 6) : DevRef τ sig := (Proc.scVector c i).devRef (vref k)

omit [FloatOps F] in
theorem vdev_mem (c : Fin τ.nSC) (i : Fin τ.nSub) (k : Fin 6) : vdev c i k ∈ ownRefs (τ := τ) (sig := sig) (.scVector c i) :=
  SparseCore.Cfg.mem_ownRefs_of_owner (p := Proc.scVector c i) (b := vdev c i k) rfl

omit [FloatOps F] in
theorem ownBufs_V :
    (ownBufs (VT d L) : sProp 𝕄)
      = iprop(((∃ f, (VT d L).loc cc0_scratch1 ↦{fullShare} f) ∗ (∃ f, (VT d L).loc cc0_scratch2 ↦{fullShare} f)
            ∗ (∃ f, (VT d L).loc cc0_scratch3 ↦{fullShare} f) ∗ (∃ f, (VT d L).loc cc0_scratch4 ↦{fullShare} f)
            ∗ (∃ f, (VT d L).loc cc0_scratch5 ↦{fullShare} f) ∗ (∃ f, (VT d L).loc cc0_scratch6 ↦{fullShare} f))
          ∗ bigSep ((ownRefs (τ := τ) (.scVector (cV L) (jV L))) \ Finset.univ.image (vdev (cV L) (jV L)))
              fun b => iprop(∃ f, ((d, b) : Loc nD τ sig) ↦{fullShare} f)) := by
  unfold SparseCore.Cfg.ownBufs
  rw [SparseCore.bigSep_sdiff_split' (t := Finset.univ.image (vdev (cV L) (jV L)))
      (Finset.image_subset_iff.mpr fun k _ => vdev_mem (cV L) (jV L) k),
    SparseCore.bigSep_image_of_injOn (fun a _ b _ h => by
      have := Proc.devRef_injective _ h
      exact Fin.ext (congrArg (fun r : Ref sig .scVector => r.idx.val) this))]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  try rfl

omit [FloatOps F] in
/-- The tile's read token of the shared copy as what stays with it and five finer read tokens, one per gather cell, in the body's spelling. -/
theorem shToks : (shTokPts m d (cV L) (jL L) : sProp 𝕄)
    ⊣⊢ iprop(((shV).view.loc (VT d L) ↦{shareDrop (shareTok fullShare 16 (jL L)) 5} tabS m d (cV L))
        ∗ ((shV).view.loc (VT d L) ↦{shareTokN (shareTok fullShare 16 (jL L)) 0} tabS m d (cV L))
        ∗ ((shV).view.loc (VT d L) ↦{shareTokN (shareTok fullShare 16 (jL L)) 1} tabS m d (cV L))
        ∗ ((shV).view.loc (VT d L) ↦{shareTokN (shareTok fullShare 16 (jL L)) 2} tabS m d (cV L))
        ∗ ((shV).view.loc (VT d L) ↦{shareTokN (shareTok fullShare 16 (jL L)) 3} tabS m d (cV L))
        ∗ ((shV).view.loc (VT d L) ↦{shareTokN (shareTok fullShare 16 (jL L)) 4} tabS m d (cV L))) := by
  have h : (shLoc d (cV L) ↦{shareTok fullShare 16 (jL L)} tabS m d (cV L) : sProp 𝕄)
      ⊣⊢ iprop((shLoc d (cV L) ↦{shareDrop (shareTok fullShare 16 (jL L)) 5} tabS m d (cV L))
          ∗ bigSep (Finset.range 5) fun i => shLoc d (cV L) ↦{shareTokN (shareTok fullShare 16 (jL L)) i} tabS m d (cV L)) :=
    Transfers.pointsTo_toks_range (ℓ := shLoc d (cV L)) (S := Finset.univ) (f := tabS m d (cV L)) _ 5
  rw [show Finset.range 5 = {0, 1, 2, 3, 4} by decide, SparseCore.bigSep_insert' (by decide), SparseCore.bigSep_insert' (by decide),
    SparseCore.bigSep_insert' (by decide), SparseCore.bigSep_insert' (by decide), bigSep_singleton] at h
  exact h

/-- What the index copy lands in the index scratch: the tile's slab of the index words, as the copy reads it. -/
def XI : Buf (Elt F) ((xV).view.loc (VT d L)) := ReadAs.same.apply ((iSlabK L).view.read (Elt F) (I3 m d))

omit [FloatOps F] in
theorem XI_apply (x : S200x128.Idx) : (XI m d L : S200x128.Idx → Elt F .i32) x = I3 m d ((iSlabK L).view.emb x) :=
  (View.read_apply _ _).trans (cast_eq _ _)

/-- Row i of the index scratch. -/
abbrev xRowSet (i : Fin 200) : Finset S200x128.Idx := ((xV).view.slice (S200x128.rowRect 0 i)).set
abbrev xRowPts (i : Fin 200) : sProp 𝕄 := (xV).view.loc (VT d L) ↦[xRowSet i]{fullShare} XI m d L

omit [FloatOps F] in
/-- The index scratch whole is its 200 rows. -/
theorem xPts_rows (f : Buf (Elt F) ((xV).view.loc (VT d L))) :
    ((xV).view.loc (VT d L) ↦{fullShare} f : sProp 𝕄) = bigSep Finset.univ fun i : Fin 200 => (xV).view.loc (VT d L) ↦[xRowSet i]{fullShare} f := by
  have h : ((xV).view.loc (VT d L) ↦[(xV).view.set]{fullShare} f : sProp 𝕄)
      = bigSep Finset.univ fun k : Fin (S200x128.size 0) => (xV).view.loc (VT d L) ↦[((xV).view.slice (S200x128.rowRect 0 k)).set]{fullShare} f :=
    pointsTo_rows (VT d L) (xV).view (0 : Fin 2) fullShare f
  rw [View.set_whole] at h
  exact h

/-- A row of the index scratch as a gather's offset list spells it: sliced at a row offset, squeezed. -/
abbrev xRowAt (row : Fin 2 → Nat) (hk : ∀ a, row a + S1x128.size a ≤ S200x128.size a) : Memref sig .scVector .vmem S128 .i32 :=
  ((xV).slice (Rect.unit (s := S200x128) row S1x128.size hk) (fun _ => rfl)).squeeze S128 squeezes_S1x128_S128

omit [FloatOps F] in
theorem rect_row (row : Fin 2 → Nat) (hk : ∀ a, row a + S1x128.size a ≤ S200x128.size a) (i : Fin 200) (h0 : row 0 = i.val) (h1 : row 1 = 0) :
    Rect.unit (s := S200x128) row S1x128.size hk = S200x128.rowRect 0 i := by
  unfold Shape.rowRect
  congr 1 <;> funext a
  · match a with
    | 0 => simp [h0]
    | 1 => simp [h1]
  · match a with
    | 0 => rfl
    | 1 => rfl

omit [FloatOps F] in
theorem set_xRowAt (row : Fin 2 → Nat) (hk) (i : Fin 200) (h0 : row 0 = i.val) (h1 : row 1 = 0) : (xRowAt row hk).view.set = xRowSet i := by
  show (((xV).view.slice (Rect.unit (s := S200x128) row S1x128.size hk)).reshape S128 squeezes_S1x128_S128.numel_eq).set = ((xV).view.slice (S200x128.rowRect 0 i)).set
  rw [View.set_reshape, View.set_slice, View.set_slice]
  exact congrArg (fun r : Rect S200x128 => r.set.map (xV).view.emb) (rect_row row hk i h0 h1)

omit [FloatOps F] in
theorem pts_xRowAt (row : Fin 2 → Nat) (hk) (i : Fin 200) (h0 : row 0 = i.val) (h1 : row 1 = 0) (f : Buf (Elt F) ((xV).view.loc (VT d L))) :
    ((xRowAt row hk).view.loc (VT d L) ↦[(xRowAt row hk).view.set]{fullShare} f : sProp 𝕄) = (xV).view.loc (VT d L) ↦[xRowSet i]{fullShare} f := by
  rw [set_xRowAt row hk i h0 h1]

/-- Every word of a row of the index scratch, at what the index copy landed, names a table row. -/
theorem inb_XI (hpre : PreOK m) (row : Fin 2 → Nat) (hk : ∀ a, row a + S1x128.size a ≤ S200x128.size a) :
    ∀ x, (View.read (Elt F) (xRowAt row hk).view (XI m d L) x).toNat < 45 := by
  intro x
  have e : View.read (Elt F) (xRowAt row hk).view (XI m d L) x
      = (XI m d L : S200x128.Idx → Elt F .i32) ((Rect.unit (s := S200x128) row S1x128.size hk).emb ((Shape.reshapeEquiv squeezes_S1x128_S128.numel_eq) x)) := by
    rw [View.read_apply]; rfl
  rw [e, XI_apply]
  exact I3_lt m hpre d _

omit [FloatOps F] in
theorem xRows3 : ((xV).view.loc (VT d L) ↦{fullShare} XI m d L : sProp 𝕄)
    = iprop(xRowPts m d L 0 ∗ xRowPts m d L 1 ∗ xRowPts m d L 2 ∗ bigSep (((Finset.univ.erase (0 : Fin 200)).erase 1).erase 2) (xRowPts m d L)) := by
  rw [xPts_rows, SparseCore.bigSep_erase' (Finset.mem_univ (0 : Fin 200)),
    SparseCore.bigSep_erase' (i := (1 : Fin 200)) (Finset.mem_erase.mpr ⟨by decide, Finset.mem_univ _⟩),
    SparseCore.bigSep_erase' (i := (2 : Fin 200)) (Finset.mem_erase.mpr ⟨by decide, Finset.mem_erase.mpr ⟨by decide, Finset.mem_univ _⟩⟩)]

omit [FloatOps F] in
theorem pts_xV (f : Buf (Elt F) ((VT d L).loc cc0_scratch1)) :
    ((xV).view.loc (VT d L) ↦{fullShare} f : sProp 𝕄) = (VT d L).loc cc0_scratch1 ↦{fullShare} f := rfl
omit [FloatOps F] in
theorem pts_b0V (f : Buf (Elt F) ((VT d L).loc cc0_scratch2)) :
    ((b0V).view.loc (VT d L) ↦{fullShare} f : sProp 𝕄) = (VT d L).loc cc0_scratch2 ↦{fullShare} f := rfl
omit [FloatOps F] in
theorem pts_b1V (f : Buf (Elt F) ((VT d L).loc cc0_scratch3)) :
    ((b1V).view.loc (VT d L) ↦{fullShare} f : sProp 𝕄) = (VT d L).loc cc0_scratch3 ↦{fullShare} f := rfl
omit [FloatOps F] in
theorem pts_b2V (f : Buf (Elt F) ((VT d L).loc cc0_scratch4)) :
    ((b2V).view.loc (VT d L) ↦{fullShare} f : sProp 𝕄) = (VT d L).loc cc0_scratch4 ↦{fullShare} f := rfl
omit [FloatOps F] in
theorem pts_b3V (f : Buf (Elt F) ((VT d L).loc cc0_scratch5)) :
    ((b3V).view.loc (VT d L) ↦{fullShare} f : sProp 𝕄) = (VT d L).loc cc0_scratch5 ↦{fullShare} f := rfl
omit [FloatOps F] in
theorem pts_b4V (f : Buf (Elt F) ((VT d L).loc cc0_scratch6)) :
    ((b4V).view.loc (VT d L) ↦{fullShare} f : sProp 𝕄) = (VT d L).loc cc0_scratch6 ↦{fullShare} f := rfl

/-! ## Pieces numbered by chunk: from a number on, below a number -/

omit [FloatOps F] in
theorem bigSep_from_take (Φ : Fin 200 → sProp 𝕄) (n : ℕ) (h : n < 200) :
    bigSep (Finset.univ.filter fun i : Fin 200 => n ≤ i.val) Φ
      = iprop(Φ ⟨n, h⟩ ∗ bigSep (Finset.univ.filter fun i : Fin 200 => n + 1 ≤ i.val) Φ) := by
  rw [← SparseCore.bigSep_insert' (s := Finset.univ.filter fun i : Fin 200 => n + 1 ≤ i.val) (i := (⟨n, h⟩ : Fin 200)) (by simp)]
  congr 1
  ext i
  simp only [Finset.mem_filter, Finset.mem_univ, true_and, Finset.mem_insert, Fin.ext_iff]
  omega

omit [FloatOps F] in
theorem bigSep_below_put (Φ : Fin 200 → sProp 𝕄) (n : ℕ) (h : n < 200) :
    bigSep (Finset.univ.filter fun i : Fin 200 => i.val < n + 1) Φ
      = iprop(Φ ⟨n, h⟩ ∗ bigSep (Finset.univ.filter fun i : Fin 200 => i.val < n) Φ) := by
  rw [← SparseCore.bigSep_insert' (s := Finset.univ.filter fun i : Fin 200 => i.val < n) (i := (⟨n, h⟩ : Fin 200)) (by simp)]
  congr 1
  ext i
  simp only [Finset.mem_filter, Finset.mem_univ, true_and, Finset.mem_insert, Fin.ext_iff]
  omega

omit [FloatOps F] in
theorem bigSep_from_zero (Φ : Fin 200 → sProp 𝕄) : bigSep (Finset.univ.filter fun i : Fin 200 => 0 ≤ i.val) Φ = bigSep Finset.univ Φ := by
  rw [show (Finset.univ.filter fun i : Fin 200 => 0 ≤ i.val) = Finset.univ from Finset.filter_true_of_mem fun i _ => Nat.zero_le _]
omit [FloatOps F] in
theorem bigSep_below_all (Φ : Fin 200 → sProp 𝕄) : bigSep (Finset.univ.filter fun i : Fin 200 => i.val < 200) Φ = bigSep Finset.univ Φ := by
  rw [show (Finset.univ.filter fun i : Fin 200 => i.val < 200) = Finset.univ from Finset.filter_true_of_mem fun i _ => i.isLt]
omit [FloatOps F] in
theorem bigSep_from_end (Φ : Fin 200 → sProp 𝕄) : bigSep (Finset.univ.filter fun i : Fin 200 => 200 ≤ i.val) Φ = (iprop(emp) : sProp 𝕄) := by
  rw [show (Finset.univ.filter fun i : Fin 200 => 200 ≤ i.val) = ∅ from Finset.filter_eq_empty_iff.mpr fun i _ => by omega, bigSep_empty]; rfl
omit [FloatOps F] in
theorem bigSep_below_zero (Φ : Fin 200 → sProp 𝕄) : bigSep (Finset.univ.filter fun i : Fin 200 => i.val < 0) Φ = (iprop(emp) : sProp 𝕄) := by
  rw [show (Finset.univ.filter fun i : Fin 200 => i.val < 0) = ∅ from Finset.filter_eq_empty_iff.mpr fun i _ => by omega, bigSep_empty]; rfl

/-! ## The contents -/

/-- What the gather of chunk i leaves in its slot: at row r, column q, column q of the table row that word (w, i, r) of the index
    array names. -/
def GC (i : Fin 200) : S128x128.Idx → Elt F .f32 :=
  fun y => (m (tLoc d) : S45x128.Idx → Elt F .f32) (ValueIdx.ix2 (rowIx (I3 m d (ValueIdx.ix3 (wL L) i (y 0)) : BitVec 32)) (y 1))

/-- The gathers' source as the body slices it: the shared copy, whole. -/
abbrev shS : Memref sig .scVector .shared S45x128 .f32 :=
  (shV).slice (Rect.unit (s := S45x128) ![0, 0] S45x128.size inb_S45x128_S45x128_0_0) (fun _ => rfl)

/-- The tile's read token of the shared copy, and the finer token gather cell k lends from. -/
abbrev qT (L : grid0.Coords) : PosShare TreeShare := shareTok fullShare 16 (jL L)
abbrev tokPts (k : ℕ) : sProp 𝕄 := (shV).view.loc (VT d L) ↦{shareTokN (qT L) k} tabS m d (cV L)
/-- What stays with the tile of cell k's token while a gather on the cell holds the rest. -/
abbrev tokRest (k : ℕ) : sProp 𝕄 := (shV).view.loc (VT d L) ↦[Finset.univ \ (shS).view.set]{shareTokN (qT L) k} tabS m d (cV L)

/-- Chunk i of the tile's rows of the output, at contents f. -/
abbrev oChPts (f : Buf (Elt F) (oLoc d)) (i : Fin 200) : sProp 𝕄 := oLoc d ↦[oCh (chunkNo (wL L) i)]{fullShare} f

/-- The amount of one gather and of one store: 128 rows of 128 words of 32 bits. -/
abbrev NX : ℕ := 524288

/-! ## The flights: a gather of chunk i into a slot, a store of chunk i out of it -/

/-- Chunk i is being gathered into slot 0: the slot at the gathered rows, row i of the index scratch and the cell's part of the
    read token come back at the wait. -/
def gFl0 (i : Fin 200) : sProp 𝕄 :=
  Transfers.Flight countersEmb (VT d L) (SemLoc.dma (csem 0)) (default : HIx 1) NX
    iprop((((b0V).view.loc (VT d L) ↦{fullShare} (GC m d L i : Buf (Elt F) ((b0V).view.loc (VT d L)))) ∗ xRowPts m d L i)
      ∗ ((shV).view.loc (VT d L) ↦[(shS).view.set]{shareTokN (qT L) 0} tabS m d (cV L)))
/-- Chunk i is being stored out of slot 0: its rows of the output at the looked-up rows and the slot come back at the wait. -/
def sFl0 (i : Fin 200) : sProp 𝕄 :=
  Transfers.Flight countersEmb (VT d L) (SemLoc.dma (csem 5)) (default : HIx 1) NX
    iprop(((oV).view.loc (VT d L) ↦[oCh (chunkNo (wL L) i)]{fullShare} Ok m d)
      ∗ ((b0V).view.loc (VT d L) ↦[(b0V).view.set]{fullShare} (GC m d L i : Buf (Elt F) ((b0V).view.loc (VT d L)))))

/-- Chunk i is being gathered into slot 1: the slot at the gathered rows, row i of the index scratch and the cell's part of the
    read token come back at the wait. -/
def gFl1 (i : Fin 200) : sProp 𝕄 :=
  Transfers.Flight countersEmb (VT d L) (SemLoc.dma (csem 1)) (default : HIx 1) NX
    iprop((((b1V).view.loc (VT d L) ↦{fullShare} (GC m d L i : Buf (Elt F) ((b1V).view.loc (VT d L)))) ∗ xRowPts m d L i)
      ∗ ((shV).view.loc (VT d L) ↦[(shS).view.set]{shareTokN (qT L) 1} tabS m d (cV L)))
/-- Chunk i is being stored out of slot 1: its rows of the output at the looked-up rows and the slot come back at the wait. -/
def sFl1 (i : Fin 200) : sProp 𝕄 :=
  Transfers.Flight countersEmb (VT d L) (SemLoc.dma (csem 6)) (default : HIx 1) NX
    iprop(((oV).view.loc (VT d L) ↦[oCh (chunkNo (wL L) i)]{fullShare} Ok m d)
      ∗ ((b1V).view.loc (VT d L) ↦[(b1V).view.set]{fullShare} (GC m d L i : Buf (Elt F) ((b1V).view.loc (VT d L)))))

/-- Chunk i is being gathered into slot 2: the slot at the gathered rows, row i of the index scratch and the cell's part of the
    read token come back at the wait. -/
def gFl2 (i : Fin 200) : sProp 𝕄 :=
  Transfers.Flight countersEmb (VT d L) (SemLoc.dma (csem 2)) (default : HIx 1) NX
    iprop((((b2V).view.loc (VT d L) ↦{fullShare} (GC m d L i : Buf (Elt F) ((b2V).view.loc (VT d L)))) ∗ xRowPts m d L i)
      ∗ ((shV).view.loc (VT d L) ↦[(shS).view.set]{shareTokN (qT L) 2} tabS m d (cV L)))
/-- Chunk i is being stored out of slot 2: its rows of the output at the looked-up rows and the slot come back at the wait. -/
def sFl2 (i : Fin 200) : sProp 𝕄 :=
  Transfers.Flight countersEmb (VT d L) (SemLoc.dma (csem 7)) (default : HIx 1) NX
    iprop(((oV).view.loc (VT d L) ↦[oCh (chunkNo (wL L) i)]{fullShare} Ok m d)
      ∗ ((b2V).view.loc (VT d L) ↦[(b2V).view.set]{fullShare} (GC m d L i : Buf (Elt F) ((b2V).view.loc (VT d L)))))

/-- Chunk i is being gathered into slot 3: the slot at the gathered rows, row i of the index scratch and the cell's part of the
    read token come back at the wait. -/
def gFl3 (i : Fin 200) : sProp 𝕄 :=
  Transfers.Flight countersEmb (VT d L) (SemLoc.dma (csem 3)) (default : HIx 1) NX
    iprop((((b3V).view.loc (VT d L) ↦{fullShare} (GC m d L i : Buf (Elt F) ((b3V).view.loc (VT d L)))) ∗ xRowPts m d L i)
      ∗ ((shV).view.loc (VT d L) ↦[(shS).view.set]{shareTokN (qT L) 3} tabS m d (cV L)))
/-- Chunk i is being stored out of slot 3: its rows of the output at the looked-up rows and the slot come back at the wait. -/
def sFl3 (i : Fin 200) : sProp 𝕄 :=
  Transfers.Flight countersEmb (VT d L) (SemLoc.dma (csem 8)) (default : HIx 1) NX
    iprop(((oV).view.loc (VT d L) ↦[oCh (chunkNo (wL L) i)]{fullShare} Ok m d)
      ∗ ((b3V).view.loc (VT d L) ↦[(b3V).view.set]{fullShare} (GC m d L i : Buf (Elt F) ((b3V).view.loc (VT d L)))))

/-- Chunk i is being gathered into slot 4: the slot at the gathered rows, row i of the index scratch and the cell's part of the
    read token come back at the wait. -/
def gFl4 (i : Fin 200) : sProp 𝕄 :=
  Transfers.Flight countersEmb (VT d L) (SemLoc.dma (csem 4)) (default : HIx 1) NX
    iprop((((b4V).view.loc (VT d L) ↦{fullShare} (GC m d L i : Buf (Elt F) ((b4V).view.loc (VT d L)))) ∗ xRowPts m d L i)
      ∗ ((shV).view.loc (VT d L) ↦[(shS).view.set]{shareTokN (qT L) 4} tabS m d (cV L)))
/-- Chunk i is being stored out of slot 4: its rows of the output at the looked-up rows and the slot come back at the wait. -/
def sFl4 (i : Fin 200) : sProp 𝕄 :=
  Transfers.Flight countersEmb (VT d L) (SemLoc.dma (csem 9)) (default : HIx 1) NX
    iprop(((oV).view.loc (VT d L) ↦[oCh (chunkNo (wL L) i)]{fullShare} Ok m d)
      ∗ ((b4V).view.loc (VT d L) ↦[(b4V).view.set]{fullShare} (GC m d L i : Buf (Elt F) ((b4V).view.loc (VT d L)))))

/-! ## The loop's invariant -/

/-- Chunk number 5 j + r of the tile's 200, for j < 40 and r < 5. -/
def ch (j r : ℕ) (hj : j < 40) (hr : r < 5) : Fin 200 := ⟨5 * j + r, by omega⟩

/-- What tile 0 alone carries through the task: its SparseCore's half share of the table and the rest of the shared copy's share. -/
abbrev tile0Pts : sProp 𝕄 :=
  if (jL L).val = 0 then iprop(tabPts m d (cL L) ∗ shRestPts m d (Fin.cast nSC_eq.symm (cL L))) else iprop(emp)

/-- What every trip carries unchanged in form: the waits' evidence, the index slab, what the tile keeps of its read token, the
    rows of the index scratch not yet gathered from (from 5 j + 3 on) and those given back (below 5 j), the chunks of the output
    finished (below c) and untouched (from e on), the two scoped copy cells, the other scoped buffers and cells, tile 0's extras, what the tile owes. -/
def Common (O : CellTallies nD τ sig (HIx 1)) (W : Waits sig (HIx 1)) (a b c e : ℕ) : sProp 𝕄 :=
  iprop(Transfers.MayWaits (VT d L) (default : HIx 1) O
    ∗ ((iSlabK L).view.loc (VT d L) ↦[(iSlabK L).view.set]{fullShare} I3 m d)
    ∗ ((shV).view.loc (VT d L) ↦{shareDrop (qT L) 5} tabS m d (cV L))
    ∗ bigSep (Finset.univ.filter fun i : Fin 200 => a ≤ i.val) (xRowPts m d L)
    ∗ bigSep (Finset.univ.filter fun i : Fin 200 => i.val < b) (xRowPts m d L)
    ∗ bigSep (Finset.univ.filter fun i : Fin 200 => i.val < c) (oChPts d L (Ok m d))
    ∗ bigSep (Finset.univ.filter fun i : Fin 200 => e ≤ i.val) (oChPts d L (m (oLoc d)))
    ∗ semVal (VT d L, SemLoc.dma (csem 10)) 0 ∗ semVal (VT d L, SemLoc.dma (csem 11)) 0
    ∗ (bigSep ((ownRefs (τ := τ) (.scVector (cV L) (jV L))) \ Finset.univ.image (vdev (cV L) (jV L))) fun b => iprop(∃ f, ((d, b) : Loc nD τ sig) ↦{fullShare} f))
    ∗ (bigSep ((ownCells (VT d L)) \ Finset.univ.image (dcell d (cV L) (jV L))) fun g => semVal g 0)
    ∗ tile0Pts m d L
    ∗ ∃ W', ⌜∀ p ∈ W', p ∈ W ∨ p.2 = none ∨ p.2 = some (0 : Fin 1)⌝ ∗ owes (VT d L) O W')

/-- At the head of trip j < 40: chunks 5 j, 5 j + 1, 5 j + 2 are being gathered into slots 0, 1, 2 (each flight beside what the
    tile keeps of its cell's token); slots 3, 4 are idle before the first trip and store chunks 5 j − 2, 5 j − 1 afterwards; the
    other cells are at zero and cells 3, 4 have their tokens whole. -/
def Head (O : CellTallies nD τ sig (HIx 1)) (W : Waits sig (HIx 1)) (j : ℕ) (hj : j < 40) : sProp 𝕄 :=
  iprop(Common m d L O W (5 * j + 3) (5 * j) (5 * j - 2) (5 * j)
    ∗ (gFl0 m d L (ch j 0 hj (by decide)) ∗ tokRest m d L 0) ∗ (gFl1 m d L (ch j 1 hj (by decide)) ∗ tokRest m d L 1)
    ∗ (gFl2 m d L (ch j 2 hj (by decide)) ∗ tokRest m d L 2)
    ∗ tokPts m d L 3 ∗ tokPts m d L 4
    ∗ semVal (VT d L, SemLoc.dma (csem 3)) 0 ∗ semVal (VT d L, SemLoc.dma (csem 4)) 0
    ∗ semVal (VT d L, SemLoc.dma (csem 5)) 0 ∗ semVal (VT d L, SemLoc.dma (csem 6)) 0 ∗ semVal (VT d L, SemLoc.dma (csem 7)) 0
    ∗ (if h0 : j = 0 then
        iprop((∃ f, (b3V).view.loc (VT d L) ↦{fullShare} f) ∗ (∃ f, (b4V).view.loc (VT d L) ↦{fullShare} f)
          ∗ semVal (VT d L, SemLoc.dma (csem 8)) 0 ∗ semVal (VT d L, SemLoc.dma (csem 9)) 0)
      else iprop(sFl3 m d L ⟨5 * j - 2, by omega⟩ ∗ sFl4 m d L ⟨5 * j - 1, by omega⟩)))

/-- After the last trip: chunks 195 … 199 are being stored out of slots 0 … 4, no gather is out, every gather cell is at zero
    with its token whole, every row of the index scratch is back, chunks below 195 are finished. -/
def Exit (O : CellTallies nD τ sig (HIx 1)) (W : Waits sig (HIx 1)) : sProp 𝕄 :=
  iprop(Common m d L O W 200 200 195 200
    ∗ sFl0 m d L ⟨195, by decide⟩ ∗ sFl1 m d L ⟨196, by decide⟩ ∗ sFl2 m d L ⟨197, by decide⟩
    ∗ sFl3 m d L ⟨198, by decide⟩ ∗ sFl4 m d L ⟨199, by decide⟩
    ∗ tokPts m d L 0 ∗ tokPts m d L 1 ∗ tokPts m d L 2 ∗ tokPts m d L 3 ∗ tokPts m d L 4
    ∗ semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0)

/-- The loop's invariant: before trip j. -/
def Inv (O : CellTallies nD τ sig (HIx 1)) (W : Waits sig (HIx 1)) (j : ℕ) (_ : Unit) : sProp 𝕄 :=
  if hj : j < 40 then Head m d L O W j hj else Exit m d L O W

/-- After the five last waits: every chunk finished, every slot idle, every cell at zero, every token whole. -/
def Done (O : CellTallies nD τ sig (HIx 1)) (W : Waits sig (HIx 1)) : sProp 𝕄 :=
  iprop(Common m d L O W 200 200 200 200
    ∗ (∃ f, (b0V).view.loc (VT d L) ↦{fullShare} f) ∗ (∃ f, (b1V).view.loc (VT d L) ↦{fullShare} f) ∗ (∃ f, (b2V).view.loc (VT d L) ↦{fullShare} f)
    ∗ (∃ f, (b3V).view.loc (VT d L) ↦{fullShare} f) ∗ (∃ f, (b4V).view.loc (VT d L) ↦{fullShare} f)
    ∗ tokPts m d L 0 ∗ tokPts m d L 1 ∗ tokPts m d L 2 ∗ tokPts m d L 3 ∗ tokPts m d L 4
    ∗ semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0)

/-! ## The loop's region -/

/-- The trip's region as the loop rule names it: the loop's body at trip k. -/
abbrev tripProg (k : Fin k0_t1_loop.trips) : Prog (TpuEff nD τ sig (Elt F) Λ₀ (.scVector ((L 0).castLE hcore0) ((L 1).castLE hsub0))) Unit :=
  k0_t1_body L tV (Memref.isWhole_whole _) iV (Memref.isWhole_whole _) oV (Memref.isWhole_whole _)
    shV (Memref.isWhole_whole _) xV (Memref.isWhole_whole _) b0V (Memref.isWhole_whole _) b1V (Memref.isWhole_whole _)
    b2V (Memref.isWhole_whole _) b3V (Memref.isWhole_whole _) b4V (Memref.isWhole_whole _)
    cc0_scratch7 cc0_scratch8 cc0_scratch9 cc0_scratch10 cc0_scratch11 cc0_scratch12 cc0_scratch13 cc0_scratch14 cc0_scratch15 cc0_scratch16
    cc0_scoped0 cc0_scoped1 (Scalar.muli (Scalar.addi (Scalar.muli (BitVec.ofNat 32 (L 1).val) 2#32) (BitVec.ofNat 32 (L 0).val)) 25600#32) 0#32 k ()

end Tile
end Cert.Proof.EmbK
end
-- ==== Proof.KBodyEnd.lean ====
/-
  The end of one tile's task: once the five last stores have been waited for, everything the task was handed is
  back in the form it was handed in. The index slab is the slab; the 200 chunks of the output, each at the
  looked-up rows, are the worker's rows of the output; what the tile kept of its read token of the shared copy
  and the five finer tokens of the gather cells are that read token again; the 200 rows of the index scratch are
  the scratch whole; the five slots, the twelve transfer cells at zero and the other scoped storage are the
  tile's scoped buffers and cells.
-/
import proofs.«203315_g78847009620241_cont_9to1c4b_359_24_alg».proof.Proof.KBodyInv

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

/-- After the five last waits the task's resources are what it hands back, its scoped storage as it found it, and what it owes. -/
theorem regroup (hF : (K (F := F)).Facts) (O : CellTallies nD τ sig (HIx 1)) (W : Waits sig (HIx 1)) :
    Done m d L O W ⊢ iprop(tdRes m d (cL L) (jL L) ∗ scopedBufs (VT d L) ∗ scopedSems0 (VT d L)
      ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold Done Common tdRes
  rw [bigSep_from_end, bigSep_from_end, bigSep_below_all, bigSep_below_all]
  iintro ⟨⟨-, Hi, Hrest, -, Hx, Ho, -, Hs10, Hs11, Hbufs, Hcells, Htile0, HW⟩, Hb0, Hb1, Hb2, Hb3, Hb4, Ht0, Ht1, Ht2, Ht3, Ht4,
    Hs0, Hs1, Hs2, Hs3, Hs4, Hs5, Hs6, Hs7, Hs8, Hs9⟩
  -- what the task hands back
  isplitl [Hi Ho Hrest Ht0 Ht1 Ht2 Ht3 Ht4 Htile0]
  · isplitl [Hi]
    · iapply (Entails.of_eq (pts_iSlabK (F := F) d L (I3 m d))); iexact Hi
    isplitl [Ho]; · iexact Ho
    isplitl [Hrest Ht0 Ht1 Ht2 Ht3 Ht4]
    · iapply (shToks m d L).2
      isplitl [Hrest]; · iexact Hrest
      isplitl [Ht0]; · iexact Ht0
      isplitl [Ht1]; · iexact Ht1
      isplitl [Ht2]; · iexact Ht2
      isplitl [Ht3]; · iexact Ht3
      iexact Ht4
    iexact Htile0
  -- the scoped buffers: the index scratch from its rows, the five slots, the others
  isplitl [Hx Hb0 Hb1 Hb2 Hb3 Hb4 Hbufs]
  · isplitl [Hx Hb0 Hb1 Hb2 Hb3 Hb4]
    · isplitl [Hx]
      · ihave Hx' := (Entails.of_eq (xPts_rows (F := F) d L (XI m d L)).symm) $$ Hx
        iexists (XI m d L); iexact Hx'
      isplitl [Hb0]; · icases Hb0 with ⟨%f, Hb0⟩; iexists f; iexact Hb0
      isplitl [Hb1]; · icases Hb1 with ⟨%f, Hb1⟩; iexists f; iexact Hb1
      isplitl [Hb2]; · icases Hb2 with ⟨%f, Hb2⟩; iexists f; iexact Hb2
      isplitl [Hb3]; · icases Hb3 with ⟨%f, Hb3⟩; iexists f; iexact Hb3
      icases Hb4 with ⟨%f, Hb4⟩; iexists f; iexact Hb4
    iexact Hbufs
  -- the scoped cells, all at zero
  isplitl [Hs0 Hs1 Hs2 Hs3 Hs4 Hs5 Hs6 Hs7 Hs8 Hs9 Hs10 Hs11 Hcells]
  · isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    iexact Hcells
  iexact HW

end Tile
end Cert.Proof.EmbK
end
-- ==== Proof.KData.lean ====
/-
  The pure data facts the tile's task rests on: which array element each of its views names, and that the
  contents its transfers leave are the looked-up rows.

  Tile (c, s) has the number w = 2 s + c. Its index scratch holds slab w of the index words: word (i, k) of the
  scratch is word (w, i, k) of the [32, 200, 128] arrangement. Row i of the scratch, read as a gather's offset
  list, is the 128 words (w, i, 0 … 127). The gather of chunk i therefore leaves, at row r and column q of
  its slot, column q of the table row that word (w, i, r) names: the block called GC i. And row
  128 (200 w + i) + r of the output is flat position 25600 w + 128 i + r, which is word (w, i, r) again
  (128 i + r is below 25600), so a 128-row piece of the output at row offset 128 (200 w + i) that holds GC i
  holds the looked-up rows there.
-/
import proofs.«203315_g78847009620241_cont_9to1c4b_359_24_alg».proof.Proof.KBodyInv

noncomputable section

namespace Cert.Proof.EmbK

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.Sem
open Idealize.ShloMosaic.ValueIdx (ix1 ix2 ix3 eq_ix1 eq_ix2 eq_ix3)
open Cert.Proof.EmbSpec (rowIx rowIx_of_lt rows lookup i3of)

variable {F : FTy → Type}

local notation "𝕄" => MT nD τ sig (HIx 1) (Elt F) ℕ UU ℕ

local notation "oV" => (Memref.whole Cert.Kernel.main_v1_scv : Memref Cert.Kernel.sig Kind.scVector Space.hbm Cert.Kernel.S819200x128 EltTy.f32)

variable (m : (ℓ : Loc nD τ sig) → Buf (Elt F) ℓ)

section Tile

variable (d : Dev nD) (L : grid0.Coords)

/-! ## Which element each view names -/

/-- Word (i, k) of the tile's slab is word (w, i, k) of the index array. -/
theorem emb_iSlabK (i : Fin 200) (k : Fin 128) :
    (iSlabK L).view.emb (ix2 i k : S200x128.Idx) = (ix3 (wL L) i k : S32x200x128.Idx) := by
  have hz : Shape.reshapeEquiv squeezes_S1x200x128_S200x128.numel_eq (ix2 i k : S200x128.Idx)
      = (Fin.cons ⟨0, Nat.one_pos⟩ (ix2 i k : S200x128.Idx) : S1x200x128.Idx) :=
    Shape.reshapeEquiv_cons_one (n := 2) (d := ![200, 128]) _ _
  funext b
  refine Fin.ext ?_
  show (k0_off1 L) b + 1 * ((Shape.reshapeEquiv squeezes_S1x200x128_S200x128.numel_eq (ix2 i k : S200x128.Idx)) b).val = _
  rw [hz, k0_off1_eq]
  match b with
  | ⟨0, _⟩ => show 2 * (L 1).val + (L 0).val + 1 * 0 = 2 * (L 1).val + (L 0).val; omega
  | ⟨1, _⟩ => show 0 + 1 * i.val = i.val; omega
  | ⟨2, _⟩ => show 0 + 1 * k.val = k.val; omega

/-- Entry k of row i of the index scratch, read as an offset list, is word (i, k) of the scratch. -/
theorem emb_xRowAt (row : Fin 2 → Nat) (hk : ∀ a, row a + S1x128.size a ≤ S200x128.size a) (i : Fin 200)
    (h0 : row 0 = i.val) (h1 : row 1 = 0) (k : Fin 128) :
    (xRowAt row hk).view.emb (ix1 k : S128.Idx) = (ix2 i k : S200x128.Idx) := by
  have hz : Shape.reshapeEquiv squeezes_S1x128_S128.numel_eq (ix1 k : S128.Idx)
      = (Fin.cons ⟨0, Nat.one_pos⟩ (ix1 k : S128.Idx) : S1x128.Idx) :=
    Shape.reshapeEquiv_cons_one (n := 1) (d := ![128]) _ _
  funext b
  refine Fin.ext ?_
  show row b + 1 * ((Shape.reshapeEquiv squeezes_S1x128_S128.numel_eq (ix1 k : S128.Idx)) b).val = _
  rw [hz]
  match b with
  | ⟨0, _⟩ => show row 0 + 1 * 0 = i.val; omega
  | ⟨1, _⟩ => show row 1 + 1 * k.val = k.val; omega

/-- So the offset list of row i reads, at entry k, word (w, i, k) of the index array. -/
theorem read_xRowAt (row : Fin 2 → Nat) (hk : ∀ a, row a + S1x128.size a ≤ S200x128.size a) (i : Fin 200)
    (h0 : row 0 = i.val) (h1 : row 1 = 0) (k : Fin 128) :
    (xRowAt row hk).view.read (Elt F) (XI m d L) (ix1 k : S128.Idx) = (I3 m d (ix3 (wL L) i k : S32x200x128.Idx) : BitVec 32) := by
  have e : (xRowAt row hk).view.read (Elt F) (XI m d L) (ix1 k : S128.Idx)
      = (XI m d L : S200x128.Idx → Elt F .i32) ((xRowAt row hk).view.emb (ix1 k : S128.Idx)) := by
    rw [View.read_apply]; rfl
  rw [e, emb_xRowAt row hk i h0 h1 k, XI_apply, emb_iSlabK]

/-- The shared copy, sliced whole, reads as its contents. -/
theorem read_shS (c : Fin τ.nSC) (x : S45x128.Idx) :
    (shS).view.read (Elt F) (tabS m d c) x = (m (tLoc d) : S45x128.Idx → Elt F .f32) x := by
  have hx : (shS).view.emb x = x := by
    funext b
    refine Fin.ext ?_
    show (![0, 0] : Fin 2 → Nat) b + 1 * (x b).val = (x b).val
    match b with
    | ⟨0, _⟩ => show 0 + 1 * (x 0).val = (x 0).val; omega
    | ⟨1, _⟩ => show 0 + 1 * (x 1).val = (x 1).val; omega
  rw [View.read_apply, hx]
  rfl

/-! ## The output's rows -/

/-- Flat position 128 (200 w + i) + r is word (w, i, r). -/
theorem i3of_chunk (w : Fin 32) (i : Fin 200) (r : Fin 128) (b : Fin 819200) (hb : b.val = 128 * (200 * w.val + i.val) + r.val) :
    i3of b = ix3 w i r := by
  have hw := w.isLt; have hi := i.isLt; have hr := r.isLt
  funext a
  refine Fin.ext ?_
  match a with
  | ⟨0, _⟩ => show b.val / 25600 = w.val; omega
  | ⟨1, _⟩ => show b.val % 25600 / 128 = i.val; omega
  | ⟨2, _⟩ => show b.val % 128 = r.val; omega

/-- A 128-row piece of the output at row offset 128 (200 w + i): the looked-up rows there are the block GC i. -/
theorem Ok_at (i : Fin 200) (off : Fin 2 → Nat) (h : ∀ a, off a + S128x128.size a ≤ S819200x128.size a)
    (h0 : off 0 = 128 * (chunkNo (wL L) i).val) (h1 : off 1 = 0) (y : S128x128.Idx) :
    (Ok m d : S819200x128.Idx → Elt F .f32) ((Rect.unit (s := S819200x128) off S128x128.size h).emb y) = GC m d L i y := by
  obtain ⟨r, q, rfl⟩ : ∃ (r q : Fin 128), y = ix2 r q := ⟨y 0, y 1, eq_ix2 y⟩
  have hr := r.isLt; have hq := q.isLt; have hi := i.isLt; have hw := (wL L).isLt
  have hbv : 128 * (200 * (wL L).val + i.val) + r.val < 819200 := by omega
  have hE : (Rect.unit (s := S819200x128) off S128x128.size h).emb (ix2 r q)
      = (ix2 (⟨128 * (200 * (wL L).val + i.val) + r.val, hbv⟩ : Fin 819200) q : S819200x128.Idx) := by
    funext a
    refine Fin.ext ?_
    match a with
    | ⟨0, _⟩ => show off 0 + 1 * r.val = 128 * (200 * (wL L).val + i.val) + r.val; rw [h0]; show 128 * (200 * (wL L).val + i.val) + 1 * r.val = _; omega
    | ⟨1, _⟩ => show off 1 + 1 * q.val = q.val; rw [h1]; omega
  rw [hE]
  show (m (tLoc d) : S45x128.Idx → Elt F .f32) (ix2 (rowIx (I3 m d (i3of (⟨128 * (200 * (wL L).val + i.val) + r.val, hbv⟩ : Fin 819200)) : BitVec 32)) q)
    = (m (tLoc d) : S45x128.Idx → Elt F .f32) (ix2 (rowIx (I3 m d (ix3 (wL L) i r) : BitVec 32)) q)
  rw [i3of_chunk (wL L) i r _ rfl]

/-! ## A chunk of the output after its store -/

/-- A 128-row piece of the output as a store names it: sliced at a row offset. -/
abbrev oChAt (off : Fin 2 → Nat) (h : ∀ a, off a + S128x128.size a ≤ S819200x128.size a) : Memref sig .scVector .hbm S128x128 .f32 :=
  (oV).slice (Rect.unit (s := S819200x128) off S128x128.size h) (fun _ => rfl)

/-- The piece a store of chunk i wrote whole with the block GC i, held by its own elements, is chunk i of the
    tile's rows of the output at the looked-up rows: on the piece's elements the written contents and the
    looked-up rows agree. -/
theorem och_of_exec (i : Fin 200) (off : Fin 2 → Nat) (h : ∀ a, off a + S128x128.size a ≤ S819200x128.size a)
    (e : Rect.unit (s := S819200x128) off S128x128.size h = ochunk (chunkNo (wL L) i)) (f0 : Buf (Elt F) (oLoc d))
    (p : S128x128.Idx → Elt F .f32) (hp : p = ReadAs.same.apply (GC m d L i)) :
    ((oChAt off h).view.loc (VT d L) ↦[(oChAt off h).view.set]{fullShare}
        (oChAt off h).view.writes (Elt F) f0 [⟨Rect.whole S128x128, p⟩] : sProp 𝕄) = oChPts d L (Ok m d) i := by
  subst hp
  have h0 : off 0 = 128 * (chunkNo (wL L) i).val := by
    have e0 : off 0 = (chunkNo (wL L) i).val * 128 := congrArg (fun r : Rect S819200x128 => r.off 0) e
    omega
  have h1 : off 1 = 0 := by
    have e1 : off 1 = 0 * 128 := congrArg (fun r : Rect S819200x128 => r.off 1) e
    omega
  have hset : (oChAt off h).view.set = oCh (chunkNo (wL L) i) := by
    show ((oV).view.slice (Rect.unit (s := S819200x128) off S128x128.size h)).set = ((oV).view.slice (ochunk (chunkNo (wL L) i))).set
    rw [View.set_slice, View.set_slice]
    exact congrArg (fun r : Rect S819200x128 => r.set.map (oV).view.emb) e
  have hcongr : ((oChAt off h).view.loc (VT d L) ↦[(oChAt off h).view.set]{fullShare}
        (oChAt off h).view.writes (Elt F) f0 [⟨Rect.whole S128x128, ReadAs.same.apply (GC m d L i)⟩] : sProp 𝕄)
      = ((oChAt off h).view.loc (VT d L) ↦[(oChAt off h).view.set]{fullShare} (Ok m d : Buf (Elt F) ((oChAt off h).view.loc (VT d L)))) := by
    refine pointsTo_congr fun x hx => ?_
    obtain ⟨y, -, rfl⟩ := Finset.mem_map.mp hx
    have hr := congrFun (View.read_writes_whole (oChAt off h).view f0 (ReadAs.same.apply (GC m d L i))) y
    rw [View.read_apply] at hr
    exact ((cast_eq _ _).symm.trans hr).trans (Ok_at m d L i off h h0 h1 y).symm
  rw [hcongr, hset]

/-! ## The gather's payload -/

/-- The gather's payload over row i's words, at the table's contents, is the block GC i. -/
theorem gather_GC (i : Fin 200) (row : Fin 2 → Nat) (hk : ∀ a, row a + S1x128.size a ≤ S200x128.size a)
    (h0 : row 0 = i.val) (h1 : row 1 = 0) (hn : S128.numel = S128x128.size gathers_S45x128_S128x128.axis')
    (hin : ∀ x, ((xRowAt row hk).view.read (Elt F) (XI m d L) x).toNat < S45x128.size gathers_S45x128_S128x128.axis) :
    SparseCore.gatherPayload gathers_S45x128_S128x128 ((shS).view.read (Elt F) (tabS m d (cV L)))
      (SparseCore.rows ((xRowAt row hk).view.read (Elt F) (XI m d L)) hn hin) = GC m d L i := by
  funext y
  obtain ⟨r, q, rfl⟩ : ∃ (r q : Fin 128), y = ix2 r q := ⟨y 0, y 1, eq_ix2 y⟩
  -- the entry of the offset list that row r of the destination reads
  have hsym : S128.rowMajor.symm ((r : Fin (S128x128.size gathers_S45x128_S128x128.axis')).cast hn.symm) = (ix1 r : S128.Idx) := by
    rw [Equiv.symm_apply_eq]
    refine Fin.ext ?_
    rw [Shape.rowMajor_val_one]
    rfl
  have hword := read_xRowAt m d L row hk i h0 h1 r
  have hlt : (I3 m d (ix3 (wL L) i r : S32x200x128.Idx) : BitVec 32).toNat < 45 := by
    have := hin (ix1 r : S128.Idx)
    rw [hword] at this
    exact this
  unfold SparseCore.gatherPayload GC
  rw [read_shS]
  refine congrArg (m (tLoc d) : S45x128.Idx → Elt F .f32) ?_
  funext b
  refine Fin.ext ?_
  match b with
  | ⟨0, _⟩ =>
    show ((SparseCore.rows ((xRowAt row hk).view.read (Elt F) (XI m d L)) hn hin) r).val = (rowIx (I3 m d (ix3 (wL L) i r) : BitVec 32)).val
    rw [rowIx_of_lt hlt]
    show ((xRowAt row hk).view.read (Elt F) (XI m d L) (S128.rowMajor.symm ((r : Fin (S128x128.size gathers_S45x128_S128x128.axis')).cast hn.symm))).toNat = _
    rw [hsym, hword]
  | ⟨1, _⟩ => rfl

end Tile
end Cert.Proof.EmbK
end
-- ==== Proof.KBodyTrip.lean ====
/-
  One trip of the loop, between the first and the last: from the invariant before trip k to the invariant before
  trip k + 1 (0 < k < 39).

  In trip k, for r = 0 … 4 in turn: the gather of chunk 5 k + r into slot r is waited for and the slot is stored to
  the chunk's rows of the output; then slot r + 3 (mod 5) is made free — the store of the chunk it held five chunks
  earlier is waited for — and chunk 5 k + r + 3 is gathered into it. So the trip waits the gathers of chunks
  5 k … 5 k + 4, issues the stores of the same chunks, waits the stores of chunks 5 k − 2 … 5 k + 2 and issues
  the gathers of chunks 5 k + 3 … 5 k + 7.

  The data. A gather of row i of the index scratch leaves in its slot the block GC i (the table rows those words
  name); a store of a slot at GC i writes, on chunk i of the tile's rows, exactly the looked-up rows. Both are the
  data module's lemmas; here they turn each flight, as it is issued, into the invariant's flight of the same chunk.
  The rest is bookkeeping of the pieces numbered by chunk: five rows of the index scratch come back, five chunks of
  the output are finished.
-/
import proofs.«203315_g78847009620241_cont_9to1c4b_359_24_alg».proof.Proof.KData

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

/-! ## The pieces in the body's spelling -/

omit [FloatOps F] in
theorem set_oChAt (off : Fin 2 → Nat) (h) (i : Fin 200) (e : Rect.unit (s := S819200x128) off S128x128.size h = ochunk (chunkNo (wL L) i)) :
    (oChAt off h).view.set = oCh (chunkNo (wL L) i) := by
  show ((oV).view.slice (Rect.unit (s := S819200x128) off S128x128.size h)).set = ((oV).view.slice (ochunk (chunkNo (wL L) i))).set
  rw [View.set_slice, View.set_slice]
  exact congrArg (fun r : Rect S819200x128 => r.set.map (oV).view.emb) e

omit [FloatOps F] in
theorem pts_oChAt (off : Fin 2 → Nat) (h) (i : Fin 200) (e : Rect.unit (s := S819200x128) off S128x128.size h = ochunk (chunkNo (wL L) i)) (f : Buf (Elt F) (oLoc d)) :
    ((oChAt off h).view.loc (VT d L) ↦[(oChAt off h).view.set]{fullShare} f : sProp 𝕄) = oChPts d L f i := by
  rw [set_oChAt L off h i e]

omit [FloatOps F] in
/-- A whole buffer written whole holds what was written. -/
theorem writes_whole (r : Ref sig .scVector) (f x : r.ty.Contents (Elt F)) :
    (Memref.whole r : Memref sig .scVector r.space r.ty.shape r.ty.elt).view.writes (Elt F) f [⟨Rect.whole r.ty.shape, x⟩] = x :=
  View.read_writes_whole (View.whole r) f x

omit [FloatOps F] in
theorem from_take5 (Φ : Fin 200 → sProp 𝕄) (n : ℕ) (h : n + 4 < 200) :
    bigSep (Finset.univ.filter fun i : Fin 200 => n ≤ i.val) Φ
      = iprop(Φ ⟨n, by omega⟩ ∗ Φ ⟨n + 1, by omega⟩ ∗ Φ ⟨n + 2, by omega⟩ ∗ Φ ⟨n + 3, by omega⟩ ∗ Φ ⟨n + 4, h⟩
          ∗ bigSep (Finset.univ.filter fun i : Fin 200 => n + 5 ≤ i.val) Φ) := by
  rw [bigSep_from_take Φ n (by omega), bigSep_from_take Φ (n + 1) (by omega), bigSep_from_take Φ (n + 1 + 1) (by omega),
    bigSep_from_take Φ (n + 1 + 1 + 1) (by omega), bigSep_from_take Φ (n + 1 + 1 + 1 + 1) (by omega)]

omit [FloatOps F] in
theorem below_put5 (Φ : Fin 200 → sProp 𝕄) (n : ℕ) (h : n + 4 < 200) :
    bigSep (Finset.univ.filter fun i : Fin 200 => i.val < n + 5) Φ
      = iprop(Φ ⟨n + 4, h⟩ ∗ Φ ⟨n + 3, by omega⟩ ∗ Φ ⟨n + 2, by omega⟩ ∗ Φ ⟨n + 1, by omega⟩ ∗ Φ ⟨n, by omega⟩
          ∗ bigSep (Finset.univ.filter fun i : Fin 200 => i.val < n) Φ) := by
  rw [show n + 5 = n + 1 + 1 + 1 + 1 + 1 from rfl, bigSep_below_put Φ (n + 1 + 1 + 1 + 1) (by omega), bigSep_below_put Φ (n + 1 + 1 + 1) (by omega),
    bigSep_below_put Φ (n + 1 + 1) (by omega), bigSep_below_put Φ (n + 1) (by omega), bigSep_below_put Φ n (by omega)]

omit [FloatOps F] in
theorem from_congr (Φ : Fin 200 → sProp 𝕄) {a b : ℕ} (h : a = b) :
    bigSep (Finset.univ.filter fun i : Fin 200 => a ≤ i.val) Φ = bigSep (Finset.univ.filter fun i : Fin 200 => b ≤ i.val) Φ := by rw [h]
omit [FloatOps F] in
theorem below_congr (Φ : Fin 200 → sProp 𝕄) {a b : ℕ} (h : a = b) :
    bigSep (Finset.univ.filter fun i : Fin 200 => i.val < a) Φ = bigSep (Finset.univ.filter fun i : Fin 200 => i.val < b) Φ := by rw [h]

/-! ## The flights as issued are the invariant's -/

theorem gfl0_of_exec (i : Fin 200) (row : Fin 2 → Nat) (hk) (h0 : row 0 = i.val) (h1 : row 1 = 0)
    (f0 : Buf (Elt F) ((b0V).view.loc (VT d L))) (p : S128x128.Idx → Elt F .f32) (hp : p = GC m d L i) :
    Transfers.Flight countersEmb (VT d L) (SemLoc.dma (csem 0)) (default : HIx 1) NX
      iprop((((b0V).view.loc (VT d L) ↦{fullShare} (b0V).view.writes (Elt F) f0 [⟨Rect.whole cc0_scratch2.ty.shape, p⟩])
          ∗ ((xRowAt row hk).view.loc (VT d L) ↦[(xRowAt row hk).view.set]{fullShare} XI m d L))
        ∗ ((shV).view.loc (VT d L) ↦[(shS).view.set]{shareTokN (qT L) 0} tabS m d (cV L)))
    ⊢ gFl0 m d L i := by
  subst hp
  unfold gFl0
  refine Transfers.Flight_mono countersEmb (VT d L) ?_
  rw [writes_whole, pts_xRowAt d L row hk i h0 h1]

theorem sfl0_of_exec (i : Fin 200) (off : Fin 2 → Nat) (h) (e : Rect.unit (s := S819200x128) off S128x128.size h = ochunk (chunkNo (wL L) i))
    (f0 : Buf (Elt F) (oLoc d)) (g : Buf (Elt F) ((b0V).view.loc (VT d L))) (hg : g = GC m d L i)
    (p : S128x128.Idx → Elt F .f32) (hp : p = ReadAs.same.apply (View.read (Elt F) (b0V).view g)) :
    Transfers.Flight countersEmb (VT d L) (SemLoc.dma (csem 5)) (default : HIx 1) NX
      iprop(((oChAt off h).view.loc (VT d L) ↦[(oChAt off h).view.set]{fullShare} (oChAt off h).view.writes (Elt F) f0 [⟨Rect.whole S128x128, p⟩])
        ∗ ((b0V).view.loc (VT d L) ↦[(b0V).view.set]{fullShare} g))
    ⊢ sFl0 m d L i := by
  subst hg; subst hp
  unfold sFl0
  refine Transfers.Flight_mono countersEmb (VT d L) ?_
  rw [och_of_exec m d L i off h e f0 (ReadAs.same.apply (View.read (Elt F) (b0V).view (GC m d L i))) rfl]

theorem gfl1_of_exec (i : Fin 200) (row : Fin 2 → Nat) (hk) (h0 : row 0 = i.val) (h1 : row 1 = 0)
    (f0 : Buf (Elt F) ((b1V).view.loc (VT d L))) (p : S128x128.Idx → Elt F .f32) (hp : p = GC m d L i) :
    Transfers.Flight countersEmb (VT d L) (SemLoc.dma (csem 1)) (default : HIx 1) NX
      iprop((((b1V).view.loc (VT d L) ↦{fullShare} (b1V).view.writes (Elt F) f0 [⟨Rect.whole cc0_scratch3.ty.shape, p⟩])
          ∗ ((xRowAt row hk).view.loc (VT d L) ↦[(xRowAt row hk).view.set]{fullShare} XI m d L))
        ∗ ((shV).view.loc (VT d L) ↦[(shS).view.set]{shareTokN (qT L) 1} tabS m d (cV L)))
    ⊢ gFl1 m d L i := by
  subst hp
  unfold gFl1
  refine Transfers.Flight_mono countersEmb (VT d L) ?_
  rw [writes_whole, pts_xRowAt d L row hk i h0 h1]

theorem sfl1_of_exec (i : Fin 200) (off : Fin 2 → Nat) (h) (e : Rect.unit (s := S819200x128) off S128x128.size h = ochunk (chunkNo (wL L) i))
    (f0 : Buf (Elt F) (oLoc d)) (g : Buf (Elt F) ((b1V).view.loc (VT d L))) (hg : g = GC m d L i)
    (p : S128x128.Idx → Elt F .f32) (hp : p = ReadAs.same.apply (View.read (Elt F) (b1V).view g)) :
    Transfers.Flight countersEmb (VT d L) (SemLoc.dma (csem 6)) (default : HIx 1) NX
      iprop(((oChAt off h).view.loc (VT d L) ↦[(oChAt off h).view.set]{fullShare} (oChAt off h).view.writes (Elt F) f0 [⟨Rect.whole S128x128, p⟩])
        ∗ ((b1V).view.loc (VT d L) ↦[(b1V).view.set]{fullShare} g))
    ⊢ sFl1 m d L i := by
  subst hg; subst hp
  unfold sFl1
  refine Transfers.Flight_mono countersEmb (VT d L) ?_
  rw [och_of_exec m d L i off h e f0 (ReadAs.same.apply (View.read (Elt F) (b1V).view (GC m d L i))) rfl]

theorem gfl2_of_exec (i : Fin 200) (row : Fin 2 → Nat) (hk) (h0 : row 0 = i.val) (h1 : row 1 = 0)
    (f0 : Buf (Elt F) ((b2V).view.loc (VT d L))) (p : S128x128.Idx → Elt F .f32) (hp : p = GC m d L i) :
    Transfers.Flight countersEmb (VT d L) (SemLoc.dma (csem 2)) (default : HIx 1) NX
      iprop((((b2V).view.loc (VT d L) ↦{fullShare} (b2V).view.writes (Elt F) f0 [⟨Rect.whole cc0_scratch4.ty.shape, p⟩])
          ∗ ((xRowAt row hk).view.loc (VT d L) ↦[(xRowAt row hk).view.set]{fullShare} XI m d L))
        ∗ ((shV).view.loc (VT d L) ↦[(shS).view.set]{shareTokN (qT L) 2} tabS m d (cV L)))
    ⊢ gFl2 m d L i := by
  subst hp
  unfold gFl2
  refine Transfers.Flight_mono countersEmb (VT d L) ?_
  rw [writes_whole, pts_xRowAt d L row hk i h0 h1]

theorem sfl2_of_exec (i : Fin 200) (off : Fin 2 → Nat) (h) (e : Rect.unit (s := S819200x128) off S128x128.size h = ochunk (chunkNo (wL L) i))
    (f0 : Buf (Elt F) (oLoc d)) (g : Buf (Elt F) ((b2V).view.loc (VT d L))) (hg : g = GC m d L i)
    (p : S128x128.Idx → Elt F .f32) (hp : p = ReadAs.same.apply (View.read (Elt F) (b2V).view g)) :
    Transfers.Flight countersEmb (VT d L) (SemLoc.dma (csem 7)) (default : HIx 1) NX
      iprop(((oChAt off h).view.loc (VT d L) ↦[(oChAt off h).view.set]{fullShare} (oChAt off h).view.writes (Elt F) f0 [⟨Rect.whole S128x128, p⟩])
        ∗ ((b2V).view.loc (VT d L) ↦[(b2V).view.set]{fullShare} g))
    ⊢ sFl2 m d L i := by
  subst hg; subst hp
  unfold sFl2
  refine Transfers.Flight_mono countersEmb (VT d L) ?_
  rw [och_of_exec m d L i off h e f0 (ReadAs.same.apply (View.read (Elt F) (b2V).view (GC m d L i))) rfl]

theorem gfl3_of_exec (i : Fin 200) (row : Fin 2 → Nat) (hk) (h0 : row 0 = i.val) (h1 : row 1 = 0)
    (f0 : Buf (Elt F) ((b3V).view.loc (VT d L))) (p : S128x128.Idx → Elt F .f32) (hp : p = GC m d L i) :
    Transfers.Flight countersEmb (VT d L) (SemLoc.dma (csem 3)) (default : HIx 1) NX
      iprop((((b3V).view.loc (VT d L) ↦{fullShare} (b3V).view.writes (Elt F) f0 [⟨Rect.whole cc0_scratch5.ty.shape, p⟩])
          ∗ ((xRowAt row hk).view.loc (VT d L) ↦[(xRowAt row hk).view.set]{fullShare} XI m d L))
        ∗ ((shV).view.loc (VT d L) ↦[(shS).view.set]{shareTokN (qT L) 3} tabS m d (cV L)))
    ⊢ gFl3 m d L i := by
  subst hp
  unfold gFl3
  refine Transfers.Flight_mono countersEmb (VT d L) ?_
  rw [writes_whole, pts_xRowAt d L row hk i h0 h1]

theorem sfl3_of_exec (i : Fin 200) (off : Fin 2 → Nat) (h) (e : Rect.unit (s := S819200x128) off S128x128.size h = ochunk (chunkNo (wL L) i))
    (f0 : Buf (Elt F) (oLoc d)) (g : Buf (Elt F) ((b3V).view.loc (VT d L))) (hg : g = GC m d L i)
    (p : S128x128.Idx → Elt F .f32) (hp : p = ReadAs.same.apply (View.read (Elt F) (b3V).view g)) :
    Transfers.Flight countersEmb (VT d L) (SemLoc.dma (csem 8)) (default : HIx 1) NX
      iprop(((oChAt off h).view.loc (VT d L) ↦[(oChAt off h).view.set]{fullShare} (oChAt off h).view.writes (Elt F) f0 [⟨Rect.whole S128x128, p⟩])
        ∗ ((b3V).view.loc (VT d L) ↦[(b3V).view.set]{fullShare} g))
    ⊢ sFl3 m d L i := by
  subst hg; subst hp
  unfold sFl3
  refine Transfers.Flight_mono countersEmb (VT d L) ?_
  rw [och_of_exec m d L i off h e f0 (ReadAs.same.apply (View.read (Elt F) (b3V).view (GC m d L i))) rfl]

theorem gfl4_of_exec (i : Fin 200) (row : Fin 2 → Nat) (hk) (h0 : row 0 = i.val) (h1 : row 1 = 0)
    (f0 : Buf (Elt F) ((b4V).view.loc (VT d L))) (p : S128x128.Idx → Elt F .f32) (hp : p = GC m d L i) :
    Transfers.Flight countersEmb (VT d L) (SemLoc.dma (csem 4)) (default : HIx 1) NX
      iprop((((b4V).view.loc (VT d L) ↦{fullShare} (b4V).view.writes (Elt F) f0 [⟨Rect.whole cc0_scratch6.ty.shape, p⟩])
          ∗ ((xRowAt row hk).view.loc (VT d L) ↦[(xRowAt row hk).view.set]{fullShare} XI m d L))
        ∗ ((shV).view.loc (VT d L) ↦[(shS).view.set]{shareTokN (qT L) 4} tabS m d (cV L)))
    ⊢ gFl4 m d L i := by
  subst hp
  unfold gFl4
  refine Transfers.Flight_mono countersEmb (VT d L) ?_
  rw [writes_whole, pts_xRowAt d L row hk i h0 h1]

theorem sfl4_of_exec (i : Fin 200) (off : Fin 2 → Nat) (h) (e : Rect.unit (s := S819200x128) off S128x128.size h = ochunk (chunkNo (wL L) i))
    (f0 : Buf (Elt F) (oLoc d)) (g : Buf (Elt F) ((b4V).view.loc (VT d L))) (hg : g = GC m d L i)
    (p : S128x128.Idx → Elt F .f32) (hp : p = ReadAs.same.apply (View.read (Elt F) (b4V).view g)) :
    Transfers.Flight countersEmb (VT d L) (SemLoc.dma (csem 9)) (default : HIx 1) NX
      iprop(((oChAt off h).view.loc (VT d L) ↦[(oChAt off h).view.set]{fullShare} (oChAt off h).view.writes (Elt F) f0 [⟨Rect.whole S128x128, p⟩])
        ∗ ((b4V).view.loc (VT d L) ↦[(b4V).view.set]{fullShare} g))
    ⊢ sFl4 m d L i := by
  subst hg; subst hp
  unfold sFl4
  refine Transfers.Flight_mono countersEmb (VT d L) ?_
  rw [och_of_exec m d L i off h e f0 (ReadAs.same.apply (View.read (Elt F) (b4V).view (GC m d L i))) rfl]

omit [FloatOps F] in
/-- The waits a trip adds are all at no index. -/
theorem ins_ok {W W' : Waits sig (HIx 1)} (s : SemLoc sig) (hW' : ∀ p ∈ W', p ∈ W ∨ p.2 = none ∨ p.2 = some (0 : Fin 1)) :
    ∀ p ∈ insert (s, (default : HIx 1)) W', p ∈ W ∨ p.2 = none ∨ p.2 = some (0 : Fin 1) := by
  intro p hp
  rcases Finset.mem_insert.mp hp with hp | hp
  · exact .inr (.inl (hp ▸ rfl))
  · exact hW' p hp

omit [FloatOps F] in
theorem chunkOf_val (t : Fin k0_t1_loop.trips) (r : Fin 5) : (chunkOf t r).val = 5 * t.val + r.val := rfl

macro_rules | `(tactic| sl_pure) => `(tactic| first | assumption | (refine ins_ok _ ?_; sl_pure))

set_option maxHeartbeats 4000000 in
/-- A trip after the first and before the last: from the head of trip k to the head of trip k + 1. -/
theorem trip_mid (hpre : PreOK m) (O : CellTallies nD τ sig (HIx 1)) (W : Waits sig (HIx 1)) (k : Fin k0_t1_loop.trips) (hk0 : 0 < k.val) (hk39 : k.val < 39) :
    Head m d L O W k.val (by omega) ⊢ wp frame (wpE (defs₀ (F := F)) 𝒱₀ (VT d L) none) Set.univ (tripProg L k)
      (fun _ => Head m d L O W (k.val + 1) (by omega)) := by
  have k0_h2 : k0_cond2 k = 1#1 := (cond2_iff k).mpr hk0
  have k0_h3 : k0_cond3 k = 1#1 := (cond3_iff k).mpr hk0
  have k0_h4 : k0_cond4 k = 1#1 := (cond4_iff k).mpr hk39
  have k0_h5 : k0_cond5 k = 1#1 := (cond5_iff k).mpr hk39
  have k0_h6 : k0_cond6 k = 1#1 := (cond6_iff k).mpr hk39
  unfold tripProg k0_t1_body
  unfold Head Common
  rw [dif_neg (Nat.pos_iff_ne_zero.mp hk0), dif_neg (Nat.succ_ne_zero k.val)]
  unfold gFl0 gFl1 gFl2 sFl3 sFl4
  rw [from_take5 (xRowPts m d L) (5 * k.val + 3) (by omega), from_take5 (oChPts d L (m (oLoc d))) (5 * k.val) (by omega)]
  iintro ⟨⟨#Hmw, Hi, HTr, ⟨Hr3, Hr4, Hr5, Hr6, Hr7, Hrows⟩, Hback, Hdone, ⟨Ho0, Ho1, Ho2, Ho3, Ho4, Htodo⟩, Hc10, Hc11, Hbufs, Hsems, Ht0, %W', %hW', HO⟩,
    ⟨Hg0, HT0⟩, ⟨Hg1, HT1⟩, ⟨Hg2, HT2⟩, HT3, HT4, Hc3, Hc4, Hc5, Hc6, Hc7, Hs3, Hs4⟩
  -- the rows the trip's gathers read and the chunks its stores write, in the body's spelling
  have hb0 : 5 * k.val < 200 := by omega
  have hb1 : 5 * k.val + 1 < 200 := by omega
  have hb2 : 5 * k.val + 2 < 200 := by omega
  have hb3 : 5 * k.val + 3 < 200 := by omega
  have hb4 : 5 * k.val + 3 + 1 < 200 := by omega
  have hb5 : 5 * k.val + 3 + 2 < 200 := by omega
  have hb6 : 5 * k.val + 3 + 3 < 200 := by omega
  have hb7 : 5 * k.val + 3 + 4 < 200 := by omega
  have hb4' : 5 * k.val + 4 < 200 := by omega
  have e50 : (k0_off5 k 0#32) 0 = 5 * k.val + 3 ∧ (k0_off5 k 0#32) 1 = 0 := by
    rw [show k0_off5 k 0#32 = _ from k0_off5_eq k 0]; exact ⟨by show 5 * k.val + 0 + 3 = _; omega, rfl⟩
  have e51 : (k0_off5 k 1#32) 0 = 5 * k.val + 3 + 1 ∧ (k0_off5 k 1#32) 1 = 0 := by
    rw [show k0_off5 k 1#32 = _ from k0_off5_eq k 1]; exact ⟨by show 5 * k.val + 1 + 3 = _; omega, rfl⟩
  have e8 : (k0_off8 k) 0 = 5 * k.val + 3 + 2 ∧ (k0_off8 k) 1 = 0 := by rw [k0_off8_eq]; exact ⟨rfl, rfl⟩
  have e10 : (k0_off10 k) 0 = 5 * k.val + 3 + 3 ∧ (k0_off10 k) 1 = 0 := by rw [k0_off10_eq]; exact ⟨rfl, rfl⟩
  have e12 : (k0_off12 k) 0 = 5 * k.val + 3 + 4 ∧ (k0_off12 k) 1 = 0 := by rw [k0_off12_eq]; exact ⟨rfl, rfl⟩
  ihave Hr3' := (Entails.of_eq (pts_xRowAt (F := F) d L (k0_off5 k 0#32) (k0_off5_inb k 0) ⟨5 * k.val + 3, hb3⟩ e50.1 e50.2 _).symm) $$ Hr3
  ihave Hr4' := (Entails.of_eq (pts_xRowAt (F := F) d L (k0_off5 k 1#32) (k0_off5_inb k 1) ⟨5 * k.val + 3 + 1, hb4⟩ e51.1 e51.2 _).symm) $$ Hr4
  ihave Hr5' := (Entails.of_eq (pts_xRowAt (F := F) d L (k0_off8 k) (k0_off8_inb k k0_h4) ⟨5 * k.val + 3 + 2, hb5⟩ e8.1 e8.2 _).symm) $$ Hr5
  ihave Hr6' := (Entails.of_eq (pts_xRowAt (F := F) d L (k0_off10 k) (k0_off10_inb k k0_h5) ⟨5 * k.val + 3 + 3, hb6⟩ e10.1 e10.2 _).symm) $$ Hr6
  ihave Hr7' := (Entails.of_eq (pts_xRowAt (F := F) d L (k0_off12 k) (k0_off12_inb k k0_h6) ⟨5 * k.val + 3 + 4, hb7⟩ e12.1 e12.2 _).symm) $$ Hr7
  ihave Ho0' := (Entails.of_eq (pts_oChAt (F := F) d L (k0_off3 L k 0#32) (k0_off3_inb L k 0) ⟨5 * k.val, hb0⟩ (chunk_off3 L k 0) _).symm) $$ Ho0
  ihave Ho1' := (Entails.of_eq (pts_oChAt (F := F) d L (k0_off3 L k 1#32) (k0_off3_inb L k 1) ⟨5 * k.val + 1, hb1⟩ (chunk_off3 L k 1) _).symm) $$ Ho1
  ihave Ho2' := (Entails.of_eq (pts_oChAt (F := F) d L (k0_off3 L k 2#32) (k0_off3_inb L k 2) ⟨5 * k.val + 2, hb2⟩ (chunk_off3 L k 2) _).symm) $$ Ho2
  ihave Ho3' := (Entails.of_eq (pts_oChAt (F := F) d L (k0_off3 L k 3#32) (k0_off3_inb L k 3) ⟨5 * k.val + 3, hb3⟩ (chunk_off3 L k 3) _).symm) $$ Ho3
  ihave Ho4' := (Entails.of_eq (pts_oChAt (F := F) d L (k0_off3 L k 4#32) (k0_off3_inb L k 4) ⟨5 * k.val + 4, hb4'⟩ (chunk_off3 L k 4) _).symm) $$ Ho4
  have hin3 := inb_XI m d L hpre (k0_off5 k 0#32) (k0_off5_inb k 0)
  have hin4 := inb_XI m d L hpre (k0_off5 k 1#32) (k0_off5_inb k 1)
  have hin5 := inb_XI m d L hpre (k0_off8 k) (k0_off8_inb k k0_h4)
  have hin6 := inb_XI m d L hpre (k0_off10 k) (k0_off10_inb k k0_h5)
  have hin7 := inb_XI m d L hpre (k0_off12 k) (k0_off12_inb k k0_h6)
  sl_exec
  -- the three gathers issued, the two stores issued, at the invariant's contents
  have hp0 : trip_mid.sl.gather5 m d L k k0_h4 hin5 = GC m d L ⟨5 * k.val + 3 + 2, hb5⟩ := gather_GC m d L _ _ _ e8.1 e8.2 _ _
  have hp1 : trip_mid.sl.gather7 m d L k k0_h5 hin6 = GC m d L ⟨5 * k.val + 3 + 3, hb6⟩ := gather_GC m d L _ _ _ e10.1 e10.2 _ _
  have hp2 : trip_mid.sl.gather9 m d L k k0_h6 hin7 = GC m d L ⟨5 * k.val + 3 + 4, hb7⟩ := gather_GC m d L _ _ _ e12.1 e12.2 _ _
  have hg3 : ∀ f, (b3V).view.writes (Elt F) f [⟨Rect.whole cc0_scratch5.ty.shape, trip_mid.sl.gather1 m d L k hin3⟩] = GC m d L ⟨5 * k.val + 3, hb3⟩ :=
    fun f => (writes_whole _ f _).trans (gather_GC m d L _ _ _ e50.1 e50.2 _ _)
  have hg4 : ∀ f, (b4V).view.writes (Elt F) f [⟨Rect.whole cc0_scratch6.ty.shape, trip_mid.sl.gather3 m d L k hin4⟩] = GC m d L ⟨5 * k.val + 3 + 1, hb4⟩ :=
    fun f => (writes_whole _ f _).trans (gather_GC m d L _ _ _ e51.1 e51.2 _ _)
  have hd3 : trip_mid.sl.dma0_3 m d L k hk0 hk39 hin3 = ReadAs.same.apply (View.read (Elt F) (b3V).view
      ((b3V).view.writes (Elt F) (GC m d L ⟨5 * k.val - 2, by omega⟩) [⟨Rect.whole cc0_scratch5.ty.shape, trip_mid.sl.gather1 m d L k hin3⟩])) := rfl
  have hd4 : trip_mid.sl.dma0_4 m d L k hk0 hk39 hin4 = ReadAs.same.apply (View.read (Elt F) (b4V).view
      ((b4V).view.writes (Elt F) (GC m d L ⟨5 * k.val - 1, by omega⟩) [⟨Rect.whole cc0_scratch6.ty.shape, trip_mid.sl.gather3 m d L k hin4⟩])) := rfl
  have hq0 : trip_mid.sl.dma0 m d L k hk0 hk39 = ReadAs.same.apply (GC m d L ⟨5 * k.val, hb0⟩) := rfl
  have hq1 : trip_mid.sl.dma0_1 m d L k hk0 hk39 = ReadAs.same.apply (GC m d L ⟨5 * k.val + 1, hb1⟩) := rfl
  have hq2 : trip_mid.sl.dma0_2 m d L k hk0 hk39 = ReadAs.same.apply (GC m d L ⟨5 * k.val + 2, hb2⟩) := rfl
  ihave Hg0c := (gfl0_of_exec m d L ⟨5 * k.val + 3 + 2, hb5⟩ (k0_off8 k) (k0_off8_inb k k0_h4) e8.1 e8.2 _ _ hp0) $$ Hg0
  ihave Hg1c := (gfl1_of_exec m d L ⟨5 * k.val + 3 + 3, hb6⟩ (k0_off10 k) (k0_off10_inb k k0_h5) e10.1 e10.2 _ _ hp1) $$ Hg1
  ihave Hg2c := (gfl2_of_exec m d L ⟨5 * k.val + 3 + 4, hb7⟩ (k0_off12 k) (k0_off12_inb k k0_h6) e12.1 e12.2 _ _ hp2) $$ Hg2
  ihave Hs3c := (sfl3_of_exec m d L ⟨5 * k.val + 3, hb3⟩ (k0_off3 L k 3#32) (k0_off3_inb L k 3) (chunk_off3 L k 3) _ _ (hg3 _) _ hd3) $$ Hs3
  ihave Hs4c := (sfl4_of_exec m d L ⟨5 * k.val + 3 + 1, hb4⟩ (k0_off3 L k 4#32) (k0_off3_inb L k 4) (chunk_off3 L k 4) _ _ (hg4 _) _ hd4) $$ Hs4
  -- the rows given back, the chunks finished
  ihave Hr3c := (Entails.of_eq (pts_xRowAt (F := F) d L (k0_off5 k 0#32) (k0_off5_inb k 0) ⟨5 * k.val + 3, hb3⟩ e50.1 e50.2 _)) $$ Hr3'
  ihave Hr4c := (Entails.of_eq (pts_xRowAt (F := F) d L (k0_off5 k 1#32) (k0_off5_inb k 1) ⟨5 * k.val + 3 + 1, hb4⟩ e51.1 e51.2 _)) $$ Hr4'
  ihave Ho0c := (Entails.of_eq (och_of_exec m d L ⟨5 * k.val, hb0⟩ (k0_off3 L k 0#32) (k0_off3_inb L k 0) (chunk_off3 L k 0) _ _ hq0)) $$ Ho0'
  ihave Ho1c := (Entails.of_eq (och_of_exec m d L ⟨5 * k.val + 1, hb1⟩ (k0_off3 L k 1#32) (k0_off3_inb L k 1) (chunk_off3 L k 1) _ _ hq1)) $$ Ho1'
  ihave Ho2c := (Entails.of_eq (och_of_exec m d L ⟨5 * k.val + 2, hb2⟩ (k0_off3 L k 2#32) (k0_off3_inb L k 2) (chunk_off3 L k 2) _ _ hq2)) $$ Ho2'
  have hbk : 5 * k.val + 4 < 200 := by omega
  have hdn : 5 * k.val - 2 + 4 < 200 := by omega
  have eq1 : 5 * k.val + 5 = 5 * (k.val + 1) := by omega
  have eq2 : 5 * k.val - 2 + 5 = 5 * (k.val + 1) - 2 := by omega
  have eq3 : 5 * k.val + 3 + 5 = 5 * (k.val + 1) + 3 := by omega
  ihave Hback' := (Entails.of_eq ((below_put5 (xRowPts m d L) (5 * k.val) hbk).symm.trans (below_congr _ eq1))) $$ [Hr4c Hr3c Hg2_dst_and Hg1_dst_and Hg0_dst_and Hback]
  · isplitl [Hr4c]; · iexact Hr4c
    isplitl [Hr3c]; · iexact Hr3c
    isplitl [Hg2_dst_and]; · iexact Hg2_dst_and
    isplitl [Hg1_dst_and]; · iexact Hg1_dst_and
    isplitl [Hg0_dst_and]; · iexact Hg0_dst_and
    iexact Hback
  have ed0 : (⟨5 * k.val, hb0⟩ : Fin 200) = ⟨5 * k.val - 2 + 2, by omega⟩ := Fin.ext (show 5 * k.val = 5 * k.val - 2 + 2 by omega)
  have ed1 : (⟨5 * k.val + 1, hb1⟩ : Fin 200) = ⟨5 * k.val - 2 + 3, by omega⟩ := Fin.ext (show 5 * k.val + 1 = 5 * k.val - 2 + 3 by omega)
  have ed2 : (⟨5 * k.val + 2, hb2⟩ : Fin 200) = ⟨5 * k.val - 2 + 4, hdn⟩ := Fin.ext (show 5 * k.val + 2 = 5 * k.val - 2 + 4 by omega)
  have ed4 : (⟨5 * k.val - 1, by omega⟩ : Fin 200) = ⟨5 * k.val - 2 + 1, by omega⟩ := Fin.ext (show 5 * k.val - 1 = 5 * k.val - 2 + 1 by omega)
  ihave Ho0e := (Entails.of_eq (congrArg (oChPts d L (Ok m d)) ed0)) $$ Ho0c
  ihave Ho1e := (Entails.of_eq (congrArg (oChPts d L (Ok m d)) ed1)) $$ Ho1c
  ihave Ho2e := (Entails.of_eq (congrArg (oChPts d L (Ok m d)) ed2)) $$ Ho2c
  ihave Hs4e := (Entails.of_eq (congrArg (oChPts d L (Ok m d)) ed4)) $$ Hs4_dst
  ihave Hdone' := (Entails.of_eq ((below_put5 (oChPts d L (Ok m d)) (5 * k.val - 2) hdn).symm.trans (below_congr _ eq2))) $$ [Ho2e Ho1e Ho0e Hs4e Hs3_dst Hdone]
  · isplitl [Ho2e]; · iexact Ho2e
    isplitl [Ho1e]; · iexact Ho1e
    isplitl [Ho0e]; · iexact Ho0e
    isplitl [Hs4e]; · iexact Hs4e
    isplitl [Hs3_dst]; · iexact Hs3_dst
    iexact Hdone
  ihave Hrows' := (Entails.of_eq (from_congr (xRowPts m d L) eq3)) $$ Hrows
  ihave Htodo' := (Entails.of_eq (from_congr (oChPts d L (m (oLoc d))) eq1)) $$ Htodo
  have ei0 : (⟨5 * k.val + 3 + 2, hb5⟩ : Fin 200) = ch (k.val + 1) 0 (by omega) (by decide) := Fin.ext (show 5 * k.val + 3 + 2 = 5 * (k.val + 1) + 0 by omega)
  have ei1 : (⟨5 * k.val + 3 + 3, hb6⟩ : Fin 200) = ch (k.val + 1) 1 (by omega) (by decide) := Fin.ext (show 5 * k.val + 3 + 3 = 5 * (k.val + 1) + 1 by omega)
  have ei2 : (⟨5 * k.val + 3 + 4, hb7⟩ : Fin 200) = ch (k.val + 1) 2 (by omega) (by decide) := Fin.ext (show 5 * k.val + 3 + 4 = 5 * (k.val + 1) + 2 by omega)
  have ei3 : (⟨5 * k.val + 3, hb3⟩ : Fin 200) = ⟨5 * (k.val + 1) - 2, by omega⟩ := Fin.ext (show 5 * k.val + 3 = 5 * (k.val + 1) - 2 by omega)
  have ei4 : (⟨5 * k.val + 3 + 1, hb4⟩ : Fin 200) = ⟨5 * (k.val + 1) - 1, by omega⟩ := Fin.ext (show 5 * k.val + 3 + 1 = 5 * (k.val + 1) - 1 by omega)
  ihave Hg0d := (Entails.of_eq (congrArg (gFl0 m d L) ei0)) $$ Hg0c
  ihave Hg1d := (Entails.of_eq (congrArg (gFl1 m d L) ei1)) $$ Hg1c
  ihave Hg2d := (Entails.of_eq (congrArg (gFl2 m d L) ei2)) $$ Hg2c
  ihave Hs3d := (Entails.of_eq (congrArg (sFl3 m d L) ei3)) $$ Hs3c
  ihave Hs4d := (Entails.of_eq (congrArg (sFl4 m d L) ei4)) $$ Hs4c
  sl_step
  unfold gFl0 gFl1 gFl2 sFl3 sFl4
  sl_close

end Tile
end Cert.Proof.EmbK
end
-- ==== Proof.KBodyTripFirst.lean ====
/-
  The first trip of the loop (k = 0): as a middle trip, except that slots 3 and 4 are idle when it starts — no
  store is waited for before chunks 3 and 4 are gathered into them — and that only chunks 0, 1, 2 are finished when
  it ends.
-/
import proofs.«203315_g78847009620241_cont_9to1c4b_359_24_alg».proof.Proof.KBodyTrip

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

omit [FloatOps F] in
theorem below_put3 (Φ : Fin 200 → sProp 𝕄) (n : ℕ) (h : n + 2 < 200) :
    bigSep (Finset.univ.filter fun i : Fin 200 => i.val < n + 3) Φ
      = iprop(Φ ⟨n + 2, h⟩ ∗ Φ ⟨n + 1, by omega⟩ ∗ Φ ⟨n, by omega⟩ ∗ bigSep (Finset.univ.filter fun i : Fin 200 => i.val < n) Φ) := by
  rw [show n + 3 = n + 1 + 1 + 1 from rfl, bigSep_below_put Φ (n + 1 + 1) (by omega), bigSep_below_put Φ (n + 1) (by omega), bigSep_below_put Φ n (by omega)]

set_option maxHeartbeats 4000000 in
/-- The first trip: from the head of trip 0 to the head of trip 1. -/
theorem trip_first (hpre : PreOK m) (O : CellTallies nD τ sig (HIx 1)) (W : Waits sig (HIx 1)) (k : Fin k0_t1_loop.trips) (hk : k.val = 0) :
    Head m d L O W k.val (by omega) ⊢ wp frame (wpE (defs₀ (F := F)) 𝒱₀ (VT d L) none) Set.univ (tripProg L k)
      (fun _ => Head m d L O W (k.val + 1) (by omega)) := by
  have k0_h2 : ¬ k0_cond2 k = 1#1 := fun h => absurd ((cond2_iff k).mp h) (by omega)
  have k0_h3 : ¬ k0_cond3 k = 1#1 := fun h => absurd ((cond3_iff k).mp h) (by omega)
  have k0_h4 : k0_cond4 k = 1#1 := (cond4_iff k).mpr (by omega)
  have k0_h5 : k0_cond5 k = 1#1 := (cond5_iff k).mpr (by omega)
  have k0_h6 : k0_cond6 k = 1#1 := (cond6_iff k).mpr (by omega)
  unfold tripProg k0_t1_body
  unfold Head Common
  rw [dif_pos hk, dif_neg (Nat.succ_ne_zero k.val)]
  unfold gFl0 gFl1 gFl2 sFl3 sFl4
  rw [from_take5 (xRowPts m d L) (5 * k.val + 3) (by omega), from_take5 (oChPts d L (m (oLoc d))) (5 * k.val) (by omega)]
  iintro ⟨⟨#Hmw, Hi, HTr, ⟨Hr3, Hr4, Hr5, Hr6, Hr7, Hrows⟩, Hback, Hdone, ⟨Ho0, Ho1, Ho2, Ho3, Ho4, Htodo⟩, Hc10, Hc11, Hbufs, Hsems, Ht0, %W', %hW', HO⟩,
    ⟨Hg0, HT0⟩, ⟨Hg1, HT1⟩, ⟨Hg2, HT2⟩, HT3, HT4, Hc3, Hc4, Hc5, Hc6, Hc7, ⟨%f3, H3⟩, ⟨%f4, H4⟩, Hc8, Hc9⟩
  -- the rows the trip's gathers read and the chunks its stores write, in the body's spelling
  have hb0 : 5 * k.val < 200 := by omega
  have hb1 : 5 * k.val + 1 < 200 := by omega
  have hb2 : 5 * k.val + 2 < 200 := by omega
  have hb3 : 5 * k.val + 3 < 200 := by omega
  have hb4 : 5 * k.val + 3 + 1 < 200 := by omega
  have hb5 : 5 * k.val + 3 + 2 < 200 := by omega
  have hb6 : 5 * k.val + 3 + 3 < 200 := by omega
  have hb7 : 5 * k.val + 3 + 4 < 200 := by omega
  have hb4' : 5 * k.val + 4 < 200 := by omega
  have e50 : (k0_off5 k 0#32) 0 = 5 * k.val + 3 ∧ (k0_off5 k 0#32) 1 = 0 := by
    rw [show k0_off5 k 0#32 = _ from k0_off5_eq k 0]; exact ⟨by show 5 * k.val + 0 + 3 = _; omega, rfl⟩
  have e51 : (k0_off5 k 1#32) 0 = 5 * k.val + 3 + 1 ∧ (k0_off5 k 1#32) 1 = 0 := by
    rw [show k0_off5 k 1#32 = _ from k0_off5_eq k 1]; exact ⟨by show 5 * k.val + 1 + 3 = _; omega, rfl⟩
  have e8 : (k0_off8 k) 0 = 5 * k.val + 3 + 2 ∧ (k0_off8 k) 1 = 0 := by rw [k0_off8_eq]; exact ⟨rfl, rfl⟩
  have e10 : (k0_off10 k) 0 = 5 * k.val + 3 + 3 ∧ (k0_off10 k) 1 = 0 := by rw [k0_off10_eq]; exact ⟨rfl, rfl⟩
  have e12 : (k0_off12 k) 0 = 5 * k.val + 3 + 4 ∧ (k0_off12 k) 1 = 0 := by rw [k0_off12_eq]; exact ⟨rfl, rfl⟩
  ihave Hr3' := (Entails.of_eq (pts_xRowAt (F := F) d L (k0_off5 k 0#32) (k0_off5_inb k 0) ⟨5 * k.val + 3, hb3⟩ e50.1 e50.2 _).symm) $$ Hr3
  ihave Hr4' := (Entails.of_eq (pts_xRowAt (F := F) d L (k0_off5 k 1#32) (k0_off5_inb k 1) ⟨5 * k.val + 3 + 1, hb4⟩ e51.1 e51.2 _).symm) $$ Hr4
  ihave Hr5' := (Entails.of_eq (pts_xRowAt (F := F) d L (k0_off8 k) (k0_off8_inb k k0_h4) ⟨5 * k.val + 3 + 2, hb5⟩ e8.1 e8.2 _).symm) $$ Hr5
  ihave Hr6' := (Entails.of_eq (pts_xRowAt (F := F) d L (k0_off10 k) (k0_off10_inb k k0_h5) ⟨5 * k.val + 3 + 3, hb6⟩ e10.1 e10.2 _).symm) $$ Hr6
  ihave Hr7' := (Entails.of_eq (pts_xRowAt (F := F) d L (k0_off12 k) (k0_off12_inb k k0_h6) ⟨5 * k.val + 3 + 4, hb7⟩ e12.1 e12.2 _).symm) $$ Hr7
  ihave Ho0' := (Entails.of_eq (pts_oChAt (F := F) d L (k0_off3 L k 0#32) (k0_off3_inb L k 0) ⟨5 * k.val, hb0⟩ (chunk_off3 L k 0) _).symm) $$ Ho0
  ihave Ho1' := (Entails.of_eq (pts_oChAt (F := F) d L (k0_off3 L k 1#32) (k0_off3_inb L k 1) ⟨5 * k.val + 1, hb1⟩ (chunk_off3 L k 1) _).symm) $$ Ho1
  ihave Ho2' := (Entails.of_eq (pts_oChAt (F := F) d L (k0_off3 L k 2#32) (k0_off3_inb L k 2) ⟨5 * k.val + 2, hb2⟩ (chunk_off3 L k 2) _).symm) $$ Ho2
  ihave Ho3' := (Entails.of_eq (pts_oChAt (F := F) d L (k0_off3 L k 3#32) (k0_off3_inb L k 3) ⟨5 * k.val + 3, hb3⟩ (chunk_off3 L k 3) _).symm) $$ Ho3
  ihave Ho4' := (Entails.of_eq (pts_oChAt (F := F) d L (k0_off3 L k 4#32) (k0_off3_inb L k 4) ⟨5 * k.val + 4, hb4'⟩ (chunk_off3 L k 4) _).symm) $$ Ho4
  have hin3 := inb_XI m d L hpre (k0_off5 k 0#32) (k0_off5_inb k 0)
  have hin4 := inb_XI m d L hpre (k0_off5 k 1#32) (k0_off5_inb k 1)
  have hin5 := inb_XI m d L hpre (k0_off8 k) (k0_off8_inb k k0_h4)
  have hin6 := inb_XI m d L hpre (k0_off10 k) (k0_off10_inb k k0_h5)
  have hin7 := inb_XI m d L hpre (k0_off12 k) (k0_off12_inb k k0_h6)
  sl_exec
  -- the three gathers issued, the two stores issued, at the invariant's contents
  have hp0 : trip_first.sl.gather5 m d L k k0_h4 hin5 = GC m d L ⟨5 * k.val + 3 + 2, hb5⟩ := gather_GC m d L _ _ _ e8.1 e8.2 _ _
  have hp1 : trip_first.sl.gather7 m d L k k0_h5 hin6 = GC m d L ⟨5 * k.val + 3 + 3, hb6⟩ := gather_GC m d L _ _ _ e10.1 e10.2 _ _
  have hp2 : trip_first.sl.gather9 m d L k k0_h6 hin7 = GC m d L ⟨5 * k.val + 3 + 4, hb7⟩ := gather_GC m d L _ _ _ e12.1 e12.2 _ _
  have hg3 : ∀ f, (b3V).view.writes (Elt F) f [⟨Rect.whole cc0_scratch5.ty.shape, trip_first.sl.gather1 m d L k hin3⟩] = GC m d L ⟨5 * k.val + 3, hb3⟩ :=
    fun f => (writes_whole _ f _).trans (gather_GC m d L _ _ _ e50.1 e50.2 _ _)
  have hg4 : ∀ f, (b4V).view.writes (Elt F) f [⟨Rect.whole cc0_scratch6.ty.shape, trip_first.sl.gather3 m d L k hin4⟩] = GC m d L ⟨5 * k.val + 3 + 1, hb4⟩ :=
    fun f => (writes_whole _ f _).trans (gather_GC m d L _ _ _ e51.1 e51.2 _ _)
  have hd3 : trip_first.sl.dma0_3 m d L k f3 hin3 = ReadAs.same.apply (View.read (Elt F) (b3V).view
      ((b3V).view.writes (Elt F) f3 [⟨Rect.whole cc0_scratch5.ty.shape, trip_first.sl.gather1 m d L k hin3⟩])) := rfl
  have hd4 : trip_first.sl.dma0_4 m d L k f4 hin4 = ReadAs.same.apply (View.read (Elt F) (b4V).view
      ((b4V).view.writes (Elt F) f4 [⟨Rect.whole cc0_scratch6.ty.shape, trip_first.sl.gather3 m d L k hin4⟩])) := rfl
  have hq0 : trip_first.sl.dma0 m d L k hk = ReadAs.same.apply (GC m d L ⟨5 * k.val, hb0⟩) := rfl
  have hq1 : trip_first.sl.dma0_1 m d L k hk = ReadAs.same.apply (GC m d L ⟨5 * k.val + 1, hb1⟩) := rfl
  have hq2 : trip_first.sl.dma0_2 m d L k hk = ReadAs.same.apply (GC m d L ⟨5 * k.val + 2, hb2⟩) := rfl
  ihave Hg0c := (gfl0_of_exec m d L ⟨5 * k.val + 3 + 2, hb5⟩ (k0_off8 k) (k0_off8_inb k k0_h4) e8.1 e8.2 _ _ hp0) $$ Hg0
  ihave Hg1c := (gfl1_of_exec m d L ⟨5 * k.val + 3 + 3, hb6⟩ (k0_off10 k) (k0_off10_inb k k0_h5) e10.1 e10.2 _ _ hp1) $$ Hg1
  ihave Hg2c := (gfl2_of_exec m d L ⟨5 * k.val + 3 + 4, hb7⟩ (k0_off12 k) (k0_off12_inb k k0_h6) e12.1 e12.2 _ _ hp2) $$ Hg2
  ihave Hs3c := (sfl3_of_exec m d L ⟨5 * k.val + 3, hb3⟩ (k0_off3 L k 3#32) (k0_off3_inb L k 3) (chunk_off3 L k 3) _ _ (hg3 _) _ hd3) $$ Hc8
  ihave Hs4c := (sfl4_of_exec m d L ⟨5 * k.val + 3 + 1, hb4⟩ (k0_off3 L k 4#32) (k0_off3_inb L k 4) (chunk_off3 L k 4) _ _ (hg4 _) _ hd4) $$ Hc9
  -- the rows given back, the chunks finished
  ihave Hr3c := (Entails.of_eq (pts_xRowAt (F := F) d L (k0_off5 k 0#32) (k0_off5_inb k 0) ⟨5 * k.val + 3, hb3⟩ e50.1 e50.2 _)) $$ Hr3'
  ihave Hr4c := (Entails.of_eq (pts_xRowAt (F := F) d L (k0_off5 k 1#32) (k0_off5_inb k 1) ⟨5 * k.val + 3 + 1, hb4⟩ e51.1 e51.2 _)) $$ Hr4'
  ihave Ho0c := (Entails.of_eq (och_of_exec m d L ⟨5 * k.val, hb0⟩ (k0_off3 L k 0#32) (k0_off3_inb L k 0) (chunk_off3 L k 0) _ _ hq0)) $$ Ho0'
  ihave Ho1c := (Entails.of_eq (och_of_exec m d L ⟨5 * k.val + 1, hb1⟩ (k0_off3 L k 1#32) (k0_off3_inb L k 1) (chunk_off3 L k 1) _ _ hq1)) $$ Ho1'
  ihave Ho2c := (Entails.of_eq (och_of_exec m d L ⟨5 * k.val + 2, hb2⟩ (k0_off3 L k 2#32) (k0_off3_inb L k 2) (chunk_off3 L k 2) _ _ hq2)) $$ Ho2'
  have hbk : 5 * k.val + 4 < 200 := by omega
  have eq1 : 5 * k.val + 5 = 5 * (k.val + 1) := by omega
  have eq3 : 5 * k.val + 3 + 5 = 5 * (k.val + 1) + 3 := by omega
  ihave Hback' := (Entails.of_eq ((below_put5 (xRowPts m d L) (5 * k.val) hbk).symm.trans (below_congr _ eq1))) $$ [Hr4c Hr3c Hg2_dst_and Hg1_dst_and Hg0_dst_and Hback]
  · isplitl [Hr4c]; · iexact Hr4c
    isplitl [Hr3c]; · iexact Hr3c
    isplitl [Hg2_dst_and]; · iexact Hg2_dst_and
    isplitl [Hg1_dst_and]; · iexact Hg1_dst_and
    isplitl [Hg0_dst_and]; · iexact Hg0_dst_and
    iexact Hback
  have hdn3 : 5 * k.val - 2 + 2 < 200 := by omega
  have ed0 : (⟨5 * k.val, hb0⟩ : Fin 200) = ⟨5 * k.val - 2, by omega⟩ := Fin.ext (show 5 * k.val = 5 * k.val - 2 by omega)
  have ed1 : (⟨5 * k.val + 1, hb1⟩ : Fin 200) = ⟨5 * k.val - 2 + 1, by omega⟩ := Fin.ext (show 5 * k.val + 1 = 5 * k.val - 2 + 1 by omega)
  have ed2 : (⟨5 * k.val + 2, hb2⟩ : Fin 200) = ⟨5 * k.val - 2 + 2, hdn3⟩ := Fin.ext (show 5 * k.val + 2 = 5 * k.val - 2 + 2 by omega)
  have eq2' : 5 * k.val - 2 + 3 = 5 * (k.val + 1) - 2 := by omega
  ihave Ho0e := (Entails.of_eq (congrArg (oChPts d L (Ok m d)) ed0)) $$ Ho0c
  ihave Ho1e := (Entails.of_eq (congrArg (oChPts d L (Ok m d)) ed1)) $$ Ho1c
  ihave Ho2e := (Entails.of_eq (congrArg (oChPts d L (Ok m d)) ed2)) $$ Ho2c
  ihave Hdone' := (Entails.of_eq ((below_put3 (oChPts d L (Ok m d)) (5 * k.val - 2) hdn3).symm.trans (below_congr _ eq2'))) $$ [Ho2e Ho1e Ho0e Hdone]
  · isplitl [Ho2e]; · iexact Ho2e
    isplitl [Ho1e]; · iexact Ho1e
    isplitl [Ho0e]; · iexact Ho0e
    iexact Hdone
  ihave Hrows' := (Entails.of_eq (from_congr (xRowPts m d L) eq3)) $$ Hrows
  ihave Htodo' := (Entails.of_eq (from_congr (oChPts d L (m (oLoc d))) eq1)) $$ Htodo
  have ei0 : (⟨5 * k.val + 3 + 2, hb5⟩ : Fin 200) = ch (k.val + 1) 0 (by omega) (by decide) := Fin.ext (show 5 * k.val + 3 + 2 = 5 * (k.val + 1) + 0 by omega)
  have ei1 : (⟨5 * k.val + 3 + 3, hb6⟩ : Fin 200) = ch (k.val + 1) 1 (by omega) (by decide) := Fin.ext (show 5 * k.val + 3 + 3 = 5 * (k.val + 1) + 1 by omega)
  have ei2 : (⟨5 * k.val + 3 + 4, hb7⟩ : Fin 200) = ch (k.val + 1) 2 (by omega) (by decide) := Fin.ext (show 5 * k.val + 3 + 4 = 5 * (k.val + 1) + 2 by omega)
  have ei3 : (⟨5 * k.val + 3, hb3⟩ : Fin 200) = ⟨5 * (k.val + 1) - 2, by omega⟩ := Fin.ext (show 5 * k.val + 3 = 5 * (k.val + 1) - 2 by omega)
  have ei4 : (⟨5 * k.val + 3 + 1, hb4⟩ : Fin 200) = ⟨5 * (k.val + 1) - 1, by omega⟩ := Fin.ext (show 5 * k.val + 3 + 1 = 5 * (k.val + 1) - 1 by omega)
  ihave Hg0d := (Entails.of_eq (congrArg (gFl0 m d L) ei0)) $$ Hg0c
  ihave Hg1d := (Entails.of_eq (congrArg (gFl1 m d L) ei1)) $$ Hg1c
  ihave Hg2d := (Entails.of_eq (congrArg (gFl2 m d L) ei2)) $$ Hg2c
  ihave Hs3d := (Entails.of_eq (congrArg (sFl3 m d L) ei3)) $$ Hs3c
  ihave Hs4d := (Entails.of_eq (congrArg (sFl4 m d L) ei4)) $$ Hs4c
  sl_step
  unfold gFl0 gFl1 gFl2 sFl3 sFl4
  sl_close

end Tile
end Cert.Proof.EmbK
end
-- ==== Proof.KBodyTripLast.lean ====
/-
  The last trip of the loop (k = 39): as a middle trip, except that nothing is gathered after chunk 199 — slots 0,
  1, 2 are not waited for and not gathered into again — so that it ends with the five stores of chunks 195 … 199
  in flight, every gather semaphore at zero with its token whole, and every row of the index scratch back.
-/
import proofs.«203315_g78847009620241_cont_9to1c4b_359_24_alg».proof.Proof.KBodyTrip

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

omit [FloatOps F] in
theorem from_take2 (Φ : Fin 200 → sProp 𝕄) (n : ℕ) (h : n + 1 < 200) :
    bigSep (Finset.univ.filter fun i : Fin 200 => n ≤ i.val) Φ
      = iprop(Φ ⟨n, by omega⟩ ∗ Φ ⟨n + 1, h⟩ ∗ bigSep (Finset.univ.filter fun i : Fin 200 => n + 2 ≤ i.val) Φ) := by
  rw [bigSep_from_take Φ n (by omega), bigSep_from_take Φ (n + 1) (by omega)]

omit [FloatOps F] in
theorem below_put2 (Φ : Fin 200 → sProp 𝕄) (n : ℕ) (h : n + 1 < 200) :
    bigSep (Finset.univ.filter fun i : Fin 200 => i.val < n + 2) Φ
      = iprop(Φ ⟨n + 1, h⟩ ∗ Φ ⟨n, by omega⟩ ∗ bigSep (Finset.univ.filter fun i : Fin 200 => i.val < n) Φ) := by
  rw [show n + 2 = n + 1 + 1 from rfl, bigSep_below_put Φ (n + 1) (by omega), bigSep_below_put Φ n (by omega)]

set_option maxHeartbeats 4000000 in
/-- The last trip: from the head of trip 39 to the state after the loop. -/
theorem trip_last (hpre : PreOK m) (O : CellTallies nD τ sig (HIx 1)) (W : Waits sig (HIx 1)) (k : Fin k0_t1_loop.trips) (hk : k.val = 39) :
    Head m d L O W k.val (by omega) ⊢ wp frame (wpE (defs₀ (F := F)) 𝒱₀ (VT d L) none) Set.univ (tripProg L k)
      (fun _ => Exit m d L O W) := by
  have k0_h2 : k0_cond2 k = 1#1 := (cond2_iff k).mpr (by omega)
  have k0_h3 : k0_cond3 k = 1#1 := (cond3_iff k).mpr (by omega)
  have k0_h4 : ¬ k0_cond4 k = 1#1 := fun h => absurd ((cond4_iff k).mp h) (by omega)
  have k0_h5 : ¬ k0_cond5 k = 1#1 := fun h => absurd ((cond5_iff k).mp h) (by omega)
  have k0_h6 : ¬ k0_cond6 k = 1#1 := fun h => absurd ((cond6_iff k).mp h) (by omega)
  unfold tripProg k0_t1_body
  unfold Head Exit Common
  rw [dif_neg (show k.val ≠ 0 by omega)]
  unfold gFl0 gFl1 gFl2 sFl0 sFl1 sFl2 sFl3 sFl4
  rw [from_take2 (xRowPts m d L) (5 * k.val + 3) (by omega), from_take5 (oChPts d L (m (oLoc d))) (5 * k.val) (by omega)]
  iintro ⟨⟨#Hmw, Hi, HTr, ⟨Hr3, Hr4, Hrows⟩, Hback, Hdone, ⟨Ho0, Ho1, Ho2, Ho3, Ho4, Htodo⟩, Hc10, Hc11, Hbufs, Hsems, Ht0, %W', %hW', HO⟩,
    ⟨Hg0, HT0⟩, ⟨Hg1, HT1⟩, ⟨Hg2, HT2⟩, HT3, HT4, Hc3, Hc4, Hc5, Hc6, Hc7, Hs3, Hs4⟩
  have hb0 : 5 * k.val < 200 := by omega
  have hb1 : 5 * k.val + 1 < 200 := by omega
  have hb2 : 5 * k.val + 2 < 200 := by omega
  have hb3 : 5 * k.val + 3 < 200 := by omega
  have hb4 : 5 * k.val + 3 + 1 < 200 := by omega
  have hb4' : 5 * k.val + 4 < 200 := by omega
  have e50 : (k0_off5 k 0#32) 0 = 5 * k.val + 3 ∧ (k0_off5 k 0#32) 1 = 0 := by
    rw [show k0_off5 k 0#32 = _ from k0_off5_eq k 0]; exact ⟨by show 5 * k.val + 0 + 3 = _; omega, rfl⟩
  have e51 : (k0_off5 k 1#32) 0 = 5 * k.val + 3 + 1 ∧ (k0_off5 k 1#32) 1 = 0 := by
    rw [show k0_off5 k 1#32 = _ from k0_off5_eq k 1]; exact ⟨by show 5 * k.val + 1 + 3 = _; omega, rfl⟩
  ihave Hr3' := (Entails.of_eq (pts_xRowAt (F := F) d L (k0_off5 k 0#32) (k0_off5_inb k 0) ⟨5 * k.val + 3, hb3⟩ e50.1 e50.2 _).symm) $$ Hr3
  ihave Hr4' := (Entails.of_eq (pts_xRowAt (F := F) d L (k0_off5 k 1#32) (k0_off5_inb k 1) ⟨5 * k.val + 3 + 1, hb4⟩ e51.1 e51.2 _).symm) $$ Hr4
  ihave Ho0' := (Entails.of_eq (pts_oChAt (F := F) d L (k0_off3 L k 0#32) (k0_off3_inb L k 0) ⟨5 * k.val, hb0⟩ (chunk_off3 L k 0) _).symm) $$ Ho0
  ihave Ho1' := (Entails.of_eq (pts_oChAt (F := F) d L (k0_off3 L k 1#32) (k0_off3_inb L k 1) ⟨5 * k.val + 1, hb1⟩ (chunk_off3 L k 1) _).symm) $$ Ho1
  ihave Ho2' := (Entails.of_eq (pts_oChAt (F := F) d L (k0_off3 L k 2#32) (k0_off3_inb L k 2) ⟨5 * k.val + 2, hb2⟩ (chunk_off3 L k 2) _).symm) $$ Ho2
  ihave Ho3' := (Entails.of_eq (pts_oChAt (F := F) d L (k0_off3 L k 3#32) (k0_off3_inb L k 3) ⟨5 * k.val + 3, hb3⟩ (chunk_off3 L k 3) _).symm) $$ Ho3
  ihave Ho4' := (Entails.of_eq (pts_oChAt (F := F) d L (k0_off3 L k 4#32) (k0_off3_inb L k 4) ⟨5 * k.val + 4, hb4'⟩ (chunk_off3 L k 4) _).symm) $$ Ho4
  have hin3 := inb_XI m d L hpre (k0_off5 k 0#32) (k0_off5_inb k 0)
  have hin4 := inb_XI m d L hpre (k0_off5 k 1#32) (k0_off5_inb k 1)
  sl_exec
  -- the five stores in flight, at the invariant's contents
  have hjk : k.val < 40 := by omega
  have h05 : 0 < 5 := by decide
  have h15 : 1 < 5 := by decide
  have h25 : 2 < 5 := by decide
  have hg3 : ∀ f, (b3V).view.writes (Elt F) f [⟨Rect.whole cc0_scratch5.ty.shape, trip_last.sl.gather1 m d L k hin3⟩] = GC m d L ⟨5 * k.val + 3, hb3⟩ :=
    fun f => (writes_whole _ f _).trans (gather_GC m d L _ _ _ e50.1 e50.2 _ _)
  have hg4 : ∀ f, (b4V).view.writes (Elt F) f [⟨Rect.whole cc0_scratch6.ty.shape, trip_last.sl.gather3 m d L k hin4⟩] = GC m d L ⟨5 * k.val + 3 + 1, hb4⟩ :=
    fun f => (writes_whole _ f _).trans (gather_GC m d L _ _ _ e51.1 e51.2 _ _)
  have hd3 : trip_last.sl.dma0_3 m d L k hk hin3 = ReadAs.same.apply (View.read (Elt F) (b3V).view
      ((b3V).view.writes (Elt F) (GC m d L ⟨5 * k.val - 2, by omega⟩) [⟨Rect.whole cc0_scratch5.ty.shape, trip_last.sl.gather1 m d L k hin3⟩])) := rfl
  have hd4 : trip_last.sl.dma0_4 m d L k hk hin4 = ReadAs.same.apply (View.read (Elt F) (b4V).view
      ((b4V).view.writes (Elt F) (GC m d L ⟨5 * k.val - 1, by omega⟩) [⟨Rect.whole cc0_scratch6.ty.shape, trip_last.sl.gather3 m d L k hin4⟩])) := rfl
  have hs0 : trip_last.sl.dma0 m d L k hk = ReadAs.same.apply (View.read (Elt F) (b0V).view (GC m d L (ch k.val 0 hjk h05))) := rfl
  have hs1 : trip_last.sl.dma0_1 m d L k hk = ReadAs.same.apply (View.read (Elt F) (b1V).view (GC m d L (ch k.val 1 hjk h15))) := rfl
  have hs2 : trip_last.sl.dma0_2 m d L k hk = ReadAs.same.apply (View.read (Elt F) (b2V).view (GC m d L (ch k.val 2 hjk h25))) := rfl
  ihave Hs0c := (sfl0_of_exec m d L (ch k.val 0 hjk h05) (k0_off3 L k 0#32) (k0_off3_inb L k 0) (chunk_off3 L k 0) _ _ rfl _ hs0) $$ Hc5
  ihave Hs1c := (sfl1_of_exec m d L (ch k.val 1 hjk h15) (k0_off3 L k 1#32) (k0_off3_inb L k 1) (chunk_off3 L k 1) _ _ rfl _ hs1) $$ Hc6
  ihave Hs2c := (sfl2_of_exec m d L (ch k.val 2 hjk h25) (k0_off3 L k 2#32) (k0_off3_inb L k 2) (chunk_off3 L k 2) _ _ rfl _ hs2) $$ Hc7
  ihave Hs3c := (sfl3_of_exec m d L ⟨5 * k.val + 3, hb3⟩ (k0_off3 L k 3#32) (k0_off3_inb L k 3) (chunk_off3 L k 3) _ _ (hg3 _) _ hd3) $$ Hs3
  ihave Hs4c := (sfl4_of_exec m d L ⟨5 * k.val + 3 + 1, hb4⟩ (k0_off3 L k 4#32) (k0_off3_inb L k 4) (chunk_off3 L k 4) _ _ (hg4 _) _ hd4) $$ Hs4
  have ej0 : ch k.val 0 hjk h05 = ⟨195, by decide⟩ := Fin.ext (show 5 * k.val + 0 = 195 by omega)
  have ej1 : ch k.val 1 hjk h15 = ⟨196, by decide⟩ := Fin.ext (show 5 * k.val + 1 = 196 by omega)
  have ej2 : ch k.val 2 hjk h25 = ⟨197, by decide⟩ := Fin.ext (show 5 * k.val + 2 = 197 by omega)
  have ej3 : (⟨5 * k.val + 3, hb3⟩ : Fin 200) = ⟨198, by decide⟩ := Fin.ext (show 5 * k.val + 3 = 198 by omega)
  have ej4 : (⟨5 * k.val + 3 + 1, hb4⟩ : Fin 200) = ⟨199, by decide⟩ := Fin.ext (show 5 * k.val + 3 + 1 = 199 by omega)
  ihave Hs0d := (Entails.of_eq (congrArg (sFl0 m d L) ej0)) $$ Hs0c
  ihave Hs1d := (Entails.of_eq (congrArg (sFl1 m d L) ej1)) $$ Hs1c
  ihave Hs2d := (Entails.of_eq (congrArg (sFl2 m d L) ej2)) $$ Hs2c
  ihave Hs3d := (Entails.of_eq (congrArg (sFl3 m d L) ej3)) $$ Hs3c
  ihave Hs4d := (Entails.of_eq (congrArg (sFl4 m d L) ej4)) $$ Hs4c
  -- the rows given back, the chunks finished
  ihave Hr3c := (Entails.of_eq (pts_xRowAt (F := F) d L (k0_off5 k 0#32) (k0_off5_inb k 0) ⟨5 * k.val + 3, hb3⟩ e50.1 e50.2 _)) $$ Hr3'
  ihave Hr4c := (Entails.of_eq (pts_xRowAt (F := F) d L (k0_off5 k 1#32) (k0_off5_inb k 1) ⟨5 * k.val + 3 + 1, hb4⟩ e51.1 e51.2 _)) $$ Hr4'
  have eq1 : 5 * k.val + 5 = 200 := by omega
  have eq2 : 5 * k.val - 2 + 2 = 195 := by omega
  have eq3 : 5 * k.val + 3 + 2 = 200 := by omega
  have hdn : 5 * k.val - 2 + 1 < 200 := by omega
  ihave Hback' := (Entails.of_eq ((below_put5 (xRowPts m d L) (5 * k.val) hb4').symm.trans (below_congr _ eq1))) $$ [Hr4c Hr3c Hg2_dst_and Hg1_dst_and Hg0_dst_and Hback]
  · isplitl [Hr4c]; · iexact Hr4c
    isplitl [Hr3c]; · iexact Hr3c
    isplitl [Hg2_dst_and]; · iexact Hg2_dst_and
    isplitl [Hg1_dst_and]; · iexact Hg1_dst_and
    isplitl [Hg0_dst_and]; · iexact Hg0_dst_and
    iexact Hback
  have ed4 : (⟨5 * k.val - 1, by omega⟩ : Fin 200) = ⟨5 * k.val - 2 + 1, hdn⟩ := Fin.ext (show 5 * k.val - 1 = 5 * k.val - 2 + 1 by omega)
  ihave Hs4e := (Entails.of_eq (congrArg (oChPts d L (Ok m d)) ed4)) $$ Hs4_dst
  ihave Hdone' := (Entails.of_eq ((below_put2 (oChPts d L (Ok m d)) (5 * k.val - 2) hdn).symm.trans (below_congr _ eq2))) $$ [Hs4e Hs3_dst Hdone]
  · isplitl [Hs4e]; · iexact Hs4e
    isplitl [Hs3_dst]; · iexact Hs3_dst
    iexact Hdone
  ihave Hrows' := (Entails.of_eq (from_congr (xRowPts m d L) eq3)) $$ Hrows
  ihave Htodo' := (Entails.of_eq (from_congr (oChPts d L (m (oLoc d))) eq1)) $$ Htodo
  sl_step
  unfold sFl0 sFl1 sFl2 sFl3 sFl4
  sl_close

end Tile
end Cert.Proof.EmbK
end
-- ==== Proof.KBodyTripAll.lean ====
/-
  One trip of the loop carries the invariant: the three cases (first trip, a middle trip, last trip) as one statement
  over the trip number.
-/
import proofs.«203315_g78847009620241_cont_9to1c4b_359_24_alg».proof.Proof.KBodyTripFirst
import proofs.«203315_g78847009620241_cont_9to1c4b_359_24_alg».proof.Proof.KBodyTripLast

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

/-- One trip of the loop carries the invariant from trip k to trip k + 1: the first trip, a middle one, the last. -/
theorem trip (hpre : PreOK m) (O : CellTallies nD τ sig (HIx 1)) (W : Waits sig (HIx 1)) (k : Fin k0_t1_loop.trips) :
    Inv m d L O W k.val () ⊢ wp frame (wpE (defs₀ (F := F)) 𝒱₀ (VT d L) none) Set.univ (tripProg L k) (Inv m d L O W (k.val + 1)) := by
  have hk := k.isLt
  have ht := trips_le
  unfold Inv
  rw [dif_pos (show k.val < 40 by omega)]
  rcases Nat.eq_zero_or_pos k.val with h0 | h0
  · simp only [dif_pos (show k.val + 1 < 40 by omega)]
    exact trip_first m d L hpre O W k h0
  · rcases Nat.lt_or_ge k.val 39 with h39 | h39
    · simp only [dif_pos (show k.val + 1 < 40 by omega)]
      exact trip_mid m d L hpre O W k h0 h39
    · simp only [dif_neg (show ¬ k.val + 1 < 40 by omega)]
      exact trip_last m d L hpre O W k (by omega)

end Tile
end Cert.Proof.EmbK
end
-- ==== Proof.KBody.lean ====
/-
  One tile's task, whole: the table copied into the shared memory by tile 0, the tile's slab of the indices
  copied into its index scratch, the barrier (tile 0 hands every tile a read token of the shared copy), the
  first three gathers, the forty trips of the loop, the five last waits, and the regrouping of what the task
  hands back.
-/
import proofs.«203315_g78847009620241_cont_9to1c4b_359_24_alg».proof.Proof.KBodyEnd
import proofs.«203315_g78847009620241_cont_9to1c4b_359_24_alg».proof.Proof.KBodyTripAll

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop shareTokN)
open Cert.Proof.EmbSpec (rowIx rows lookup i3of)

variable {F : FTy → Type}

local notation "𝕄" => MT nD τ sig (HIx 1) (Elt F) ℕ UU ℕ

local notation "tV" => (Memref.whole Cert.Kernel.main_arg1_scv : Memref Cert.Kernel.sig Kind.scVector Space.hbm Cert.Kernel.S45x128 EltTy.f32)
local notation "iV" => (Memref.whole Cert.Kernel.main_v0_scv : Memref Cert.Kernel.sig Kind.scVector Space.hbm Cert.Kernel.S32x200x128 EltTy.i32)
local notation "oV" => (Memref.whole Cert.Kernel.main_v1_scv : Memref Cert.Kernel.sig Kind.scVector Space.hbm Cert.Kernel.S819200x128 EltTy.f32)
local notation "shV" => (Memref.whole Cert.Kernel.cc0_scratch0 : Memref Cert.Kernel.sig Kind.scVector Space.shared Cert.Kernel.S45x128 EltTy.f32)
local notation "xV" => (Memref.whole Cert.Kernel.cc0_scratch1 : Memref Cert.Kernel.sig Kind.scVector Space.vmem Cert.Kernel.S200x128 EltTy.i32)
local notation "b0V" => (Memref.whole Cert.Kernel.cc0_scratch2 : Memref Cert.Kernel.sig Kind.scVector Space.vmem Cert.Kernel.S128x128 EltTy.f32)
local notation "b1V" => (Memref.whole Cert.Kernel.cc0_scratch3 : Memref Cert.Kernel.sig Kind.scVector Space.vmem Cert.Kernel.S128x128 EltTy.f32)
local notation "b2V" => (Memref.whole Cert.Kernel.cc0_scratch4 : Memref Cert.Kernel.sig Kind.scVector Space.vmem Cert.Kernel.S128x128 EltTy.f32)
local notation "b3V" => (Memref.whole Cert.Kernel.cc0_scratch5 : Memref Cert.Kernel.sig Kind.scVector Space.vmem Cert.Kernel.S128x128 EltTy.f32)
local notation "b4V" => (Memref.whole Cert.Kernel.cc0_scratch6 : Memref Cert.Kernel.sig Kind.scVector Space.vmem Cert.Kernel.S128x128 EltTy.f32)

variable (m : (ℓ : Loc nD τ sig) → Buf (Elt F) ℓ)
variable [FloatOps F]

section Tile

variable (d : Dev nD) (L : grid0.Coords)

omit [FloatOps F] in
/-- The rows of the index scratch from row 3 on, out of all of them less rows 0, 1, 2. -/
theorem xRows3' : ((xV).view.loc (VT d L) ↦{fullShare} XI m d L : sProp 𝕄)
    = iprop(xRowPts m d L 0 ∗ xRowPts m d L 1 ∗ xRowPts m d L 2 ∗ bigSep (Finset.univ.filter fun i : Fin 200 => 3 ≤ i.val) (xRowPts m d L)) := by
  rw [xPts_rows, ← bigSep_from_zero, bigSep_from_take (xRowPts m d L) 0 (by decide), bigSep_from_take (xRowPts m d L) (0 + 1) (by decide),
    bigSep_from_take (xRowPts m d L) (0 + 1 + 1) (by decide)]
  rfl

/-- Before the first trip: the three first gathers are out, slots 3 and 4 idle, nothing stored yet. -/
theorem head0_intro (O : CellTallies nD τ sig (HIx 1)) (W W' : Waits sig (HIx 1)) (hW' : ∀ p ∈ W', p ∈ W ∨ p.2 = none ∨ p.2 = some (0 : Fin 1)) :
    iprop(Transfers.MayWaits (VT d L) (default : HIx 1) O
      ∗ ((iSlabK L).view.loc (VT d L) ↦[(iSlabK L).view.set]{fullShare} I3 m d)
      ∗ ((shV).view.loc (VT d L) ↦{shareDrop (qT L) 5} tabS m d (cV L))
      ∗ bigSep (Finset.univ.filter fun i : Fin 200 => 3 ≤ i.val) (xRowPts m d L)
      ∗ oSlabPts d (wL L) (m (oLoc d))
      ∗ semVal (VT d L, SemLoc.dma (csem 10)) 0 ∗ semVal (VT d L, SemLoc.dma (csem 11)) 0
      ∗ (bigSep ((ownRefs (τ := τ) (.scVector (cV L) (jV L))) \ Finset.univ.image (vdev (cV L) (jV L))) fun b => iprop(∃ f, ((d, b) : Loc nD τ sig) ↦{fullShare} f))
      ∗ (bigSep ((ownCells (VT d L)) \ Finset.univ.image (dcell d (cV L) (jV L))) fun g => semVal g 0)
      ∗ tile0Pts m d L
      ∗ owes (VT d L) O W'
      ∗ (gFl0 m d L (ch 0 0 (by decide) (by decide)) ∗ tokRest m d L 0) ∗ (gFl1 m d L (ch 0 1 (by decide) (by decide)) ∗ tokRest m d L 1)
      ∗ (gFl2 m d L (ch 0 2 (by decide) (by decide)) ∗ tokRest m d L 2)
      ∗ tokPts m d L 3 ∗ tokPts m d L 4
      ∗ semVal (VT d L, SemLoc.dma (csem 3)) 0 ∗ semVal (VT d L, SemLoc.dma (csem 4)) 0
      ∗ semVal (VT d L, SemLoc.dma (csem 5)) 0 ∗ semVal (VT d L, SemLoc.dma (csem 6)) 0 ∗ semVal (VT d L, SemLoc.dma (csem 7)) 0
      ∗ semVal (VT d L, SemLoc.dma (csem 8)) 0 ∗ semVal (VT d L, SemLoc.dma (csem 9)) 0
      ∗ (∃ f, (b3V).view.loc (VT d L) ↦{fullShare} f) ∗ (∃ f, (b4V).view.loc (VT d L) ↦{fullShare} f))
    ⊢ Inv m d L O W 0 () := by
  unfold Inv
  rw [dif_pos (show 0 < 40 by decide)]
  unfold Head
  rw [dif_pos rfl, show Common m d L O W (5 * 0 + 3) (5 * 0) (5 * 0 - 2) (5 * 0) = Common m d L O W 3 0 0 0 from rfl]
  unfold Common
  rw [bigSep_below_zero, bigSep_below_zero, bigSep_from_zero]
  iintro ⟨Hmw, Hi, HTr, Hrows, Ho, Hc10, Hc11, Hbufs, Hsems, Ht0, HO, Hg0, Hg1, Hg2, HT3, HT4, Hc3, Hc4, Hc5, Hc6, Hc7, Hc8, Hc9, H3, H4⟩
  isplitl [Hmw Hi HTr Hrows Ho Hc10 Hc11 Hbufs Hsems Ht0 HO]
  · isplitl [Hmw]; · iexact Hmw
    isplitl [Hi]; · iexact Hi
    isplitl [HTr]; · iexact HTr
    isplitl [Hrows]; · iexact Hrows
    isplitr; · iempintro
    isplitr; · iempintro
    isplitl [Ho]; · iexact Ho
    isplitl [Hc10]; · iexact Hc10
    isplitl [Hc11]; · iexact Hc11
    isplitl [Hbufs]; · iexact Hbufs
    isplitl [Hsems]; · iexact Hsems
    isplitl [Ht0]; · iexact Ht0
    iexists W'; isplitr
    · ipureintro; exact hW'
    · iexact HO
  isplitl [Hg0]; · iexact Hg0
  isplitl [Hg1]; · iexact Hg1
  isplitl [Hg2]; · iexact Hg2
  isplitl [HT3]; · iexact HT3
  isplitl [HT4]; · iexact HT4
  isplitl [Hc3]; · iexact Hc3
  isplitl [Hc4]; · iexact Hc4
  isplitl [Hc5]; · iexact Hc5
  isplitl [Hc6]; · iexact Hc6
  isplitl [Hc7]; · iexact Hc7
  isplitl [H3]; · iexact H3
  isplitl [H4]; · iexact H4
  isplitl [Hc8]; · iexact Hc8
  iexact Hc9

omit [FloatOps F] in
theorem tile0Pts_other (hj : ¬ (jL L).val = 0) : tile0Pts m d L = (iprop(emp) : sProp 𝕄) := if_neg hj
omit [FloatOps F] in
theorem tile0Pts_zero (hj : (jL L).val = 0) : tile0Pts m d L = (iprop(tabPts m d (cL L) ∗ shRestPts m d (Fin.cast nSC_eq.symm (cL L))) : sProp 𝕄) := if_pos hj
omit [FloatOps F] in
theorem trips_eq : Scf.trips k0_t1_loop.lb k0_t1_loop.ub k0_t1_loop.st = 40 := by decide +kernel

/-- After the last trip the invariant is its exit form. -/
theorem exit_elim (O : CellTallies nD τ sig (HIx 1)) (W : Waits sig (HIx 1)) (acc : Unit) :
    Inv m d L O W (Scf.trips k0_t1_loop.lb k0_t1_loop.ub k0_t1_loop.st) acc ⊢ Exit m d L O W := by
  rw [trips_eq]
  unfold Inv
  rw [dif_neg (show ¬ 40 < 40 by decide)]

omit [FloatOps F] in
/-- The pieces below 200 are the last five and those below 195. -/
theorem below_200 (Φ : Fin 200 → sProp 𝕄) :
    bigSep (Finset.univ.filter fun i : Fin 200 => i.val < 200) Φ
      = iprop(Φ ⟨199, by decide⟩ ∗ Φ ⟨198, by decide⟩ ∗ Φ ⟨197, by decide⟩ ∗ Φ ⟨196, by decide⟩ ∗ Φ ⟨195, by decide⟩
          ∗ bigSep (Finset.univ.filter fun i : Fin 200 => i.val < 195) Φ) := by
  have h199 : bigSep (Finset.univ.filter fun i : Fin 200 => i.val < 200) Φ
      = iprop(Φ ⟨199, by decide⟩ ∗ bigSep (Finset.univ.filter fun i : Fin 200 => i.val < 199) Φ) := bigSep_below_put Φ 199 (by decide)
  have h198 : bigSep (Finset.univ.filter fun i : Fin 200 => i.val < 199) Φ
      = iprop(Φ ⟨198, by decide⟩ ∗ bigSep (Finset.univ.filter fun i : Fin 200 => i.val < 198) Φ) := bigSep_below_put Φ 198 (by decide)
  have h197 : bigSep (Finset.univ.filter fun i : Fin 200 => i.val < 198) Φ
      = iprop(Φ ⟨197, by decide⟩ ∗ bigSep (Finset.univ.filter fun i : Fin 200 => i.val < 197) Φ) := bigSep_below_put Φ 197 (by decide)
  have h196 : bigSep (Finset.univ.filter fun i : Fin 200 => i.val < 197) Φ
      = iprop(Φ ⟨196, by decide⟩ ∗ bigSep (Finset.univ.filter fun i : Fin 200 => i.val < 196) Φ) := bigSep_below_put Φ 196 (by decide)
  have h195 : bigSep (Finset.univ.filter fun i : Fin 200 => i.val < 196) Φ
      = iprop(Φ ⟨195, by decide⟩ ∗ bigSep (Finset.univ.filter fun i : Fin 200 => i.val < 195) Φ) := bigSep_below_put Φ 195 (by decide)
  rw [h199, h198, h197, h196, h195]

/-- After the five last waits everything is in the finished form. -/
theorem done_intro (O : CellTallies nD τ sig (HIx 1)) (W : Waits sig (HIx 1)) (g0 g1 g2 g3 g4 : S128x128.Idx → Elt F .f32) :
    iprop(Transfers.MayWaits (VT d L) (default : HIx 1) O
      ∗ ((iSlabK L).view.loc (VT d L) ↦[(iSlabK L).view.set]{fullShare} I3 m d)
      ∗ ((shV).view.loc (VT d L) ↦{shareDrop (qT L) 5} tabS m d (cV L))
      ∗ bigSep (Finset.univ.filter fun i : Fin 200 => i.val < 200) (xRowPts m d L)
      ∗ bigSep (Finset.univ.filter fun i : Fin 200 => i.val < 195) (oChPts d L (Ok m d))
      ∗ oChPts d L (Ok m d) ⟨195, by decide⟩ ∗ oChPts d L (Ok m d) ⟨196, by decide⟩ ∗ oChPts d L (Ok m d) ⟨197, by decide⟩
      ∗ oChPts d L (Ok m d) ⟨198, by decide⟩ ∗ oChPts d L (Ok m d) ⟨199, by decide⟩
      ∗ semVal (VT d L, SemLoc.dma (csem 10)) 0 ∗ semVal (VT d L, SemLoc.dma (csem 11)) 0
      ∗ (bigSep ((ownRefs (τ := τ) (.scVector (cV L) (jV L))) \ Finset.univ.image (vdev (cV L) (jV L))) fun b => iprop(∃ f, ((d, b) : Loc nD τ sig) ↦{fullShare} f))
      ∗ (bigSep ((ownCells (VT d L)) \ Finset.univ.image (dcell d (cV L) (jV L))) fun g => semVal g 0)
      ∗ tile0Pts m d L
      ∗ (∃ W', ⌜∀ p ∈ W', p ∈ W ∨ p.2 = none ∨ p.2 = some (0 : Fin 1)⌝ ∗ owes (VT d L) O W')
      ∗ ((b0V).view.loc (VT d L) ↦[(b0V).view.set]{fullShare} (g0 : Buf (Elt F) ((b0V).view.loc (VT d L))))
      ∗ ((b1V).view.loc (VT d L) ↦[(b1V).view.set]{fullShare} (g1 : Buf (Elt F) ((b1V).view.loc (VT d L))))
      ∗ ((b2V).view.loc (VT d L) ↦[(b2V).view.set]{fullShare} (g2 : Buf (Elt F) ((b2V).view.loc (VT d L))))
      ∗ ((b3V).view.loc (VT d L) ↦[(b3V).view.set]{fullShare} (g3 : Buf (Elt F) ((b3V).view.loc (VT d L))))
      ∗ ((b4V).view.loc (VT d L) ↦[(b4V).view.set]{fullShare} (g4 : Buf (Elt F) ((b4V).view.loc (VT d L))))
      ∗ tokPts m d L 0 ∗ tokPts m d L 1 ∗ tokPts m d L 2 ∗ tokPts m d L 3 ∗ tokPts m d L 4
      ∗ semVal (VT d L, SemLoc.dma (csem 0)) 0 ∗ semVal (VT d L, SemLoc.dma (csem 1)) 0 ∗ semVal (VT d L, SemLoc.dma (csem 2)) 0
      ∗ semVal (VT d L, SemLoc.dma (csem 3)) 0 ∗ semVal (VT d L, SemLoc.dma (csem 4)) 0 ∗ semVal (VT d L, SemLoc.dma (csem 5)) 0
      ∗ semVal (VT d L, SemLoc.dma (csem 6)) 0 ∗ semVal (VT d L, SemLoc.dma (csem 7)) 0 ∗ semVal (VT d L, SemLoc.dma (csem 8)) 0
      ∗ semVal (VT d L, SemLoc.dma (csem 9)) 0)
    ⊢ Done m d L O W := by
  unfold Done Common
  rw [bigSep_from_end, bigSep_from_end, below_200 (oChPts d L (Ok m d))]
  rw [show ((b0V).view.set : Finset _) = Finset.univ from View.set_whole _, show ((b1V).view.set : Finset _) = Finset.univ from View.set_whole _,
    show ((b2V).view.set : Finset _) = Finset.univ from View.set_whole _, show ((b3V).view.set : Finset _) = Finset.univ from View.set_whole _,
    show ((b4V).view.set : Finset _) = Finset.univ from View.set_whole _]
  iintro ⟨Hmw, Hi, HTr, Hx, Hdone, Ho5, Ho6, Ho7, Ho8, Ho9, Hc10, Hc11, Hbufs, Hsems, Ht0, HO, H0, H1, H2, H3, H4, HT0, HT1, HT2, HT3, HT4,
    Hc0, Hc1, Hc2, Hc3, Hc4, Hc5, Hc6, Hc7, Hc8, Hc9⟩
  isplitl [Hmw Hi HTr Hx Hdone Ho5 Ho6 Ho7 Ho8 Ho9 Hc10 Hc11 Hbufs Hsems Ht0 HO]
  · isplitl [Hmw]; · iexact Hmw
    isplitl [Hi]; · iexact Hi
    isplitl [HTr]; · iexact HTr
    isplitr; · iempintro
    isplitl [Hx]; · iexact Hx
    isplitl [Hdone Ho5 Ho6 Ho7 Ho8 Ho9]
    · isplitl [Ho9]; · iexact Ho9
      isplitl [Ho8]; · iexact Ho8
      isplitl [Ho7]; · iexact Ho7
      isplitl [Ho6]; · iexact Ho6
      isplitl [Ho5]; · iexact Ho5
      iexact Hdone
    isplitr; · iempintro
    isplitl [Hc10]; · iexact Hc10
    isplitl [Hc11]; · iexact Hc11
    isplitl [Hbufs]; · iexact Hbufs
    isplitl [Hsems]; · iexact Hsems
    isplitl [Ht0]; · iexact Ht0
    iexact HO
  isplitl [H0]; · iexists _; iexact H0
  isplitl [H1]; · iexists _; iexact H1
  isplitl [H2]; · iexists _; iexact H2
  isplitl [H3]; · iexists _; iexact H3
  isplitl [H4]; · iexists _; iexact H4
  isplitl [HT0]; · iexact HT0
  isplitl [HT1]; · iexact HT1
  isplitl [HT2]; · iexact HT2
  isplitl [HT3]; · iexact HT3
  isplitl [HT4]; · iexact HT4
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  iexact Hc9

omit [FloatOps F] in
theorem pts_tV (q : PosShare TreeShare) (f : Buf (Elt F) (tLoc d)) :
    ((tV).view.loc (VT d L) ↦{q} f : sProp 𝕄) = tLoc d ↦{q} f := rfl
omit [FloatOps F] in
theorem pts_shV (q : PosShare TreeShare) (f : Buf (Elt F) (shLoc d (Fin.cast nSC_eq.symm (cL L)))) :
    ((shV).view.loc (VT d L) ↦{q} f : sProp 𝕄) = shLoc d (Fin.cast nSC_eq.symm (cL L)) ↦{q} f := rfl

/-- Tile 0 pays: the shared copy whole, at the table's contents, is every tile's read token — one into each tile's round —
    and the remainder. -/
theorem pays_zero_at (hj : (jL L).val = 0) :
    (shLoc d (cV L) ↦{fullShare} tabS m d (cV L) : sProp 𝕄)
      ⊢ iprop((bigSep Finset.univ fun j : Fin (grid0.bound 1) => (bRd (F := F) m).payload (bcell d (cV L) (j.castLE hsub0)) 0 (jV L).val)
          ∗ shRestPts m d (cV L)) := by
  rw [show (jV L).val = 0 from hj]
  exact pays_intro_zero m d (cV L)

set_option maxHeartbeats 4000000 in
theorem tile_body_other (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) (hj : ¬ (jL L).val = 0) :
    iprop(levAts (K (F := F)).L (K (F := F)).lev ∗ bkit m d (cV L) (jV L) ∗ goRes m d (cL L) (jL L)
        ∗ scopedBufs (VT d L) ∗ scopedSems0 (VT d L) ∗ owes (VT d L) (O + oxV d (cV L)) W)
      ⊢ wp frame (wpE (defs₀ (F := F)) 𝒱₀ (VT d L) none) Set.univ
          (cc0__embed_body L tV (Memref.isWhole_whole _) iV (Memref.isWhole_whole _) oV (Memref.isWhole_whole _)
            shV (Memref.isWhole_whole _) xV (Memref.isWhole_whole _) b0V (Memref.isWhole_whole _) b1V (Memref.isWhole_whole _)
            b2V (Memref.isWhole_whole _) b3V (Memref.isWhole_whole _) b4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1)
          fun _ => iprop(tdRes m d (cL L) (jL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold bkit goRes
  rw [if_neg hj]
  iintro ⟨#Hlv, ⟨⟨%κ, #Hinv⟩, Htoks, #Hrch, Hat, Hcred⟩, ⟨Hi, Ho, -⟩, ⟨⟨⟨%fx, Hx⟩, ⟨%f0, H0⟩, ⟨%f1, H1⟩, ⟨%f2, H2⟩, ⟨%f3, H3⟩, ⟨%f4, H4⟩⟩, Hbufs⟩, ⟨⟨Hc0, Hc1, Hc2, Hc3, Hc4, Hc5, Hc6, Hc7, Hc8, Hc9, Hc10, Hc11⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (VT d L) (default : HIx 1) (O + oxV d (cV L)) from
    (K (F := F)).mayWaits_none (thr := VT d L) hO') $$ Hlv
  ihave Hmw2 := (show levAts (K (F := F)).L (K (F := F)).lev ⊢ Transfers.MayWaits (VT d L) (default : HIx 1) O from
    (K (F := F)).mayWaits_none (thr := VT d L) hO) $$ Hlv
  ihave Hi' := (Entails.of_eq (pts_iSlabK (F := F) d L _).symm) $$ Hi
  ihave Hx' := (Entails.of_eq (pts_xV (F := F) d L _).symm) $$ Hx
  ihave H0' := (Entails.of_eq (pts_b0V (F := F) d L _).symm) $$ H0
  ihave H1' := (Entails.of_eq (pts_b1V (F := F) d L _).symm) $$ H1
  ihave H2' := (Entails.of_eq (pts_b2V (F := F) d L _).symm) $$ H2
  ihave H3' := (Entails.of_eq (pts_b3V (F := F) d L _).symm) $$ H3
  ihave H4' := (Entails.of_eq (pts_b4V (F := F) d L _).symm) $$ H4
  sl_unfold [cc0__embed_body]
  sl_exec
  have hv5 : ∀ L : grid0.Coords, ¬ (jL L).val = 0 → ¬ tile_body_other.sl.v5 L = 1#1 := by unfold tile_body_other.sl.v5; decide +kernel
  have k0_h1 := hv5 L hj
  sl_exec
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat]
  · isplitr; · iexact Hinv
    isplitl [HO]; · iexact HO
    isplitl [Htoks]
    · rw [bigSep_sep', bigSep_sep']
      isplitl [Htoks]; · iexact Htoks
      isplitr; · iapply (pays_intro_other (F := F) m d (cV L) (jV L).val hj); iempintro
      iexact Hrch
    isplitl [Hcred]; · iexact Hcred
    isplitl [Hat]; · iexact Hat
    iapply ((K (F := F)).mayOwe_of_bound (thr := VT d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  have hpe : (bigSep ((bRd (F := F) m).duties (bcell d (cV L) (jV L)) 0 \ ∅) fun n => (bRd (F := F) m).payload (bcell d (cV L) (jV L)) 0 n)
      ⊢ (shTokPts m d (cV L) (jL L) : sProp 𝕄) := pays_elim (F := F) m d (cV L) (jV L)
  ihave Htok := hpe $$ Hgot
  ihave Htok' := (shToks (F := F) m d L).1 $$ Htok
  icases Htok' with ⟨HTr, HT0, HT1, HT2, HT3, HT4⟩
  -- the index scratch at what the copy landed, row by row
  have eX : View.write (Elt F) (xV).view fx (tile_body_other.sl.dma0 m d L) Finset.univ = XI m d L := by
    rw [View.write_whole_univ]; rfl
  ihave Hxr := (Entails.of_eq ((congrArg (fun f => ((xV).view.loc (VT d L) ↦{fullShare} f : sProp 𝕄)) eX).trans (xRows3' (F := F) m d L))) $$ Hx'
  icases Hxr with ⟨Hr0, Hr1, Hr2, Hrows⟩
  ihave Hr0' := (Entails.of_eq (pts_xRowAt (F := F) d L ![0, 0] inb_S200x128_S1x128_0_0 0 rfl rfl _).symm) $$ Hr0
  ihave Hr1' := (Entails.of_eq (pts_xRowAt (F := F) d L ![1, 0] inb_S200x128_S1x128_1_0 1 rfl rfl _).symm) $$ Hr1
  ihave Hr2' := (Entails.of_eq (pts_xRowAt (F := F) d L ![2, 0] inb_S200x128_S1x128_2_0 2 rfl rfl _).symm) $$ Hr2
  have hin0 := inb_XI m d L hpre ![0, 0] inb_S200x128_S1x128_0_0
  have hin1 := inb_XI m d L hpre ![1, 0] inb_S200x128_S1x128_1_0
  have hin2 := inb_XI m d L hpre ![2, 0] inb_S200x128_S1x128_2_0
  sl_exec
  -- the three gathers out, as the invariant spells them
  have h40 : (0 : ℕ) < 40 := by decide
  have h50 : (0 : ℕ) < 5 := by decide
  have h51 : (1 : ℕ) < 5 := by decide
  have h52 : (2 : ℕ) < 5 := by decide
  have hp0 : tile_body_other.sl.gather0 m d L hin0 = GC m d L (ch 0 0 h40 h50) := gather_GC m d L _ _ _ rfl rfl _ _
  have hp1 : tile_body_other.sl.gather1 m d L hin1 = GC m d L (ch 0 1 h40 h51) := gather_GC m d L _ _ _ rfl rfl _ _
  have hp2 : tile_body_other.sl.gather2 m d L hin2 = GC m d L (ch 0 2 h40 h52) := gather_GC m d L _ _ _ rfl rfl _ _
  ihave Hg0 := (gfl0_of_exec m d L (ch 0 0 h40 h50) ![0, 0] inb_S200x128_S1x128_0_0 rfl rfl _ _ hp0) $$ Hc0
  ihave Hg1 := (gfl1_of_exec m d L (ch 0 1 h40 h51) ![1, 0] inb_S200x128_S1x128_1_0 rfl rfl _ _ hp1) $$ Hc1
  ihave Hg2 := (gfl2_of_exec m d L (ch 0 2 h40 h52) ![2, 0] inb_S200x128_S1x128_2_0 rfl rfl _ _ hp2) $$ Hc2
  ihave HI0 := (head0_intro m d L O W (insert (SemLoc.reg sc_bar0, some 0) (insert (SemLoc.dma (csem 11), (default : HIx 1)) W)) (by
      intro p hp
      rcases Finset.mem_insert.mp hp with hp | hp; · exact .inr (.inr (hp ▸ rfl))
      rcases Finset.mem_insert.mp hp with hp | hp; · exact .inr (.inl (hp ▸ rfl))
      exact .inl hp)) $$ [Hmw2 Hi' HTr Hrows Ho Hc10 Hc11 Hbufs Hsems HO Hg0 HT0 Hg1 HT1 Hg2 HT2 HT3 HT4 Hc3 Hc4 Hc5 Hc6 Hc7 Hc8 Hc9 H3' H4']
  · isplitr; · iexact Hmw2
    isplitl [Hi']; · iexact Hi'
    isplitl [HTr]; · iexact HTr
    isplitl [Hrows]; · iexact Hrows
    isplitl [Ho]; · iexact Ho
    isplitl [Hc10]; · iexact Hc10
    isplitl [Hc11]; · iexact Hc11
    isplitl [Hbufs]; · iexact Hbufs
    isplitl [Hsems]; · iexact Hsems
    isplitr; · rw [tile0Pts_other m d L hj]; iempintro
    isplitl [HO]; · iexact HO
    isplitl [Hg0 HT0]; · isplitl [Hg0]; · iexact Hg0
                         iexact HT0
    isplitl [Hg1 HT1]; · isplitl [Hg1]; · iexact Hg1
                         iexact HT1
    isplitl [Hg2 HT2]; · isplitl [Hg2]; · iexact Hg2
                         iexact HT2
    isplitl [HT3]; · iexact HT3
    isplitl [HT4]; · iexact HT4
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [H3']; · iexists _; iexact H3'
    iexists _; iexact H4'
  sl_for (Inv m d L O W) $$ [HI0]
  case region =>
    intro k acc
    exact trip m d L hpre O W k
  · iexact HI0
  iintro %acc HI
  ihave HE := (exit_elim m d L O W acc) $$ HI
  unfold Exit Common sFl0 sFl1 sFl2 sFl3 sFl4
  icases HE with ⟨⟨#Hmw, Hi, HTr, -, Hx, Hdone, -, Hc10, Hc11, Hbufs, Hsems, Ht0, %W', %hW', HO⟩, Hs0, Hs1, Hs2, Hs3, Hs4, HT0, HT1, HT2, HT3, HT4, Hc0, Hc1, Hc2, Hc3, Hc4⟩
  sl_exec
  sl_step
  have hreg := regroup m d L hF O W
  rw [(K (F := F)).scopedBufs_V hF d (cV L) (jV L), SparseCore.Cfg.scopedSems0_V (Val := Elt F) d (cV L) (jV L), ownSems0_V, ownBufs_V] at hreg
  iapply hreg
  iapply (done_intro m d L O W _ _ _ _ _)
  isplitr; · iexact Hmw
  isplitl [Hi]; · iexact Hi
  isplitl [HTr]; · iexact HTr
  isplitl [Hx]; · iexact Hx
  isplitl [Hdone]; · iexact Hdone
  isplitl [Hs0_dst]; · iexact Hs0_dst
  isplitl [Hs1_dst]; · iexact Hs1_dst
  isplitl [Hs2_dst]; · iexact Hs2_dst
  isplitl [Hs3_dst]; · iexact Hs3_dst
  isplitl [Hs4_dst]; · iexact Hs4_dst
  isplitl [Hc10]; · iexact Hc10
  isplitl [Hc11]; · iexact Hc11
  isplitl [Hbufs]; · iexact Hbufs
  isplitl [Hsems]; · iexact Hsems
  isplitl [Ht0]; · iexact Ht0
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitl [Hs0_src]; · iexact Hs0_src
  isplitl [Hs1_src]; · iexact Hs1_src
  isplitl [Hs2_src]; · iexact Hs2_src
  isplitl [Hs3_src]; · iexact Hs3_src
  isplitl [Hs4_src]; · iexact Hs4_src
  isplitl [HT0]; · iexact HT0
  isplitl [HT1]; · iexact HT1
  isplitl [HT2]; · iexact HT2
  isplitl [HT3]; · iexact HT3
  isplitl [HT4]; · iexact HT4
  isplitl [Hc0]; · iexact Hc0
  isplitl [Hc1]; · iexact Hc1
  isplitl [Hc2]; · iexact Hc2
  isplitl [Hc3]; · iexact Hc3
  isplitl [Hc4]; · iexact Hc4
  isplitl [Hs0]; · iexact Hs0
  isplitl [Hs1]; · iexact Hs1
  isplitl [Hs2]; · iexact Hs2
  isplitl [Hs3]; · iexact Hs3
  iexact Hs4

set_option maxHeartbeats 4000000 in
theorem tile_body_zero (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) (hj : (jL L).val = 0) :
    iprop(levAts (K (F := F)).L (K (F := F)).lev ∗ bkit m d (cV L) (jV L) ∗ goRes m d (cL L) (jL L)
        ∗ scopedBufs (VT d L) ∗ scopedSems0 (VT d L) ∗ owes (VT d L) (O + oxV d (cV L)) W)
      ⊢ wp frame (wpE (defs₀ (F := F)) 𝒱₀ (VT d L) none) Set.univ
          (cc0__embed_body L tV (Memref.isWhole_whole _) iV (Memref.isWhole_whole _) oV (Memref.isWhole_whole _)
            shV (Memref.isWhole_whole _) xV (Memref.isWhole_whole _) b0V (Memref.isWhole_whole _) b1V (Memref.isWhole_whole _)
            b2V (Memref.isWhole_whole _) b3V (Memref.isWhole_whole _) b4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1)
          fun _ => iprop(tdRes m d (cL L) (jL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold bkit goRes
  rw [if_pos hj]
  iintro ⟨#Hlv, ⟨⟨%κ, #Hinv⟩, Htoks, #Hrch, Hat, Hcred⟩, ⟨Hi, Ho, Htab, %fsh, Hsh⟩, ⟨⟨⟨%fx, Hx⟩, ⟨%f0, H0⟩, ⟨%f1, H1⟩, ⟨%f2, H2⟩, ⟨%f3, H3⟩, ⟨%f4, H4⟩⟩, Hbufs⟩, ⟨⟨Hc0, Hc1, Hc2, Hc3, Hc4, Hc5, Hc6, Hc7, Hc8, Hc9, Hc10, Hc11⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (VT d L) (default : HIx 1) (O + oxV d (cV L)) from
    (K (F := F)).mayWaits_none (thr := VT d L) hO') $$ Hlv
  ihave Hmw2 := (show levAts (K (F := F)).L (K (F := F)).lev ⊢ Transfers.MayWaits (VT d L) (default : HIx 1) O from
    (K (F := F)).mayWaits_none (thr := VT d L) hO) $$ Hlv
  ihave Hi' := (Entails.of_eq (pts_iSlabK (F := F) d L _).symm) $$ Hi
  ihave Hx' := (Entails.of_eq (pts_xV (F := F) d L _).symm) $$ Hx
  ihave H0' := (Entails.of_eq (pts_b0V (F := F) d L _).symm) $$ H0
  ihave H1' := (Entails.of_eq (pts_b1V (F := F) d L _).symm) $$ H1
  ihave H2' := (Entails.of_eq (pts_b2V (F := F) d L _).symm) $$ H2
  ihave H3' := (Entails.of_eq (pts_b3V (F := F) d L _).symm) $$ H3
  ihave H4' := (Entails.of_eq (pts_b4V (F := F) d L _).symm) $$ H4
  ihave Htab' := (Entails.of_eq (pts_tV (F := F) d L _ _).symm) $$ Htab
  ihave Hsh' := (Entails.of_eq (pts_shV (F := F) d L _ _).symm) $$ Hsh
  sl_unfold [cc0__embed_body]
  sl_exec
  have hv5a : ∀ L : grid0.Coords, (jL L).val = 0 → tile_body_zero.sl.v5 L = 1#1 := by unfold tile_body_zero.sl.v5; decide +kernel
  have hv5 := hv5a L hj
  have hW0 : ∀ p ∈ tile_body_zero.sl.W0 L W, p ∈ W ∨ p.2 = none ∨ p.2 = some (0 : Fin 1) := by
    intro p hp
    unfold tile_body_zero.sl.W0 at hp
    rw [dif_pos hv5] at hp
    rcases Finset.mem_insert.mp hp with hp | hp
    · exact .inr (.inl (hp ▸ rfl))
    · exact .inl hp
  have hWb : ∀ p ∈ insert (SemLoc.reg sc_bar0, some (0 : Fin 1)) (insert (SemLoc.dma (csem 11), (default : HIx 1)) (tile_body_zero.sl.W0 L W)),
      p ∈ W ∨ p.2 = none ∨ p.2 = some (0 : Fin 1) := by
    intro p hp
    rcases Finset.mem_insert.mp hp with hp | hp; · exact .inr (.inr (hp ▸ rfl))
    rcases Finset.mem_insert.mp hp with hp | hp; · exact .inr (.inl (hp ▸ rfl))
    exact hW0 p hp
  -- the shared copy now holds the table: tile 0 cuts it into the sixteen read tokens and keeps the remainder
  have eS : ((shV).view.loc (VT d L) ↦{fullShare} (if hc : tile_body_zero.sl.v5 L = 1#1 then
        View.write (Elt F) (shV).view fsh (tile_body_zero.sl.dma0 m d) Finset.univ else fsh) : sProp 𝕄)
      = (shLoc d (cV L) ↦{fullShare} tabS m d (cV L)) := by
    rw [dif_pos hv5, View.write_whole_univ]; rfl
  ihave Hsh2 := (Entails.of_eq eS) $$ Hsh'
  ihave Hpay := (pays_zero_at m d L hj) $$ Hsh2
  icases Hpay with ⟨Hpays, Hrest0⟩
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hcred Hat Hpays]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := VT d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  have hpe : (bigSep ((bRd (F := F) m).duties (bcell d (cV L) (jV L)) 0 \ ∅) fun n => (bRd (F := F) m).payload (bcell d (cV L) (jV L)) 0 n)
      ⊢ (shTokPts m d (cV L) (jL L) : sProp 𝕄) := pays_elim (F := F) m d (cV L) (jV L)
  ihave Htok := hpe $$ Hgot
  ihave Htok' := (shToks (F := F) m d L).1 $$ Htok
  icases Htok' with ⟨HTr, HT0, HT1, HT2, HT3, HT4⟩
  -- the index scratch at what the copy landed, row by row
  have eX : View.write (Elt F) (xV).view fx (tile_body_zero.sl.dma0_1 m d L) Finset.univ = XI m d L := by
    rw [View.write_whole_univ]; rfl
  ihave Hxr := (Entails.of_eq ((congrArg (fun f => ((xV).view.loc (VT d L) ↦{fullShare} f : sProp 𝕄)) eX).trans (xRows3' (F := F) m d L))) $$ Hx'
  icases Hxr with ⟨Hr0, Hr1, Hr2, Hrows⟩
  ihave Hr0' := (Entails.of_eq (pts_xRowAt (F := F) d L ![0, 0] inb_S200x128_S1x128_0_0 0 rfl rfl _).symm) $$ Hr0
  ihave Hr1' := (Entails.of_eq (pts_xRowAt (F := F) d L ![1, 0] inb_S200x128_S1x128_1_0 1 rfl rfl _).symm) $$ Hr1
  ihave Hr2' := (Entails.of_eq (pts_xRowAt (F := F) d L ![2, 0] inb_S200x128_S1x128_2_0 2 rfl rfl _).symm) $$ Hr2
  have hin0 := inb_XI m d L hpre ![0, 0] inb_S200x128_S1x128_0_0
  have hin1 := inb_XI m d L hpre ![1, 0] inb_S200x128_S1x128_1_0
  have hin2 := inb_XI m d L hpre ![2, 0] inb_S200x128_S1x128_2_0
  sl_exec
  -- the three gathers out, as the invariant spells them
  have h40 : (0 : ℕ) < 40 := by decide
  have h50 : (0 : ℕ) < 5 := by decide
  have h51 : (1 : ℕ) < 5 := by decide
  have h52 : (2 : ℕ) < 5 := by decide
  have hp0 : tile_body_zero.sl.gather0 m d L hin0 = GC m d L (ch 0 0 h40 h50) := gather_GC m d L _ _ _ rfl rfl _ _
  have hp1 : tile_body_zero.sl.gather1 m d L hin1 = GC m d L (ch 0 1 h40 h51) := gather_GC m d L _ _ _ rfl rfl _ _
  have hp2 : tile_body_zero.sl.gather2 m d L hin2 = GC m d L (ch 0 2 h40 h52) := gather_GC m d L _ _ _ rfl rfl _ _
  ihave Hg0 := (gfl0_of_exec m d L (ch 0 0 h40 h50) ![0, 0] inb_S200x128_S1x128_0_0 rfl rfl _ _ hp0) $$ Hc0
  ihave Hg1 := (gfl1_of_exec m d L (ch 0 1 h40 h51) ![1, 0] inb_S200x128_S1x128_1_0 rfl rfl _ _ hp1) $$ Hc1
  ihave Hg2 := (gfl2_of_exec m d L (ch 0 2 h40 h52) ![2, 0] inb_S200x128_S1x128_2_0 rfl rfl _ _ hp2) $$ Hc2
  ihave HI0 := (head0_intro m d L O W (insert (SemLoc.reg sc_bar0, some 0) (insert (SemLoc.dma (csem 11), (default : HIx 1)) (tile_body_zero.sl.W0 L W))) hWb) $$ [Hmw2 Hi' HTr Hrows Ho Hc10 Hc11 Hbufs Hsems HO Hg0 HT0 Hg1 HT1 Hg2 HT2 HT3 HT4 Hc3 Hc4 Hc5 Hc6 Hc7 Hc8 Hc9 H3' H4' Htab' Hrest0]
  · isplitr; · iexact Hmw2
    isplitl [Hi']; · iexact Hi'
    isplitl [HTr]; · iexact HTr
    isplitl [Hrows]; · iexact Hrows
    isplitl [Ho]; · iexact Ho
    isplitl [Hc10]; · iexact Hc10
    isplitl [Hc11]; · iexact Hc11
    isplitl [Hbufs]; · iexact Hbufs
    isplitl [Hsems]; · iexact Hsems
    isplitl [Htab' Hrest0]
    · rw [tile0Pts_zero m d L hj]
      isplitl [Htab']; · iapply (Entails.of_eq (pts_tV (F := F) d L _ _)); iexact Htab'
      iexact Hrest0
    isplitl [HO]; · iexact HO
    isplitl [Hg0 HT0]; · isplitl [Hg0]; · iexact Hg0
                         iexact HT0
    isplitl [Hg1 HT1]; · isplitl [Hg1]; · iexact Hg1
                         iexact HT1
    isplitl [Hg2 HT2]; · isplitl [Hg2]; · iexact Hg2
                         iexact HT2
    isplitl [HT3]; · iexact HT3
    isplitl [HT4]; · iexact HT4
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [H3']; · iexists _; iexact H3'
    iexists _; iexact H4'
  sl_for (Inv m d L O W) $$ [HI0]
  case region =>
    intro k acc
    exact trip m d L hpre O W k
  · iexact HI0
  iintro %acc HI
  ihave HE := (exit_elim m d L O W acc) $$ HI
  unfold Exit Common sFl0 sFl1 sFl2 sFl3 sFl4
  icases HE with ⟨⟨#Hmw, Hi, HTr, -, Hx, Hdone, -, Hc10, Hc11, Hbufs, Hsems, Ht0, %W', %hW', HO⟩, Hs0, Hs1, Hs2, Hs3, Hs4, HT0, HT1, HT2, HT3, HT4, Hc0, Hc1, Hc2, Hc3, Hc4⟩
  sl_exec
  sl_step
  have hreg := regroup m d L hF O W
  rw [(K (F := F)).scopedBufs_V hF d (cV L) (jV L), SparseCore.Cfg.scopedSems0_V (Val := Elt F) d (cV L) (jV L), ownSems0_V, ownBufs_V] at hreg
  iapply hreg
  iapply (done_intro m d L O W _ _ _ _ _)
  isplitr; · iexact Hmw
  isplitl [Hi]; · iexact Hi
  isplitl [HTr]; · iexact HTr
  isplitl [Hx]; · iexact Hx
  isplitl [Hdone]; · iexact Hdone
  isplitl [Hs0_dst]; · iexact Hs0_dst
  isplitl [Hs1_dst]; · iexact Hs1_dst
  isplitl [Hs2_dst]; · iexact Hs2_dst
  isplitl [Hs3_dst]; · iexact Hs3_dst
  isplitl [Hs4_dst]; · iexact Hs4_dst
  isplitl [Hc10]; · iexact Hc10
  isplitl [Hc11]; · iexact Hc11
  isplitl [Hbufs]; · iexact Hbufs
  isplitl [Hsems]; · iexact Hsems
  isplitl [Ht0]; · iexact Ht0
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitl [Hs0_src]; · iexact Hs0_src
  isplitl [Hs1_src]; · iexact Hs1_src
  isplitl [Hs2_src]; · iexact Hs2_src
  isplitl [Hs3_src]; · iexact Hs3_src
  isplitl [Hs4_src]; · iexact Hs4_src
  isplitl [HT0]; · iexact HT0
  isplitl [HT1]; · iexact HT1
  isplitl [HT2]; · iexact HT2
  isplitl [HT3]; · iexact HT3
  isplitl [HT4]; · iexact HT4
  isplitl [Hc0]; · iexact Hc0
  isplitl [Hc1]; · iexact Hc1
  isplitl [Hc2]; · iexact Hc2
  isplitl [Hc3]; · iexact Hc3
  isplitl [Hc4]; · iexact Hc4
  isplitl [Hs0]; · iexact Hs0
  isplitl [Hs1]; · iexact Hs1
  isplitl [Hs2]; · iexact Hs2
  isplitl [Hs3]; · iexact Hs3
  iexact Hs4

/-- One tile's task, on whichever tile. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ goRes m d (cL L) (jL L)
        ∗ scopedBufs (VT d L) ∗ scopedSems0 (VT d L) ∗ owes (VT d L) (O + oxV d (cV L)) W)
      ⊢ wp frame (wpE (defs₀ (F := F)) 𝒱₀ (VT d L) none) Set.univ
          (cc0__embed_body L tV (Memref.isWhole_whole _) iV (Memref.isWhole_whole _) oV (Memref.isWhole_whole _)
            shV (Memref.isWhole_whole _) xV (Memref.isWhole_whole _) b0V (Memref.isWhole_whole _) b1V (Memref.isWhole_whole _)
            b2V (Memref.isWhole_whole _) b3V (Memref.isWhole_whole _) b4V (Memref.isWhole_whole _)
            cc0_scratch7 cc0_scratch8 cc0_scratch9 cc0_scratch10 cc0_scratch11 cc0_scratch12 cc0_scratch13 cc0_scratch14 cc0_scratch15 cc0_scratch16
            cc0_scoped0 cc0_scoped1)
          fun _ => iprop(tdRes m d (cL L) (jL L) ∗ scopedBufs (VT d L) ∗ scopedSems0 (VT d L)
            ∗ ∃ W', ⌜∀ p ∈ W', p ∈ W ∨ p.2 = none ∨ p.2 = some (0 : Fin 1)⌝ ∗ owes (VT d L) O W') := by
  rcases Classical.em ((jL L).val = 0) with hj | hj
  · exact tile_body_zero m d L hF hpre O W hO hOlev hj
  · exact tile_body_other m d L hF hpre O W hO hOlev hj

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__embed_body (coordsV c s)
          tV (Memref.isWhole_whole _) iV (Memref.isWhole_whole _) oV (Memref.isWhole_whole _)
          shV (Memref.isWhole_whole _) xV (Memref.isWhole_whole _) b0V (Memref.isWhole_whole _) b1V (Memref.isWhole_whole _)
          b2V (Memref.isWhole_whole _) b3V (Memref.isWhole_whole _) b4V (Memref.isWhole_whole _)
          cc0_scratch7 cc0_scratch8 cc0_scratch9 cc0_scratch10 cc0_scratch11 cc0_scratch12 cc0_scratch13 cc0_scratch14 cc0_scratch15 cc0_scratch16
          cc0_scoped0 cc0_scoped1) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from rfl,
    show (P m).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.EmbK
end
-- ==== Proof.KLaunch.lean ====
/-
  The launch of the lookup kernel: how one SparseCore's operands are dealt to its sixteen tiles and gathered
  back, the ghost state the barrier cells start from, @main on the TensorCore (a reshape of the indices, the
  call on both SparseCores, a reshape of the looked-up rows), and how the final memory reads the result.

  The index array [32, 200, 128] and the output [819200, 128] are cut along axis 0 into 32 equal slabs, one
  per worker; worker 2 s + c is tile s of SparseCore c, so SparseCore c's sixteen workers are the slabs of
  parity c. The table is read by tile 0 of each SparseCore only: each SparseCore gets half of its full share.
  The shared copy of the table goes whole to tile 0, which cuts it into sixteen read tokens and a remainder;
  the tokens and the remainder come back one per tile and join to the full share again.
-/
import proofs.«203315_g78847009620241_cont_9to1c4b_359_24_alg».proof.Proof.KCommon

noncomputable section

namespace Cert.Proof.EmbK

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.StableHlo (held held_split held_sdiff_result wp_hlo_within)
open Cert.Proof.EmbSpec (rowIx rows lookup i3of)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## One SparseCore's operands, dealt to its tiles and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- What only tile 0 carries is, over all sixteen tiles, that one thing. -/
theorem bigSep_at_zero (X : sProp 𝕄) : (bigSep Finset.univ fun s : Fin 16 => if s.val = 0 then X else iprop(emp)) = X := by
  show (bigSep Finset.univ fun s : Fin 16 => if s.val = 0 then X else (BI.emp : sProp 𝕄)) = X
  rw [← bigSep_filter Finset.univ (fun s : Fin 16 => s.val = 0) (fun _ => X),
    show (Finset.univ.filter fun s : Fin 16 => s.val = 0) = {0} by decide, bigSep_singleton]

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit_core (d : Dev nD) (c : Fin 2) :
    iprop(iprop(tabPts m d c ∗ bigSep Finset.univ fun s : Fin 16 => iprop(iSlabPts m d (wid c s) ∗ oSlabPts d (wid c s) (m (oLoc d))))
        ∗ ownBufs (S d (Fin.cast nSC_eq.symm c)))
      ⊢ |={Set.univ}=> iprop((bigSep Finset.univ fun s : Fin 16 => goRes m d c s)
        ∗ ((bigSep Finset.univ fun s : Fin 16 => tdRes m d c s)
          -∗ iprop(iprop(tabPts m d c ∗ bigSep Finset.univ fun s : Fin 16 => iprop(iSlabPts m d (wid c s) ∗ oSlabPts d (wid c s) (Ok m d)))
              ∗ ownBufs (S d (Fin.cast nSC_eq.symm c))))) := by
  unfold goRes tdRes
  rw [bigSep_sep', bigSep_sep', bigSep_sep', bigSep_sep', bigSep_sep', bigSep_sep', bigSep_sep', bigSep_at_zero, bigSep_at_zero, ownBufs_S]
  iintro ⟨⟨Ht, Hi, Ho⟩, Hsh, Hrest⟩; imodintro
  isplitl [Ht Hi Ho Hsh]
  · isplitl [Hi]; · iexact Hi
    isplitl [Ho]; · iexact Ho
    isplitl [Ht]; · iexact Ht
    iexact Hsh
  iintro ⟨Hi, Ho, Htok, Ht, Hr⟩
  isplitl [Ht Hi Ho]
  · isplitl [Ht]; · iexact Ht
    isplitl [Hi]; · iexact Hi
    iexact Ho
  isplitl [Htok Hr]
  · iexists (tabS m d (Fin.cast nSC_eq.symm c))
    iapply (Transfers.pointsTo_toks_join fullShare 16)
    isplitl [Hr]; · iexact Hr
    iexact Htok
  iexact Hrest

theorem vecSplit : (K (F := F)).VecSplit (P m) 0 := by
  intro d c
  show iprop(iprop(tabPts m d (Fin.cast nCore_zero c) ∗ bigSep Finset.univ fun s : Fin 16 => iprop(iSlabPts m d (wid (Fin.cast nCore_zero c) s) ∗ oSlabPts d (wid (Fin.cast nCore_zero c) s) (m (oLoc d))))
        ∗ ownBufs (S d (Fin.cast nSC_eq.symm (Fin.cast nCore_zero c))))
      ⊢ |={Set.univ}=> iprop((bigSep Finset.univ fun i : Fin ((K (F := F)).nSub 0) => goRes m d (Fin.cast nCore_zero c) (Fin.cast nSub_zero i))
        ∗ ((bigSep Finset.univ fun i : Fin ((K (F := F)).nSub 0) => tdRes m d (Fin.cast nCore_zero c) (Fin.cast nSub_zero i))
          -∗ iprop(iprop(tabPts m d (Fin.cast nCore_zero c) ∗ bigSep Finset.univ fun s : Fin 16 => iprop(iSlabPts m d (wid (Fin.cast nCore_zero c) s) ∗ oSlabPts d (wid (Fin.cast nCore_zero c) s) (Ok m d)))
              ∗ ownBufs (S d (Fin.cast nSC_eq.symm (Fin.cast nCore_zero c))))))
  rw [bigSep_tasks (F := F) (fun s => goRes m d (Fin.cast nCore_zero c) s), bigSep_tasks (F := F) (fun s => tdRes m d (Fin.cast nCore_zero c) s)]
  exact vecSplit_core m d (Fin.cast nCore_zero c)

/-! ## The launch element of the ghost state, and what the launch hands each tile -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## The arrays cut into the workers' pieces, and the pieces regrouped per SparseCore -/

omit [FloatOps F] in
theorem iSet_eq (w : Fin 32) : iSet w = (islab w).set := by
  show ((View.whole (main_v0_scv : Ref sig .scVector)).slice (islab w)).set = _
  rw [View.set_slice]; exact Finset.map_refl
omit [FloatOps F] in
theorem oCh_eq (k : Fin 6400) : oCh k = (ochunk k).set := by
  show ((View.whole (main_v1_scv : Ref sig .scVector)).slice (ochunk k)).set = _
  rw [View.set_slice]; exact Finset.map_refl

omit [FloatOps F] in
theorem islabs_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
omit [FloatOps F] in
theorem islabs_cover : (Finset.univ : Finset (Fin 32)).biUnion iSet = Finset.univ :=
  (Finset.biUnion_congr rfl fun i _ => iSet_eq i).trans (Rect.biUnion_part idiv)
omit [FloatOps F] in
theorem ochunks_disjoint : ∀ i ∈ (Finset.univ : Finset (Fin 6400)), ∀ j ∈ (Finset.univ : Finset (Fin 6400)), i ≠ j → Disjoint (oCh i) (oCh j) :=
  fun i _ j _ h => by rw [oCh_eq, oCh_eq]; exact Rect.part_disjoint odiv h
omit [FloatOps F] in
theorem ochunks_cover : (Finset.univ : Finset (Fin 6400)).biUnion oCh = Finset.univ :=
  (Finset.biUnion_congr rfl fun i _ => oCh_eq i).trans (Rect.biUnion_part odiv)

omit [FloatOps F] in
/-- The index array whole is its 32 slabs. -/
theorem iPts_slabs (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet islabs_disjoint, islabs_cover]; try rfl
omit [FloatOps F] in
/-- The output whole is its 6400 chunks. -/
theorem oPts_chunks (d : Dev nD) (f : Buf (Elt F) (oLoc d)) :
    (oLoc d ↦{fullShare} f : sProp 𝕄) = bigSep Finset.univ fun k : Fin 6400 => oLoc d ↦[oCh k]{fullShare} f := by
  rw [← pointsTo_biUnion Finset.univ (ℓ := oLoc d) oCh ochunks_disjoint, ochunks_cover]; try rfl

/-- Worker numbers are the pairs (SparseCore, tile): w = 2 s + c. -/
def widEquiv : Fin 2 × Fin 16 ≃ Fin 32 where
  toFun p := wid p.1 p.2
  invFun w := (⟨w.val % 2, Nat.mod_lt _ (by decide)⟩, ⟨w.val / 2, by have := w.isLt; omega⟩)
  left_inv := fun ⟨c, s⟩ => Prod.ext (Fin.ext (show (2 * s.val + c.val) % 2 = c.val by have := c.isLt; omega))
    (Fin.ext (show (2 * s.val + c.val) / 2 = s.val by have := c.isLt; omega))
  right_inv := fun w => Fin.ext (show 2 * (w.val / 2) + w.val % 2 = w.val by omega)

/-- Chunk numbers are the pairs (worker, chunk of the worker): k = 200 w + i. -/
def chunkEquiv : Fin 32 × Fin 200 ≃ Fin 6400 where
  toFun p := chunkNo p.1 p.2
  invFun k := (⟨k.val / 200, by have := k.isLt; omega⟩, ⟨k.val % 200, Nat.mod_lt _ (by decide)⟩)
  left_inv := fun ⟨w, i⟩ => Prod.ext (Fin.ext (show (200 * w.val + i.val) / 200 = w.val by have := i.isLt; omega))
    (Fin.ext (show (200 * w.val + i.val) % 200 = i.val by have := i.isLt; omega))
  right_inv := fun k => Fin.ext (show 200 * (k.val / 200) + k.val % 200 = k.val by omega)

omit [FloatOps F] in
/-- A family over the 32 workers, grouped per SparseCore and tile. -/
theorem bigSep_workers (Φ : Fin 32 → sProp 𝕄) :
    bigSep Finset.univ Φ = bigSep Finset.univ fun c : Fin 2 => bigSep Finset.univ fun s : Fin 16 => Φ (wid c s) := by
  rw [bigSep_univ_equiv widEquiv Φ, bigSep_univ_prod]; rfl

omit [FloatOps F] in
/-- The output whole is the 32 workers' runs of 200 chunks. -/
theorem oPts_slabs (d : Dev nD) (f : Buf (Elt F) (oLoc d)) :
    (oLoc d ↦{fullShare} f : sProp 𝕄) = bigSep Finset.univ fun w : Fin 32 => oSlabPts d w f := by
  rw [oPts_chunks, bigSep_univ_equiv chunkEquiv (fun k : Fin 6400 => (oLoc d ↦[oCh k]{fullShare} f : sProp 𝕄)), bigSep_univ_prod]; rfl

omit [FloatOps F] in
theorem tq_zero : tq 0 = fullShare.left := rfl
omit [FloatOps F] in
theorem tq_one : tq 1 = fullShare.right := rfl

omit [FloatOps F] in
/-- The table's full share is the two SparseCores' halves. -/
theorem tab_halves (d : Dev nD) : (tLoc d ↦{fullShare} m (tLoc d) : sProp 𝕄) = iprop(tabPts m d 0 ∗ tabPts m d 1) := by
  show _ = iprop((tLoc d ↦{tq 0} m (tLoc d)) ∗ tLoc d ↦{tq 1} m (tLoc d))
  rw [tq_zero, tq_one]
  have h : (tLoc d ↦{fullShare} m (tLoc d) : sProp 𝕄) ⊣⊢ iprop((tLoc d ↦{fullShare.left} m (tLoc d)) ∗ tLoc d ↦{fullShare.right} m (tLoc d)) :=
    pointsTo_share (PosShare.mem_left_op_right fullShare)
  exact BI.equiv_iff.mp ⟨h.1, h.2⟩

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- What the call takes for, and hands back from, the two SparseCores together: the table, the index array and the
    output, each whole. -/
theorem both_eq (d : Dev nD) (f : Buf (Elt F) (oLoc d)) :
    (bigSep Finset.univ fun c : Fin 2 => iprop(tabPts m d c ∗ bigSep Finset.univ fun s : Fin 16 => iprop(iSlabPts m d (wid c s) ∗ oSlabPts d (wid c s) f)))
      = iprop((tLoc d ↦{fullShare} m (tLoc d)) ∗ (iLoc d ↦{fullShare} I3 m d) ∗ oLoc d ↦{fullShare} f) := by
  rw [bigSep_sep', ← bigSep_workers (F := F) (fun w => iprop(iSlabPts m d w ∗ oSlabPts d w f)), bigSep_sep', ← iPts_slabs, ← oPts_slabs,
    bigSep_univ_two, ← tab_halves]

theorem st0_eq (d : Dev nD) : (bigSep Finset.univ fun c : Fin ((K (F := F)).nCore 0) => (P m).st 0 d c)
    = iprop((tLoc d ↦{fullShare} m (tLoc d)) ∗ (iLoc d ↦{fullShare} I3 m d) ∗ oLoc d ↦{fullShare} m (oLoc d)) := by
  show (bigSep Finset.univ fun c : Fin ((K (F := F)).nCore 0) => iprop(tabPts m d (Fin.cast nCore_zero c)
    ∗ bigSep Finset.univ fun s : Fin 16 => iprop(iSlabPts m d (wid (Fin.cast nCore_zero c) s) ∗ oSlabPts d (wid (Fin.cast nCore_zero c) s) (m (oLoc d))))) = _
  rw [bigSep_cores (F := F) (fun c => iprop(tabPts m d c ∗ bigSep Finset.univ fun s : Fin 16 => iprop(iSlabPts m d (wid c s) ∗ oSlabPts d (wid c s) (m (oLoc d))))), both_eq]
theorem dn0_eq (d : Dev nD) : (bigSep Finset.univ fun c : Fin ((K (F := F)).nCore 0) => (P m).dn 0 d c)
    = iprop((tLoc d ↦{fullShare} m (tLoc d)) ∗ (iLoc d ↦{fullShare} I3 m d) ∗ oLoc d ↦{fullShare} Ok m d) := by
  show (bigSep Finset.univ fun c : Fin ((K (F := F)).nCore 0) => iprop(tabPts m d (Fin.cast nCore_zero c)
    ∗ bigSep Finset.univ fun s : Fin 16 => iprop(iSlabPts m d (wid (Fin.cast nCore_zero c) s) ∗ oSlabPts d (wid (Fin.cast nCore_zero c) s) (Ok m d)))) = _
  rw [bigSep_cores (F := F) (fun c => iprop(tabPts m d c ∗ bigSep Finset.univ fun s : Fin 16 => iprop(iSlabPts m d (wid c s) ∗ oSlabPts d (wid c s) (Ok m d)))), both_eq]

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The two reshapes: the indices into the workers' arrangement, the looked-up rows into the result's. -/
abbrev opI : HloOp τ sig (Elt F) := StableHlo.reshape main_arg0 main_v0 rfl shapeCasts_S4096x200_S32x200x128
abbrev opR : HloOp τ sig (Elt F) := StableHlo.reshape main_v1 main_v2 rfl shapeCasts_S819200x128_S4096x200x128

/-- The TensorCore's arrays, all unscoped: the two arguments, the reshaped indices, the kernel's output, the result. -/
abbrev S5 : Finset (DevRef τ sig) := {a', t', i', o', r'}

omit [FloatOps F] in
theorem held_S5 (d : Dev nD) (W : Valuation τ sig (Elt F)) :
    (held (T d) S5 W : sProp 𝕄)
      = iprop((aLoc d ↦{fullShare} W a') ∗ (tLoc d ↦{fullShare} W t') ∗ (iLoc d ↦{fullShare} W i') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the first reshape; after the call (the output at the looked-up rows); after the last reshape. -/
def V0 (d : Dev nD) : Valuation τ sig (Elt F) := fun b => m (d, b)
def V1 (d : Dev nD) : Valuation τ sig (Elt F) := (opI (F := F)).result (V0 m d)
def V2 (d : Dev nD) : Valuation τ sig (Elt F) := Function.update (V1 m d) o' (Ok m d)
def V3 (d : Dev nD) : Valuation τ sig (Elt F) := (opR (F := F)).result (V2 m d)

omit [FloatOps F] in
theorem unscoped_held (d : Dev nD) : (unscopedBufs d (fun b => m ((SparseCore.T d).loc b)) : sProp 𝕄) = held (T d) S5 (V0 m d) := by
  rw [unscopedBufs_eq, held_S5]; rfl

omit [FloatOps F] in
theorem V1_a (d : Dev nD) : V1 m d a' = m (aLoc d) :=
  (opI (F := F)).result_of_not_mem (V0 m d) (b := a') (show a' ∉ ({i'} : Finset (DevRef τ sig)) by decide)
omit [FloatOps F] in
theorem V1_t (d : Dev nD) : V1 m d t' = m (tLoc d) :=
  (opI (F := F)).result_of_not_mem (V0 m d) (b := t') (show t' ∉ ({i'} : Finset (DevRef τ sig)) by decide)
omit [FloatOps F] in
theorem V1_o (d : Dev nD) : V1 m d o' = m (oLoc d) :=
  (opI (F := F)).result_of_not_mem (V0 m d) (b := o') (show o' ∉ ({i'} : Finset (DevRef τ sig)) by decide)
omit [FloatOps F] in
theorem V1_r (d : Dev nD) : V1 m d r' = m (rLoc d) :=
  (opI (F := F)).result_of_not_mem (V0 m d) (b := r') (show r' ∉ ({i'} : Finset (DevRef τ sig)) by decide)
omit [FloatOps F] in
/-- The first reshape leaves the argument's words in the workers' arrangement. -/
theorem V1_i (d : Dev nD) : V1 m d i' = I3 m d :=
  (StableHlo.reshape_result (τ := τ) (Val := Elt F) main_arg0 main_v0 rfl shapeCasts_S4096x200_S32x200x128 ⟨by decide, rfl⟩ ⟨by decide, rfl⟩ (V0 m d)).trans rfl

omit [FloatOps F] in
theorem V2_a (d : Dev nD) : V2 m d a' = m (aLoc d) := (Function.update_of_ne (show a' ≠ o' by decide) _ _).trans (V1_a m d)
omit [FloatOps F] in
theorem V2_t (d : Dev nD) : V2 m d t' = m (tLoc d) := (Function.update_of_ne (show t' ≠ o' by decide) _ _).trans (V1_t m d)
omit [FloatOps F] in
theorem V2_i (d : Dev nD) : V2 m d i' = I3 m d := (Function.update_of_ne (show i' ≠ o' by decide) _ _).trans (V1_i m d)
omit [FloatOps F] in
theorem V2_o (d : Dev nD) : V2 m d o' = Ok m d := Function.update_self _ _ _
omit [FloatOps F] in
theorem V2_r (d : Dev nD) : V2 m d r' = m (rLoc d) := (Function.update_of_ne (show r' ≠ o' by decide) _ _).trans (V1_r m d)

omit [FloatOps F] in
theorem V3_a (d : Dev nD) : V3 m d a' = m (aLoc d) :=
  ((opR (F := F)).result_of_not_mem (V2 m d) (b := a') (show a' ∉ ({r'} : Finset (DevRef τ sig)) by decide)).trans (V2_a m d)
omit [FloatOps F] in
theorem V3_t (d : Dev nD) : V3 m d t' = m (tLoc d) :=
  ((opR (F := F)).result_of_not_mem (V2 m d) (b := t') (show t' ∉ ({r'} : Finset (DevRef τ sig)) by decide)).trans (V2_t m d)
omit [FloatOps F] in
theorem V3_i (d : Dev nD) : V3 m d i' = I3 m d :=
  ((opR (F := F)).result_of_not_mem (V2 m d) (b := i') (show i' ∉ ({r'} : Finset (DevRef τ sig)) by decide)).trans (V2_i m d)
omit [FloatOps F] in
theorem V3_o (d : Dev nD) : V3 m d o' = Ok m d :=
  ((opR (F := F)).result_of_not_mem (V2 m d) (b := o') (show o' ∉ ({r'} : Finset (DevRef τ sig)) by decide)).trans (V2_o m d)
omit [FloatOps F] in
/-- The last reshape leaves the looked-up rows in the result's arrangement. -/
theorem V3_r (d : Dev nD) : V3 m d r' = Rres m d := by
  refine (StableHlo.reshape_result (τ := τ) (Val := Elt F) main_v1 main_v2 rfl shapeCasts_S819200x128_S4096x200x128 ⟨by decide, rfl⟩ ⟨by decide, rfl⟩ (V2 m d)).trans ?_
  show (fun i => shapeCast S4096x200x128 (V2 m d o') _ i) = Rres m d
  rw [V2_o]; rfl

omit [FloatOps F] in
theorem held_V1 (d : Dev nD) :
    (held (T d) S5 ((opI (F := F)).result (V0 m d)) : sProp 𝕄)
      = iprop((aLoc d ↦{fullShare} m (aLoc d)) ∗ (tLoc d ↦{fullShare} m (tLoc d)) ∗ (iLoc d ↦{fullShare} I3 m d)
          ∗ (oLoc d ↦{fullShare} m (oLoc d)) ∗ rLoc d ↦{fullShare} m (rLoc d)) := by
  show held (SparseCore.T d) S5 (V1 m d) = _
  rw [held_S5, V1_a, V1_t, V1_i, V1_o, V1_r]
omit [FloatOps F] in
theorem held_V2 (d : Dev nD) :
    (held (T d) S5 (V2 m d) : sProp 𝕄)
      = iprop((aLoc d ↦{fullShare} m (aLoc d)) ∗ (tLoc d ↦{fullShare} m (tLoc d)) ∗ (iLoc d ↦{fullShare} I3 m d)
          ∗ (oLoc d ↦{fullShare} Ok m d) ∗ rLoc d ↦{fullShare} m (rLoc d)) := by
  rw [held_S5, V2_a, V2_t, V2_i, V2_o, V2_r]
omit [FloatOps F] in
theorem held_V3 (d : Dev nD) :
    (held (T d) S5 ((opR (F := F)).result (V2 m d)) : sProp 𝕄)
      = iprop((aLoc d ↦{fullShare} m (aLoc d)) ∗ (tLoc d ↦{fullShare} m (tLoc d)) ∗ (iLoc d ↦{fullShare} I3 m d)
          ∗ (oLoc d ↦{fullShare} Ok m d) ∗ rLoc d ↦{fullShare} Rres m d) := by
  show held (SparseCore.T d) S5 (V3 m d) = _
  rw [held_S5, V3_a, V3_t, V3_i, V3_o, V3_r]

omit [FloatOps F] in
theorem hI : (opI (F := F)).bufs ⊆ S5 := show ({a', i'} : Finset (DevRef τ sig)) ⊆ S5 by decide
omit [FloatOps F] in
theorem hR : (opR (F := F)).bufs ⊆ S5 := show ({o', r'} : Finset (DevRef τ sig)) ⊆ S5 by decide

/-- What @main leaves the claim: the two arguments at their launch contents, the result at the looked-up rows. -/
abbrev FIN (d : Dev nD) : sProp 𝕄 :=
  iprop((aLoc d ↦{fullShare} m (aLoc d)) ∗ (tLoc d ↦{fullShare} m (tLoc d)) ∗ rLoc d ↦{fullShare} Rres m d)

/-- @main on device `d`'s TensorCore: the reshape of the indices, the call (the table, the reshaped indices and the
    output cut per SparseCore and worker, and back, the output at the looked-up rows), the reshape of the output. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opI) (S := S5) hI (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hi, Ho, Hr⟩
  iapply ((K (F := F)).wp_run (D (F := F)) 𝒱 (EH := EH) (P := P m) κ d 0) $$ [Hst Ha Ht Hi Ho Hr Hb]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq m d)) $$ Hdn
  icases Hdn' with ⟨Ht, Hi, Ho⟩
  iapply (wp_hlo_within 𝒱 (SparseCore.T d) none Set.univ (op := opR) (S := S5) hR (V := V2 m d)) $$ [Hb Ha Ht Hi Ho Hr]
  · isplitl [Hb]; · iexact Hb
    rw [held_V2]
    isplitl [Ha]; · iexact Ha
    isplitl [Ht]; · iexact Ht
    isplitl [Hi]; · iexact Hi
    isplitl [Ho]; · iexact Ho
    iexact Hr
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitl [Ha]; · iexact Ha
  isplitl [Ht]; · iexact Ht
  iexact Hr

/-! ## The final memory, the program's run -/

def fq (d : Dev nD) (s' : Phys nD τ sig (Elt F)) : Prop :=
  s'.mem.mem (rLoc d) = Rres m d ∧ s'.mem.mem (aLoc d) = m (aLoc d) ∧ s'.mem.mem (tLoc d) = m (tLoc d)

omit [FloatOps F] in
theorem hfin (d : Dev nD) (s' : Phys nD τ sig (Elt F)) : iprop(FIN m d ∗ SI s') ⊢ (⌜fq m d s'⌝ : sProp 𝕄) := by
  have hr : iprop(FIN m d ∗ SI s') ⊢ (⌜s'.mem.mem (rLoc d) = Rres m d⌝ : sProp 𝕄) := by
    iintro ⟨⟨-, -, Hx⟩, HSI⟩
    ihave H := (SI_pointsTo_agree (st := s') (ℓ := rLoc d) (I := Finset.univ) (q := fullShare) (f := Rres m d)) $$ [HSI Hx]
    · isplitl [HSI] <;> iassumption
    icases H with %hx
    ipureintro; exact funext fun i => hx i (Finset.mem_univ i)
  have ha : iprop(FIN m d ∗ SI s') ⊢ (⌜s'.mem.mem (aLoc d) = m (aLoc d)⌝ : sProp 𝕄) := by
    iintro ⟨⟨Hx, -, -⟩, HSI⟩
    ihave H := (SI_pointsTo_agree (st := s') (ℓ := aLoc d) (I := Finset.univ) (q := fullShare) (f := m (aLoc d))) $$ [HSI Hx]
    · isplitl [HSI] <;> iassumption
    icases H with %hx
    ipureintro; exact funext fun i => hx i (Finset.mem_univ i)
  have ht : iprop(FIN m d ∗ SI s') ⊢ (⌜s'.mem.mem (tLoc d) = m (tLoc d)⌝ : sProp 𝕄) := by
    iintro ⟨⟨-, Hx, -⟩, HSI⟩
    ihave H := (SI_pointsTo_agree (st := s') (ℓ := tLoc d) (I := Finset.univ) (q := fullShare) (f := m (tLoc d))) $$ [HSI Hx]
    · isplitl [HSI] <;> iassumption
    icases H with %hx
    ipureintro; exact funext fun i => hx i (Finset.mem_univ i)
  exact fun x hx => ⟨hr x hx, ha x hx, ht x hx⟩

theorem run_main [∀ e, Nonempty (Elt F e)] (hTile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hTile)
    (fun q _ => match q with | 0 => vecSplit m)
    m ρ main (fun _ => iprop(emp)) (FIN m) (u₀ (F := F)) (hu₀ m) (hmain m ρ) (fq m) (hfin m) (QC m) (fun _ h => h)

end Cert.Proof.EmbK

end
-- ==== Proof.lean ====
/-
  An embedding lookup on the SparseCores against a plain row gather.

  The arguments are an index array a : int32[4096, 200], every word between 0 and 44, and a table
  t : f32[45, 128]; the result at (p, c, q) is t[a[p, c], q]. No arithmetic is done on a float, so the two
  programs agree entry by entry at any reading of the floats, and the whole proof is about where each table
  row travels.

  The kernel runs on the 2 × 16 vector subcores at once. Worker w = 2 s + c copies the table into its
  SparseCore's shared memory (tile 0 only), copies slab w of the reshaped indices [32, 200, 128] into its own
  memory, meets its fifteen siblings at the subcore barrier — which is where tile 0 hands every tile a read
  share of the shared table — and then moves its 200 chunks of 128 rows through a ring of five buffers:
  an indexed copy gathers the 128 table rows a chunk's words name into a buffer, a plain copy writes the
  buffer to rows 25600 w + 128 i … of the output; three gathers run ahead, each buffer has its own pair of
  semaphores, and a buffer is gathered into again only after its write-out has been waited for. The output
  [819200, 128] read as [4096, 200, 128] is the lookup, because both reshapes are row-major.

  The modules: Spec (the lookup and the flat layout), SpecBridge (the two layouts agree), Pre (the
  precondition's integer conjunct read as "each word is below 45"), RefRun (the reference's run: under the
  precondition its masks are all true and its selects pick the gathered rows), and for each of the two
  printed kernel programs — the word-level one and its idealization, the same text read at two float
  instances — Common (the ghost state, the barrier's schedule and what each handshake carries), Geom (which
  piece of which array each memory operation names), Body (one tile's task), Launch (the threads' launch,
  @main on the TensorCore and the read-back of the final memory), Value (the result is the lookup).
  Assemble puts the five claims together from the three runs.
-/
import proofs.«203315_g78847009620241_cont_9to1c4b_359_24_alg».proof.Defs
import proofs.«203315_g78847009620241_cont_9to1c4b_359_24_alg».proof.Proof.Gen.Kernel
import proofs.«203315_g78847009620241_cont_9to1c4b_359_24_alg».proof.Proof.Gen.Kernel.Skeleton
import proofs.«203315_g78847009620241_cont_9to1c4b_359_24_alg».proof.Proof.Gen.KernelIdeal
import proofs.«203315_g78847009620241_cont_9to1c4b_359_24_alg».proof.Proof.Gen.KernelIdeal.Skeleton
import proofs.«203315_g78847009620241_cont_9to1c4b_359_24_alg».proof.Proof.Gen.ReferenceIdeal
import proofs.«203315_g78847009620241_cont_9to1c4b_359_24_alg».proof.Proof.Gen.Pre_input_domain
import Idealize.ShloMosaic.Adequacy
import Idealize.ShloMosaic.Init
import proofs.«203315_g78847009620241_cont_9to1c4b_359_24_alg».proof.Proof.Assemble
import proofs.«203315_g78847009620241_cont_9to1c4b_359_24_alg».proof.Proof.RefRun
import proofs.«203315_g78847009620241_cont_9to1c4b_359_24_alg».proof.Proof.IBody
import proofs.«203315_g78847009620241_cont_9to1c4b_359_24_alg».proof.Proof.ILaunch
import proofs.«203315_g78847009620241_cont_9to1c4b_359_24_alg».proof.Proof.KBody
import proofs.«203315_g78847009620241_cont_9to1c4b_359_24_alg».proof.Proof.KLaunch

noncomputable section

namespace Cert.Proof

open Idealize.ShloMosaic Idealize.SL.Sem

theorem claim : Cert.Claim :=
  claim_of
    (fun m ρ h => EmbK.run_main m ρ (EmbK.tileObl m EmbK.facts h))
    (fun m ρ h => EmbI.run_main m ρ (EmbI.tileObl m EmbI.facts h))
    (fun m ρ h => EmbRef.ref_run m ρ h)

end Cert.Proof

end
